-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v243) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x12 : Shape := ⟨2, ![262144, 12]⟩
abbrev S24x128 : Shape := ⟨2, ![24, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x144 : Shape := ⟨2, ![64, 144]⟩
abbrev S144 : Shape := ⟨1, ![144]⟩
abbrev S_ : Shape := ⟨0, ![]⟩

class Facts : Prop where
  bcast_S_S262144x12 : S_.BroadcastsInDim S262144x12 (![] : Fin 0 → Fin S262144x12.rank)
  reducesTo_S262144x12_S_d0_1 : S262144x12.ReducesTo [0, 1] S_
  h_S_ : 0 < S_.numel
  bcast_S_S24x128 : S_.BroadcastsInDim S24x128 (![] : Fin 0 → Fin S24x128.rank)
  reducesTo_S24x128_S_d0_1 : S24x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x144 : S_.BroadcastsInDim S64x144 (![] : Fin 0 → Fin S64x144.rank)
  reducesTo_S64x144_S_d0_1 : S64x144.ReducesTo [0, 1] S_
  bcast_S_S144 : S_.BroadcastsInDim S144 (![] : Fin 0 → Fin S144.rank)
  reducesTo_S144_S_d0 : S144.ReducesTo [0] S_

variable [Facts]

def fn_part7 {F : FTy → Type} [FloatOps F] (main_arg25 : FVec F S144 .f32) (main_v118 : IVec S_ 1) (main_v119 : FVec F S64x144 .f32) : IVec S_ 1 :=
  let main_cst_46 : FVec F S_ .f32 := constant S_ .f32 0x7F800000#32
  let main_v120 : FVec F S64x144 .f32 := broadcastInDim S64x144 ![] bcast_S_S64x144 main_cst_46
  let main_v121 : IVec S64x144 1 := cmpf .olt main_v119 main_v120
  let main_c_47 : IVec S_ 1 := constantI S_ 1 1#1
  let main_v122 : IVec S_ 1 := (fun x v => Host.reduce IntOp.andi x v reducesTo_S64x144_S_d0_1 h_S_) main_v121 main_c_47
  let main_v123 : IVec S_ 1 := andi main_v118 main_v122
  let main_v124 : FVec F S144 .f32 := Host.absf main_arg25
  let main_cst_48 : FVec F S_ .f32 := constant S_ .f32 0x7F800000#32
  let main_v125 : FVec F S144 .f32 := broadcastInDim S144 ![] bcast_S_S144 main_cst_48
  let main_v126 : IVec S144 1 := cmpf .olt main_v124 main_v125
  let main_c_49 : IVec S_ 1 := constantI S_ 1 1#1
  let main_v127 : IVec S_ 1 := (fun x v => Host.reduce IntOp.andi x v reducesTo_S144_S_d0 h_S_) main_v126 main_c_49
  let main_v128 : IVec S_ 1 := andi main_v123 main_v127
  main_v128

def fn_part6 {F : FTy → Type} [FloatOps F] (main_arg21 : FVec F S128 .f32) (main_arg22 : FVec F S128x64 .f32) (main_arg23 : FVec F S64 .f32) (main_arg24 : FVec F S64x144 .f32) (main_arg25 : FVec F S144 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg21
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128x64 .f32 := Host.absf main_arg22
  let main_cst_42 : FVec F S_ .f32 := constant S_ .f32 0x7F800000#32
  let main_v110 : FVec F S128x64 .f32 := broadcastInDim S128x64 ![] bcast_S_S128x64 main_cst_42
  let main_v111 : IVec S128x64 1 := cmpf .olt main_v109 main_v110
  let main_c_43 : IVec S_ 1 := constantI S_ 1 1#1
  let main_v112 : IVec S_ 1 := (fun x v => Host.reduce IntOp.andi x v reducesTo_S128x64_S_d0_1 h_S_) main_v111 main_c_43
  let main_v113 : IVec S_ 1 := andi main_v108 main_v112
  let main_v114 : FVec F S64 .f32 := Host.absf main_arg23
  let main_cst_44 : FVec F S_ .f32 := constant S_ .f32 0x7F800000#32
  let main_v115 : FVec F S64 .f32 := broadcastInDim S64 ![] bcast_S_S64 main_cst_44
  let main_v116 : IVec S64 1 := cmpf .olt main_v114 main_v115
  let main_c_45 : IVec S_ 1 := constantI S_ 1 1#1
  let main_v117 : IVec S_ 1 := (fun x v => Host.reduce IntOp.andi x v reducesTo_S64_S_d0 h_S_) main_v116 main_c_45
  let main_v118 : IVec S_ 1 := andi main_v113 main_v117
  let main_v119 : FVec F S64x144 .f32 := Host.absf main_arg24
  fn_part7 (F := F) main_arg25 main_v118 main_v119

def fn_part5 {F : FTy → Type} [FloatOps F] (main_arg18 : FVec F S128x128 .f32) (main_arg19 : FVec F S128 .f32) (main_arg20 : FVec F S128 .f32) (main_arg21 : FVec F S128 .f32) (main_arg22 : FVec F S128x64 .f32) (main_arg23 : FVec F S64 .f32) (main_arg24 : FVec F S64x144 .f32) (main_arg25 : FVec F S144 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg18
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg19
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg20
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg21 main_arg22 main_arg23 main_arg24 main_arg25 main_v98 main_v101 main_c_39

def fn_part4 {F : FTy → Type} [FloatOps F] (main_arg14 : FVec F S24x128 .f32) (main_arg15 : FVec F S128 .f32) (main_arg16 : FVec F S128 .f32) (main_arg17 : FVec F S128 .f32) (main_arg18 : FVec F S128x128 .f32) (main_arg19 : FVec F S128 .f32) (main_arg20 : FVec F S128 .f32) (main_arg21 : FVec F S128 .f32) (main_arg22 : FVec F S128x64 .f32) (main_arg23 : FVec F S64 .f32) (main_arg24 : FVec F S64x144 .f32) (main_arg25 : FVec F S144 .f32) (main_v63 : IVec S_ 1) (main_v67 : IVec S_ 1) : IVec S_ 1 :=
  let main_v68 : IVec S_ 1 := andi main_v63 main_v67
  let main_v69 : FVec F S24x128 .f32 := Host.absf main_arg14
  let main_cst_26 : FVec F S_ .f32 := constant S_ .f32 0x7F800000#32
  let main_v70 : FVec F S24x128 .f32 := broadcastInDim S24x128 ![] bcast_S_S24x128 main_cst_26
  let main_v71 : IVec S24x128 1 := cmpf .olt main_v69 main_v70
  let main_c_27 : IVec S_ 1 := constantI S_ 1 1#1
  let main_v72 : IVec S_ 1 := (fun x v => Host.reduce IntOp.andi x v reducesTo_S24x128_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_arg19 main_arg20 main_arg21 main_arg22 main_arg23 main_arg24 main_arg25 main_v83 main_v84 main_cst_32

def fn_part3 {F : FTy → Type} [FloatOps F] (main_arg11 : FVec F S64 .f32) (main_arg12 : FVec F S64x144 .f32) (main_arg13 : FVec F S144 .f32) (main_arg14 : FVec F S24x128 .f32) (main_arg15 : FVec F S128 .f32) (main_arg16 : FVec F S128 .f32) (main_arg17 : FVec F S128 .f32) (main_arg18 : FVec F S128x128 .f32) (main_arg19 : FVec F S128 .f32) (main_arg20 : FVec F S128 .f32) (main_arg21 : FVec F S128 .f32) (main_arg22 : FVec F S128x64 .f32) (main_arg23 : FVec F S64 .f32) (main_arg24 : FVec F S64x144 .f32) (main_arg25 : FVec F S144 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x144 .f32 := Host.absf main_arg12
  let main_cst_22 : FVec F S_ .f32 := constant S_ .f32 0x7F800000#32
  let main_v60 : FVec F S64x144 .f32 := broadcastInDim S64x144 ![] bcast_S_S64x144 main_cst_22
  let main_v61 : IVec S64x144 1 := cmpf .olt main_v59 main_v60
  let main_c_23 : IVec S_ 1 := constantI S_ 1 1#1
  let main_v62 : IVec S_ 1 := (fun x v => Host.reduce IntOp.andi x v reducesTo_S64x144_S_d0_1 h_S_) main_v61 main_c_23
  let main_v63 : IVec S_ 1 := andi main_v58 main_v62
  let main_v64 : FVec F S144 .f32 := Host.absf main_arg13
  let main_cst_24 : FVec F S_ .f32 := constant S_ .f32 0x7F800000#32
  let main_v65 : FVec F S144 .f32 := broadcastInDim S144 ![] bcast_S_S144 main_cst_24
  let main_v66 : IVec S144 1 := cmpf .olt main_v64 main_v65
  let main_c_25 : IVec S_ 1 := constantI S_ 1 1#1
  let main_v67 : IVec S_ 1 := (fun x v => Host.reduce IntOp.andi x v reducesTo_S144_S_d0 h_S_) main_v66 main_c_25
  fn_part4 (F := F) main_arg14 main_arg15 main_arg16 main_arg17 main_arg18 main_arg19 main_arg20 main_arg21 main_arg22 main_arg23 main_arg24 main_arg25 main_v63 main_v67

def fn_part2 {F : FTy → Type} [FloatOps F] (main_arg7 : FVec F S128 .f32) (main_arg8 : FVec F S128 .f32) (main_arg9 : FVec F S128 .f32) (main_arg10 : FVec F S128x64 .f32) (main_arg11 : FVec F S64 .f32) (main_arg12 : FVec F S64x144 .f32) (main_arg13 : FVec F S144 .f32) (main_arg14 : FVec F S24x128 .f32) (main_arg15 : FVec F S128 .f32) (main_arg16 : FVec F S128 .f32) (main_arg17 : FVec F S128 .f32) (main_arg18 : FVec F S128x128 .f32) (main_arg19 : FVec F S128 .f32) (main_arg20 : FVec F S128 .f32) (main_arg21 : FVec F S128 .f32) (main_arg22 : FVec F S128x64 .f32) (main_arg23 : FVec F S64 .f32) (main_arg24 : FVec F S64x144 .f32) (main_arg25 : FVec F S144 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x64 .f32 := Host.absf main_arg10
  let main_cst_18 : FVec F S_ .f32 := constant S_ .f32 0x7F800000#32
  let main_v50 : FVec F S128x64 .f32 := broadcastInDim S128x64 ![] bcast_S_S128x64 main_cst_18
  fn_part3 (F := F) main_arg11 main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x64 .f32) (main_arg11 : FVec F S64 .f32) (main_arg12 : FVec F S64x144 .f32) (main_arg13 : FVec F S144 .f32) (main_arg14 : FVec F S24x128 .f32) (main_arg15 : FVec F S128 .f32) (main_arg16 : FVec F S128 .f32) (main_arg17 : FVec F S128 .f32) (main_arg18 : FVec F S128x128 .f32) (main_arg19 : FVec F S128 .f32) (main_arg20 : FVec F S128 .f32) (main_arg21 : FVec F S128 .f32) (main_arg22 : FVec F S128x64 .f32) (main_arg23 : FVec F S64 .f32) (main_arg24 : FVec F S64x144 .f32) (main_arg25 : FVec F S144 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S262144x12 .f32) (main_arg1 : FVec F S262144x12 .f32) (main_arg2 : FVec F S24x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x64 .f32) (main_arg11 : FVec F S64 .f32) (main_arg12 : FVec F S64x144 .f32) (main_arg13 : FVec F S144 .f32) (main_arg14 : FVec F S24x128 .f32) (main_arg15 : FVec F S128 .f32) (main_arg16 : FVec F S128 .f32) (main_arg17 : FVec F S128 .f32) (main_arg18 : FVec F S128x128 .f32) (main_arg19 : FVec F S128 .f32) (main_arg20 : FVec F S128 .f32) (main_arg21 : FVec F S128 .f32) (main_arg22 : FVec F S128x64 .f32) (main_arg23 : FVec F S64 .f32) (main_arg24 : FVec F S64x144 .f32) (main_arg25 : FVec F S144 .f32) : IVec S_ 1 :=
  let main_v0 : FVec F S262144x12 .f32 := Host.absf main_arg0
  let main_cst : FVec F S_ .f32 := constant S_ .f32 0x7F800000#32
  let main_v1 : FVec F S262144x12 .f32 := broadcastInDim S262144x12 ![] bcast_S_S262144x12 main_cst
  let main_v2 : IVec S262144x12 1 := cmpf .olt main_v0 main_v1
  let main_c : IVec S_ 1 := constantI S_ 1 1#1
  let main_v3 : IVec S_ 1 := (fun x v => Host.reduce IntOp.andi x v reducesTo_S262144x12_S_d0_1 h_S_) main_v2 main_c
  let main_v4 : FVec F S262144x12 .f32 := Host.absf main_arg1
  let main_cst_0 : FVec F S_ .f32 := constant S_ .f32 0x7F800000#32
  let main_v5 : FVec F S262144x12 .f32 := broadcastInDim S262144x12 ![] bcast_S_S262144x12 main_cst_0
  let main_v6 : IVec S262144x12 1 := cmpf .olt main_v4 main_v5
  let main_c_1 : IVec S_ 1 := constantI S_ 1 1#1
  let main_v7 : IVec S_ 1 := (fun x v => Host.reduce IntOp.andi x v reducesTo_S262144x12_S_d0_1 h_S_) main_v6 main_c_1
  let main_v8 : IVec S_ 1 := andi main_v3 main_v7
  let main_v9 : FVec F S24x128 .f32 := Host.absf main_arg2
  let main_cst_2 : FVec F S_ .f32 := constant S_ .f32 0x7F800000#32
  let main_v10 : FVec F S24x128 .f32 := broadcastInDim S24x128 ![] bcast_S_S24x128 main_cst_2
  let main_v11 : IVec S24x128 1 := cmpf .olt main_v9 main_v10
  let main_c_3 : IVec S_ 1 := constantI S_ 1 1#1
  let main_v12 : IVec S_ 1 := (fun x v => Host.reduce IntOp.andi x v reducesTo_S24x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S262144x12 : Shape := ⟨2, ![262144, 12]⟩
abbrev S24x128 : Shape := ⟨2, ![24, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x144 : Shape := ⟨2, ![64, 144]⟩
abbrev S144 : Shape := ⟨1, ![144]⟩
abbrev S262144x24 : Shape := ⟨2, ![262144, 24]⟩
abbrev S_ : Shape := ⟨0, ![]⟩
abbrev S144x1 : Shape := ⟨2, ![144, 1]⟩
abbrev S1 : Shape := ⟨1, ![1]⟩
abbrev S1x1 : Shape := ⟨2, ![1, 1]⟩
abbrev S1x144 : Shape := ⟨2, ![1, 144]⟩
abbrev S1x128 : Shape := ⟨2, ![1, 128]⟩
abbrev S1x64 : Shape := ⟨2, ![1, 64]⟩
abbrev S4x262144x144 : Shape := ⟨3, ![4, 262144, 144]⟩
abbrev S2048x24 : Shape := ⟨2, ![2048, 24]⟩
abbrev S4x2048x144 : Shape := ⟨3, ![4, 2048, 144]⟩
abbrev S2048x128 : Shape := ⟨2, ![2048, 128]⟩
abbrev S2048 : Shape := ⟨1, ![2048]⟩
abbrev S2048x1 : Shape := ⟨2, ![2048, 1]⟩
abbrev S2048x64 : Shape := ⟨2, ![2048, 64]⟩
abbrev S2048x144 : Shape := ⟨2, ![2048, 144]⟩
abbrev S1x2048x144 : Shape := ⟨3, ![1, 2048, 144]⟩
abbrev S4x262144x12x12 : Shape := ⟨4, ![4, 262144, 12, 12]⟩

abbrev nBuf : Space → Nat
  | .hbm => 247
  | .vmem => 32
  | .smem => 0
  | _ => 0

abbrev hbmTy0_0 (i : Nat) : BufTy := match i % 128 with
  | 0 => ⟨S262144x12, .f32⟩
  | 1 => ⟨S262144x12, .f32⟩
  | 2 => ⟨S24x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x64, .f32⟩
  | 11 => ⟨S64, .f32⟩
  | 12 => ⟨S64x144, .f32⟩
  | 13 => ⟨S144, .f32⟩
  | 14 => ⟨S24x128, .f32⟩
  | 15 => ⟨S128, .f32⟩
  | 16 => ⟨S128, .f32⟩
  | 17 => ⟨S128, .f32⟩
  | 18 => ⟨S128x128, .f32⟩
  | 19 => ⟨S128, .f32⟩
  | 20 => ⟨S128, .f32⟩
  | 21 => ⟨S128, .f32⟩
  | 22 => ⟨S128x64, .f32⟩
  | 23 => ⟨S64, .f32⟩
  | 24 => ⟨S64x144, .f32⟩
  | 25 => ⟨S144, .f32⟩
  | 26 => ⟨S144, .f32⟩
  | 27 => ⟨S144, .f32⟩
  | 28 => ⟨S144, .i32⟩
  | 29 => ⟨S144, .i32⟩
  | 30 => ⟨S262144x24, .f32⟩
  | 31 => ⟨S_, .i32⟩
  | 32 => ⟨S144, .i32⟩
  | 33 => ⟨S144, .i1⟩
  | 34 => ⟨S_, .i32⟩
  | 35 => ⟨S144, .i32⟩
  | 36 => ⟨S144, .i32⟩
  | 37 => ⟨S144, .i32⟩
  | 38 => ⟨S144x1, .i32⟩
  | 39 => ⟨S1, .i32⟩
  | 40 => ⟨S_, .i32⟩
  | 41 => ⟨S144x1, .i32⟩
  | 42 => ⟨S144x1, .i1⟩
  | 43 => ⟨S1x1, .i32⟩
  | 44 => ⟨S144x1, .i32⟩
  | 45 => ⟨S144x1, .i1⟩
  | 46 => ⟨S144x1, .i1⟩
  | 47 => ⟨S_, .i1⟩
  | 48 => ⟨S144, .i1⟩
  | 49 => ⟨S64x144, .f32⟩
  | 50 => ⟨S64x144, .i1⟩
  | 51 => ⟨S_, .f32⟩
  | 52 => ⟨S64x144, .f32⟩
  | 53 => ⟨S64x144, .f32⟩
  | 54 => ⟨S1x144, .f32⟩
  | 55 => ⟨S64x144, .f32⟩
  | 56 => ⟨S64x144, .f32⟩
  | 57 => ⟨S_, .i32⟩
  | 58 => ⟨S144, .i32⟩
  | 59 => ⟨S144, .i1⟩
  | 60 => ⟨S_, .i32⟩
  | 61 => ⟨S144, .i32⟩
  | 62 => ⟨S144, .i32⟩
  | 63 => ⟨S144, .i32⟩
  | 64 => ⟨S144x1, .i32⟩
  | 65 => ⟨S1, .i32⟩
  | 66 => ⟨S_, .i32⟩
  | 67 => ⟨S144x1, .i32⟩
  | 68 => ⟨S144x1, .i1⟩
  | 69 => ⟨S1x1, .i32⟩
  | 70 => ⟨S144x1, .i32⟩
  | 71 => ⟨S144x1, .i1⟩
  | 72 => ⟨S144x1, .i1⟩
  | 73 => ⟨S_, .i1⟩
  | 74 => ⟨S144, .i1⟩
  | 75 => ⟨S144, .f32⟩
  | 76 => ⟨S_, .f32⟩
  | 77 => ⟨S144, .f32⟩
  | 78 => ⟨S144, .f32⟩
  | 79 => ⟨S144, .f32⟩
  | 80 => ⟨S_, .i32⟩
  | 81 => ⟨S144, .i32⟩
  | 82 => ⟨S144, .i1⟩
  | 83 => ⟨S_, .i32⟩
  | 84 => ⟨S144, .i32⟩
  | 85 => ⟨S144, .i32⟩
  | 86 => ⟨S144, .i32⟩
  | 87 => ⟨S144x1, .i32⟩
  | 88 => ⟨S1, .i32⟩
  | 89 => ⟨S_, .i32⟩
  | 90 => ⟨S144x1, .i32⟩
  | 91 => ⟨S144x1, .i1⟩
  | 92 => ⟨S1x1, .i32⟩
  | 93 => ⟨S144x1, .i32⟩
  | 94 => ⟨S144x1, .i1⟩
  | 95 => ⟨S144x1, .i1⟩
  | 96 => ⟨S_, .i1⟩
  | 97 => ⟨S144, .i1⟩
  | 98 => ⟨S64x144, .f32⟩
  | 99 => ⟨S64x144, .i1⟩
  | 100 => ⟨S_, .f32⟩
  | 101 => ⟨S64x144, .f32⟩
  | 102 => ⟨S64x144, .f32⟩
  | 103 => ⟨S1x144, .f32⟩
  | 104 => ⟨S64x144, .f32⟩
  | 105 => ⟨S64x144, .f32⟩
  | 106 => ⟨S_, .i32⟩
  | 107 => ⟨S144, .i32⟩
  | 108 => ⟨S144, .i1⟩
  | 109 => ⟨S_, .i32⟩
  | 110 => ⟨S144, .i32⟩
  | 111 => ⟨S144, .i32⟩
  | 112 => ⟨S144, .i32⟩
  | 113 => ⟨S144x1, .i32⟩
  | 114 => ⟨S1, .i32⟩
  | 115 => ⟨S_, .i32⟩
  | 116 => ⟨S144x1, .i32⟩
  | 117 => ⟨S144x1, .i1⟩
  | 118 => ⟨S1x1, .i32⟩
  | 119 => ⟨S144x1, .i32⟩
  | 120 => ⟨S144x1, .i1⟩
  | 121 => ⟨S144x1, .i1⟩
  | 122 => ⟨S_, .i1⟩
  | 123 => ⟨S144, .i1⟩
  | 124 => ⟨S144, .f32⟩
  | 125 => ⟨S_, .f32⟩
  | 126 => ⟨S144, .f32⟩
  | 127 => ⟨S144, .f32⟩
  | _ => ⟨S262144x12, .f32⟩

abbrev hbmTy0_1 (i : Nat) : BufTy := match i % 128 with
  | 0 => ⟨S144, .f32⟩
  | 1 => ⟨S_, .i32⟩
  | 2 => ⟨S144, .i32⟩
  | 3 => ⟨S144, .i1⟩
  | 4 => ⟨S_, .i32⟩
  | 5 => ⟨S144, .i32⟩
  | 6 => ⟨S144, .i32⟩
  | 7 => ⟨S144, .i32⟩
  | 8 => ⟨S144x1, .i32⟩
  | 9 => ⟨S1, .i32⟩
  | 10 => ⟨S_, .i32⟩
  | 11 => ⟨S144x1, .i32⟩
  | 12 => ⟨S144x1, .i1⟩
  | 13 => ⟨S1x1, .i32⟩
  | 14 => ⟨S144x1, .i32⟩
  | 15 => ⟨S144x1, .i1⟩
  | 16 => ⟨S144x1, .i1⟩
  | 17 => ⟨S_, .i1⟩
  | 18 => ⟨S144, .i1⟩
  | 19 => ⟨S64x144, .f32⟩
  | 20 => ⟨S64x144, .i1⟩
  | 21 => ⟨S_, .f32⟩
  | 22 => ⟨S64x144, .f32⟩
  | 23 => ⟨S64x144, .f32⟩
  | 24 => ⟨S1x144, .f32⟩
  | 25 => ⟨S64x144, .f32⟩
  | 26 => ⟨S64x144, .f32⟩
  | 27 => ⟨S_, .i32⟩
  | 28 => ⟨S144, .i32⟩
  | 29 => ⟨S144, .i1⟩
  | 30 => ⟨S_, .i32⟩
  | 31 => ⟨S144, .i32⟩
  | 32 => ⟨S144, .i32⟩
  | 33 => ⟨S144, .i32⟩
  | 34 => ⟨S144x1, .i32⟩
  | 35 => ⟨S1, .i32⟩
  | 36 => ⟨S_, .i32⟩
  | 37 => ⟨S144x1, .i32⟩
  | 38 => ⟨S144x1, .i1⟩
  | 39 => ⟨S1x1, .i32⟩
  | 40 => ⟨S144x1, .i32⟩
  | 41 => ⟨S144x1, .i1⟩
  | 42 => ⟨S144x1, .i1⟩
  | 43 => ⟨S_, .i1⟩
  | 44 => ⟨S144, .i1⟩
  | 45 => ⟨S144, .f32⟩
  | 46 => ⟨S_, .f32⟩
  | 47 => ⟨S144, .f32⟩
  | 48 => ⟨S144, .f32⟩
  | 49 => ⟨S144, .f32⟩
  | 50 => ⟨S_, .i32⟩
  | 51 => ⟨S144, .i32⟩
  | 52 => ⟨S144, .i1⟩
  | 53 => ⟨S_, .i32⟩
  | 54 => ⟨S144, .i32⟩
  | 55 => ⟨S144, .i32⟩
  | 56 => ⟨S144, .i32⟩
  | 57 => ⟨S144x1, .i32⟩
  | 58 => ⟨S1, .i32⟩
  | 59 => ⟨S_, .i32⟩
  | 60 => ⟨S144x1, .i32⟩
  | 61 => ⟨S144x1, .i1⟩
  | 62 => ⟨S1x1, .i32⟩
  | 63 => ⟨S144x1, .i32⟩
  | 64 => ⟨S144x1, .i1⟩
  | 65 => ⟨S144x1, .i1⟩
  | 66 => ⟨S_, .i1⟩
  | 67 => ⟨S144, .i1⟩
  | 68 => ⟨S64x144, .f32⟩
  | 69 => ⟨S64x144, .i1⟩
  | 70 => ⟨S_, .f32⟩
  | 71 => ⟨S64x144, .f32⟩
  | 72 => ⟨S64x144, .f32⟩
  | 73 => ⟨S1x144, .f32⟩
  | 74 => ⟨S64x144, .f32⟩
  | 75 => ⟨S64x144, .f32⟩
  | 76 => ⟨S_, .i32⟩
  | 77 => ⟨S144, .i32⟩
  | 78 => ⟨S144, .i1⟩
  | 79 => ⟨S_, .i32⟩
  | 80 => ⟨S144, .i32⟩
  | 81 => ⟨S144, .i32⟩
  | 82 => ⟨S144, .i32⟩
  | 83 => ⟨S144x1, .i32⟩
  | 84 => ⟨S1, .i32⟩
  | 85 => ⟨S_, .i32⟩
  | 86 => ⟨S144x1, .i32⟩
  | 87 => ⟨S144x1, .i1⟩
  | 88 => ⟨S1x1, .i32⟩
  | 89 => ⟨S144x1, .i32⟩
  | 90 => ⟨S144x1, .i1⟩
  | 91 => ⟨S144x1, .i1⟩
  | 92 => ⟨S_, .i1⟩
  | 93 => ⟨S144, .i1⟩
  | 94 => ⟨S144, .f32⟩
  | 95 => ⟨S_, .f32⟩
  | 96 => ⟨S144, .f32⟩
  | 97 => ⟨S144, .f32⟩
  | 98 => ⟨S144, .f32⟩
  | 99 => ⟨S1x128, .f32⟩
  | 100 => ⟨S1x128, .f32⟩
  | 101 => ⟨S1x128, .f32⟩
  | 102 => ⟨S1x128, .f32⟩
  | 103 => ⟨S1x128, .f32⟩
  | 104 => ⟨S1x128, .f32⟩
  | 105 => ⟨S1x64, .f32⟩
  | 106 => ⟨S1x144, .f32⟩
  | 107 => ⟨S1x144, .f32⟩
  | 108 => ⟨S1x128, .f32⟩
  | 109 => ⟨S1x128, .f32⟩
  | 110 => ⟨S1x128, .f32⟩
  | 111 => ⟨S1x128, .f32⟩
  | 112 => ⟨S1x128, .f32⟩
  | 113 => ⟨S1x128, .f32⟩
  | 114 => ⟨S1x64, .f32⟩
  | 115 => ⟨S1x144, .f32⟩
  | 116 => ⟨S1x144, .f32⟩
  | 117 => ⟨S4x262144x144, .f32⟩
  | 118 => ⟨S4x262144x12x12, .f32⟩
  | _ => ⟨S262144x12, .f32⟩

abbrev hbmTy (i : Nat) : BufTy := match i / 128 with
  | 0 => hbmTy0_0 i
  | 1 => hbmTy0_1 i
  | _ => ⟨S262144x12, .f32⟩

abbrev bufTy : (tb : Table) → Fin (tcTables nBuf tb) → BufTy
  | .hbm, ⟨i, _⟩ => hbmTy i
  | .local _ .vmem, ⟨0, _⟩ => ⟨S2048x24, .f32⟩
  | .local _ .vmem, ⟨1, _⟩ => ⟨S2048x24, .f32⟩
  | .local _ .vmem, ⟨2, _⟩ => ⟨S24x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x64, .f32⟩
  | .local _ .vmem, ⟨11, _⟩ => ⟨S1x64, .f32⟩
  | .local _ .vmem, ⟨12, _⟩ => ⟨S64x144, .f32⟩
  | .local _ .vmem, ⟨13, _⟩ => ⟨S1x144, .f32⟩
  | .local _ .vmem, ⟨14, _⟩ => ⟨S64x144, .f32⟩
  | .local _ .vmem, ⟨15, _⟩ => ⟨S1x144, .f32⟩
  | .local _ .vmem, ⟨16, _⟩ => ⟨S24x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S128x64, .f32⟩
  | .local _ .vmem, ⟨25, _⟩ => ⟨S1x64, .f32⟩
  | .local _ .vmem, ⟨26, _⟩ => ⟨S64x144, .f32⟩
  | .local _ .vmem, ⟨27, _⟩ => ⟨S1x144, .f32⟩
  | .local _ .vmem, ⟨28, _⟩ => ⟨S64x144, .f32⟩
  | .local _ .vmem, ⟨29, _⟩ => ⟨S1x144, .f32⟩
  | .local _ .vmem, ⟨30, _⟩ => ⟨S4x2048x144, .f32⟩
  | .local _ .vmem, ⟨31, _⟩ => ⟨S4x2048x144, .f32⟩
  | _, _ => ⟨S262144x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_cst : Ref sig .tc := ⟨.hbm, 26, rfl⟩
abbrev main_cst_0 : Ref sig .tc := ⟨.hbm, 27, rfl⟩
abbrev main_c : Ref sig .tc := ⟨.hbm, 28, rfl⟩
abbrev main_c_1 : Ref sig .tc := ⟨.hbm, 29, rfl⟩
abbrev main_v0 : Ref sig .tc := ⟨.hbm, 30, rfl⟩
abbrev main_call0_c : Ref sig .tc := ⟨.hbm, 31, rfl⟩
abbrev main_call0_v0 : Ref sig .tc := ⟨.hbm, 32, rfl⟩
abbrev main_call0_v1 : Ref sig .tc := ⟨.hbm, 33, rfl⟩
abbrev main_call0_c_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_c_1 : Ref sig .tc := ⟨.hbm, 39, rfl⟩
abbrev main_call0_c_2 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_3 : Ref sig .tc := ⟨.hbm, 47, rfl⟩
abbrev main_call0_v12 : Ref sig .tc := ⟨.hbm, 48, rfl⟩
abbrev main_call0_v13 : Ref sig .tc := ⟨.hbm, 49, rfl⟩
abbrev main_call0_v14 : Ref sig .tc := ⟨.hbm, 50, rfl⟩
abbrev main_call0_cst : Ref sig .tc := ⟨.hbm, 51, rfl⟩
abbrev main_call0_v15 : Ref sig .tc := ⟨.hbm, 52, rfl⟩
abbrev main_v1 : Ref sig .tc := ⟨.hbm, 53, rfl⟩
abbrev main_v2 : Ref sig .tc := ⟨.hbm, 54, rfl⟩
abbrev main_v3 : Ref sig .tc := ⟨.hbm, 55, rfl⟩
abbrev main_v4 : Ref sig .tc := ⟨.hbm, 56, rfl⟩
abbrev main_call1_c : Ref sig .tc := ⟨.hbm, 57, rfl⟩
abbrev main_call1_v0 : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_c_1 : Ref sig .tc := ⟨.hbm, 65, rfl⟩
abbrev main_call1_c_2 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_3 : Ref sig .tc := ⟨.hbm, 73, rfl⟩
abbrev main_call1_v12 : Ref sig .tc := ⟨.hbm, 74, rfl⟩
abbrev main_call1_v13 : Ref sig .tc := ⟨.hbm, 75, rfl⟩
abbrev main_call1_cst : Ref sig .tc := ⟨.hbm, 76, rfl⟩
abbrev main_call1_v14 : Ref sig .tc := ⟨.hbm, 77, rfl⟩
abbrev main_v5 : Ref sig .tc := ⟨.hbm, 78, rfl⟩
abbrev main_v6 : Ref sig .tc := ⟨.hbm, 79, rfl⟩
abbrev main_call2_c : Ref sig .tc := ⟨.hbm, 80, rfl⟩
abbrev main_call2_v0 : Ref sig .tc := ⟨.hbm, 81, rfl⟩
abbrev main_call2_v1 : Ref sig .tc := ⟨.hbm, 82, rfl⟩
abbrev main_call2_c_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_c_1 : Ref sig .tc := ⟨.hbm, 88, rfl⟩
abbrev main_call2_c_2 : Ref sig .tc := ⟨.hbm, 89, rfl⟩
abbrev main_call2_v6 : Ref sig .tc := ⟨.hbm, 90, rfl⟩
abbrev main_call2_v7 : Ref sig .tc := ⟨.hbm, 91, rfl⟩
abbrev main_call2_v8 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_c_3 : Ref sig .tc := ⟨.hbm, 96, rfl⟩
abbrev main_call2_v12 : Ref sig .tc := ⟨.hbm, 97, rfl⟩
abbrev main_call2_v13 : Ref sig .tc := ⟨.hbm, 98, rfl⟩
abbrev main_call2_v14 : Ref sig .tc := ⟨.hbm, 99, rfl⟩
abbrev main_call2_cst : Ref sig .tc := ⟨.hbm, 100, rfl⟩
abbrev main_call2_v15 : Ref sig .tc := ⟨.hbm, 101, rfl⟩
abbrev main_v7 : Ref sig .tc := ⟨.hbm, 102, rfl⟩
abbrev main_v8 : Ref sig .tc := ⟨.hbm, 103, rfl⟩
abbrev main_v9 : Ref sig .tc := ⟨.hbm, 104, rfl⟩
abbrev main_v10 : Ref sig .tc := ⟨.hbm, 105, rfl⟩
abbrev main_call3_c : Ref sig .tc := ⟨.hbm, 106, rfl⟩
abbrev main_call3_v0 : Ref sig .tc := ⟨.hbm, 107, rfl⟩
abbrev main_call3_v1 : Ref sig .tc := ⟨.hbm, 108, rfl⟩
abbrev main_call3_c_0 : Ref sig .tc := ⟨.hbm, 109, rfl⟩
abbrev main_call3_v2 : Ref sig .tc := ⟨.hbm, 110, rfl⟩
abbrev main_call3_v3 : Ref sig .tc := ⟨.hbm, 111, rfl⟩
abbrev main_call3_v4 : Ref sig .tc := ⟨.hbm, 112, rfl⟩
abbrev main_call3_v5 : Ref sig .tc := ⟨.hbm, 113, rfl⟩
abbrev main_call3_c_1 : Ref sig .tc := ⟨.hbm, 114, rfl⟩
abbrev main_call3_c_2 : Ref sig .tc := ⟨.hbm, 115, rfl⟩
abbrev main_call3_v6 : Ref sig .tc := ⟨.hbm, 116, rfl⟩
abbrev main_call3_v7 : Ref sig .tc := ⟨.hbm, 117, rfl⟩
abbrev main_call3_v8 : Ref sig .tc := ⟨.hbm, 118, rfl⟩
abbrev main_call3_v9 : Ref sig .tc := ⟨.hbm, 119, rfl⟩
abbrev main_call3_v10 : Ref sig .tc := ⟨.hbm, 120, rfl⟩
abbrev main_call3_v11 : Ref sig .tc := ⟨.hbm, 121, rfl⟩
abbrev main_call3_c_3 : Ref sig .tc := ⟨.hbm, 122, rfl⟩
abbrev main_call3_v12 : Ref sig .tc := ⟨.hbm, 123, rfl⟩
abbrev main_call3_v13 : Ref sig .tc := ⟨.hbm, 124, rfl⟩
abbrev main_call3_cst : Ref sig .tc := ⟨.hbm, 125, rfl⟩
abbrev main_call3_v14 : Ref sig .tc := ⟨.hbm, 126, rfl⟩
abbrev main_v11 : Ref sig .tc := ⟨.hbm, 127, rfl⟩
abbrev main_v12 : Ref sig .tc := ⟨.hbm, 128, rfl⟩
abbrev main_call4_c : Ref sig .tc := ⟨.hbm, 129, rfl⟩
abbrev main_call4_v0 : Ref sig .tc := ⟨.hbm, 130, rfl⟩
abbrev main_call4_v1 : Ref sig .tc := ⟨.hbm, 131, rfl⟩
abbrev main_call4_c_0 : Ref sig .tc := ⟨.hbm, 132, rfl⟩
abbrev main_call4_v2 : Ref sig .tc := ⟨.hbm, 133, rfl⟩
abbrev main_call4_v3 : Ref sig .tc := ⟨.hbm, 134, rfl⟩
abbrev main_call4_v4 : Ref sig .tc := ⟨.hbm, 135, rfl⟩
abbrev main_call4_v5 : Ref sig .tc := ⟨.hbm, 136, rfl⟩
abbrev main_call4_c_1 : Ref sig .tc := ⟨.hbm, 137, rfl⟩
abbrev main_call4_c_2 : Ref sig .tc := ⟨.hbm, 138, rfl⟩
abbrev main_call4_v6 : Ref sig .tc := ⟨.hbm, 139, rfl⟩
abbrev main_call4_v7 : Ref sig .tc := ⟨.hbm, 140, rfl⟩
abbrev main_call4_v8 : Ref sig .tc := ⟨.hbm, 141, rfl⟩
abbrev main_call4_v9 : Ref sig .tc := ⟨.hbm, 142, rfl⟩
abbrev main_call4_v10 : Ref sig .tc := ⟨.hbm, 143, rfl⟩
abbrev main_call4_v11 : Ref sig .tc := ⟨.hbm, 144, rfl⟩
abbrev main_call4_c_3 : Ref sig .tc := ⟨.hbm, 145, rfl⟩
abbrev main_call4_v12 : Ref sig .tc := ⟨.hbm, 146, rfl⟩
abbrev main_call4_v13 : Ref sig .tc := ⟨.hbm, 147, rfl⟩
abbrev main_call4_v14 : Ref sig .tc := ⟨.hbm, 148, rfl⟩
abbrev main_call4_cst : Ref sig .tc := ⟨.hbm, 149, rfl⟩
abbrev main_call4_v15 : Ref sig .tc := ⟨.hbm, 150, rfl⟩
abbrev main_v13 : Ref sig .tc := ⟨.hbm, 151, rfl⟩
abbrev main_v14 : Ref sig .tc := ⟨.hbm, 152, rfl⟩
abbrev main_v15 : Ref sig .tc := ⟨.hbm, 153, rfl⟩
abbrev main_v16 : Ref sig .tc := ⟨.hbm, 154, rfl⟩
abbrev main_call5_c : Ref sig .tc := ⟨.hbm, 155, rfl⟩
abbrev main_call5_v0 : Ref sig .tc := ⟨.hbm, 156, rfl⟩
abbrev main_call5_v1 : Ref sig .tc := ⟨.hbm, 157, rfl⟩
abbrev main_call5_c_0 : Ref sig .tc := ⟨.hbm, 158, rfl⟩
abbrev main_call5_v2 : Ref sig .tc := ⟨.hbm, 159, rfl⟩
abbrev main_call5_v3 : Ref sig .tc := ⟨.hbm, 160, rfl⟩
abbrev main_call5_v4 : Ref sig .tc := ⟨.hbm, 161, rfl⟩
abbrev main_call5_v5 : Ref sig .tc := ⟨.hbm, 162, rfl⟩
abbrev main_call5_c_1 : Ref sig .tc := ⟨.hbm, 163, rfl⟩
abbrev main_call5_c_2 : Ref sig .tc := ⟨.hbm, 164, rfl⟩
abbrev main_call5_v6 : Ref sig .tc := ⟨.hbm, 165, rfl⟩
abbrev main_call5_v7 : Ref sig .tc := ⟨.hbm, 166, rfl⟩
abbrev main_call5_v8 : Ref sig .tc := ⟨.hbm, 167, rfl⟩
abbrev main_call5_v9 : Ref sig .tc := ⟨.hbm, 168, rfl⟩
abbrev main_call5_v10 : Ref sig .tc := ⟨.hbm, 169, rfl⟩
abbrev main_call5_v11 : Ref sig .tc := ⟨.hbm, 170, rfl⟩
abbrev main_call5_c_3 : Ref sig .tc := ⟨.hbm, 171, rfl⟩
abbrev main_call5_v12 : Ref sig .tc := ⟨.hbm, 172, rfl⟩
abbrev main_call5_v13 : Ref sig .tc := ⟨.hbm, 173, rfl⟩
abbrev main_call5_cst : Ref sig .tc := ⟨.hbm, 174, rfl⟩
abbrev main_call5_v14 : Ref sig .tc := ⟨.hbm, 175, rfl⟩
abbrev main_v17 : Ref sig .tc := ⟨.hbm, 176, rfl⟩
abbrev main_v18 : Ref sig .tc := ⟨.hbm, 177, rfl⟩
abbrev main_call6_c : Ref sig .tc := ⟨.hbm, 178, rfl⟩
abbrev main_call6_v0 : Ref sig .tc := ⟨.hbm, 179, rfl⟩
abbrev main_call6_v1 : Ref sig .tc := ⟨.hbm, 180, rfl⟩
abbrev main_call6_c_0 : Ref sig .tc := ⟨.hbm, 181, rfl⟩
abbrev main_call6_v2 : Ref sig .tc := ⟨.hbm, 182, rfl⟩
abbrev main_call6_v3 : Ref sig .tc := ⟨.hbm, 183, rfl⟩
abbrev main_call6_v4 : Ref sig .tc := ⟨.hbm, 184, rfl⟩
abbrev main_call6_v5 : Ref sig .tc := ⟨.hbm, 185, rfl⟩
abbrev main_call6_c_1 : Ref sig .tc := ⟨.hbm, 186, rfl⟩
abbrev main_call6_c_2 : Ref sig .tc := ⟨.hbm, 187, rfl⟩
abbrev main_call6_v6 : Ref sig .tc := ⟨.hbm, 188, rfl⟩
abbrev main_call6_v7 : Ref sig .tc := ⟨.hbm, 189, rfl⟩
abbrev main_call6_v8 : Ref sig .tc := ⟨.hbm, 190, rfl⟩
abbrev main_call6_v9 : Ref sig .tc := ⟨.hbm, 191, rfl⟩
abbrev main_call6_v10 : Ref sig .tc := ⟨.hbm, 192, rfl⟩
abbrev main_call6_v11 : Ref sig .tc := ⟨.hbm, 193, rfl⟩
abbrev main_call6_c_3 : Ref sig .tc := ⟨.hbm, 194, rfl⟩
abbrev main_call6_v12 : Ref sig .tc := ⟨.hbm, 195, rfl⟩
abbrev main_call6_v13 : Ref sig .tc := ⟨.hbm, 196, rfl⟩
abbrev main_call6_v14 : Ref sig .tc := ⟨.hbm, 197, rfl⟩
abbrev main_call6_cst : Ref sig .tc := ⟨.hbm, 198, rfl⟩
abbrev main_call6_v15 : Ref sig .tc := ⟨.hbm, 199, rfl⟩
abbrev main_v19 : Ref sig .tc := ⟨.hbm, 200, rfl⟩
abbrev main_v20 : Ref sig .tc := ⟨.hbm, 201, rfl⟩
abbrev main_v21 : Ref sig .tc := ⟨.hbm, 202, rfl⟩
abbrev main_v22 : Ref sig .tc := ⟨.hbm, 203, rfl⟩
abbrev main_call7_c : Ref sig .tc := ⟨.hbm, 204, rfl⟩
abbrev main_call7_v0 : Ref sig .tc := ⟨.hbm, 205, rfl⟩
abbrev main_call7_v1 : Ref sig .tc := ⟨.hbm, 206, rfl⟩
abbrev main_call7_c_0 : Ref sig .tc := ⟨.hbm, 207, rfl⟩
abbrev main_call7_v2 : Ref sig .tc := ⟨.hbm, 208, rfl⟩
abbrev main_call7_v3 : Ref sig .tc := ⟨.hbm, 209, rfl⟩
abbrev main_call7_v4 : Ref sig .tc := ⟨.hbm, 210, rfl⟩
abbrev main_call7_v5 : Ref sig .tc := ⟨.hbm, 211, rfl⟩
abbrev main_call7_c_1 : Ref sig .tc := ⟨.hbm, 212, rfl⟩
abbrev main_call7_c_2 : Ref sig .tc := ⟨.hbm, 213, rfl⟩
abbrev main_call7_v6 : Ref sig .tc := ⟨.hbm, 214, rfl⟩
abbrev main_call7_v7 : Ref sig .tc := ⟨.hbm, 215, rfl⟩
abbrev main_call7_v8 : Ref sig .tc := ⟨.hbm, 216, rfl⟩
abbrev main_call7_v9 : Ref sig .tc := ⟨.hbm, 217, rfl⟩
abbrev main_call7_v10 : Ref sig .tc := ⟨.hbm, 218, rfl⟩
abbrev main_call7_v11 : Ref sig .tc := ⟨.hbm, 219, rfl⟩
abbrev main_call7_c_3 : Ref sig .tc := ⟨.hbm, 220, rfl⟩
abbrev main_call7_v12 : Ref sig .tc := ⟨.hbm, 221, rfl⟩
abbrev main_call7_v13 : Ref sig .tc := ⟨.hbm, 222, rfl⟩
abbrev main_call7_cst : Ref sig .tc := ⟨.hbm, 223, rfl⟩
abbrev main_call7_v14 : Ref sig .tc := ⟨.hbm, 224, rfl⟩
abbrev main_v23 : Ref sig .tc := ⟨.hbm, 225, rfl⟩
abbrev main_v24 : Ref sig .tc := ⟨.hbm, 226, rfl⟩
abbrev main_v25 : Ref sig .tc := ⟨.hbm, 227, rfl⟩
abbrev main_v26 : Ref sig .tc := ⟨.hbm, 228, rfl⟩
abbrev main_v27 : Ref sig .tc := ⟨.hbm, 229, rfl⟩
abbrev main_v28 : Ref sig .tc := ⟨.hbm, 230, rfl⟩
abbrev main_v29 : Ref sig .tc := ⟨.hbm, 231, rfl⟩
abbrev main_v30 : Ref sig .tc := ⟨.hbm, 232, rfl⟩
abbrev main_v31 : Ref sig .tc := ⟨.hbm, 233, rfl⟩
abbrev main_v32 : Ref sig .tc := ⟨.hbm, 234, rfl⟩
abbrev main_v33 : Ref sig .tc := ⟨.hbm, 235, rfl⟩
abbrev main_v34 : Ref sig .tc := ⟨.hbm, 236, rfl⟩
abbrev main_v35 : Ref sig .tc := ⟨.hbm, 237, rfl⟩
abbrev main_v36 : Ref sig .tc := ⟨.hbm, 238, rfl⟩
abbrev main_v37 : Ref sig .tc := ⟨.hbm, 239, rfl⟩
abbrev main_v38 : Ref sig .tc := ⟨.hbm, 240, rfl⟩
abbrev main_v39 : Ref sig .tc := ⟨.hbm, 241, rfl⟩
abbrev main_v40 : Ref sig .tc := ⟨.hbm, 242, rfl⟩
abbrev main_v41 : Ref sig .tc := ⟨.hbm, 243, rfl⟩
abbrev main_v42 : Ref sig .tc := ⟨.hbm, 244, rfl⟩
abbrev main_v43 : Ref sig .tc := ⟨.hbm, 245, rfl⟩
abbrev main_v44 : Ref sig .tc := ⟨.hbm, 246, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg26_0 : Ref sig .tc := ⟨.vmem, 27, rfl⟩
abbrev cc0_stg27_0 : Ref sig .tc := ⟨.vmem, 28, rfl⟩
abbrev cc0_stg28_0 : Ref sig .tc := ⟨.vmem, 29, rfl⟩
abbrev cc0_stg29_0 : Ref sig .tc := ⟨.vmem, 30, rfl⟩
abbrev cc0_stg29_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem26_0 : DmaSem sig := 27
abbrev cc0_sem27_0 : DmaSem sig := 28
abbrev cc0_sem28_0 : DmaSem sig := 29
abbrev cc0_sem29_0 : DmaSem sig := 30
abbrev cc0_sem29_1 : DmaSem sig := 31

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2048x24 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S24x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x144 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x144 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x144 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x144 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S24x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S128x64 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x64 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S64x144 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x144 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S64x144 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x144 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 2 → Memref sig .tc .vmem S4x2048x144 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

class Facts₀ : Prop where
  concatenates_S262144x12_S262144x12_S262144x24_d1 : Shape.Concatenates [S262144x12, S262144x12] S262144x24 1
  bcast_S_S144 : S_.BroadcastsInDim S144 (![] : Fin 0 → Fin S144.rank)
  bcast_S144_S144x1_0 : S144.BroadcastsInDim S144x1 (![0] : Fin 1 → Fin S144x1.rank)
  bcast_S_S144x1 : S_.BroadcastsInDim S144x1 (![] : Fin 0 → Fin S144x1.rank)
  bcast_S1_S1x1_1 : S1.BroadcastsInDim S1x1 (![1] : Fin 1 → Fin S1x1.rank)
  bcast_S1x1_S144x1_0_1 : S1x1.BroadcastsInDim S144x1 (![0, 1] : Fin 2 → Fin S144x1.rank)
  reducesTo_S144x1_S144_d1 : S144x1.ReducesTo [1] S144
  h_S_ : 0 < S_.numel
  bcast_S144_S64x144_1 : S144.BroadcastsInDim S64x144 (![1] : Fin 1 → Fin S64x144.rank)
  bcast_S_S64x144 : S_.BroadcastsInDim S64x144 (![] : Fin 0 → Fin S64x144.rank)
  bcast_S144_S1x144_1 : S144.BroadcastsInDim S1x144 (![1] : Fin 1 → Fin S1x144.rank)
  bcast_S1x144_S64x144_0_1 : S1x144.BroadcastsInDim S64x144 (![0, 1] : Fin 2 → Fin S64x144.rank)
  shapeCasts_S128_S1x128 : S128.ShapeCasts S1x128
  shapeCasts_S64_S1x64 : S64.ShapeCasts S1x64
  shapeCasts_S144_S1x144 : S144.ShapeCasts S1x144
  inb_S2048x24_S2048x24_0_0 : ∀ a, (![0, 0] : Fin 2 → Nat) a + S2048x24.size a ≤ S2048x24.size a
  h_S2048x24 : 0 < S2048x24.numel
  shapeCasts_S2048x24_S2048x24 : S2048x24.ShapeCasts S2048x24
  inb_S24x128_S24x128_0_0 : ∀ a, (![0, 0] : Fin 2 → Nat) a + S24x128.size a ≤ S24x128.size a
  h_S24x128 : 0 < S24x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  bitsLt_bf16_f32 : FTy.bits .bf16 < FTy.bits .f32
  broadcasts_S1x128_S2048x128 : S1x128.Broadcasts S2048x128
  reduces_S2048x128_S2048 : S2048x128.Reduces [1] S2048
  shapeCasts_S2048_S2048x1 : S2048.ShapeCasts S2048x1
  broadcasts_S2048x1_S2048x128 : S2048x1.Broadcasts S2048x128
  broadcasts_S1x64_S2048x64 : S1x64.Broadcasts S2048x64
  inb_S64x144_S64x144_0_0 : ∀ a, (![0, 0] : Fin 2 → Nat) a + S64x144.size a ≤ S64x144.size a
  h_S64x144 : 0 < S64x144.numel
  shapeCasts_S64x144_S64x144 : S64x144.ShapeCasts S64x144
  inb_S1x144_S1x144_0_0 : ∀ a, (![0, 0] : Fin 2 → Nat) a + S1x144.size a ≤ S1x144.size a
  h_S1x144 : 0 < S1x144.numel
  shapeCasts_S1x144_S1x144 : S1x144.ShapeCasts S1x144
  broadcasts_S1x144_S2048x144 : S1x144.Broadcasts S2048x144
  inb_S4x2048x144_S1x2048x144_0_0_0 : ∀ a, (![0, 0, 0] : Fin 3 → Nat) a + S1x2048x144.size a ≤ S4x2048x144.size a
  h_S1x2048x144 : 0 < S1x2048x144.numel
  shapeCasts_S1x2048x144_S2048x144 : S1x2048x144.ShapeCasts S2048x144
  shapeCasts_S2048x144_S1x2048x144 : S2048x144.ShapeCasts S1x2048x144
  inb_S4x2048x144_S1x2048x144_1_0_0 : ∀ a, (![1, 0, 0] : Fin 3 → Nat) a + S1x2048x144.size a ≤ S4x2048x144.size a
  inb_S4x2048x144_S1x2048x144_2_0_0 : ∀ a, (![2, 0, 0] : Fin 3 → Nat) a + S1x2048x144.size a ≤ S4x2048x144.size a
  inb_S4x2048x144_S1x2048x144_3_0_0 : ∀ a, (![3, 0, 0] : Fin 3 → Nat) a + S1x2048x144.size a ≤ S4x2048x144.size a
  shapeCasts_S4x262144x144_S4x262144x12x12 : S4x262144x144.ShapeCasts S4x262144x12x12
  gather_S64x144_S144x1_S64x144_0_1_n_n_1_1_641_wf : GatherDims.WF S64x144 S144x1 S64x144 [0] [1] [] [1] [] 1 ![64, 1]
  gather_S144_S144x1_S144_n_0_n_n_0_1_1_wf : GatherDims.WF S144 S144x1 S144 [] [0] [] [0] [] 1 ![1]
  dot_S2048x24_S24x128_S2048x128_1_0_0_1_n_n_wf : DotDims.WF S2048x24 S24x128 S2048x128 [1] [0] [0] [1] [] []
  dot_S2048x128_S128x128_S2048x128_1_0_0_1_n_n_wf : DotDims.WF S2048x128 S128x128 S2048x128 [1] [0] [0] [1] [] []
  dot_S2048x128_S128x64_S2048x64_1_0_0_1_n_n_wf : DotDims.WF S2048x128 S128x64 S2048x64 [1] [0] [0] [1] [] []
  dot_S2048x64_S64x144_S2048x144_1_0_0_1_n_n_wf : DotDims.WF S2048x64 S64x144 S2048x144 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x24.size a ≤ S262144x24.size a
  hwx0_0 : ∀ i : grid0.Coords, EltTy.bits .f32 = 32 ∨ (Rect.block (s := S262144x24) S2048x24.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S24x128.size a ≤ S24x128.size a
  hwx0_1 : ∀ i : grid0.Coords, EltTy.bits .f32 = 32 ∨ (Rect.block (s := S24x128) S24x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x64.size a ≤ S128x64.size a
  hwx0_9 : ∀ i : grid0.Coords, EltTy.bits .f32 = 32 ∨ (Rect.block (s := S128x64) S128x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x144.size a ≤ S64x144.size a
  hwx0_11 : ∀ i : grid0.Coords, EltTy.bits .f32 = 32 ∨ (Rect.block (s := S64x144) S64x144.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x144.size a ≤ S1x144.size a
  hwx0_12 : ∀ i : grid0.Coords, EltTy.bits .f32 = 32 ∨ (Rect.block (s := S1x144) S1x144.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x144.size a ≤ S64x144.size a
  hwx0_13 : ∀ i : grid0.Coords, EltTy.bits .f32 = 32 ∨ (Rect.block (s := S64x144) S64x144.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x144.size a ≤ S1x144.size a
  hwx0_14 : ∀ i : grid0.Coords, EltTy.bits .f32 = 32 ∨ (Rect.block (s := S1x144) S1x144.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S24x128.size a ≤ S24x128.size a
  hwx0_15 : ∀ i : grid0.Coords, EltTy.bits .f32 = 32 ∨ (Rect.block (s := S24x128) S24x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x128.size a ≤ S1x128.size a
  hwx0_16 : ∀ i : grid0.Coords, EltTy.bits .f32 = 32 ∨ (Rect.block (s := S1x128) S1x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x128.size a ≤ S1x128.size a
  hwx0_17 : ∀ i : grid0.Coords, EltTy.bits .f32 = 32 ∨ (Rect.block (s := S1x128) S1x128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x128.size a ≤ S1x128.size a
  hwx0_18 : ∀ i : grid0.Coords, EltTy.bits .f32 = 32 ∨ (Rect.block (s := S1x128) S1x128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S128x128.size a ≤ S128x128.size a
  hwx0_19 : ∀ i : grid0.Coords, EltTy.bits .f32 = 32 ∨ (Rect.block (s := S128x128) S128x128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x128.size a ≤ S1x128.size a
  hwx0_20 : ∀ i : grid0.Coords, EltTy.bits .f32 = 32 ∨ (Rect.block (s := S1x128) S1x128.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x128.size a ≤ S1x128.size a
  hwx0_21 : ∀ i : grid0.Coords, EltTy.bits .f32 = 32 ∨ (Rect.block (s := S1x128) S1x128.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x128.size a ≤ S1x128.size a
  hwx0_22 : ∀ i : grid0.Coords, EltTy.bits .f32 = 32 ∨ (Rect.block (s := S1x128) S1x128.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S128x64.size a ≤ S128x64.size a
  hwx0_23 : ∀ i : grid0.Coords, EltTy.bits .f32 = 32 ∨ (Rect.block (s := S128x64) S128x64.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S1x64.size a ≤ S1x64.size a
  hwx0_24 : ∀ i : grid0.Coords, EltTy.bits .f32 = 32 ∨ (Rect.block (s := S1x64) S1x64.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S64x144.size a ≤ S64x144.size a
  hwx0_25 : ∀ i : grid0.Coords, EltTy.bits .f32 = 32 ∨ (Rect.block (s := S64x144) S64x144.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S1x144.size a ≤ S1x144.size a
  hwx0_26 : ∀ i : grid0.Coords, EltTy.bits .f32 = 32 ∨ (Rect.block (s := S1x144) S1x144.size (cc0_transform_26 i) (hinb0_26 i)).WholeWords (EltTy.packing .f32)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S64x144.size a ≤ S64x144.size a
  hwx0_27 : ∀ i : grid0.Coords, EltTy.bits .f32 = 32 ∨ (Rect.block (s := S64x144) S64x144.size (cc0_transform_27 i) (hinb0_27 i)).WholeWords (EltTy.packing .f32)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S1x144.size a ≤ S1x144.size a
  hwx0_28 : ∀ i : grid0.Coords, EltTy.bits .f32 = 32 ∨ (Rect.block (s := S1x144) S1x144.size (cc0_transform_28 i) (hinb0_28 i)).WholeWords (EltTy.packing .f32)
  hstage0_29 : ∀ j, (stage0_29 j).IsWhole
  nbuf0_29 : grid0.bufCount reads0_29 false = 2
  hreads0_29 : ∀ i i' : grid0.Coords, (∀ a, reads0_29 a = true → i a = i' a) → cc0_transform_29 i = cc0_transform_29 i'
  hinb0_29 : ∀ (i : grid0.Coords) a, (cc0_transform_29 i a + 1) * S4x2048x144.size a ≤ S4x262144x144.size a
  hwx0_29 : ∀ i : grid0.Coords, EltTy.bits .f32 = 32 ∨ (Rect.block (s := S4x262144x144) S4x2048x144.size (cc0_transform_29 i) (hinb0_29 i)).WholeWords (EltTy.packing .f32)

variable [Facts₀]

def gather_S64x144_S144x1_S64x144_0_1_n_n_1_1_641 : GatherDims S64x144 S144x1 S64x144 where
  offsetDims := [0]
  collapsedSliceDims := [1]
  operandBatchingDims := []
  startIndicesBatchingDims := []
  startIndexMap := [1]
  indexVectorDim := 1
  sliceSizes := ![64, 1]
  wf := gather_S64x144_S144x1_S64x144_0_1_n_n_1_1_641_wf
def gather_S144_S144x1_S144_n_0_n_n_0_1_1 : GatherDims S144 S144x1 S144 where
  offsetDims := []
  collapsedSliceDims := [0]
  operandBatchingDims := []
  startIndicesBatchingDims := []
  startIndexMap := [0]
  indexVectorDim := 1
  sliceSizes := ![1]
  wf := gather_S144_S144x1_S144_n_0_n_n_0_1_1_wf
def dot_S2048x24_S24x128_S2048x128_1_0_0_1_n_n : DotDims S2048x24 S24x128 S2048x128 where
  lhsContracting := [1]
  rhsContracting := [0]
  lhsNonContracting := [0]
  rhsNonContracting := [1]
  lhsBatch := []
  rhsBatch := []
  wf := dot_S2048x24_S24x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x144_S2048x144_1_0_0_1_n_n : DotDims S2048x64 S64x144 S2048x144 where
  lhsContracting := [1]
  rhsContracting := [0]
  lhsNonContracting := [0]
  rhsNonContracting := [1]
  lhsBatch := []
  rhsBatch := []
  wf := dot_S2048x64_S64x144_S2048x144_1_0_0_1_n_n_wf

abbrev win0_0 : Pipeline.Window sig grid0 :=
  Pipeline.Window.ofSpec (Memref.whole main_v0) S2048x24.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S24x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v30) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S128x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v31) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S64x144.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v32) S1x144.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v10) S64x144.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v33) S1x144.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg14) S24x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v34) S1x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v35) S1x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v36) S1x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg18) S128x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v37) S1x128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v38) S1x128.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v39) S1x128.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg22) S128x64.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v40) S1x64.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v16) S64x144.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v41) S1x144.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_v22) S64x144.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_v42) S1x144.size cc0_transform_28 reads0_28 false true 1 stage0_28 sem0_28
    hrank0 hreads0_28 hinb0_28 nbuf0_28 (Memref.isWhole_whole _) hwx0_28 hstage0_28

abbrev win0_29 : Pipeline.Window sig grid0 :=
  Pipeline.Window.ofSpec (Memref.whole main_v43) S4x2048x144.size cc0_transform_29 reads0_29 true false 2 stage0_29 sem0_29
    hrank0 hreads0_29 hinb0_29 nbuf0_29 (Memref.isWhole_whole _) hwx0_29 hstage0_29

abbrev win0 : Fin 30 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | ⟨_ + 30, h⟩ => absurd h (Nat.not_lt.2 (Nat.le_add_left _ _))
abbrev spec0 : Fin 30 → Pipeline.WinSpec sig grid0.rank := fun w => (win0 w).toWinSpec

class Facts : Prop extends Facts₀ where

variable [Facts]
-- ==== ReferenceIdeal.lean ====
abbrev S262144x12 : Shape := ⟨2, ![262144, 12]⟩
abbrev S24x128 : Shape := ⟨2, ![24, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x144 : Shape := ⟨2, ![64, 144]⟩
abbrev S144 : Shape := ⟨1, ![144]⟩
abbrev S66 : Shape := ⟨1, ![66]⟩
abbrev S262144x24 : Shape := ⟨2, ![262144, 24]⟩
abbrev S262144x128 : Shape := ⟨2, ![262144, 128]⟩
abbrev S1x128 : Shape := ⟨2, ![1, 128]⟩
abbrev S_ : Shape := ⟨0, ![]⟩
abbrev S262144 : Shape := ⟨1, ![262144]⟩
abbrev S262144x1 : Shape := ⟨2, ![262144, 1]⟩
abbrev S262144x64 : Shape := ⟨2, ![262144, 64]⟩
abbrev S1x64 : Shape := ⟨2, ![1, 64]⟩
abbrev S262144x144 : Shape := ⟨2, ![262144, 144]⟩
abbrev S1x144 : Shape := ⟨2, ![1, 144]⟩
abbrev S262144x66 : Shape := ⟨2, ![262144, 66]⟩
abbrev S12 : Shape := ⟨1, ![12]⟩
abbrev S262144x12x12 : Shape := ⟨3, ![262144, 12, 12]⟩
abbrev S12x1 : Shape := ⟨2, ![12, 1]⟩
abbrev S12x2 : Shape := ⟨2, ![12, 2]⟩
abbrev S66x1 : Shape := ⟨2, ![66, 1]⟩
abbrev S66x2 : Shape := ⟨2, ![66, 2]⟩
abbrev S1x262144x12x12 : Shape := ⟨4, ![1, 262144, 12, 12]⟩
abbrev S4x262144x12x12 : Shape := ⟨4, ![4, 262144, 12, 12]⟩

abbrev nBuf : Space → Nat
  | .hbm => 334
  | .vmem => 0
  | .smem => 0
  | _ => 0

abbrev hbmTy0_0 (i : Nat) : BufTy := match i % 128 with
  | 0 => ⟨S262144x12, .f32⟩
  | 1 => ⟨S262144x12, .f32⟩
  | 2 => ⟨S24x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x64, .f32⟩
  | 11 => ⟨S64, .f32⟩
  | 12 => ⟨S64x144, .f32⟩
  | 13 => ⟨S144, .f32⟩
  | 14 => ⟨S24x128, .f32⟩
  | 15 => ⟨S128, .f32⟩
  | 16 => ⟨S128, .f32⟩
  | 17 => ⟨S128, .f32⟩
  | 18 => ⟨S128x128, .f32⟩
  | 19 => ⟨S128, .f32⟩
  | 20 => ⟨S128, .f32⟩
  | 21 => ⟨S128, .f32⟩
  | 22 => ⟨S128x64, .f32⟩
  | 23 => ⟨S64, .f32⟩
  | 24 => ⟨S64x144, .f32⟩
  | 25 => ⟨S144, .f32⟩
  | 26 => ⟨S66, .i32⟩
  | 27 => ⟨S66, .i1⟩
  | 28 => ⟨S66, .i32⟩
  | 29 => ⟨S66, .i1⟩
  | 30 => ⟨S66, .i1⟩
  | 31 => ⟨S66, .i1⟩
  | 32 => ⟨S66, .i32⟩
  | 33 => ⟨S66, .i1⟩
  | 34 => ⟨S66, .i32⟩
  | 35 => ⟨S66, .i1⟩
  | 36 => ⟨S66, .i1⟩
  | 37 => ⟨S66, .i1⟩
  | 38 => ⟨S262144x24, .f32⟩
  | 39 => ⟨S262144x128, .f32⟩
  | 40 => ⟨S1x128, .f32⟩
  | 41 => ⟨S262144x128, .f32⟩
  | 42 => ⟨S262144x128, .f32⟩
  | 43 => ⟨S_, .f32⟩
  | 44 => ⟨S262144, .f32⟩
  | 45 => ⟨S262144x1, .f32⟩
  | 46 => ⟨S_, .f32⟩
  | 47 => ⟨S262144x1, .f32⟩
  | 48 => ⟨S262144x1, .f32⟩
  | 49 => ⟨S262144x128, .f32⟩
  | 50 => ⟨S262144x128, .f32⟩
  | 51 => ⟨S262144x128, .f32⟩
  | 52 => ⟨S_, .f32⟩
  | 53 => ⟨S262144, .f32⟩
  | 54 => ⟨S262144x1, .f32⟩
  | 55 => ⟨S_, .f32⟩
  | 56 => ⟨S262144x1, .f32⟩
  | 57 => ⟨S262144x1, .f32⟩
  | 58 => ⟨S262144x128, .f32⟩
  | 59 => ⟨S262144x128, .f32⟩
  | 60 => ⟨S_, .f32⟩
  | 61 => ⟨S262144x1, .f32⟩
  | 62 => ⟨S262144x1, .f32⟩
  | 63 => ⟨S262144x1, .f32⟩
  | 64 => ⟨S262144x128, .f32⟩
  | 65 => ⟨S262144x128, .f32⟩
  | 66 => ⟨S1x128, .f32⟩
  | 67 => ⟨S262144x128, .f32⟩
  | 68 => ⟨S262144x128, .f32⟩
  | 69 => ⟨S1x128, .f32⟩
  | 70 => ⟨S262144x128, .f32⟩
  | 71 => ⟨S262144x128, .f32⟩
  | 72 => ⟨S_, .f32⟩
  | 73 => ⟨S262144x128, .f32⟩
  | 74 => ⟨S262144x128, .i1⟩
  | 75 => ⟨S_, .f32⟩
  | 76 => ⟨S262144x128, .f32⟩
  | 77 => ⟨S262144x128, .f32⟩
  | 78 => ⟨S262144x128, .f32⟩
  | 79 => ⟨S262144x128, .f32⟩
  | 80 => ⟨S1x128, .f32⟩
  | 81 => ⟨S262144x128, .f32⟩
  | 82 => ⟨S262144x128, .f32⟩
  | 83 => ⟨S_, .f32⟩
  | 84 => ⟨S262144, .f32⟩
  | 85 => ⟨S262144x1, .f32⟩
  | 86 => ⟨S_, .f32⟩
  | 87 => ⟨S262144x1, .f32⟩
  | 88 => ⟨S262144x1, .f32⟩
  | 89 => ⟨S262144x128, .f32⟩
  | 90 => ⟨S262144x128, .f32⟩
  | 91 => ⟨S262144x128, .f32⟩
  | 92 => ⟨S_, .f32⟩
  | 93 => ⟨S262144, .f32⟩
  | 94 => ⟨S262144x1, .f32⟩
  | 95 => ⟨S_, .f32⟩
  | 96 => ⟨S262144x1, .f32⟩
  | 97 => ⟨S262144x1, .f32⟩
  | 98 => ⟨S262144x128, .f32⟩
  | 99 => ⟨S262144x128, .f32⟩
  | 100 => ⟨S_, .f32⟩
  | 101 => ⟨S262144x1, .f32⟩
  | 102 => ⟨S262144x1, .f32⟩
  | 103 => ⟨S262144x1, .f32⟩
  | 104 => ⟨S262144x128, .f32⟩
  | 105 => ⟨S262144x128, .f32⟩
  | 106 => ⟨S1x128, .f32⟩
  | 107 => ⟨S262144x128, .f32⟩
  | 108 => ⟨S262144x128, .f32⟩
  | 109 => ⟨S1x128, .f32⟩
  | 110 => ⟨S262144x128, .f32⟩
  | 111 => ⟨S262144x128, .f32⟩
  | 112 => ⟨S_, .f32⟩
  | 113 => ⟨S262144x128, .f32⟩
  | 114 => ⟨S262144x128, .i1⟩
  | 115 => ⟨S_, .f32⟩
  | 116 => ⟨S262144x128, .f32⟩
  | 117 => ⟨S262144x128, .f32⟩
  | 118 => ⟨S262144x128, .f32⟩
  | 119 => ⟨S262144x64, .f32⟩
  | 120 => ⟨S1x64, .f32⟩
  | 121 => ⟨S262144x64, .f32⟩
  | 122 => ⟨S262144x64, .f32⟩
  | 123 => ⟨S_, .f32⟩
  | 124 => ⟨S262144x64, .f32⟩
  | 125 => ⟨S262144x64, .i1⟩
  | 126 => ⟨S_, .f32⟩
  | 127 => ⟨S262144x64, .f32⟩
  | _ => ⟨S262144x12, .f32⟩

abbrev hbmTy0_1 (i : Nat) : BufTy := match i % 128 with
  | 0 => ⟨S262144x64, .f32⟩
  | 1 => ⟨S262144x64, .f32⟩
  | 2 => ⟨S262144x144, .f32⟩
  | 3 => ⟨S1x144, .f32⟩
  | 4 => ⟨S262144x144, .f32⟩
  | 5 => ⟨S262144x144, .f32⟩
  | 6 => ⟨S262144x128, .f32⟩
  | 7 => ⟨S1x128, .f32⟩
  | 8 => ⟨S262144x128, .f32⟩
  | 9 => ⟨S262144x128, .f32⟩
  | 10 => ⟨S_, .f32⟩
  | 11 => ⟨S262144, .f32⟩
  | 12 => ⟨S262144x1, .f32⟩
  | 13 => ⟨S_, .f32⟩
  | 14 => ⟨S262144x1, .f32⟩
  | 15 => ⟨S262144x1, .f32⟩
  | 16 => ⟨S262144x128, .f32⟩
  | 17 => ⟨S262144x128, .f32⟩
  | 18 => ⟨S262144x128, .f32⟩
  | 19 => ⟨S_, .f32⟩
  | 20 => ⟨S262144, .f32⟩
  | 21 => ⟨S262144x1, .f32⟩
  | 22 => ⟨S_, .f32⟩
  | 23 => ⟨S262144x1, .f32⟩
  | 24 => ⟨S262144x1, .f32⟩
  | 25 => ⟨S262144x128, .f32⟩
  | 26 => ⟨S262144x128, .f32⟩
  | 27 => ⟨S_, .f32⟩
  | 28 => ⟨S262144x1, .f32⟩
  | 29 => ⟨S262144x1, .f32⟩
  | 30 => ⟨S262144x1, .f32⟩
  | 31 => ⟨S262144x128, .f32⟩
  | 32 => ⟨S262144x128, .f32⟩
  | 33 => ⟨S1x128, .f32⟩
  | 34 => ⟨S262144x128, .f32⟩
  | 35 => ⟨S262144x128, .f32⟩
  | 36 => ⟨S1x128, .f32⟩
  | 37 => ⟨S262144x128, .f32⟩
  | 38 => ⟨S262144x128, .f32⟩
  | 39 => ⟨S_, .f32⟩
  | 40 => ⟨S262144x128, .f32⟩
  | 41 => ⟨S262144x128, .i1⟩
  | 42 => ⟨S_, .f32⟩
  | 43 => ⟨S262144x128, .f32⟩
  | 44 => ⟨S262144x128, .f32⟩
  | 45 => ⟨S262144x128, .f32⟩
  | 46 => ⟨S262144x128, .f32⟩
  | 47 => ⟨S1x128, .f32⟩
  | 48 => ⟨S262144x128, .f32⟩
  | 49 => ⟨S262144x128, .f32⟩
  | 50 => ⟨S_, .f32⟩
  | 51 => ⟨S262144, .f32⟩
  | 52 => ⟨S262144x1, .f32⟩
  | 53 => ⟨S_, .f32⟩
  | 54 => ⟨S262144x1, .f32⟩
  | 55 => ⟨S262144x1, .f32⟩
  | 56 => ⟨S262144x128, .f32⟩
  | 57 => ⟨S262144x128, .f32⟩
  | 58 => ⟨S262144x128, .f32⟩
  | 59 => ⟨S_, .f32⟩
  | 60 => ⟨S262144, .f32⟩
  | 61 => ⟨S262144x1, .f32⟩
  | 62 => ⟨S_, .f32⟩
  | 63 => ⟨S262144x1, .f32⟩
  | 64 => ⟨S262144x1, .f32⟩
  | 65 => ⟨S262144x128, .f32⟩
  | 66 => ⟨S262144x128, .f32⟩
  | 67 => ⟨S_, .f32⟩
  | 68 => ⟨S262144x1, .f32⟩
  | 69 => ⟨S262144x1, .f32⟩
  | 70 => ⟨S262144x1, .f32⟩
  | 71 => ⟨S262144x128, .f32⟩
  | 72 => ⟨S262144x128, .f32⟩
  | 73 => ⟨S1x128, .f32⟩
  | 74 => ⟨S262144x128, .f32⟩
  | 75 => ⟨S262144x128, .f32⟩
  | 76 => ⟨S1x128, .f32⟩
  | 77 => ⟨S262144x128, .f32⟩
  | 78 => ⟨S262144x128, .f32⟩
  | 79 => ⟨S_, .f32⟩
  | 80 => ⟨S262144x128, .f32⟩
  | 81 => ⟨S262144x128, .i1⟩
  | 82 => ⟨S_, .f32⟩
  | 83 => ⟨S262144x128, .f32⟩
  | 84 => ⟨S262144x128, .f32⟩
  | 85 => ⟨S262144x128, .f32⟩
  | 86 => ⟨S262144x64, .f32⟩
  | 87 => ⟨S1x64, .f32⟩
  | 88 => ⟨S262144x64, .f32⟩
  | 89 => ⟨S262144x64, .f32⟩
  | 90 => ⟨S_, .f32⟩
  | 91 => ⟨S262144x64, .f32⟩
  | 92 => ⟨S262144x64, .i1⟩
  | 93 => ⟨S_, .f32⟩
  | 94 => ⟨S262144x64, .f32⟩
  | 95 => ⟨S262144x64, .f32⟩
  | 96 => ⟨S262144x64, .f32⟩
  | 97 => ⟨S262144x144, .f32⟩
  | 98 => ⟨S1x144, .f32⟩
  | 99 => ⟨S262144x144, .f32⟩
  | 100 => ⟨S262144x144, .f32⟩
  | 101 => ⟨S262144x12, .f32⟩
  | 102 => ⟨S262144x66, .f32⟩
  | 103 => ⟨S262144x66, .f32⟩
  | 104 => ⟨S12, .i32⟩
  | 105 => ⟨S_, .f32⟩
  | 106 => ⟨S262144x12x12, .f32⟩
  | 107 => ⟨S_, .i32⟩
  | 108 => ⟨S12, .i32⟩
  | 109 => ⟨S12, .i1⟩
  | 110 => ⟨S_, .i32⟩
  | 111 => ⟨S12, .i32⟩
  | 112 => ⟨S12, .i32⟩
  | 113 => ⟨S12, .i32⟩
  | 114 => ⟨S_, .i32⟩
  | 115 => ⟨S12, .i32⟩
  | 116 => ⟨S12, .i1⟩
  | 117 => ⟨S_, .i32⟩
  | 118 => ⟨S12, .i32⟩
  | 119 => ⟨S12, .i32⟩
  | 120 => ⟨S12, .i32⟩
  | 121 => ⟨S12x1, .i32⟩
  | 122 => ⟨S12x1, .i32⟩
  | 123 => ⟨S12x2, .i32⟩
  | 124 => ⟨S262144x12x12, .f32⟩
  | 125 => ⟨S_, .i32⟩
  | 126 => ⟨S66, .i32⟩
  | 127 => ⟨S66, .i32⟩
  | _ => ⟨S262144x12, .f32⟩

abbrev hbmTy0_2 (i : Nat) : BufTy := match i % 128 with
  | 0 => ⟨S66, .i32⟩
  | 1 => ⟨S_, .i32⟩
  | 2 => ⟨S66, .i32⟩
  | 3 => ⟨S66, .i32⟩
  | 4 => ⟨S66, .i32⟩
  | 5 => ⟨S66x1, .i32⟩
  | 6 => ⟨S66x1, .i32⟩
  | 7 => ⟨S66x2, .i32⟩
  | 8 => ⟨S262144x12x12, .f32⟩
  | 9 => ⟨S_, .f32⟩
  | 10 => ⟨S262144x12x12, .f32⟩
  | 11 => ⟨S_, .i32⟩
  | 12 => ⟨S66, .i32⟩
  | 13 => ⟨S66, .i32⟩
  | 14 => ⟨S66, .i32⟩
  | 15 => ⟨S_, .i32⟩
  | 16 => ⟨S66, .i32⟩
  | 17 => ⟨S66, .i32⟩
  | 18 => ⟨S66, .i32⟩
  | 19 => ⟨S66x1, .i32⟩
  | 20 => ⟨S66x1, .i32⟩
  | 21 => ⟨S66x2, .i32⟩
  | 22 => ⟨S262144x12x12, .f32⟩
  | 23 => ⟨S262144x12, .f32⟩
  | 24 => ⟨S262144x66, .f32⟩
  | 25 => ⟨S262144x66, .f32⟩
  | 26 => ⟨S12, .i32⟩
  | 27 => ⟨S_, .f32⟩
  | 28 => ⟨S262144x12x12, .f32⟩
  | 29 => ⟨S_, .i32⟩
  | 30 => ⟨S12, .i32⟩
  | 31 => ⟨S12, .i1⟩
  | 32 => ⟨S_, .i32⟩
  | 33 => ⟨S12, .i32⟩
  | 34 => ⟨S12, .i32⟩
  | 35 => ⟨S12, .i32⟩
  | 36 => ⟨S_, .i32⟩
  | 37 => ⟨S12, .i32⟩
  | 38 => ⟨S12, .i1⟩
  | 39 => ⟨S_, .i32⟩
  | 40 => ⟨S12, .i32⟩
  | 41 => ⟨S12, .i32⟩
  | 42 => ⟨S12, .i32⟩
  | 43 => ⟨S12x1, .i32⟩
  | 44 => ⟨S12x1, .i32⟩
  | 45 => ⟨S12x2, .i32⟩
  | 46 => ⟨S262144x12x12, .f32⟩
  | 47 => ⟨S_, .i32⟩
  | 48 => ⟨S66, .i32⟩
  | 49 => ⟨S66, .i32⟩
  | 50 => ⟨S66, .i32⟩
  | 51 => ⟨S_, .i32⟩
  | 52 => ⟨S66, .i32⟩
  | 53 => ⟨S66, .i32⟩
  | 54 => ⟨S66, .i32⟩
  | 55 => ⟨S66x1, .i32⟩
  | 56 => ⟨S66x1, .i32⟩
  | 57 => ⟨S66x2, .i32⟩
  | 58 => ⟨S262144x12x12, .f32⟩
  | 59 => ⟨S_, .f32⟩
  | 60 => ⟨S262144x12x12, .f32⟩
  | 61 => ⟨S_, .i32⟩
  | 62 => ⟨S66, .i32⟩
  | 63 => ⟨S66, .i32⟩
  | 64 => ⟨S66, .i32⟩
  | 65 => ⟨S_, .i32⟩
  | 66 => ⟨S66, .i32⟩
  | 67 => ⟨S66, .i32⟩
  | 68 => ⟨S66, .i32⟩
  | 69 => ⟨S66x1, .i32⟩
  | 70 => ⟨S66x1, .i32⟩
  | 71 => ⟨S66x2, .i32⟩
  | 72 => ⟨S262144x12x12, .f32⟩
  | 73 => ⟨S1x262144x12x12, .f32⟩
  | 74 => ⟨S1x262144x12x12, .f32⟩
  | 75 => ⟨S1x262144x12x12, .f32⟩
  | 76 => ⟨S1x262144x12x12, .f32⟩
  | 77 => ⟨S4x262144x12x12, .f32⟩
  | _ => ⟨S262144x12, .f32⟩

abbrev hbmTy (i : Nat) : BufTy := match i / 128 with
  | 0 => hbmTy0_0 i
  | 1 => hbmTy0_1 i
  | 2 => hbmTy0_2 i
  | _ => ⟨S262144x12, .f32⟩

abbrev bufTy : (tb : Table) → Fin (tcTables nBuf tb) → BufTy
  | .hbm, ⟨i, _⟩ => hbmTy i
  | _, _ => ⟨S262144x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_c : Ref sig .tc := ⟨.hbm, 26, rfl⟩
abbrev main_c_0 : Ref sig .tc := ⟨.hbm, 27, rfl⟩
abbrev main_c_1 : Ref sig .tc := ⟨.hbm, 28, rfl⟩
abbrev main_c_2 : Ref sig .tc := ⟨.hbm, 29, rfl⟩
abbrev main_c_3 : Ref sig .tc := ⟨.hbm, 30, rfl⟩
abbrev main_c_4 : Ref sig .tc := ⟨.hbm, 31, rfl⟩
abbrev main_c_5 : Ref sig .tc := ⟨.hbm, 32, rfl⟩
abbrev main_c_6 : Ref sig .tc := ⟨.hbm, 33, rfl⟩
abbrev main_c_7 : Ref sig .tc := ⟨.hbm, 34, rfl⟩
abbrev main_c_8 : Ref sig .tc := ⟨.hbm, 35, rfl⟩
abbrev main_c_9 : Ref sig .tc := ⟨.hbm, 36, rfl⟩
abbrev main_c_10 : Ref sig .tc := ⟨.hbm, 37, rfl⟩
abbrev main_v0 : Ref sig .tc := ⟨.hbm, 38, rfl⟩
abbrev main_v1 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_cst : Ref sig .tc := ⟨.hbm, 43, rfl⟩
abbrev main_v5 : Ref sig .tc := ⟨.hbm, 44, rfl⟩
abbrev main_v6 : Ref sig .tc := ⟨.hbm, 45, rfl⟩
abbrev main_cst_11 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_cst_12 : Ref sig .tc := ⟨.hbm, 52, rfl⟩
abbrev main_v12 : Ref sig .tc := ⟨.hbm, 53, rfl⟩
abbrev main_v13 : Ref sig .tc := ⟨.hbm, 54, rfl⟩
abbrev main_cst_13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_cst_14 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_cst_15 : Ref sig .tc := ⟨.hbm, 72, rfl⟩
abbrev main_v29 : Ref sig .tc := ⟨.hbm, 73, rfl⟩
abbrev main_v30 : Ref sig .tc := ⟨.hbm, 74, rfl⟩
abbrev main_cst_16 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_cst_17 : Ref sig .tc := ⟨.hbm, 83, rfl⟩
abbrev main_v38 : Ref sig .tc := ⟨.hbm, 84, rfl⟩
abbrev main_v39 : Ref sig .tc := ⟨.hbm, 85, rfl⟩
abbrev main_cst_18 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_cst_19 : Ref sig .tc := ⟨.hbm, 92, rfl⟩
abbrev main_v45 : Ref sig .tc := ⟨.hbm, 93, rfl⟩
abbrev main_v46 : Ref sig .tc := ⟨.hbm, 94, rfl⟩
abbrev main_cst_20 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_cst_21 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_cst_22 : Ref sig .tc := ⟨.hbm, 112, rfl⟩
abbrev main_v62 : Ref sig .tc := ⟨.hbm, 113, rfl⟩
abbrev main_v63 : Ref sig .tc := ⟨.hbm, 114, rfl⟩
abbrev main_cst_23 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_cst_24 : Ref sig .tc := ⟨.hbm, 123, rfl⟩
abbrev main_v71 : Ref sig .tc := ⟨.hbm, 124, rfl⟩
abbrev main_v72 : Ref sig .tc := ⟨.hbm, 125, rfl⟩
abbrev main_cst_25 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_cst_26 : Ref sig .tc := ⟨.hbm, 138, rfl⟩
abbrev main_v84 : Ref sig .tc := ⟨.hbm, 139, rfl⟩
abbrev main_v85 : Ref sig .tc := ⟨.hbm, 140, rfl⟩
abbrev main_cst_27 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_cst_28 : Ref sig .tc := ⟨.hbm, 147, rfl⟩
abbrev main_v91 : Ref sig .tc := ⟨.hbm, 148, rfl⟩
abbrev main_v92 : Ref sig .tc := ⟨.hbm, 149, rfl⟩
abbrev main_cst_29 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_cst_30 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_cst_31 : Ref sig .tc := ⟨.hbm, 167, rfl⟩
abbrev main_v108 : Ref sig .tc := ⟨.hbm, 168, rfl⟩
abbrev main_v109 : Ref sig .tc := ⟨.hbm, 169, rfl⟩
abbrev main_cst_32 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_cst_33 : Ref sig .tc := ⟨.hbm, 178, rfl⟩
abbrev main_v117 : Ref sig .tc := ⟨.hbm, 179, rfl⟩
abbrev main_v118 : Ref sig .tc := ⟨.hbm, 180, rfl⟩
abbrev main_cst_34 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_cst_35 : Ref sig .tc := ⟨.hbm, 187, rfl⟩
abbrev main_v124 : Ref sig .tc := ⟨.hbm, 188, rfl⟩
abbrev main_v125 : Ref sig .tc := ⟨.hbm, 189, rfl⟩
abbrev main_cst_36 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_cst_37 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_cst_38 : Ref sig .tc := ⟨.hbm, 207, rfl⟩
abbrev main_v141 : Ref sig .tc := ⟨.hbm, 208, rfl⟩
abbrev main_v142 : Ref sig .tc := ⟨.hbm, 209, rfl⟩
abbrev main_cst_39 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_cst_40 : Ref sig .tc := ⟨.hbm, 218, rfl⟩
abbrev main_v150 : Ref sig .tc := ⟨.hbm, 219, rfl⟩
abbrev main_v151 : Ref sig .tc := ⟨.hbm, 220, rfl⟩
abbrev main_cst_41 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_cst_42 : Ref sig .tc := ⟨.hbm, 233, rfl⟩
abbrev main_v163 : Ref sig .tc := ⟨.hbm, 234, rfl⟩
abbrev main_c_43 : Ref sig .tc := ⟨.hbm, 235, rfl⟩
abbrev main_v164 : Ref sig .tc := ⟨.hbm, 236, rfl⟩
abbrev main_v165 : Ref sig .tc := ⟨.hbm, 237, rfl⟩
abbrev main_c_44 : Ref sig .tc := ⟨.hbm, 238, rfl⟩
abbrev main_v166 : Ref sig .tc := ⟨.hbm, 239, rfl⟩
abbrev main_v167 : Ref sig .tc := ⟨.hbm, 240, rfl⟩
abbrev main_v168 : Ref sig .tc := ⟨.hbm, 241, rfl⟩
abbrev main_c_45 : Ref sig .tc := ⟨.hbm, 242, rfl⟩
abbrev main_v169 : Ref sig .tc := ⟨.hbm, 243, rfl⟩
abbrev main_v170 : Ref sig .tc := ⟨.hbm, 244, rfl⟩
abbrev main_c_46 : Ref sig .tc := ⟨.hbm, 245, rfl⟩
abbrev main_v171 : Ref sig .tc := ⟨.hbm, 246, rfl⟩
abbrev main_v172 : Ref sig .tc := ⟨.hbm, 247, rfl⟩
abbrev main_v173 : Ref sig .tc := ⟨.hbm, 248, rfl⟩
abbrev main_v174 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_c_47 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_c_48 : Ref sig .tc := ⟨.hbm, 257, rfl⟩
abbrev main_v181 : Ref sig .tc := ⟨.hbm, 258, rfl⟩
abbrev main_v182 : Ref sig .tc := ⟨.hbm, 259, rfl⟩
abbrev main_v183 : Ref sig .tc := ⟨.hbm, 260, rfl⟩
abbrev main_v184 : Ref sig .tc := ⟨.hbm, 261, rfl⟩
abbrev main_v185 : Ref sig .tc := ⟨.hbm, 262, rfl⟩
abbrev main_v186 : Ref sig .tc := ⟨.hbm, 263, rfl⟩
abbrev main_v187 : Ref sig .tc := ⟨.hbm, 264, rfl⟩
abbrev main_cst_49 : Ref sig .tc := ⟨.hbm, 265, rfl⟩
abbrev main_v188 : Ref sig .tc := ⟨.hbm, 266, rfl⟩
abbrev main_c_50 : Ref sig .tc := ⟨.hbm, 267, rfl⟩
abbrev main_v189 : Ref sig .tc := ⟨.hbm, 268, rfl⟩
abbrev main_v190 : Ref sig .tc := ⟨.hbm, 269, rfl⟩
abbrev main_v191 : Ref sig .tc := ⟨.hbm, 270, rfl⟩
abbrev main_c_51 : Ref sig .tc := ⟨.hbm, 271, rfl⟩
abbrev main_v192 : Ref sig .tc := ⟨.hbm, 272, rfl⟩
abbrev main_v193 : Ref sig .tc := ⟨.hbm, 273, rfl⟩
abbrev main_v194 : Ref sig .tc := ⟨.hbm, 274, rfl⟩
abbrev main_v195 : Ref sig .tc := ⟨.hbm, 275, rfl⟩
abbrev main_v196 : Ref sig .tc := ⟨.hbm, 276, rfl⟩
abbrev main_v197 : Ref sig .tc := ⟨.hbm, 277, rfl⟩
abbrev main_v198 : Ref sig .tc := ⟨.hbm, 278, rfl⟩
abbrev main_v199 : Ref sig .tc := ⟨.hbm, 279, rfl⟩
abbrev main_v200 : Ref sig .tc := ⟨.hbm, 280, rfl⟩
abbrev main_v201 : Ref sig .tc := ⟨.hbm, 281, rfl⟩
abbrev main_v202 : Ref sig .tc := ⟨.hbm, 282, rfl⟩
abbrev main_cst_52 : Ref sig .tc := ⟨.hbm, 283, rfl⟩
abbrev main_v203 : Ref sig .tc := ⟨.hbm, 284, rfl⟩
abbrev main_c_53 : Ref sig .tc := ⟨.hbm, 285, rfl⟩
abbrev main_v204 : Ref sig .tc := ⟨.hbm, 286, rfl⟩
abbrev main_v205 : Ref sig .tc := ⟨.hbm, 287, rfl⟩
abbrev main_c_54 : Ref sig .tc := ⟨.hbm, 288, rfl⟩
abbrev main_v206 : Ref sig .tc := ⟨.hbm, 289, rfl⟩
abbrev main_v207 : Ref sig .tc := ⟨.hbm, 290, rfl⟩
abbrev main_v208 : Ref sig .tc := ⟨.hbm, 291, rfl⟩
abbrev main_c_55 : Ref sig .tc := ⟨.hbm, 292, rfl⟩
abbrev main_v209 : Ref sig .tc := ⟨.hbm, 293, rfl⟩
abbrev main_v210 : Ref sig .tc := ⟨.hbm, 294, rfl⟩
abbrev main_c_56 : Ref sig .tc := ⟨.hbm, 295, rfl⟩
abbrev main_v211 : Ref sig .tc := ⟨.hbm, 296, rfl⟩
abbrev main_v212 : Ref sig .tc := ⟨.hbm, 297, rfl⟩
abbrev main_v213 : Ref sig .tc := ⟨.hbm, 298, rfl⟩
abbrev main_v214 : Ref sig .tc := ⟨.hbm, 299, rfl⟩
abbrev main_v215 : Ref sig .tc := ⟨.hbm, 300, rfl⟩
abbrev main_v216 : Ref sig .tc := ⟨.hbm, 301, rfl⟩
abbrev main_v217 : Ref sig .tc := ⟨.hbm, 302, rfl⟩
abbrev main_c_57 : Ref sig .tc := ⟨.hbm, 303, rfl⟩
abbrev main_v218 : Ref sig .tc := ⟨.hbm, 304, rfl⟩
abbrev main_v219 : Ref sig .tc := ⟨.hbm, 305, rfl⟩
abbrev main_v220 : Ref sig .tc := ⟨.hbm, 306, rfl⟩
abbrev main_c_58 : Ref sig .tc := ⟨.hbm, 307, rfl⟩
abbrev main_v221 : Ref sig .tc := ⟨.hbm, 308, rfl⟩
abbrev main_v222 : Ref sig .tc := ⟨.hbm, 309, rfl⟩
abbrev main_v223 : Ref sig .tc := ⟨.hbm, 310, rfl⟩
abbrev main_v224 : Ref sig .tc := ⟨.hbm, 311, rfl⟩
abbrev main_v225 : Ref sig .tc := ⟨.hbm, 312, rfl⟩
abbrev main_v226 : Ref sig .tc := ⟨.hbm, 313, rfl⟩
abbrev main_v227 : Ref sig .tc := ⟨.hbm, 314, rfl⟩
abbrev main_cst_59 : Ref sig .tc := ⟨.hbm, 315, rfl⟩
abbrev main_v228 : Ref sig .tc := ⟨.hbm, 316, rfl⟩
abbrev main_c_60 : Ref sig .tc := ⟨.hbm, 317, rfl⟩
abbrev main_v229 : Ref sig .tc := ⟨.hbm, 318, rfl⟩
abbrev main_v230 : Ref sig .tc := ⟨.hbm, 319, rfl⟩
abbrev main_v231 : Ref sig .tc := ⟨.hbm, 320, rfl⟩
abbrev main_c_61 : Ref sig .tc := ⟨.hbm, 321, rfl⟩
abbrev main_v232 : Ref sig .tc := ⟨.hbm, 322, rfl⟩
abbrev main_v233 : Ref sig .tc := ⟨.hbm, 323, rfl⟩
abbrev main_v234 : Ref sig .tc := ⟨.hbm, 324, rfl⟩
abbrev main_v235 : Ref sig .tc := ⟨.hbm, 325, rfl⟩
abbrev main_v236 : Ref sig .tc := ⟨.hbm, 326, rfl⟩
abbrev main_v237 : Ref sig .tc := ⟨.hbm, 327, rfl⟩
abbrev main_v238 : Ref sig .tc := ⟨.hbm, 328, rfl⟩
abbrev main_v239 : Ref sig .tc := ⟨.hbm, 329, rfl⟩
abbrev main_v240 : Ref sig .tc := ⟨.hbm, 330, rfl⟩
abbrev main_v241 : Ref sig .tc := ⟨.hbm, 331, rfl⟩
abbrev main_v242 : Ref sig .tc := ⟨.hbm, 332, rfl⟩
abbrev main_v243 : Ref sig .tc := ⟨.hbm, 333, rfl⟩

abbrev nD : Nat := 1
abbrev τ : Topo := Topo.v7x

variable {F : FTy → Type} [FloatOps F]

class Facts₀ : Prop where
  concatenates_S262144x12_S262144x12_S262144x24_d1 : Shape.Concatenates [S262144x12, S262144x12] S262144x24 1
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  reducesTo_S262144x128_S262144_d1 : S262144x128.ReducesTo [1] S262144
  h_S_ : 0 < S_.numel
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S262144x1_S262144x128_0_1 : S262144x1.BroadcastsInDim S262144x128 (![0, 1] : Fin 2 → Fin S262144x128.rank)
  bcast_S_S262144x128 : S_.BroadcastsInDim S262144x128 (![] : Fin 0 → Fin S262144x128.rank)
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  bcast_S_S262144x64 : S_.BroadcastsInDim S262144x64 (![] : Fin 0 → Fin S262144x64.rank)
  bcast_S144_S1x144_1 : S144.BroadcastsInDim S1x144 (![1] : Fin 1 → Fin S1x144.rank)
  bcast_S1x144_S262144x144_0_1 : S1x144.BroadcastsInDim S262144x144 (![0, 1] : Fin 2 → Fin S262144x144.rank)
  slices_S262144x144_S262144x12_0_0 : S262144x144.Slices ![0, 0] S262144x12
  slices_S262144x144_S262144x66_0_12 : S262144x144.Slices ![0, 12] S262144x66
  slices_S262144x144_S262144x66_0_78 : S262144x144.Slices ![0, 78] S262144x66
  bcast_S_S262144x12x12 : S_.BroadcastsInDim S262144x12x12 (![] : Fin 0 → Fin S262144x12x12.rank)
  bcast_S_S12 : S_.BroadcastsInDim S12 (![] : Fin 0 → Fin S12.rank)
  bcast_S12_S12x1_0 : S12.BroadcastsInDim S12x1 (![0] : Fin 1 → Fin S12x1.rank)
  concatenates_S12x1_S12x1_S12x2_d1 : Shape.Concatenates [S12x1, S12x1] S12x2 1
  bcast_S_S66 : S_.BroadcastsInDim S66 (![] : Fin 0 → Fin S66.rank)
  bcast_S66_S66x1_0 : S66.BroadcastsInDim S66x1 (![0] : Fin 1 → Fin S66x1.rank)
  concatenates_S66x1_S66x1_S66x2_d1 : Shape.Concatenates [S66x1, S66x1] S66x2 1
  bcast_S262144x12x12_S1x262144x12x12_1_2_3 : S262144x12x12.BroadcastsInDim S1x262144x12x12 (![1, 2, 3] : Fin 3 → Fin S1x262144x12x12.rank)
  concatenates_S1x262144x12x12_S1x262144x12x12_S1x262144x12x12_S1x262144x12x12_S4x262144x12x12_d0 : Shape.Concatenates [S1x262144x12x12, S1x262144x12x12, S1x262144x12x12, S1x262144x12x12] S4x262144x12x12 0
  dot_S262144x24_S24x128_S262144x128_1_0_0_1_n_n_wf : DotDims.WF S262144x24 S24x128 S262144x128 [1] [0] [0] [1] [] []
  dot_S262144x128_S128x128_S262144x128_1_0_0_1_n_n_wf : DotDims.WF S262144x128 S128x128 S262144x128 [1] [0] [0] [1] [] []
  dot_S262144x128_S128x64_S262144x64_1_0_0_1_n_n_wf : DotDims.WF S262144x128 S128x64 S262144x64 [1] [0] [0] [1] [] []
  dot_S262144x64_S64x144_S262144x144_1_0_0_1_n_n_wf : DotDims.WF S262144x64 S64x144 S262144x144 [1] [0] [0] [1] [] []
  scatter_S262144x12x12_S12x2_S262144x12_0_12_12_1_wf : ScatterDims.WF S262144x12x12 S12x2 S262144x12 [0] [1, 2] [1, 2] 1
  scatter_S262144x12x12_S66x2_S262144x66_0_12_12_1_wf : ScatterDims.WF S262144x12x12 S66x2 S262144x66 [0] [1, 2] [1, 2] 1

variable [Facts₀]

def dot_S262144x24_S24x128_S262144x128_1_0_0_1_n_n : DotDims S262144x24 S24x128 S262144x128 where
  lhsContracting := [1]
  rhsContracting := [0]
  lhsNonContracting := [0]
  rhsNonContracting := [1]
  lhsBatch := []
  rhsBatch := []
  wf := dot_S262144x24_S24x128_S262144x128_1_0_0_1_n_n_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def dot_S262144x128_S128x64_S262144x64_1_0_0_1_n_n : DotDims S262144x128 S128x64 S262144x64 where
  lhsContracting := [1]
  rhsContracting := [0]
  lhsNonContracting := [0]
  rhsNonContracting := [1]
  lhsBatch := []
  rhsBatch := []
  wf := dot_S262144x128_S128x64_S262144x64_1_0_0_1_n_n_wf
def dot_S262144x64_S64x144_S262144x144_1_0_0_1_n_n : DotDims S262144x64 S64x144 S262144x144 where
  lhsContracting := [1]
  rhsContracting := [0]
  lhsNonContracting := [0]
  rhsNonContracting := [1]
  lhsBatch := []
  rhsBatch := []
  wf := dot_S262144x64_S64x144_S262144x144_1_0_0_1_n_n_wf
def scatter_S262144x12x12_S12x2_S262144x12_0_12_12_1 : ScatterDims S262144x12x12 S12x2 S262144x12 where
  updateWindowDims := [0]
  insertedWindowDims := [1, 2]
  scatterDimsToOperandDims := [1, 2]
  indexVectorDim := 1
  wf := scatter_S262144x12x12_S12x2_S262144x12_0_12_12_1_wf
def scatter_S262144x12x12_S66x2_S262144x66_0_12_12_1 : ScatterDims S262144x12x12 S66x2 S262144x66 where
  updateWindowDims := [0]
  insertedWindowDims := [1, 2]
  scatterDimsToOperandDims := [1, 2]
  indexVectorDim := 1
  wf := scatter_S262144x12x12_S66x2_S262144x66_0_12_12_1_wf

class Facts : Prop extends Facts₀ where

variable [Facts]
-- ==== Proof.Mlp.lean ====
/-
  The function both programs compute, stated once, row by row, over the extended reals.

  Each of the 262144 rows x (24 numbers: twelve real parts followed by twelve imaginary parts) goes, for each of two
  parameter sets, through a small network: an affine map to 128 numbers, a layer normalisation (mean and mean squared
  deviation over the 128 numbers, divided by 128; the deviation times the reciprocal square root of variance + 1e-5,
  times a gain, plus a bias), a leaky rectifier (z for z ≥ 0, 0.1·z otherwise); the same three once more; an affine
  map to 64 numbers and the rectifier; and a last affine map to 144 numbers. Of those 144 numbers the first twelve are
  the diagonal of a 12×12 lower-triangular real part, the next 66 its strict lower triangle (in row-major order of the
  triangle), the last 66 the strict lower triangle of the imaginary part; every other entry is zero.

  The last affine map may equally be taken with its columns gathered and masked beforehand: column q of the gathered
  matrix is column src q of the matrix times a mask 0 or 1, and likewise the bias. For mask 1 that is the same number
  (x · 1 = x); for mask 0 every product is 0 and so is the sum (x · 0 = 0 on all extended reals), whatever x is:
  `affine_masked`. No finiteness is needed anywhere.
-/
import Idealize.ShloMosaic.PureOps.Ideal
import Idealize.ShloMosaic.Lib.ValueIdx

noncomputable section

namespace Cert.Mlp

open Idealize.ShloMosaic Idealize.ShloMosaic.ValueIdx
open scoped BigOperators

/-- 128 as a float: the divisor of both means. -/
abbrev width : EReal := Ideal.ofBits .f32 0x43000000#32
/-- The float nearest 1e-5, added to the variance. -/
abbrev eps : EReal := Ideal.ofBits .f32 0x3727C5AC#32
/-- The float nearest 0.1, the rectifier's slope below zero. -/
abbrev slope : EReal := Ideal.ofBits .f32 0x3DCCCCCD#32

/-- x ↦ x·W + b, one output coordinate. -/
def affine {K N : ℕ} (W : Fin K → Fin N → EReal) (b : Fin N → EReal) (x : Fin K → EReal) (j : Fin N) : EReal :=
  (∑ k, x k * W k j) + b j

/-- The leaky rectifier. -/
def leaky (z : EReal) : EReal := if (0 : EReal) ≤ z then z else slope * z

/-- The mean of 128 numbers: their sum divided by the float 128. -/
def mean (y : Fin 128 → EReal) : EReal := Ideal.div (∑ l, y l) width

/-- Layer normalisation of 128 numbers with gain g and bias be, one coordinate. -/
def layerNorm (g be y : Fin 128 → EReal) (j : Fin 128) : EReal :=
  (y j - mean y) * Ideal.rsqrt (Ideal.div (∑ l, (y l - mean y) * (y l - mean y)) width + eps) * g j + be j

/-- One hidden layer with normalisation: affine, normalise, rectify. -/
def hidden {K : ℕ} (W : Fin K → Fin 128 → EReal) (b g be : Fin 128 → EReal) (x : Fin K → EReal) (j : Fin 128) : EReal :=
  leaky (layerNorm g be (affine W b x) j)

/-- The network up to its 64 hidden numbers. -/
def trunk (W1 : Fin 24 → Fin 128 → EReal) (b1 g1 be1 : Fin 128 → EReal) (W2 : Fin 128 → Fin 128 → EReal)
    (b2 g2 be2 : Fin 128 → EReal) (W3 : Fin 128 → Fin 64 → EReal) (b3 : Fin 64 → EReal) (x : Fin 24 → EReal)
    (j : Fin 64) : EReal :=
  leaky (affine W3 b3 (hidden W2 b2 g2 be2 (hidden W1 b1 g1 be1 x)) j)

/-- The affine map with gathered, masked columns is the affine map's gathered column where the mask is one and zero
    where it is zero. -/
theorem affine_masked {K N M : ℕ} (W : Fin K → Fin N → EReal) (b : Fin N → EReal) (src : Fin M → Fin N)
    (v : Fin M → EReal) (hv : ∀ q, v q = 1 ∨ v q = 0) (x : Fin K → EReal) (q : Fin M) :
    affine (fun k q => W k (src q) * v q) (fun q => b (src q) * v q) x q
      = if v q = 1 then affine W b x (src q) else 0 := by
  unfold affine
  rcases hv q with h | h
  · simp only [h, mul_one, if_true]
  · have h1 : ¬ ((0 : EReal) = 1) := by exact zero_ne_one
    simp only [h, mul_zero, Finset.sum_const_zero, add_zero, h1, if_false]

/-- Where each of the 144 produced numbers goes in the real part: entry (i, i) takes number i; entry (i, j), j < i,
    takes number 12 + i(i−1)/2 + j; the entries above the diagonal take none. -/
def slotRe (i j : Fin 12) : Option (Fin 144) :=
  if i = j then some ⟨i.val % 144, Nat.mod_lt _ (by decide)⟩
  else if j < i then some ⟨(12 + (i.val * (i.val - 1) / 2 + j.val)) % 144, Nat.mod_lt _ (by decide)⟩
  else none

/-- The same for the imaginary part: entry (i, j), j < i, takes number 78 + i(i−1)/2 + j; all others none. -/
def slotIm (i j : Fin 12) : Option (Fin 144) :=
  if j < i then some ⟨(78 + (i.val * (i.val - 1) / 2 + j.val)) % 144, Nat.mod_lt _ (by decide)⟩ else none

/-- An entry is the number its slot names, or zero. -/
def place (slot : Option (Fin 144)) (f : Fin 144 → EReal) : EReal :=
  match slot with
  | some s => f s
  | none => 0

/-- A row of the concatenated input: twelve real parts, then twelve imaginary parts. -/
def xrow (re im : (⟨2, ![262144, 12]⟩ : Shape).Idx → EReal) (r : Fin 262144) (k : Fin 24) : EReal :=
  if h : k.val < 12 then re (ix2 r ⟨k.val, h⟩) else im (ix2 r ⟨k.val - 12, by omega⟩)

/-- A matrix array as a function of two coordinates. -/
abbrev mat {A B : ℕ} (w : (⟨2, ![A, B]⟩ : Shape).Idx → EReal) (a : Fin A) (b : Fin B) : EReal := w (ix2 a b)
/-- A vector array as a function of its coordinate. -/
abbrev vec {A : ℕ} (w : (⟨1, ![A]⟩ : Shape).Idx → EReal) (a : Fin A) : EReal := w (ix1 a)

/-- The 144 numbers of one row for one parameter set. -/
def factors (W1 : (⟨2, ![24, 128]⟩ : Shape).Idx → EReal) (b1 g1 be1 : (⟨1, ![128]⟩ : Shape).Idx → EReal)
    (W2 : (⟨2, ![128, 128]⟩ : Shape).Idx → EReal) (b2 g2 be2 : (⟨1, ![128]⟩ : Shape).Idx → EReal)
    (W3 : (⟨2, ![128, 64]⟩ : Shape).Idx → EReal) (b3 : (⟨1, ![64]⟩ : Shape).Idx → EReal)
    (W4 : (⟨2, ![64, 144]⟩ : Shape).Idx → EReal) (b4 : (⟨1, ![144]⟩ : Shape).Idx → EReal)
    (x : Fin 24 → EReal) (s : Fin 144) : EReal :=
  affine (mat W4) (vec b4) (trunk (mat W1) (vec b1) (vec g1) (vec be1) (mat W2) (vec b2) (vec g2) (vec be2) (mat W3) (vec b3) x) s

end Cert.Mlp

end
-- ==== Proof.RowOps.lean ====
/-
  Reading whole-array operations one row at a time.

  An array of shape [a, b] is a family of a rows of b numbers. Here: a column [a, 1] broadcast across b columns reads
  its row's one number; a vector [a] viewed as a column [a, 1] reads its coordinate; the sum along the second axis of
  an [a, b] array, at row r, is the sum of row r. With the library's reads of a one-row broadcast and of a matrix
  product these let every layer of the network be read row by row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx
open scoped BigOperators

variable {α : Type}

/-- A column [a, 1] broadcast to [a, b] reads, at (r, j), the column's entry of row r. -/
theorem broadcastTo_a1_ab_apply {a b : ℕ} (v : (⟨2, ![a, 1]⟩ : Shape).Idx → α)
    (h : (⟨2, ![a, 1]⟩ : Shape).Broadcasts ⟨2, ![a, b]⟩) (r : Fin a) (j : Fin b) :
    broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- A vector [a] viewed as a column [a, 1] reads, at (r, u), the vector at r. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- The sum along the second axis of an [a, b] array of extended reals, read at row r: the sum of the row. -/
theorem multiReduction_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ l : Fin b, src (ix2 r l) := by
  rw [Ideal.multiReduction_add_single]
  refine Finset.sum_congr rfl fun l _ => congrArg src (funext fun ax => Fin.ext ?_)
  match ax with
  | ⟨0, _⟩ => rfl
  | ⟨1, _⟩ => rfl

/-- The same for a sum of 32-bit floats started from the zero word, with the side proof spelt as a printed program
    spells it (an equation between the two zero words). -/
theorem multiReduction_rows_f32 {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (r : Fin a) :
    multiReduction .add [1] ⟨1, ![a]⟩ src 0x00000000#32 h hφ hacc (ix1 r) = ∑ l : Fin b, src (ix2 r l) :=
  multiReduction_rows src 0x00000000#32 h hφ hacc r

/-- The row sums as a column, as ONE function of the index: the column's entry at row i 0 is the sum of that row. -/
theorem rowSum_fun {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (hsc : (⟨1, ![a]⟩ : Shape).ShapeCasts ⟨2, ![a, 1]⟩) :
    shapeCast ⟨2, ![a, 1]⟩ (multiReduction .add [1] ⟨1, ![a]⟩ src 0x00000000#32 h hφ hacc) hsc
      = fun i => ∑ l : Fin b, src (ix2 (i 0) l) := by
  funext i
  obtain ⟨r, u, rfl⟩ : ∃ (r : Fin a) (u : Fin 1), i = ix2 r u := ⟨i 0, i 1, eq_ix2 i⟩
  rw [shapeCast_a_a1_apply, multiReduction_rows_f32]
  rfl

end Cert.RowOps

end
-- ==== Proof.KDots.lean ====
/-
  The idealized kernel's four matrix products, read at an index: a [2048, K] block of rows times a [K, B] weight
  matrix, accumulated into zero, is at (r, j) the sum over k of x(r, k) · w(k, j) — the contraction index is its one
  coordinate, and the operand indices are (r, k) and (k, j).
-/
import proofs.«138334_j60430189854928_2_alg».proof.Proof.Gen.KernelIdeal
import Idealize.ShloMosaic.PureOps.Ideal.Laws
import Idealize.ShloMosaic.Lib.ValueIdx

noncomputable section

namespace Cert.KernelIdeal.Dots

open Idealize.ShloMosaic Idealize.ShloMosaic.ValueIdx Cert.KernelIdeal
open scoped BigOperators

theorem lhs0_a (i : S2048x128.Idx) (q : dot_S2048x24_S24x128_S2048x128_1_0_0_1_n_n.contr.Idx) : (dot_S2048x24_S24x128_S2048x128_1_0_0_1_n_n.lhsIdx i q 0).val = (i 0).val := by
  unfold DotDims.lhsIdx
  rw [dif_neg (show ¬(0 : Fin S2048x24.rank) ∈ dot_S2048x24_S24x128_S2048x128_1_0_0_1_n_n.lhsBatch by decide), dif_pos (show (0 : Fin S2048x24.rank) ∈ dot_S2048x24_S24x128_S2048x128_1_0_0_1_n_n.lhsNonContracting by decide)]
  rfl
theorem lhs1_a (i : S2048x128.Idx) (q : dot_S2048x24_S24x128_S2048x128_1_0_0_1_n_n.contr.Idx) : (dot_S2048x24_S24x128_S2048x128_1_0_0_1_n_n.lhsIdx i q 1).val = (q ⟨0, by decide⟩).val :=
  dot_S2048x24_S24x128_S2048x128_1_0_0_1_n_n.lhsIdx_val_of_single rfl i q
theorem rhs0_a (i : S2048x128.Idx) (q : dot_S2048x24_S24x128_S2048x128_1_0_0_1_n_n.contr.Idx) : (dot_S2048x24_S24x128_S2048x128_1_0_0_1_n_n.rhsIdx i q 0).val = (q ⟨0, by decide⟩).val :=
  dot_S2048x24_S24x128_S2048x128_1_0_0_1_n_n.rhsIdx_val_of_single rfl i q
theorem rhs1_a (i : S2048x128.Idx) (q : dot_S2048x24_S24x128_S2048x128_1_0_0_1_n_n.contr.Idx) : (dot_S2048x24_S24x128_S2048x128_1_0_0_1_n_n.rhsIdx i q 1).val = (i 1).val := by
  unfold DotDims.rhsIdx
  rw [dif_neg (show ¬(1 : Fin S24x128.rank) ∈ dot_S2048x24_S24x128_S2048x128_1_0_0_1_n_n.rhsBatch by decide), dif_pos (show (1 : Fin S24x128.rank) ∈ dot_S2048x24_S24x128_S2048x128_1_0_0_1_n_n.rhsNonContracting by decide)]
  rfl
/-- The contraction of a [2048, 24] by a [24, 128] array, read at (r, j): the sum over k of the products. -/
theorem contract_a (x : S2048x24.Idx → EReal) (w : S24x128.Idx → EReal) (r : Fin 2048) (j : Fin 128) :
    ∑ q : dot_S2048x24_S24x128_S2048x128_1_0_0_1_n_n.contr.Idx, x (dot_S2048x24_S24x128_S2048x128_1_0_0_1_n_n.lhsIdx (ix2 r j) q) * w (dot_S2048x24_S24x128_S2048x128_1_0_0_1_n_n.rhsIdx (ix2 r j) q) = ∑ k : Fin 24, x (ix2 r k) * w (ix2 k j) := by
  rw [← Equiv.sum_comp (ValueIdx.contrEquiv1 dot_S2048x24_S24x128_S2048x128_1_0_0_1_n_n 24 rfl rfl).symm]
  refine Finset.sum_congr rfl fun k _ => ?_
  have hk := ValueIdx.contrEquiv1_symm_val dot_S2048x24_S24x128_S2048x128_1_0_0_1_n_n 24 rfl rfl k
  have el : dot_S2048x24_S24x128_S2048x128_1_0_0_1_n_n.lhsIdx (ix2 r j) ((ValueIdx.contrEquiv1 dot_S2048x24_S24x128_S2048x128_1_0_0_1_n_n 24 rfl rfl).symm k) = ix2 r k := funext fun a => Fin.ext (by
    match a with
    | ⟨0, _⟩ => exact lhs0_a _ _
    | ⟨1, _⟩ => exact (lhs1_a _ _).trans hk)
  have er : dot_S2048x24_S24x128_S2048x128_1_0_0_1_n_n.rhsIdx (ix2 r j) ((ValueIdx.contrEquiv1 dot_S2048x24_S24x128_S2048x128_1_0_0_1_n_n 24 rfl rfl).symm k) = ix2 k j := funext fun a => Fin.ext (by
    match a with
    | ⟨0, _⟩ => exact (rhs0_a _ _).trans hk
    | ⟨1, _⟩ => exact rhs1_a _ _)
  rw [el, er]

/-- The block's matrix product into a zero accumulator at (r, j). -/
theorem matmul_a {φ₁ φ₂ : FTy} (x : FVec Ideal S2048x24 φ₁) (w : FVec Ideal S24x128 φ₂) (r : Fin 2048) (j : Fin 128) :
    matmul dot_S2048x24_S24x128_S2048x128_1_0_0_1_n_n none x w (constant S2048x128 .f32 0x00000000#32) (ix2 r j) = ∑ k : Fin 24, x (ix2 r k) * w (ix2 k j) := by
  simp only [matmul]
  rw [Ideal.matmul_constant_zero_apply]
  exact contract_a x w r j

theorem lhs0_b (i : S2048x128.Idx) (q : dot_S2048x128_S128x128_S2048x128_1_0_0_1_n_n.contr.Idx) : (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem lhs1_b (i : S2048x128.Idx) (q : dot_S2048x128_S128x128_S2048x128_1_0_0_1_n_n.contr.Idx) : (dot_S2048x128_S128x128_S2048x128_1_0_0_1_n_n.lhsIdx i q 1).val = (q ⟨0, by decide⟩).val :=
  dot_S2048x128_S128x128_S2048x128_1_0_0_1_n_n.lhsIdx_val_of_single rfl i q
theorem rhs0_b (i : S2048x128.Idx) (q : dot_S2048x128_S128x128_S2048x128_1_0_0_1_n_n.contr.Idx) : (dot_S2048x128_S128x128_S2048x128_1_0_0_1_n_n.rhsIdx i q 0).val = (q ⟨0, by decide⟩).val :=
  dot_S2048x128_S128x128_S2048x128_1_0_0_1_n_n.rhsIdx_val_of_single rfl i q
theorem rhs1_b (i : S2048x128.Idx) (q : dot_S2048x128_S128x128_S2048x128_1_0_0_1_n_n.contr.Idx) : (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl
/-- The contraction of a [2048, 128] by a [128, 128] array, read at (r, j): the sum over k of the products. -/
theorem contract_b (x : S2048x128.Idx → EReal) (w : S128x128.Idx → EReal) (r : Fin 2048) (j : Fin 128) :
    ∑ q : dot_S2048x128_S128x128_S2048x128_1_0_0_1_n_n.contr.Idx, x (dot_S2048x128_S128x128_S2048x128_1_0_0_1_n_n.lhsIdx (ix2 r j) q) * w (dot_S2048x128_S128x128_S2048x128_1_0_0_1_n_n.rhsIdx (ix2 r j) q) = ∑ k : Fin 128, x (ix2 r k) * w (ix2 k j) := by
  rw [← Equiv.sum_comp (ValueIdx.contrEquiv1 dot_S2048x128_S128x128_S2048x128_1_0_0_1_n_n 128 rfl rfl).symm]
  refine Finset.sum_congr rfl fun k _ => ?_
  have hk := ValueIdx.contrEquiv1_symm_val dot_S2048x128_S128x128_S2048x128_1_0_0_1_n_n 128 rfl rfl k
  have el : dot_S2048x128_S128x128_S2048x128_1_0_0_1_n_n.lhsIdx (ix2 r j) ((ValueIdx.contrEquiv1 dot_S2048x128_S128x128_S2048x128_1_0_0_1_n_n 128 rfl rfl).symm k) = ix2 r k := funext fun a => Fin.ext (by
    match a with
    | ⟨0, _⟩ => exact lhs0_b _ _
    | ⟨1, _⟩ => exact (lhs1_b _ _).trans hk)
  have er : dot_S2048x128_S128x128_S2048x128_1_0_0_1_n_n.rhsIdx (ix2 r j) ((ValueIdx.contrEquiv1 dot_S2048x128_S128x128_S2048x128_1_0_0_1_n_n 128 rfl rfl).symm k) = ix2 k j := funext fun a => Fin.ext (by
    match a with
    | ⟨0, _⟩ => exact (rhs0_b _ _).trans hk
    | ⟨1, _⟩ => exact rhs1_b _ _)
  rw [el, er]

/-- The block's matrix product into a zero accumulator at (r, j). -/
theorem matmul_b {φ₁ φ₂ : FTy} (x : FVec Ideal S2048x128 φ₁) (w : FVec Ideal S128x128 φ₂) (r : Fin 2048) (j : Fin 128) :
    matmul dot_S2048x128_S128x128_S2048x128_1_0_0_1_n_n none x w (constant S2048x128 .f32 0x00000000#32) (ix2 r j) = ∑ k : Fin 128, x (ix2 r k) * w (ix2 k j) := by
  simp only [matmul]
  rw [Ideal.matmul_constant_zero_apply]
  exact contract_b x w r j

theorem lhs0_c (i : S2048x64.Idx) (q : dot_S2048x128_S128x64_S2048x64_1_0_0_1_n_n.contr.Idx) : (dot_S2048x128_S128x64_S2048x64_1_0_0_1_n_n.lhsIdx i q 0).val = (i 0).val := by
  unfold DotDims.lhsIdx
  rw [dif_neg (show ¬(0 : Fin S2048x128.rank) ∈ dot_S2048x128_S128x64_S2048x64_1_0_0_1_n_n.lhsBatch by decide), dif_pos (show (0 : Fin S2048x128.rank) ∈ dot_S2048x128_S128x64_S2048x64_1_0_0_1_n_n.lhsNonContracting by decide)]
  rfl
theorem lhs1_c (i : S2048x64.Idx) (q : dot_S2048x128_S128x64_S2048x64_1_0_0_1_n_n.contr.Idx) : (dot_S2048x128_S128x64_S2048x64_1_0_0_1_n_n.lhsIdx i q 1).val = (q ⟨0, by decide⟩).val :=
  dot_S2048x128_S128x64_S2048x64_1_0_0_1_n_n.lhsIdx_val_of_single rfl i q
theorem rhs0_c (i : S2048x64.Idx) (q : dot_S2048x128_S128x64_S2048x64_1_0_0_1_n_n.contr.Idx) : (dot_S2048x128_S128x64_S2048x64_1_0_0_1_n_n.rhsIdx i q 0).val = (q ⟨0, by decide⟩).val :=
  dot_S2048x128_S128x64_S2048x64_1_0_0_1_n_n.rhsIdx_val_of_single rfl i q
theorem rhs1_c (i : S2048x64.Idx) (q : dot_S2048x128_S128x64_S2048x64_1_0_0_1_n_n.contr.Idx) : (dot_S2048x128_S128x64_S2048x64_1_0_0_1_n_n.rhsIdx i q 1).val = (i 1).val := by
  unfold DotDims.rhsIdx
  rw [dif_neg (show ¬(1 : Fin S128x64.rank) ∈ dot_S2048x128_S128x64_S2048x64_1_0_0_1_n_n.rhsBatch by decide), dif_pos (show (1 : Fin S128x64.rank) ∈ dot_S2048x128_S128x64_S2048x64_1_0_0_1_n_n.rhsNonContracting by decide)]
  rfl
/-- The contraction of a [2048, 128] by a [128, 64] array, read at (r, j): the sum over k of the products. -/
theorem contract_c (x : S2048x128.Idx → EReal) (w : S128x64.Idx → EReal) (r : Fin 2048) (j : Fin 64) :
    ∑ q : dot_S2048x128_S128x64_S2048x64_1_0_0_1_n_n.contr.Idx, x (dot_S2048x128_S128x64_S2048x64_1_0_0_1_n_n.lhsIdx (ix2 r j) q) * w (dot_S2048x128_S128x64_S2048x64_1_0_0_1_n_n.rhsIdx (ix2 r j) q) = ∑ k : Fin 128, x (ix2 r k) * w (ix2 k j) := by
  rw [← Equiv.sum_comp (ValueIdx.contrEquiv1 dot_S2048x128_S128x64_S2048x64_1_0_0_1_n_n 128 rfl rfl).symm]
  refine Finset.sum_congr rfl fun k _ => ?_
  have hk := ValueIdx.contrEquiv1_symm_val dot_S2048x128_S128x64_S2048x64_1_0_0_1_n_n 128 rfl rfl k
  have el : dot_S2048x128_S128x64_S2048x64_1_0_0_1_n_n.lhsIdx (ix2 r j) ((ValueIdx.contrEquiv1 dot_S2048x128_S128x64_S2048x64_1_0_0_1_n_n 128 rfl rfl).symm k) = ix2 r k := funext fun a => Fin.ext (by
    match a with
    | ⟨0, _⟩ => exact lhs0_c _ _
    | ⟨1, _⟩ => exact (lhs1_c _ _).trans hk)
  have er : dot_S2048x128_S128x64_S2048x64_1_0_0_1_n_n.rhsIdx (ix2 r j) ((ValueIdx.contrEquiv1 dot_S2048x128_S128x64_S2048x64_1_0_0_1_n_n 128 rfl rfl).symm k) = ix2 k j := funext fun a => Fin.ext (by
    match a with
    | ⟨0, _⟩ => exact (rhs0_c _ _).trans hk
    | ⟨1, _⟩ => exact rhs1_c _ _)
  rw [el, er]

/-- The block's matrix product into a zero accumulator at (r, j). -/
theorem matmul_c {φ₁ φ₂ : FTy} (x : FVec Ideal S2048x128 φ₁) (w : FVec Ideal S128x64 φ₂) (r : Fin 2048) (j : Fin 64) :
    matmul dot_S2048x128_S128x64_S2048x64_1_0_0_1_n_n none x w (constant S2048x64 .f32 0x00000000#32) (ix2 r j) = ∑ k : Fin 128, x (ix2 r k) * w (ix2 k j) := by
  simp only [matmul]
  rw [Ideal.matmul_constant_zero_apply]
  exact contract_c x w r j

theorem lhs0_d (i : S2048x144.Idx) (q : dot_S2048x64_S64x144_S2048x144_1_0_0_1_n_n.contr.Idx) : (dot_S2048x64_S64x144_S2048x144_1_0_0_1_n_n.lhsIdx i q 0).val = (i 0).val := by
  unfold DotDims.lhsIdx
  rw [dif_neg (show ¬(0 : Fin S2048x64.rank) ∈ dot_S2048x64_S64x144_S2048x144_1_0_0_1_n_n.lhsBatch by decide), dif_pos (show (0 : Fin S2048x64.rank) ∈ dot_S2048x64_S64x144_S2048x144_1_0_0_1_n_n.lhsNonContracting by decide)]
  rfl
theorem lhs1_d (i : S2048x144.Idx) (q : dot_S2048x64_S64x144_S2048x144_1_0_0_1_n_n.contr.Idx) : (dot_S2048x64_S64x144_S2048x144_1_0_0_1_n_n.lhsIdx i q 1).val = (q ⟨0, by decide⟩).val :=
  dot_S2048x64_S64x144_S2048x144_1_0_0_1_n_n.lhsIdx_val_of_single rfl i q
theorem rhs0_d (i : S2048x144.Idx) (q : dot_S2048x64_S64x144_S2048x144_1_0_0_1_n_n.contr.Idx) : (dot_S2048x64_S64x144_S2048x144_1_0_0_1_n_n.rhsIdx i q 0).val = (q ⟨0, by decide⟩).val :=
  dot_S2048x64_S64x144_S2048x144_1_0_0_1_n_n.rhsIdx_val_of_single rfl i q
theorem rhs1_d (i : S2048x144.Idx) (q : dot_S2048x64_S64x144_S2048x144_1_0_0_1_n_n.contr.Idx) : (dot_S2048x64_S64x144_S2048x144_1_0_0_1_n_n.rhsIdx i q 1).val = (i 1).val := by
  unfold DotDims.rhsIdx
  rw [dif_neg (show ¬(1 : Fin S64x144.rank) ∈ dot_S2048x64_S64x144_S2048x144_1_0_0_1_n_n.rhsBatch by decide), dif_pos (show (1 : Fin S64x144.rank) ∈ dot_S2048x64_S64x144_S2048x144_1_0_0_1_n_n.rhsNonContracting by decide)]
  rfl
/-- The contraction of a [2048, 64] by a [64, 144] array, read at (r, j): the sum over k of the products. -/
theorem contract_d (x : S2048x64.Idx → EReal) (w : S64x144.Idx → EReal) (r : Fin 2048) (j : Fin 144) :
    ∑ q : dot_S2048x64_S64x144_S2048x144_1_0_0_1_n_n.contr.Idx, x (dot_S2048x64_S64x144_S2048x144_1_0_0_1_n_n.lhsIdx (ix2 r j) q) * w (dot_S2048x64_S64x144_S2048x144_1_0_0_1_n_n.rhsIdx (ix2 r j) q) = ∑ k : Fin 64, x (ix2 r k) * w (ix2 k j) := by
  rw [← Equiv.sum_comp (ValueIdx.contrEquiv1 dot_S2048x64_S64x144_S2048x144_1_0_0_1_n_n 64 rfl rfl).symm]
  refine Finset.sum_congr rfl fun k _ => ?_
  have hk := ValueIdx.contrEquiv1_symm_val dot_S2048x64_S64x144_S2048x144_1_0_0_1_n_n 64 rfl rfl k
  have el : dot_S2048x64_S64x144_S2048x144_1_0_0_1_n_n.lhsIdx (ix2 r j) ((ValueIdx.contrEquiv1 dot_S2048x64_S64x144_S2048x144_1_0_0_1_n_n 64 rfl rfl).symm k) = ix2 r k := funext fun a => Fin.ext (by
    match a with
    | ⟨0, _⟩ => exact lhs0_d _ _
    | ⟨1, _⟩ => exact (lhs1_d _ _).trans hk)
  have er : dot_S2048x64_S64x144_S2048x144_1_0_0_1_n_n.rhsIdx (ix2 r j) ((ValueIdx.contrEquiv1 dot_S2048x64_S64x144_S2048x144_1_0_0_1_n_n 64 rfl rfl).symm k) = ix2 k j := funext fun a => Fin.ext (by
    match a with
    | ⟨0, _⟩ => exact (rhs0_d _ _).trans hk
    | ⟨1, _⟩ => exact rhs1_d _ _)
  rw [el, er]

/-- The block's matrix product into a zero accumulator at (r, j). -/
theorem matmul_d {φ₁ φ₂ : FTy} (x : FVec Ideal S2048x64 φ₁) (w : FVec Ideal S64x144 φ₂) (r : Fin 2048) (j : Fin 144) :
    matmul dot_S2048x64_S64x144_S2048x144_1_0_0_1_n_n none x w (constant S2048x144 .f32 0x00000000#32) (ix2 r j) = ∑ k : Fin 64, x (ix2 r k) * w (ix2 k j) := by
  simp only [matmul]
  rw [Ideal.matmul_constant_zero_apply]
  exact contract_d x w r j

end Cert.KernelIdeal.Dots

end
-- ==== Proof.KRows.lean ====
/-
  The idealized kernel's body, read row by row.

  The body works on a block of 2048 rows at once; every one of its operations acts on each row separately, so each
  named intermediate value of the body, read at row r, is the corresponding layer of the network applied to row r of
  the input block: the first affine map, the row's mean and summed squared deviation, the normalised and rectified
  first hidden layer fed through the second affine map and normalisation, the rectified 64 hidden numbers, and at last
  the 144 outputs. Format changes are the identity on extended reals, a matrix product into zero is the plain sum of
  products, a lane reduction is the row's sum, and comparing with zero and selecting is the rectifier.
-/
import proofs.«138334_j60430189854928_2_alg».proof.Proof.Gen.KernelIdeal.Skeleton
import proofs.«138334_j60430189854928_2_alg».proof.Proof.Mlp
import proofs.«138334_j60430189854928_2_alg».proof.Proof.RowOps
import proofs.«138334_j60430189854928_2_alg».proof.Proof.KDots

noncomputable section

namespace Cert.KernelIdeal.Rows

open Idealize.ShloMosaic Idealize.ShloMosaic.ValueIdx Cert.KernelIdeal Cert.KernelIdeal.Gen Cert.KernelIdeal.Dots Cert.Mlp Cert.RowOps
open scoped BigOperators

/-- Row r of a block of 2048 rows. -/
abbrev rowOf {n : ℕ} (X : (⟨2, ![2048, n]⟩ : Shape).Idx → EReal) (r : Fin 2048) : Fin n → EReal := fun k => X (ix2 r k)
/-- The one row of a [1, n] array. -/
abbrev only {n : ℕ} (v : (⟨2, ![1, n]⟩ : Shape).Idx → EReal) : Fin n → EReal := fun j => v (ix2 (0 : Fin 1) j)

theorem rsqrt_apply {s : Shape} {φ : FTy} (a : FVec Ideal s φ) (i : s.Idx) : rsqrt a i = Ideal.rsqrt (a i) := rfl

/-- Comparing with zero and selecting between z and 0.1·z is the rectifier. -/
theorem select_leaky (z : EReal) :
    Scalar.select (FloatOps.cmpf (F := Ideal) (φ := .f32) .oge z (Scalar.ofBits .f32 0x00000000#32)) z
      ((Scalar.ofBits (F := Ideal) .f32 0x3DCCCCCD#32 : EReal) * z) = leaky z := by
  unfold leaky
  show Scalar.select (Ideal.cmp .oge z (Ideal.ofBits .f32 0x00000000#32)) z (slope * z) = _
  rw [Ideal.ofBits_zero_f32]
  unfold Ideal.cmp
  by_cases h : (0 : EReal) ≤ z
  · simp [h, Scalar.select]
  · simp [h, Scalar.select]

theorem pay11_apply (v0 : Vec Ideal S2048x24 .f32) (v2 : Vec Ideal S24x128 .f32) (v3 : Vec Ideal S1x128 .f32) (r : Fin 2048) (j : Fin 128) :
    k0_pay11 v0 v2 v3 (ix2 r j) = affine (mat v2) (only v3) (rowOf v0 r) j := by
  unfold k0_pay11 k0_pay4
  simp only [shapeCast_self]
  rw [addf_apply, matmul_a, broadcastTo_1b_ab_apply]
  rfl

theorem pay12_apply (v0 : Vec Ideal S2048x24 .f32) (v2 : Vec Ideal S24x128 .f32) (v3 : Vec Ideal S1x128 .f32) (r : Fin 2048) (u : Fin 1) :
    k0_pay12 v0 v2 v3 (ix2 r u) = mean (rowOf (k0_pay11 v0 v2 v3) r) := by
  unfold k0_pay12 mean
  rw [divf_apply, shapeCast_a_a1_apply, multiReduction_rows_f32]
  rfl

theorem pay13_apply (v0 : Vec Ideal S2048x24 .f32) (v2 : Vec Ideal S24x128 .f32) (v3 : Vec Ideal S1x128 .f32) (r : Fin 2048) (u : Fin 1) :
    k0_pay13 v0 v2 v3 (ix2 r u)
      = ∑ l : Fin 128, (k0_pay11 v0 v2 v3 (ix2 r l) - k0_pay12 v0 v2 v3 (ix2 r (0 : Fin 1))) * (k0_pay11 v0 v2 v3 (ix2 r l) - k0_pay12 v0 v2 v3 (ix2 r (0 : Fin 1))) := by
  unfold k0_pay13
  rw [shapeCast_a_a1_apply, multiReduction_rows_f32]
  refine Finset.sum_congr rfl fun l _ => ?_
  rw [mulf_apply, subf_apply, broadcastTo_a1_ab_apply]

/-- The normalised, rectified first hidden layer from its three ingredients (values y, their mean, their summed squared
    deviation), fed through the second affine map and normalisation. -/
theorem pay14_apply (v6 v8 : FVec Ideal S1x128 .f32) (v9 : Vec Ideal S128x128 .f32) (v11 v13 v15 : FVec Ideal S1x128 .f32)
    (v23 : FVec Ideal S2048x128 .f32) (v27 v32 : FVec Ideal S2048x1 .f32) (r : Fin 2048) (j : Fin 128) :
    k0_pay14 v6 v8 v9 v11 v13 v15 v23 v27 v32 (ix2 r j)
      = layerNorm (only v13) (only v15) (affine (mat v9) (only v11) (fun l => leaky
          ((v23 (ix2 r l) - v27 (ix2 r (0 : Fin 1))) * Ideal.rsqrt (Ideal.div (v32 (ix2 r (0 : Fin 1))) width + eps) * v6 (ix2 (0 : Fin 1) l)
            + v8 (ix2 (0 : Fin 1) l)))) j := by
  unfold k0_pay14 layerNorm mean affine
  dsimp only
  rw [rowSum_fun, rowSum_fun]
  simp only [addf_apply, mulf_apply, subf_apply, divf_apply, rsqrt_apply, select_apply, cmpf_apply, broadcast_apply,
    broadcastTo_1b_ab_apply, broadcastTo_a1_ab_apply, matmul_b, truncf_apply, select_leaky]
  rfl

/-- The third affine map and its rectifier, from the second Mlp.hidden layer's values, their comparison with zero and the
    slope splat. -/
theorem pay17_apply (v16 : Vec Ideal S128x64 .f32) (v18 : FVec Ideal S1x64 .f32) (v77 : FVec Ideal S2048x128 .f32)
    (v79 : IVec S2048x128 1) (v80 : FVec Ideal S2048x128 .f32) (r : Fin 2048) (k : Fin 64) :
    k0_pay17 v16 v18 v77 v79 v80 (ix2 r k)
      = leaky (affine (mat v16) (only v18)
          (fun l => Scalar.select (v79 (ix2 r l)) (v77 (ix2 r l)) (v80 (ix2 r l) * v77 (ix2 r l))) k) := by
  unfold k0_pay17 affine
  simp only [addf_apply, mulf_apply, select_apply, cmpf_apply, broadcast_apply, broadcastTo_1b_ab_apply, matmul_c, truncf_apply,
    select_leaky]

/-- The last affine map onto the 144 outputs, stored with a leading unit axis. -/
theorem pay18_apply (v16 : Vec Ideal S128x64 .f32) (v18 : FVec Ideal S1x64 .f32) (v77 : FVec Ideal S2048x128 .f32)
    (v79 : IVec S2048x128 1) (v80 : FVec Ideal S2048x128 .f32) (v93 : Vec Ideal S64x144 .f32) (v98 : Vec Ideal S1x144 .f32)
    (u : Fin 1) (r : Fin 2048) (p : Fin 144) :
    k0_pay18 v16 v18 v77 v79 v80 v93 v98 (ix3 u r p) = affine (mat v93) (only v98) (rowOf (k0_pay17 v16 v18 v77 v79 v80) r) p := by
  unfold k0_pay18 affine
  simp only [shapeCast_self]
  rw [shapeCast_ab_1ab_apply, addf_apply, matmul_d, broadcastTo_1b_ab_apply]
  rfl

theorem pay19_apply (v16 : Vec Ideal S128x64 .f32) (v18 : FVec Ideal S1x64 .f32) (v77 : FVec Ideal S2048x128 .f32)
    (v79 : IVec S2048x128 1) (v80 : FVec Ideal S2048x128 .f32) (v105 : Vec Ideal S64x144 .f32) (v110 : Vec Ideal S1x144 .f32)
    (u : Fin 1) (r : Fin 2048) (p : Fin 144) :
    k0_pay19 v16 v18 v77 v79 v80 v105 v110 (ix3 u r p) = affine (mat v105) (only v110) (rowOf (k0_pay17 v16 v18 v77 v79 v80) r) p := by
  unfold k0_pay19 affine
  simp only [shapeCast_self]
  rw [shapeCast_ab_1ab_apply, addf_apply, matmul_d, broadcastTo_1b_ab_apply]
  rfl

/-- The first Mlp.hidden layer, from the first affine map's values, their row mean and summed squared deviation. -/
theorem hidden1C (x0 : Vec Ideal S2048x24 .f32) (x1 : Vec Ideal S24x128 .f32) (x2 x3 x4 : Vec Ideal S1x128 .f32) (r : Fin 2048) (l : Fin 128) :
    leaky ((k0_pay11 x0 x1 x2 (ix2 r l) - k0_pay12 x0 x1 x2 (ix2 r (0 : Fin 1)))
        * Ideal.rsqrt (Ideal.div (k0_pay13 x0 x1 x2 (ix2 r (0 : Fin 1))) width + eps) * k0_pay5 x3 (ix2 (0 : Fin 1) l)
        + k0_pay6 x4 (ix2 (0 : Fin 1) l))
      = Mlp.hidden (mat x1) (only x2) (only x3) (only x4) (rowOf x0 r) l := by
  unfold Mlp.hidden layerNorm
  rw [pay13_apply, pay12_apply]
  simp only [pay11_apply]
  rw [show rowOf (k0_pay11 x0 x1 x2) r = affine (mat x1) (only x2) (rowOf x0 r) from funext fun l => pay11_apply x0 x1 x2 r l]
  unfold k0_pay5 k0_pay6
  simp only [shapeCast_self]

/-- The 64 Mlp.hidden numbers of the first parameter set, row by row. -/
theorem trunkC (x0 : Vec Ideal S2048x24 .f32) (x1 : Vec Ideal S24x128 .f32) (x2 x3 x4 : Vec Ideal S1x128 .f32)
    (x5 : Vec Ideal S128x128 .f32) (x6 x7 x8 : Vec Ideal S1x128 .f32) (x9 : Vec Ideal S128x64 .f32) (x10 : Vec Ideal S1x64 .f32)
    (r : Fin 2048) (k : Fin 64) :
    k0_pay17 x9 (k0_pay10 x10)
        (k0_pay14 (k0_pay5 x3) (k0_pay6 x4) x5 (k0_pay7 x6) (k0_pay8 x7) (k0_pay9 x8) (k0_pay11 x0 x1 x2) (k0_pay12 x0 x1 x2) (k0_pay13 x0 x1 x2))
        (k0_pay15 (k0_pay5 x3) (k0_pay6 x4) x5 (k0_pay7 x6) (k0_pay8 x7) (k0_pay9 x8) (k0_pay11 x0 x1 x2) (k0_pay12 x0 x1 x2) (k0_pay13 x0 x1 x2))
        (k0_pay16 (F := Ideal)) (ix2 r k)
      = trunk (mat x1) (only x2) (only x3) (only x4) (mat x5) (only x6) (only x7) (only x8) (mat x9) (only x10) (rowOf x0 r) k := by
  rw [pay17_apply]
  unfold trunk
  have hsel : ∀ l : Fin 128,
      Scalar.select
          (k0_pay15 (k0_pay5 x3) (k0_pay6 x4) x5 (k0_pay7 x6) (k0_pay8 x7) (k0_pay9 x8) (k0_pay11 x0 x1 x2) (k0_pay12 x0 x1 x2) (k0_pay13 x0 x1 x2) (ix2 r l))
          (k0_pay14 (k0_pay5 x3) (k0_pay6 x4) x5 (k0_pay7 x6) (k0_pay8 x7) (k0_pay9 x8) (k0_pay11 x0 x1 x2) (k0_pay12 x0 x1 x2) (k0_pay13 x0 x1 x2) (ix2 r l))
          (k0_pay16 (F := Ideal) (ix2 r l) * k0_pay14 (k0_pay5 x3) (k0_pay6 x4) x5 (k0_pay7 x6) (k0_pay8 x7) (k0_pay9 x8) (k0_pay11 x0 x1 x2) (k0_pay12 x0 x1 x2) (k0_pay13 x0 x1 x2) (ix2 r l))
        = Mlp.hidden (mat x5) (only x6) (only x7) (only x8) (Mlp.hidden (mat x1) (only x2) (only x3) (only x4) (rowOf x0 r)) l := by
    intro l
    refine (select_leaky _).trans ?_
    rw [pay14_apply]
    simp only [hidden1C]
    unfold Mlp.hidden k0_pay7 k0_pay8 k0_pay9
    simp only [shapeCast_self]
  simp only [hsel]
  unfold k0_pay10
  simp only [shapeCast_self]

/-- The real-part outputs of the first parameter set. -/
theorem headC_re (x0 : Vec Ideal S2048x24 .f32) (x1 : Vec Ideal S24x128 .f32) (x2 x3 x4 : Vec Ideal S1x128 .f32)
    (x5 : Vec Ideal S128x128 .f32) (x6 x7 x8 : Vec Ideal S1x128 .f32) (x9 : Vec Ideal S128x64 .f32) (x10 : Vec Ideal S1x64 .f32)
    (x11 : Vec Ideal S64x144 .f32) (x12 : Vec Ideal S1x144 .f32) (r : Fin 2048) (p : Fin 144) :
    k0_pay18 x9 (k0_pay10 x10)
        (k0_pay14 (k0_pay5 x3) (k0_pay6 x4) x5 (k0_pay7 x6) (k0_pay8 x7) (k0_pay9 x8) (k0_pay11 x0 x1 x2) (k0_pay12 x0 x1 x2) (k0_pay13 x0 x1 x2))
        (k0_pay15 (k0_pay5 x3) (k0_pay6 x4) x5 (k0_pay7 x6) (k0_pay8 x7) (k0_pay9 x8) (k0_pay11 x0 x1 x2) (k0_pay12 x0 x1 x2) (k0_pay13 x0 x1 x2))
        (k0_pay16 (F := Ideal)) x11 x12 (ix3 (0 : Fin 1) r p)
      = affine (mat x11) (only x12)
          (trunk (mat x1) (only x2) (only x3) (only x4) (mat x5) (only x6) (only x7) (only x8) (mat x9) (only x10) (rowOf x0 r)) p := by
  rw [pay18_apply]
  exact congrArg (fun h => affine (mat x11) (only x12) h p) (funext fun k => trunkC x0 x1 x2 x3 x4 x5 x6 x7 x8 x9 x10 r k)

/-- The imaginary-part outputs of the first parameter set. -/
theorem headC_im (x0 : Vec Ideal S2048x24 .f32) (x1 : Vec Ideal S24x128 .f32) (x2 x3 x4 : Vec Ideal S1x128 .f32)
    (x5 : Vec Ideal S128x128 .f32) (x6 x7 x8 : Vec Ideal S1x128 .f32) (x9 : Vec Ideal S128x64 .f32) (x10 : Vec Ideal S1x64 .f32)
    (x13 : Vec Ideal S64x144 .f32) (x14 : Vec Ideal S1x144 .f32) (r : Fin 2048) (p : Fin 144) :
    k0_pay19 x9 (k0_pay10 x10)
        (k0_pay14 (k0_pay5 x3) (k0_pay6 x4) x5 (k0_pay7 x6) (k0_pay8 x7) (k0_pay9 x8) (k0_pay11 x0 x1 x2) (k0_pay12 x0 x1 x2) (k0_pay13 x0 x1 x2))
        (k0_pay15 (k0_pay5 x3) (k0_pay6 x4) x5 (k0_pay7 x6) (k0_pay8 x7) (k0_pay9 x8) (k0_pay11 x0 x1 x2) (k0_pay12 x0 x1 x2) (k0_pay13 x0 x1 x2))
        (k0_pay16 (F := Ideal)) x13 x14 (ix3 (0 : Fin 1) r p)
      = affine (mat x13) (only x14)
          (trunk (mat x1) (only x2) (only x3) (only x4) (mat x5) (only x6) (only x7) (only x8) (mat x9) (only x10) (rowOf x0 r)) p := by
  rw [pay19_apply]
  exact congrArg (fun h => affine (mat x13) (only x14) h p) (funext fun k => trunkC x0 x1 x2 x3 x4 x5 x6 x7 x8 x9 x10 r k)

/-! ### The second parameter set: the same layers, cut into named values at other places -/

theorem pay26_apply (v1 : FVec Ideal S2048x24 .f32) (v117 : Vec Ideal S24x128 .f32) (v118 : Vec Ideal S1x128 .f32) (r : Fin 2048) (j : Fin 128) :
    k0_pay26 v1 v117 v118 (ix2 r j) = affine (mat v117) (only v118) (rowOf v1 r) j := by
  unfold k0_pay26
  simp only [shapeCast_self]
  rw [addf_apply, matmul_a, broadcastTo_1b_ab_apply]
  rfl

theorem pay27_apply (v1 : FVec Ideal S2048x24 .f32) (v117 : Vec Ideal S24x128 .f32) (v118 : Vec Ideal S1x128 .f32) (r : Fin 2048) (u : Fin 1) :
    k0_pay27 v1 v117 v118 (ix2 r u) = mean (rowOf (k0_pay26 v1 v117 v118) r) := by
  unfold k0_pay27 mean
  rw [divf_apply, shapeCast_a_a1_apply, multiReduction_rows_f32]
  rfl

theorem pay28_apply (v1 : FVec Ideal S2048x24 .f32) (v117 : Vec Ideal S24x128 .f32) (v118 : Vec Ideal S1x128 .f32) (r : Fin 2048) (l : Fin 128) :
    k0_pay28 v1 v117 v118 (ix2 r l) = k0_pay26 v1 v117 v118 (ix2 r l) - k0_pay27 v1 v117 v118 (ix2 r (0 : Fin 1)) := by
  unfold k0_pay28
  rw [subf_apply, broadcastTo_a1_ab_apply]

theorem pay29_apply (v1 : FVec Ideal S2048x24 .f32) (v117 : Vec Ideal S24x128 .f32) (v118 : Vec Ideal S1x128 .f32) (r : Fin 2048) (u : Fin 1) :
    k0_pay29 v1 v117 v118 (ix2 r u)
      = Ideal.div (∑ l : Fin 128, (k0_pay26 v1 v117 v118 (ix2 r l) - k0_pay27 v1 v117 v118 (ix2 r (0 : Fin 1)))
          * (k0_pay26 v1 v117 v118 (ix2 r l) - k0_pay27 v1 v117 v118 (ix2 r (0 : Fin 1)))) width + eps := by
  unfold k0_pay29
  rw [addf_apply, divf_apply, shapeCast_a_a1_apply, multiReduction_rows_f32]
  simp only [mulf_apply, subf_apply, broadcastTo_a1_ab_apply, broadcast_apply]
  rfl

/-- From the centred first-layer values and variance + ε: the rectified first Mlp.hidden layer, the second Mlp.hidden layer,
    and the third affine map. -/
theorem pay30_apply (v121 v123 : FVec Ideal S1x128 .f32) (v124 : Vec Ideal S128x128 .f32) (v126 v128 v130 : FVec Ideal S1x128 .f32)
    (v131 : Vec Ideal S128x64 .f32) (v133 : FVec Ideal S1x64 .f32) (v151 : FVec Ideal S2048x128 .f32) (v153 : FVec Ideal S2048x1 .f32)
    (r : Fin 2048) (k : Fin 64) :
    k0_pay30 v121 v123 v124 v126 v128 v130 v131 v133 v151 v153 (ix2 r k)
      = affine (mat v131) (only v133) (fun l' => leaky (layerNorm (only v128) (only v130) (affine (mat v124) (only v126) (fun l => leaky
          (v151 (ix2 r l) * Ideal.rsqrt (v153 (ix2 r (0 : Fin 1))) * v121 (ix2 (0 : Fin 1) l) + v123 (ix2 (0 : Fin 1) l)))) l')) k := by
  unfold k0_pay30 layerNorm mean affine
  dsimp only
  rw [rowSum_fun, rowSum_fun]
  simp only [addf_apply, mulf_apply, subf_apply, divf_apply, rsqrt_apply, select_apply, cmpf_apply, broadcast_apply,
    broadcastTo_1b_ab_apply, broadcastTo_a1_ab_apply, matmul_b, matmul_c, truncf_apply, select_leaky]
  rfl

theorem pay1_apply (v202 : FVec Ideal S2048x64 .f32) (r : Fin 2048) (k : Fin 64) :
    k0_pay1 v202 (ix2 r k) = leaky (v202 (ix2 r k)) := by
  unfold k0_pay1
  simp only [select_apply, cmpf_apply, mulf_apply, broadcast_apply, select_leaky]

theorem pay2_apply (v202 : FVec Ideal S2048x64 .f32) (v208 : Vec Ideal S64x144 .f32) (v213 : Vec Ideal S1x144 .f32)
    (u : Fin 1) (r : Fin 2048) (p : Fin 144) :
    k0_pay2 v202 v208 v213 (ix3 u r p) = affine (mat v208) (only v213) (rowOf (k0_pay1 v202) r) p := by
  unfold k0_pay2 affine
  simp only [shapeCast_self]
  rw [shapeCast_ab_1ab_apply, addf_apply, matmul_d, broadcastTo_1b_ab_apply]
  rfl

theorem pay3_apply (v202 : FVec Ideal S2048x64 .f32) (v220 : Vec Ideal S64x144 .f32) (v225 : Vec Ideal S1x144 .f32)
    (u : Fin 1) (r : Fin 2048) (p : Fin 144) :
    k0_pay3 v202 v220 v225 (ix3 u r p) = affine (mat v220) (only v225) (rowOf (k0_pay1 v202) r) p := by
  unfold k0_pay3 affine
  simp only [shapeCast_self]
  rw [shapeCast_ab_1ab_apply, addf_apply, matmul_d, broadcastTo_1b_ab_apply]
  rfl

theorem hidden1R (x0 : Vec Ideal S2048x24 .f32) (x15 : Vec Ideal S24x128 .f32) (x16 x17 x18 : Vec Ideal S1x128 .f32) (r : Fin 2048) (l : Fin 128) :
    leaky (k0_pay28 (k0_pay4 x0) x15 x16 (ix2 r l) * Ideal.rsqrt (k0_pay29 (k0_pay4 x0) x15 x16 (ix2 r (0 : Fin 1)))
        * k0_pay20 x17 (ix2 (0 : Fin 1) l) + k0_pay21 x18 (ix2 (0 : Fin 1) l))
      = Mlp.hidden (mat x15) (only x16) (only x17) (only x18) (rowOf x0 r) l := by
  unfold Mlp.hidden layerNorm
  rw [pay29_apply, pay28_apply, pay27_apply]
  simp only [pay26_apply]
  rw [show rowOf (k0_pay26 (k0_pay4 x0) x15 x16) r = affine (mat x15) (only x16) (rowOf (k0_pay4 x0) r) from
    funext fun l => pay26_apply (k0_pay4 x0) x15 x16 r l]
  unfold k0_pay20 k0_pay21 k0_pay4
  simp only [shapeCast_self]

/-- The 64 Mlp.hidden numbers of the second parameter set, row by row. -/
theorem trunkR (x0 : Vec Ideal S2048x24 .f32) (x15 : Vec Ideal S24x128 .f32) (x16 x17 x18 : Vec Ideal S1x128 .f32)
    (x19 : Vec Ideal S128x128 .f32) (x20 x21 x22 : Vec Ideal S1x128 .f32) (x23 : Vec Ideal S128x64 .f32) (x24 : Vec Ideal S1x64 .f32)
    (r : Fin 2048) (k : Fin 64) :
    k0_pay1 (k0_pay30 (k0_pay20 x17) (k0_pay21 x18) x19 (k0_pay22 x20) (k0_pay23 x21) (k0_pay24 x22) x23 (k0_pay25 x24)
        (k0_pay28 (k0_pay4 x0) x15 x16) (k0_pay29 (k0_pay4 x0) x15 x16)) (ix2 r k)
      = trunk (mat x15) (only x16) (only x17) (only x18) (mat x19) (only x20) (only x21) (only x22) (mat x23) (only x24) (rowOf x0 r) k := by
  rw [pay1_apply, pay30_apply]
  unfold trunk
  simp only [hidden1R]
  unfold Mlp.hidden k0_pay22 k0_pay23 k0_pay24 k0_pay25
  simp only [shapeCast_self]

/-- The real-part outputs of the second parameter set. -/
theorem headR_re (x0 : Vec Ideal S2048x24 .f32) (x15 : Vec Ideal S24x128 .f32) (x16 x17 x18 : Vec Ideal S1x128 .f32)
    (x19 : Vec Ideal S128x128 .f32) (x20 x21 x22 : Vec Ideal S1x128 .f32) (x23 : Vec Ideal S128x64 .f32) (x24 : Vec Ideal S1x64 .f32)
    (x25 : Vec Ideal S64x144 .f32) (x26 : Vec Ideal S1x144 .f32) (r : Fin 2048) (p : Fin 144) :
    k0_pay2 (k0_pay30 (k0_pay20 x17) (k0_pay21 x18) x19 (k0_pay22 x20) (k0_pay23 x21) (k0_pay24 x22) x23 (k0_pay25 x24)
        (k0_pay28 (k0_pay4 x0) x15 x16) (k0_pay29 (k0_pay4 x0) x15 x16)) x25 x26 (ix3 (0 : Fin 1) r p)
      = affine (mat x25) (only x26)
          (trunk (mat x15) (only x16) (only x17) (only x18) (mat x19) (only x20) (only x21) (only x22) (mat x23) (only x24) (rowOf x0 r)) p := by
  rw [pay2_apply]
  exact congrArg (fun h => affine (mat x25) (only x26) h p) (funext fun k => trunkR x0 x15 x16 x17 x18 x19 x20 x21 x22 x23 x24 r k)

/-- The imaginary-part outputs of the second parameter set. -/
theorem headR_im (x0 : Vec Ideal S2048x24 .f32) (x15 : Vec Ideal S24x128 .f32) (x16 x17 x18 : Vec Ideal S1x128 .f32)
    (x19 : Vec Ideal S128x128 .f32) (x20 x21 x22 : Vec Ideal S1x128 .f32) (x23 : Vec Ideal S128x64 .f32) (x24 : Vec Ideal S1x64 .f32)
    (x27 : Vec Ideal S64x144 .f32) (x28 : Vec Ideal S1x144 .f32) (r : Fin 2048) (p : Fin 144) :
    k0_pay3 (k0_pay30 (k0_pay20 x17) (k0_pay21 x18) x19 (k0_pay22 x20) (k0_pay23 x21) (k0_pay24 x22) x23 (k0_pay25 x24)
        (k0_pay28 (k0_pay4 x0) x15 x16) (k0_pay29 (k0_pay4 x0) x15 x16)) x27 x28 (ix3 (0 : Fin 1) r p)
      = affine (mat x27) (only x28)
          (trunk (mat x15) (only x16) (only x17) (only x18) (mat x19) (only x20) (only x21) (only x22) (mat x23) (only x24) (rowOf x0 r)) p := by
  rw [pay3_apply]
  exact congrArg (fun h => affine (mat x27) (only x28) h p) (funext fun k => trunkR x0 x15 x16 x17 x18 x19 x20 x21 x22 x23 x24 r k)

end Cert.KernelIdeal.Rows

end
-- ==== Proof.KFinalRow.lean ====
/-
  The kernel body's result for one block of 2048 rows, read at an index.

  The body ends with four stores into a [4, 2048, 144] buffer: part b (b = 0, 1, 2, 3) of the buffer receives, row by
  row, a last affine map of the 64 hidden numbers of a small network applied to the row. Parts 0 and 1 use the first
  parameter set (one trunk, two last affine maps: real and imaginary), parts 2 and 3 the second. The four stores fill
  disjoint parts that together cover the buffer, so the buffer read at (b, r, p) is the one function
  `rowOut (row r) … b p` below, whichever store wrote it.
-/
import proofs.«138334_j60430189854928_2_alg».proof.Proof.KernelIdealFrame
import proofs.«138334_j60430189854928_2_alg».proof.Proof.Mlp
import proofs.«138334_j60430189854928_2_alg».proof.Proof.KRows
import Idealize.ShloMosaic.Lib.Pipeline.Value
import Idealize.ShloMosaic.Lib.ValueIdx

noncomputable section

namespace Cert.KernelIdeal.Final

open Cert.KernelIdeal Cert.KernelIdeal.Gen Cert.KernelIdeal.Rows Cert.Mlp
open Idealize.ShloMosaic Idealize.ShloMosaic.ValueIdx Idealize.ShloMosaic.TcCoe Idealize.SL.Sem
open Idealize.ShloMosaic.Pipeline (Dat)

/-- The 144 numbers of one row x for part b of the result: parts 0 and 1 are the first parameter set's network with its
    two last affine maps, parts 2 and 3 the second parameter set's. -/
def rowOut (xr : Fin 24 → EReal) (X1 : S24x128.Idx → EReal) (X2 : S1x128.Idx → EReal) (X3 : S1x128.Idx → EReal) (X4 : S1x128.Idx → EReal) (X5 : S128x128.Idx → EReal) (X6 : S1x128.Idx → EReal) (X7 : S1x128.Idx → EReal) (X8 : S1x128.Idx → EReal) (X9 : S128x64.Idx → EReal) (X10 : S1x64.Idx → EReal) (X11 : S64x144.Idx → EReal) (X12 : S1x144.Idx → EReal) (X13 : S64x144.Idx → EReal) (X14 : S1x144.Idx → EReal) (X15 : S24x128.Idx → EReal) (X16 : S1x128.Idx → EReal) (X17 : S1x128.Idx → EReal) (X18 : S1x128.Idx → EReal) (X19 : S128x128.Idx → EReal) (X20 : S1x128.Idx → EReal) (X21 : S1x128.Idx → EReal) (X22 : S1x128.Idx → EReal) (X23 : S128x64.Idx → EReal) (X24 : S1x64.Idx → EReal) (X25 : S64x144.Idx → EReal) (X26 : S1x144.Idx → EReal) (X27 : S64x144.Idx → EReal) (X28 : S1x144.Idx → EReal) (b : Fin 4) (p : Fin 144) : EReal :=
  ![affine (mat X11) (only X12) (trunk (mat X1) (only X2) (only X3) (only X4) (mat X5) (only X6) (only X7) (only X8) (mat X9) (only X10) xr) p,
      affine (mat X13) (only X14) (trunk (mat X1) (only X2) (only X3) (only X4) (mat X5) (only X6) (only X7) (only X8) (mat X9) (only X10) xr) p,
      affine (mat X25) (only X26) (trunk (mat X15) (only X16) (only X17) (only X18) (mat X19) (only X20) (only X21) (only X22) (mat X23) (only X24) xr) p,
      affine (mat X27) (only X28) (trunk (mat X15) (only X16) (only X17) (only X18) (mat X19) (only X20) (only X21) (only X22) (mat X23) (only X24) xr) p] b

theorem hz2 : (![0, 0] : Fin 2 → Nat) = fun _ => 0 := funext fun a => by fin_cases a <;> rfl

/-- The body's result for a block of 2048 rows, read at part y 0, row y 1, position y 2: the row's network output.
    The four stores each fill one part with the corresponding last affine map of the row's 64 hidden numbers. -/
theorem out_apply (x0 : Vec Ideal S2048x24 .f32) (x1 : Vec Ideal S24x128 .f32) (x2 : Vec Ideal S1x128 .f32) (x3 : Vec Ideal S1x128 .f32) (x4 : Vec Ideal S1x128 .f32) (x5 : Vec Ideal S128x128 .f32) (x6 : Vec Ideal S1x128 .f32) (x7 : Vec Ideal S1x128 .f32) (x8 : Vec Ideal S1x128 .f32) (x9 : Vec Ideal S128x64 .f32) (x10 : Vec Ideal S1x64 .f32) (x11 : Vec Ideal S64x144 .f32) (x12 : Vec Ideal S1x144 .f32) (x13 : Vec Ideal S64x144 .f32) (x14 : Vec Ideal S1x144 .f32) (x15 : Vec Ideal S24x128 .f32) (x16 : Vec Ideal S1x128 .f32) (x17 : Vec Ideal S1x128 .f32) (x18 : Vec Ideal S1x128 .f32) (x19 : Vec Ideal S128x128 .f32) (x20 : Vec Ideal S1x128 .f32) (x21 : Vec Ideal S1x128 .f32) (x22 : Vec Ideal S1x128 .f32) (x23 : Vec Ideal S128x64 .f32) (x24 : Vec Ideal S1x64 .f32) (x25 : Vec Ideal S64x144 .f32) (x26 : Vec Ideal S1x144 .f32) (x27 : Vec Ideal S64x144 .f32) (x28 : Vec Ideal S1x144 .f32) (y : S4x2048x144.Idx) :
    GenP.out0_29 x0 x1 x2 x3 x4 x5 x6 x7 x8 x9 x10 x11 x12 x13 x14 x15 x16 x17 x18 x19 x20 x21 x22 x23 x24 x25 x26 x27 x28 y = rowOut (rowOf x0 (y 1)) x1 x2 x3 x4 x5 x6 x7 x8 x9 x10 x11 x12 x13 x14 x15 x16 x17 x18 x19 x20 x21 x22 x23 x24 x25 x26 x27 x28 (y 0) (y 2) := by
  unfold GenP.out0_29
  simp only [View.ld_unit_zero (S := S2048x24) hz2, View.ld_unit_zero (S := S24x128) hz2, View.ld_unit_zero (S := S1x128) hz2,
    View.ld_unit_zero (S := S128x128) hz2, View.ld_unit_zero (S := S128x64) hz2, View.ld_unit_zero (S := S1x64) hz2,
    View.ld_unit_zero (S := S64x144) hz2, View.ld_unit_zero (S := S1x144) hz2]
  refine View.canon_apply_of_pieces (Val := Elt Ideal) (S := S4x2048x144) (e := .f32) (fun y : S4x2048x144.Idx => rowOut (rowOf x0 (y 1)) x1 x2 x3 x4 x5 x6 x7 x8 x9 x10 x11 x12 x13 x14 x15 x16 x17 x18 x19 x20 x21 x22 x23 x24 x25 x26 x27 x28 (y 0) (y 2)) _ ?_ y (GenP.cover0_29 _ _ _ _ _)
  intro q hq x
  simp only [List.mem_cons, List.mem_nil_iff, or_false] at hq
  rcases hq with rfl | rfl | rfl | rfl
  · dsimp only
    obtain ⟨u, r', p', rfl⟩ : ∃ (u : Fin 1) (r' : Fin 2048) (p' : Fin 144), x = ix3 u r' p' := ⟨x 0, x 1, x 2, eq_ix3 (n0 := 1) (n1 := 2048) (n2 := 144) x⟩
    obtain rfl : u = 0 := Subsingleton.elim _ _
    have e : GenP.r0_11.emb (ix3 (0 : Fin 1) r' p') = ix3 (3 : Fin 4) r' p' := by
      funext a; apply Fin.ext
      match a with
      | ⟨0, _⟩ => rfl
      | ⟨1, _⟩ => show 0 + 1 * r'.val = r'.val; omega
      | ⟨2, _⟩ => show 0 + 1 * p'.val = p'.val; omega
    rw [e]
    exact headR_im x0 x15 x16 x17 x18 x19 x20 x21 x22 x23 x24 x27 x28 r' p'
  · dsimp only
    obtain ⟨u, r', p', rfl⟩ : ∃ (u : Fin 1) (r' : Fin 2048) (p' : Fin 144), x = ix3 u r' p' := ⟨x 0, x 1, x 2, eq_ix3 (n0 := 1) (n1 := 2048) (n2 := 144) x⟩
    obtain rfl : u = 0 := Subsingleton.elim _ _
    have e : GenP.r0_10.emb (ix3 (0 : Fin 1) r' p') = ix3 (2 : Fin 4) r' p' := by
      funext a; apply Fin.ext
      match a with
      | ⟨0, _⟩ => rfl
      | ⟨1, _⟩ => show 0 + 1 * r'.val = r'.val; omega
      | ⟨2, _⟩ => show 0 + 1 * p'.val = p'.val; omega
    rw [e]
    exact headR_re x0 x15 x16 x17 x18 x19 x20 x21 x22 x23 x24 x25 x26 r' p'
  · dsimp only
    obtain ⟨u, r', p', rfl⟩ : ∃ (u : Fin 1) (r' : Fin 2048) (p' : Fin 144), x = ix3 u r' p' := ⟨x 0, x 1, x 2, eq_ix3 (n0 := 1) (n1 := 2048) (n2 := 144) x⟩
    obtain rfl : u = 0 := Subsingleton.elim _ _
    have e : GenP.r0_9.emb (ix3 (0 : Fin 1) r' p') = ix3 (1 : Fin 4) r' p' := by
      funext a; apply Fin.ext
      match a with
      | ⟨0, _⟩ => rfl
      | ⟨1, _⟩ => show 0 + 1 * r'.val = r'.val; omega
      | ⟨2, _⟩ => show 0 + 1 * p'.val = p'.val; omega
    rw [e]
    exact headC_im x0 x1 x2 x3 x4 x5 x6 x7 x8 x9 x10 x13 x14 r' p'
  · dsimp only
    obtain ⟨u, r', p', rfl⟩ : ∃ (u : Fin 1) (r' : Fin 2048) (p' : Fin 144), x = ix3 u r' p' := ⟨x 0, x 1, x 2, eq_ix3 (n0 := 1) (n1 := 2048) (n2 := 144) x⟩
    obtain rfl : u = 0 := Subsingleton.elim _ _
    have e : GenP.r0_8.emb (ix3 (0 : Fin 1) r' p') = ix3 (0 : Fin 4) r' p' := by
      funext a; apply Fin.ext
      match a with
      | ⟨0, _⟩ => rfl
      | ⟨1, _⟩ => show 0 + 1 * r'.val = r'.val; omega
      | ⟨2, _⟩ => show 0 + 1 * p'.val = p'.val; omega
    rw [e]
    exact headC_re x0 x1 x2 x3 x4 x5 x6 x7 x8 x9 x10 x11 x12 r' p'

end Cert.KernelIdeal.Final

end
-- ==== Proof.KFinalReads.lean ====
/-
  The input windows' blocks as functions of their arrays.

  The pipeline has 128 points. Window 0 cuts the [262144, 24] array into blocks of 2048 rows, point t taking block t;
  the output window cuts the [4, 262144, 144] array the same way along its row axis. Each of the other 28 windows is a
  whole small array, the same block (block zero) at every point: read through its window it is the array itself.
  These facts about the printed index maps are decided once over the 128 points.
-/
import proofs.«138334_j60430189854928_2_alg».proof.Proof.KernelIdealFrame
import Idealize.ShloMosaic.Lib.Pipeline.Value
import Idealize.ShloMosaic.Lib.ValueIdx

noncomputable section

namespace Cert.KernelIdeal.Final

open Cert.KernelIdeal Cert.KernelIdeal.Gen
open Idealize.ShloMosaic Idealize.ShloMosaic.ValueIdx Idealize.ShloMosaic.TcCoe Idealize.SL.Sem
open Idealize.ShloMosaic.Pipeline (Dat)

/-- The printed index maps, decided over the grid: the row window and the output window move with the point along
    the row axis and stay at block zero on the others. -/
theorem idx_facts : ∀ t : Fin cfg0.N, win0_0.index t (0 : Fin 2) = t.val ∧ win0_0.index t (1 : Fin 2) = 0
    ∧ win0_29.index t (0 : Fin 3) = 0 ∧ win0_29.index t (1 : Fin 3) = t.val ∧ win0_29.index t (2 : Fin 3) = 0 :=
  (by decide +kernel : ∀ t : Fin grid0.N, _)

variable (c : Dev nD)

/-- The row window's block read at an index is the array at the index the block places it. -/
theorem read0_apply (A : Buf (Elt Ideal) ((c.tc : Thread nD τ).loc (Pipeline.arrRef spec0 0))) (t : Fin cfg0.N) (r : Fin 2048) (k : Fin 24) :
    (((cfg0.win 0).blk t).view.read (Elt Ideal) A : Vec Ideal S2048x24 .f32) (ix2 r k)
      = A (((cfg0.win 0).blk t).view.emb (ix2 r k)) := rfl

/-! Each small array's window is the whole array at block zero at every point: its block read is the array. -/

theorem read_1 (A : Buf (Elt Ideal) ((c.tc : Thread nD τ).loc (Pipeline.arrRef spec0 1))) (t : Fin cfg0.N) :
    (((cfg0.win 1).blk t).view.read (Elt Ideal) A : Vec Ideal S24x128 .f32) = A := by
  have f : ∀ t : Fin cfg0.N, win0_1.index t (0 : Fin 2) = 0 ∧ win0_1.index t (1 : Fin 2) = 0 :=
    (by decide +kernel : ∀ t : Fin grid0.N, _)
  funext y
  show A (((cfg0.win 1).blk t).view.emb y) = A y
  have h : ((cfg0.win 1).blk t).view.emb y = y := by
    funext a; apply Fin.ext
    match a with
    | ⟨0, _⟩ => show win0_1.index t (0 : Fin 2) * 24 + 1 * (y 0).val = (y 0).val; rw [(f t).1]; omega
    | ⟨1, _⟩ => show win0_1.index t (1 : Fin 2) * 128 + 1 * (y 1).val = (y 1).val; rw [(f t).2]; omega
  rw [h]

theorem read_2 (A : Buf (Elt Ideal) ((c.tc : Thread nD τ).loc (Pipeline.arrRef spec0 2))) (t : Fin cfg0.N) :
    (((cfg0.win 2).blk t).view.read (Elt Ideal) A : Vec Ideal S1x128 .f32) = A := by
  have f : ∀ t : Fin cfg0.N, win0_2.index t (0 : Fin 2) = 0 ∧ win0_2.index t (1 : Fin 2) = 0 :=
    (by decide +kernel : ∀ t : Fin grid0.N, _)
  funext y
  show A (((cfg0.win 2).blk t).view.emb y) = A y
  have h : ((cfg0.win 2).blk t).view.emb y = y := by
    funext a; apply Fin.ext
    match a with
    | ⟨0, _⟩ => show win0_2.index t (0 : Fin 2) * 1 + 1 * (y 0).val = (y 0).val; rw [(f t).1]; omega
    | ⟨1, _⟩ => show win0_2.index t (1 : Fin 2) * 128 + 1 * (y 1).val = (y 1).val; rw [(f t).2]; omega
  rw [h]

theorem read_3 (A : Buf (Elt Ideal) ((c.tc : Thread nD τ).loc (Pipeline.arrRef spec0 3))) (t : Fin cfg0.N) :
    (((cfg0.win 3).blk t).view.read (Elt Ideal) A : Vec Ideal S1x128 .f32) = A := by
  have f : ∀ t : Fin cfg0.N, win0_3.index t (0 : Fin 2) = 0 ∧ win0_3.index t (1 : Fin 2) = 0 :=
    (by decide +kernel : ∀ t : Fin grid0.N, _)
  funext y
  show A (((cfg0.win 3).blk t).view.emb y) = A y
  have h : ((cfg0.win 3).blk t).view.emb y = y := by
    funext a; apply Fin.ext
    match a with
    | ⟨0, _⟩ => show win0_3.index t (0 : Fin 2) * 1 + 1 * (y 0).val = (y 0).val; rw [(f t).1]; omega
    | ⟨1, _⟩ => show win0_3.index t (1 : Fin 2) * 128 + 1 * (y 1).val = (y 1).val; rw [(f t).2]; omega
  rw [h]

theorem read_4 (A : Buf (Elt Ideal) ((c.tc : Thread nD τ).loc (Pipeline.arrRef spec0 4))) (t : Fin cfg0.N) :
    (((cfg0.win 4).blk t).view.read (Elt Ideal) A : Vec Ideal S1x128 .f32) = A := by
  have f : ∀ t : Fin cfg0.N, win0_4.index t (0 : Fin 2) = 0 ∧ win0_4.index t (1 : Fin 2) = 0 :=
    (by decide +kernel : ∀ t : Fin grid0.N, _)
  funext y
  show A (((cfg0.win 4).blk t).view.emb y) = A y
  have h : ((cfg0.win 4).blk t).view.emb y = y := by
    funext a; apply Fin.ext
    match a with
    | ⟨0, _⟩ => show win0_4.index t (0 : Fin 2) * 1 + 1 * (y 0).val = (y 0).val; rw [(f t).1]; omega
    | ⟨1, _⟩ => show win0_4.index t (1 : Fin 2) * 128 + 1 * (y 1).val = (y 1).val; rw [(f t).2]; omega
  rw [h]

theorem read_5 (A : Buf (Elt Ideal) ((c.tc : Thread nD τ).loc (Pipeline.arrRef spec0 5))) (t : Fin cfg0.N) :
    (((cfg0.win 5).blk t).view.read (Elt Ideal) A : Vec Ideal S128x128 .f32) = A := by
  have f : ∀ t : Fin cfg0.N, win0_5.index t (0 : Fin 2) = 0 ∧ win0_5.index t (1 : Fin 2) = 0 :=
    (by decide +kernel : ∀ t : Fin grid0.N, _)
  funext y
  show A (((cfg0.win 5).blk t).view.emb y) = A y
  have h : ((cfg0.win 5).blk t).view.emb y = y := by
    funext a; apply Fin.ext
    match a with
    | ⟨0, _⟩ => show win0_5.index t (0 : Fin 2) * 128 + 1 * (y 0).val = (y 0).val; rw [(f t).1]; omega
    | ⟨1, _⟩ => show win0_5.index t (1 : Fin 2) * 128 + 1 * (y 1).val = (y 1).val; rw [(f t).2]; omega
  rw [h]

theorem read_6 (A : Buf (Elt Ideal) ((c.tc : Thread nD τ).loc (Pipeline.arrRef spec0 6))) (t : Fin cfg0.N) :
    (((cfg0.win 6).blk t).view.read (Elt Ideal) A : Vec Ideal S1x128 .f32) = A := by
  have f : ∀ t : Fin cfg0.N, win0_6.index t (0 : Fin 2) = 0 ∧ win0_6.index t (1 : Fin 2) = 0 :=
    (by decide +kernel : ∀ t : Fin grid0.N, _)
  funext y
  show A (((cfg0.win 6).blk t).view.emb y) = A y
  have h : ((cfg0.win 6).blk t).view.emb y = y := by
    funext a; apply Fin.ext
    match a with
    | ⟨0, _⟩ => show win0_6.index t (0 : Fin 2) * 1 + 1 * (y 0).val = (y 0).val; rw [(f t).1]; omega
    | ⟨1, _⟩ => show win0_6.index t (1 : Fin 2) * 128 + 1 * (y 1).val = (y 1).val; rw [(f t).2]; omega
  rw [h]

theorem read_7 (A : Buf (Elt Ideal) ((c.tc : Thread nD τ).loc (Pipeline.arrRef spec0 7))) (t : Fin cfg0.N) :
    (((cfg0.win 7).blk t).view.read (Elt Ideal) A : Vec Ideal S1x128 .f32) = A := by
  have f : ∀ t : Fin cfg0.N, win0_7.index t (0 : Fin 2) = 0 ∧ win0_7.index t (1 : Fin 2) = 0 :=
    (by decide +kernel : ∀ t : Fin grid0.N, _)
  funext y
  show A (((cfg0.win 7).blk t).view.emb y) = A y
  have h : ((cfg0.win 7).blk t).view.emb y = y := by
    funext a; apply Fin.ext
    match a with
    | ⟨0, _⟩ => show win0_7.index t (0 : Fin 2) * 1 + 1 * (y 0).val = (y 0).val; rw [(f t).1]; omega
    | ⟨1, _⟩ => show win0_7.index t (1 : Fin 2) * 128 + 1 * (y 1).val = (y 1).val; rw [(f t).2]; omega
  rw [h]

theorem read_8 (A : Buf (Elt Ideal) ((c.tc : Thread nD τ).loc (Pipeline.arrRef spec0 8))) (t : Fin cfg0.N) :
    (((cfg0.win 8).blk t).view.read (Elt Ideal) A : Vec Ideal S1x128 .f32) = A := by
  have f : ∀ t : Fin cfg0.N, win0_8.index t (0 : Fin 2) = 0 ∧ win0_8.index t (1 : Fin 2) = 0 :=
    (by decide +kernel : ∀ t : Fin grid0.N, _)
  funext y
  show A (((cfg0.win 8).blk t).view.emb y) = A y
  have h : ((cfg0.win 8).blk t).view.emb y = y := by
    funext a; apply Fin.ext
    match a with
    | ⟨0, _⟩ => show win0_8.index t (0 : Fin 2) * 1 + 1 * (y 0).val = (y 0).val; rw [(f t).1]; omega
    | ⟨1, _⟩ => show win0_8.index t (1 : Fin 2) * 128 + 1 * (y 1).val = (y 1).val; rw [(f t).2]; omega
  rw [h]

theorem read_9 (A : Buf (Elt Ideal) ((c.tc : Thread nD τ).loc (Pipeline.arrRef spec0 9))) (t : Fin cfg0.N) :
    (((cfg0.win 9).blk t).view.read (Elt Ideal) A : Vec Ideal S128x64 .f32) = A := by
  have f : ∀ t : Fin cfg0.N, win0_9.index t (0 : Fin 2) = 0 ∧ win0_9.index t (1 : Fin 2) = 0 :=
    (by decide +kernel : ∀ t : Fin grid0.N, _)
  funext y
  show A (((cfg0.win 9).blk t).view.emb y) = A y
  have h : ((cfg0.win 9).blk t).view.emb y = y := by
    funext a; apply Fin.ext
    match a with
    | ⟨0, _⟩ => show win0_9.index t (0 : Fin 2) * 128 + 1 * (y 0).val = (y 0).val; rw [(f t).1]; omega
    | ⟨1, _⟩ => show win0_9.index t (1 : Fin 2) * 64 + 1 * (y 1).val = (y 1).val; rw [(f t).2]; omega
  rw [h]

theorem read_10 (A : Buf (Elt Ideal) ((c.tc : Thread nD τ).loc (Pipeline.arrRef spec0 10))) (t : Fin cfg0.N) :
    (((cfg0.win 10).blk t).view.read (Elt Ideal) A : Vec Ideal S1x64 .f32) = A := by
  have f : ∀ t : Fin cfg0.N, win0_10.index t (0 : Fin 2) = 0 ∧ win0_10.index t (1 : Fin 2) = 0 :=
    (by decide +kernel : ∀ t : Fin grid0.N, _)
  funext y
  show A (((cfg0.win 10).blk t).view.emb y) = A y
  have h : ((cfg0.win 10).blk t).view.emb y = y := by
    funext a; apply Fin.ext
    match a with
    | ⟨0, _⟩ => show win0_10.index t (0 : Fin 2) * 1 + 1 * (y 0).val = (y 0).val; rw [(f t).1]; omega
    | ⟨1, _⟩ => show win0_10.index t (1 : Fin 2) * 64 + 1 * (y 1).val = (y 1).val; rw [(f t).2]; omega
  rw [h]

theorem read_11 (A : Buf (Elt Ideal) ((c.tc : Thread nD τ).loc (Pipeline.arrRef spec0 11))) (t : Fin cfg0.N) :
    (((cfg0.win 11).blk t).view.read (Elt Ideal) A : Vec Ideal S64x144 .f32) = A := by
  have f : ∀ t : Fin cfg0.N, win0_11.index t (0 : Fin 2) = 0 ∧ win0_11.index t (1 : Fin 2) = 0 :=
    (by decide +kernel : ∀ t : Fin grid0.N, _)
  funext y
  show A (((cfg0.win 11).blk t).view.emb y) = A y
  have h : ((cfg0.win 11).blk t).view.emb y = y := by
    funext a; apply Fin.ext
    match a with
    | ⟨0, _⟩ => show win0_11.index t (0 : Fin 2) * 64 + 1 * (y 0).val = (y 0).val; rw [(f t).1]; omega
    | ⟨1, _⟩ => show win0_11.index t (1 : Fin 2) * 144 + 1 * (y 1).val = (y 1).val; rw [(f t).2]; omega
  rw [h]

theorem read_12 (A : Buf (Elt Ideal) ((c.tc : Thread nD τ).loc (Pipeline.arrRef spec0 12))) (t : Fin cfg0.N) :
    (((cfg0.win 12).blk t).view.read (Elt Ideal) A : Vec Ideal S1x144 .f32) = A := by
  have f : ∀ t : Fin cfg0.N, win0_12.index t (0 : Fin 2) = 0 ∧ win0_12.index t (1 : Fin 2) = 0 :=
    (by decide +kernel : ∀ t : Fin grid0.N, _)
  funext y
  show A (((cfg0.win 12).blk t).view.emb y) = A y
  have h : ((cfg0.win 12).blk t).view.emb y = y := by
    funext a; apply Fin.ext
    match a with
    | ⟨0, _⟩ => show win0_12.index t (0 : Fin 2) * 1 + 1 * (y 0).val = (y 0).val; rw [(f t).1]; omega
    | ⟨1, _⟩ => show win0_12.index t (1 : Fin 2) * 144 + 1 * (y 1).val = (y 1).val; rw [(f t).2]; omega
  rw [h]

theorem read_13 (A : Buf (Elt Ideal) ((c.tc : Thread nD τ).loc (Pipeline.arrRef spec0 13))) (t : Fin cfg0.N) :
    (((cfg0.win 13).blk t).view.read (Elt Ideal) A : Vec Ideal S64x144 .f32) = A := by
  have f : ∀ t : Fin cfg0.N, win0_13.index t (0 : Fin 2) = 0 ∧ win0_13.index t (1 : Fin 2) = 0 :=
    (by decide +kernel : ∀ t : Fin grid0.N, _)
  funext y
  show A (((cfg0.win 13).blk t).view.emb y) = A y
  have h : ((cfg0.win 13).blk t).view.emb y = y := by
    funext a; apply Fin.ext
    match a with
    | ⟨0, _⟩ => show win0_13.index t (0 : Fin 2) * 64 + 1 * (y 0).val = (y 0).val; rw [(f t).1]; omega
    | ⟨1, _⟩ => show win0_13.index t (1 : Fin 2) * 144 + 1 * (y 1).val = (y 1).val; rw [(f t).2]; omega
  rw [h]

theorem read_14 (A : Buf (Elt Ideal) ((c.tc : Thread nD τ).loc (Pipeline.arrRef spec0 14))) (t : Fin cfg0.N) :
    (((cfg0.win 14).blk t).view.read (Elt Ideal) A : Vec Ideal S1x144 .f32) = A := by
  have f : ∀ t : Fin cfg0.N, win0_14.index t (0 : Fin 2) = 0 ∧ win0_14.index t (1 : Fin 2) = 0 :=
    (by decide +kernel : ∀ t : Fin grid0.N, _)
  funext y
  show A (((cfg0.win 14).blk t).view.emb y) = A y
  have h : ((cfg0.win 14).blk t).view.emb y = y := by
    funext a; apply Fin.ext
    match a with
    | ⟨0, _⟩ => show win0_14.index t (0 : Fin 2) * 1 + 1 * (y 0).val = (y 0).val; rw [(f t).1]; omega
    | ⟨1, _⟩ => show win0_14.index t (1 : Fin 2) * 144 + 1 * (y 1).val = (y 1).val; rw [(f t).2]; omega
  rw [h]

theorem read_15 (A : Buf (Elt Ideal) ((c.tc : Thread nD τ).loc (Pipeline.arrRef spec0 15))) (t : Fin cfg0.N) :
    (((cfg0.win 15).blk t).view.read (Elt Ideal) A : Vec Ideal S24x128 .f32) = A := by
  have f : ∀ t : Fin cfg0.N, win0_15.index t (0 : Fin 2) = 0 ∧ win0_15.index t (1 : Fin 2) = 0 :=
    (by decide +kernel : ∀ t : Fin grid0.N, _)
  funext y
  show A (((cfg0.win 15).blk t).view.emb y) = A y
  have h : ((cfg0.win 15).blk t).view.emb y = y := by
    funext a; apply Fin.ext
    match a with
    | ⟨0, _⟩ => show win0_15.index t (0 : Fin 2) * 24 + 1 * (y 0).val = (y 0).val; rw [(f t).1]; omega
    | ⟨1, _⟩ => show win0_15.index t (1 : Fin 2) * 128 + 1 * (y 1).val = (y 1).val; rw [(f t).2]; omega
  rw [h]

theorem read_16 (A : Buf (Elt Ideal) ((c.tc : Thread nD τ).loc (Pipeline.arrRef spec0 16))) (t : Fin cfg0.N) :
    (((cfg0.win 16).blk t).view.read (Elt Ideal) A : Vec Ideal S1x128 .f32) = A := by
  have f : ∀ t : Fin cfg0.N, win0_16.index t (0 : Fin 2) = 0 ∧ win0_16.index t (1 : Fin 2) = 0 :=
    (by decide +kernel : ∀ t : Fin grid0.N, _)
  funext y
  show A (((cfg0.win 16).blk t).view.emb y) = A y
  have h : ((cfg0.win 16).blk t).view.emb y = y := by
    funext a; apply Fin.ext
    match a with
    | ⟨0, _⟩ => show win0_16.index t (0 : Fin 2) * 1 + 1 * (y 0).val = (y 0).val; rw [(f t).1]; omega
    | ⟨1, _⟩ => show win0_16.index t (1 : Fin 2) * 128 + 1 * (y 1).val = (y 1).val; rw [(f t).2]; omega
  rw [h]

theorem read_17 (A : Buf (Elt Ideal) ((c.tc : Thread nD τ).loc (Pipeline.arrRef spec0 17))) (t : Fin cfg0.N) :
    (((cfg0.win 17).blk t).view.read (Elt Ideal) A : Vec Ideal S1x128 .f32) = A := by
  have f : ∀ t : Fin cfg0.N, win0_17.index t (0 : Fin 2) = 0 ∧ win0_17.index t (1 : Fin 2) = 0 :=
    (by decide +kernel : ∀ t : Fin grid0.N, _)
  funext y
  show A (((cfg0.win 17).blk t).view.emb y) = A y
  have h : ((cfg0.win 17).blk t).view.emb y = y := by
    funext a; apply Fin.ext
    match a with
    | ⟨0, _⟩ => show win0_17.index t (0 : Fin 2) * 1 + 1 * (y 0).val = (y 0).val; rw [(f t).1]; omega
    | ⟨1, _⟩ => show win0_17.index t (1 : Fin 2) * 128 + 1 * (y 1).val = (y 1).val; rw [(f t).2]; omega
  rw [h]

theorem read_18 (A : Buf (Elt Ideal) ((c.tc : Thread nD τ).loc (Pipeline.arrRef spec0 18))) (t : Fin cfg0.N) :
    (((cfg0.win 18).blk t).view.read (Elt Ideal) A : Vec Ideal S1x128 .f32) = A := by
  have f : ∀ t : Fin cfg0.N, win0_18.index t (0 : Fin 2) = 0 ∧ win0_18.index t (1 : Fin 2) = 0 :=
    (by decide +kernel : ∀ t : Fin grid0.N, _)
  funext y
  show A (((cfg0.win 18).blk t).view.emb y) = A y
  have h : ((cfg0.win 18).blk t).view.emb y = y := by
    funext a; apply Fin.ext
    match a with
    | ⟨0, _⟩ => show win0_18.index t (0 : Fin 2) * 1 + 1 * (y 0).val = (y 0).val; rw [(f t).1]; omega
    | ⟨1, _⟩ => show win0_18.index t (1 : Fin 2) * 128 + 1 * (y 1).val = (y 1).val; rw [(f t).2]; omega
  rw [h]

theorem read_19 (A : Buf (Elt Ideal) ((c.tc : Thread nD τ).loc (Pipeline.arrRef spec0 19))) (t : Fin cfg0.N) :
    (((cfg0.win 19).blk t).view.read (Elt Ideal) A : Vec Ideal S128x128 .f32) = A := by
  have f : ∀ t : Fin cfg0.N, win0_19.index t (0 : Fin 2) = 0 ∧ win0_19.index t (1 : Fin 2) = 0 :=
    (by decide +kernel : ∀ t : Fin grid0.N, _)
  funext y
  show A (((cfg0.win 19).blk t).view.emb y) = A y
  have h : ((cfg0.win 19).blk t).view.emb y = y := by
    funext a; apply Fin.ext
    match a with
    | ⟨0, _⟩ => show win0_19.index t (0 : Fin 2) * 128 + 1 * (y 0).val = (y 0).val; rw [(f t).1]; omega
    | ⟨1, _⟩ => show win0_19.index t (1 : Fin 2) * 128 + 1 * (y 1).val = (y 1).val; rw [(f t).2]; omega
  rw [h]

theorem read_20 (A : Buf (Elt Ideal) ((c.tc : Thread nD τ).loc (Pipeline.arrRef spec0 20))) (t : Fin cfg0.N) :
    (((cfg0.win 20).blk t).view.read (Elt Ideal) A : Vec Ideal S1x128 .f32) = A := by
  have f : ∀ t : Fin cfg0.N, win0_20.index t (0 : Fin 2) = 0 ∧ win0_20.index t (1 : Fin 2) = 0 :=
    (by decide +kernel : ∀ t : Fin grid0.N, _)
  funext y
  show A (((cfg0.win 20).blk t).view.emb y) = A y
  have h : ((cfg0.win 20).blk t).view.emb y = y := by
    funext a; apply Fin.ext
    match a with
    | ⟨0, _⟩ => show win0_20.index t (0 : Fin 2) * 1 + 1 * (y 0).val = (y 0).val; rw [(f t).1]; omega
    | ⟨1, _⟩ => show win0_20.index t (1 : Fin 2) * 128 + 1 * (y 1).val = (y 1).val; rw [(f t).2]; omega
  rw [h]

theorem read_21 (A : Buf (Elt Ideal) ((c.tc : Thread nD τ).loc (Pipeline.arrRef spec0 21))) (t : Fin cfg0.N) :
    (((cfg0.win 21).blk t).view.read (Elt Ideal) A : Vec Ideal S1x128 .f32) = A := by
  have f : ∀ t : Fin cfg0.N, win0_21.index t (0 : Fin 2) = 0 ∧ win0_21.index t (1 : Fin 2) = 0 :=
    (by decide +kernel : ∀ t : Fin grid0.N, _)
  funext y
  show A (((cfg0.win 21).blk t).view.emb y) = A y
  have h : ((cfg0.win 21).blk t).view.emb y = y := by
    funext a; apply Fin.ext
    match a with
    | ⟨0, _⟩ => show win0_21.index t (0 : Fin 2) * 1 + 1 * (y 0).val = (y 0).val; rw [(f t).1]; omega
    | ⟨1, _⟩ => show win0_21.index t (1 : Fin 2) * 128 + 1 * (y 1).val = (y 1).val; rw [(f t).2]; omega
  rw [h]

theorem read_22 (A : Buf (Elt Ideal) ((c.tc : Thread nD τ).loc (Pipeline.arrRef spec0 22))) (t : Fin cfg0.N) :
    (((cfg0.win 22).blk t).view.read (Elt Ideal) A : Vec Ideal S1x128 .f32) = A := by
  have f : ∀ t : Fin cfg0.N, win0_22.index t (0 : Fin 2) = 0 ∧ win0_22.index t (1 : Fin 2) = 0 :=
    (by decide +kernel : ∀ t : Fin grid0.N, _)
  funext y
  show A (((cfg0.win 22).blk t).view.emb y) = A y
  have h : ((cfg0.win 22).blk t).view.emb y = y := by
    funext a; apply Fin.ext
    match a with
    | ⟨0, _⟩ => show win0_22.index t (0 : Fin 2) * 1 + 1 * (y 0).val = (y 0).val; rw [(f t).1]; omega
    | ⟨1, _⟩ => show win0_22.index t (1 : Fin 2) * 128 + 1 * (y 1).val = (y 1).val; rw [(f t).2]; omega
  rw [h]

theorem read_23 (A : Buf (Elt Ideal) ((c.tc : Thread nD τ).loc (Pipeline.arrRef spec0 23))) (t : Fin cfg0.N) :
    (((cfg0.win 23).blk t).view.read (Elt Ideal) A : Vec Ideal S128x64 .f32) = A := by
  have f : ∀ t : Fin cfg0.N, win0_23.index t (0 : Fin 2) = 0 ∧ win0_23.index t (1 : Fin 2) = 0 :=
    (by decide +kernel : ∀ t : Fin grid0.N, _)
  funext y
  show A (((cfg0.win 23).blk t).view.emb y) = A y
  have h : ((cfg0.win 23).blk t).view.emb y = y := by
    funext a; apply Fin.ext
    match a with
    | ⟨0, _⟩ => show win0_23.index t (0 : Fin 2) * 128 + 1 * (y 0).val = (y 0).val; rw [(f t).1]; omega
    | ⟨1, _⟩ => show win0_23.index t (1 : Fin 2) * 64 + 1 * (y 1).val = (y 1).val; rw [(f t).2]; omega
  rw [h]

theorem read_24 (A : Buf (Elt Ideal) ((c.tc : Thread nD τ).loc (Pipeline.arrRef spec0 24))) (t : Fin cfg0.N) :
    (((cfg0.win 24).blk t).view.read (Elt Ideal) A : Vec Ideal S1x64 .f32) = A := by
  have f : ∀ t : Fin cfg0.N, win0_24.index t (0 : Fin 2) = 0 ∧ win0_24.index t (1 : Fin 2) = 0 :=
    (by decide +kernel : ∀ t : Fin grid0.N, _)
  funext y
  show A (((cfg0.win 24).blk t).view.emb y) = A y
  have h : ((cfg0.win 24).blk t).view.emb y = y := by
    funext a; apply Fin.ext
    match a with
    | ⟨0, _⟩ => show win0_24.index t (0 : Fin 2) * 1 + 1 * (y 0).val = (y 0).val; rw [(f t).1]; omega
    | ⟨1, _⟩ => show win0_24.index t (1 : Fin 2) * 64 + 1 * (y 1).val = (y 1).val; rw [(f t).2]; omega
  rw [h]

theorem read_25 (A : Buf (Elt Ideal) ((c.tc : Thread nD τ).loc (Pipeline.arrRef spec0 25))) (t : Fin cfg0.N) :
    (((cfg0.win 25).blk t).view.read (Elt Ideal) A : Vec Ideal S64x144 .f32) = A := by
  have f : ∀ t : Fin cfg0.N, win0_25.index t (0 : Fin 2) = 0 ∧ win0_25.index t (1 : Fin 2) = 0 :=
    (by decide +kernel : ∀ t : Fin grid0.N, _)
  funext y
  show A (((cfg0.win 25).blk t).view.emb y) = A y
  have h : ((cfg0.win 25).blk t).view.emb y = y := by
    funext a; apply Fin.ext
    match a with
    | ⟨0, _⟩ => show win0_25.index t (0 : Fin 2) * 64 + 1 * (y 0).val = (y 0).val; rw [(f t).1]; omega
    | ⟨1, _⟩ => show win0_25.index t (1 : Fin 2) * 144 + 1 * (y 1).val = (y 1).val; rw [(f t).2]; omega
  rw [h]

theorem read_26 (A : Buf (Elt Ideal) ((c.tc : Thread nD τ).loc (Pipeline.arrRef spec0 26))) (t : Fin cfg0.N) :
    (((cfg0.win 26).blk t).view.read (Elt Ideal) A : Vec Ideal S1x144 .f32) = A := by
  have f : ∀ t : Fin cfg0.N, win0_26.index t (0 : Fin 2) = 0 ∧ win0_26.index t (1 : Fin 2) = 0 :=
    (by decide +kernel : ∀ t : Fin grid0.N, _)
  funext y
  show A (((cfg0.win 26).blk t).view.emb y) = A y
  have h : ((cfg0.win 26).blk t).view.emb y = y := by
    funext a; apply Fin.ext
    match a with
    | ⟨0, _⟩ => show win0_26.index t (0 : Fin 2) * 1 + 1 * (y 0).val = (y 0).val; rw [(f t).1]; omega
    | ⟨1, _⟩ => show win0_26.index t (1 : Fin 2) * 144 + 1 * (y 1).val = (y 1).val; rw [(f t).2]; omega
  rw [h]

theorem read_27 (A : Buf (Elt Ideal) ((c.tc : Thread nD τ).loc (Pipeline.arrRef spec0 27))) (t : Fin cfg0.N) :
    (((cfg0.win 27).blk t).view.read (Elt Ideal) A : Vec Ideal S64x144 .f32) = A := by
  have f : ∀ t : Fin cfg0.N, win0_27.index t (0 : Fin 2) = 0 ∧ win0_27.index t (1 : Fin 2) = 0 :=
    (by decide +kernel : ∀ t : Fin grid0.N, _)
  funext y
  show A (((cfg0.win 27).blk t).view.emb y) = A y
  have h : ((cfg0.win 27).blk t).view.emb y = y := by
    funext a; apply Fin.ext
    match a with
    | ⟨0, _⟩ => show win0_27.index t (0 : Fin 2) * 64 + 1 * (y 0).val = (y 0).val; rw [(f t).1]; omega
    | ⟨1, _⟩ => show win0_27.index t (1 : Fin 2) * 144 + 1 * (y 1).val = (y 1).val; rw [(f t).2]; omega
  rw [h]

theorem read_28 (A : Buf (Elt Ideal) ((c.tc : Thread nD τ).loc (Pipeline.arrRef spec0 28))) (t : Fin cfg0.N) :
    (((cfg0.win 28).blk t).view.read (Elt Ideal) A : Vec Ideal S1x144 .f32) = A := by
  have f : ∀ t : Fin cfg0.N, win0_28.index t (0 : Fin 2) = 0 ∧ win0_28.index t (1 : Fin 2) = 0 :=
    (by decide +kernel : ∀ t : Fin grid0.N, _)
  funext y
  show A (((cfg0.win 28).blk t).view.emb y) = A y
  have h : ((cfg0.win 28).blk t).view.emb y = y := by
    funext a; apply Fin.ext
    match a with
    | ⟨0, _⟩ => show win0_28.index t (0 : Fin 2) * 1 + 1 * (y 0).val = (y 0).val; rw [(f t).1]; omega
    | ⟨1, _⟩ => show win0_28.index t (1 : Fin 2) * 144 + 1 * (y 1).val = (y 1).val; rw [(f t).2]; omega
  rw [h]

end Cert.KernelIdeal.Final

end
-- ==== Proof.KFinal.lean ====
/-
  From the frame run to the kernel program's result.

  The frame run names, for each point t of the pipeline, what the body leaves in the output's staging buffer as a
  function of the input windows' blocks at t. Read at an index it is the row network of the block's row (the body's
  result for one block); the blocks are restrictions of the staged arrays (the small arrays whole, the row array and the
  output array cut into blocks of 2048 rows, point t taking block t on both), so what point t writes back is block t of
  ONE function of the staged arrays: at part b, row r, position p, the network output of row r. The 128 blocks cover
  the array, so after the run the array is that function. The one host operation after the region regroups the last
  axis 144 = 12 × 12, position 12·i + j becoming entry (i, j); no host operation after the region writes an argument.
-/
import proofs.«138334_j60430189854928_2_alg».proof.Proof.KFinalRow
import proofs.«138334_j60430189854928_2_alg».proof.Proof.KFinalReads
import Idealize.ShloMosaic.Lib.Tactic

noncomputable section

namespace Cert.KernelIdeal.Final

open Cert.KernelIdeal Cert.KernelIdeal.Gen Cert.KernelIdeal.Rows Cert.Mlp
open Idealize.ShloMosaic Idealize.ShloMosaic.ValueIdx Idealize.ShloMosaic.TcCoe Idealize.SL.Sem
open Idealize.ShloMosaic.Pipeline (Dat)
open Idealize.ShloMosaic.Tactic

variable (m : (ℓ : Loc nD τ sig) → Buf (Elt Ideal) ℓ) (ρ : Dev nD → PrngReg)

/-- The staged array of window w as the region finds it. -/
abbrev X (c : Dev nD) (w : Fin cfg0.W) := GenP.V m c (Pipeline.arrRef spec0 w)

/-- The [4, 262144, 144] array the kernel fills: at part b, row r, position p, the network output of row r of the
    first array. -/
def blockOut (X0 : S262144x24.Idx → EReal) (X1 : S24x128.Idx → EReal) (X2 : S1x128.Idx → EReal) (X3 : S1x128.Idx → EReal) (X4 : S1x128.Idx → EReal) (X5 : S128x128.Idx → EReal) (X6 : S1x128.Idx → EReal) (X7 : S1x128.Idx → EReal) (X8 : S1x128.Idx → EReal) (X9 : S128x64.Idx → EReal) (X10 : S1x64.Idx → EReal) (X11 : S64x144.Idx → EReal) (X12 : S1x144.Idx → EReal) (X13 : S64x144.Idx → EReal) (X14 : S1x144.Idx → EReal) (X15 : S24x128.Idx → EReal) (X16 : S1x128.Idx → EReal) (X17 : S1x128.Idx → EReal) (X18 : S1x128.Idx → EReal) (X19 : S128x128.Idx → EReal) (X20 : S1x128.Idx → EReal) (X21 : S1x128.Idx → EReal) (X22 : S1x128.Idx → EReal) (X23 : S128x64.Idx → EReal) (X24 : S1x64.Idx → EReal) (X25 : S64x144.Idx → EReal) (X26 : S1x144.Idx → EReal) (X27 : S64x144.Idx → EReal) (X28 : S1x144.Idx → EReal) : S4x262144x144.Idx → EReal :=
  fun y => rowOut (fun k : Fin 24 => X0 (ix2 (y 1 : Fin 262144) k)) X1 X2 X3 X4 X5 X6 X7 X8 X9 X10 X11 X12 X13 X14 X15 X16 X17 X18 X19 X20 X21 X22 X23 X24 X25 X26 X27 X28 (y 0) (y 2)

/-! The windows' blocks at a point, as the frame names them, read off the staged arrays. -/

theorem iblk0_apply (c : Dev nD) (t : Fin cfg0.N) (r : Fin 2048) (k : Fin 24) :
    (GenP.iblk m c 0 t : Vec Ideal S2048x24 .f32) (ix2 r k) = X m c 0 (((cfg0.win 0).blk t).view.emb (ix2 r k)) :=
  read0_apply c (GenP.V m c (Pipeline.arrRef spec0 0)) t r k
theorem iblk_1 (c : Dev nD) (t : Fin cfg0.N) : (GenP.iblk m c 1 t : Vec Ideal S24x128 .f32) = X m c 1 :=
  read_1 c (GenP.V m c (Pipeline.arrRef spec0 1)) t
theorem iblk_2 (c : Dev nD) (t : Fin cfg0.N) : (GenP.iblk m c 2 t : Vec Ideal S1x128 .f32) = X m c 2 :=
  read_2 c (GenP.V m c (Pipeline.arrRef spec0 2)) t
theorem iblk_3 (c : Dev nD) (t : Fin cfg0.N) : (GenP.iblk m c 3 t : Vec Ideal S1x128 .f32) = X m c 3 :=
  read_3 c (GenP.V m c (Pipeline.arrRef spec0 3)) t
theorem iblk_4 (c : Dev nD) (t : Fin cfg0.N) : (GenP.iblk m c 4 t : Vec Ideal S1x128 .f32) = X m c 4 :=
  read_4 c (GenP.V m c (Pipeline.arrRef spec0 4)) t
theorem iblk_5 (c : Dev nD) (t : Fin cfg0.N) : (GenP.iblk m c 5 t : Vec Ideal S128x128 .f32) = X m c 5 :=
  read_5 c (GenP.V m c (Pipeline.arrRef spec0 5)) t
theorem iblk_6 (c : Dev nD) (t : Fin cfg0.N) : (GenP.iblk m c 6 t : Vec Ideal S1x128 .f32) = X m c 6 :=
  read_6 c (GenP.V m c (Pipeline.arrRef spec0 6)) t
theorem iblk_7 (c : Dev nD) (t : Fin cfg0.N) : (GenP.iblk m c 7 t : Vec Ideal S1x128 .f32) = X m c 7 :=
  read_7 c (GenP.V m c (Pipeline.arrRef spec0 7)) t
theorem iblk_8 (c : Dev nD) (t : Fin cfg0.N) : (GenP.iblk m c 8 t : Vec Ideal S1x128 .f32) = X m c 8 :=
  read_8 c (GenP.V m c (Pipeline.arrRef spec0 8)) t
theorem iblk_9 (c : Dev nD) (t : Fin cfg0.N) : (GenP.iblk m c 9 t : Vec Ideal S128x64 .f32) = X m c 9 :=
  read_9 c (GenP.V m c (Pipeline.arrRef spec0 9)) t
theorem iblk_10 (c : Dev nD) (t : Fin cfg0.N) : (GenP.iblk m c 10 t : Vec Ideal S1x64 .f32) = X m c 10 :=
  read_10 c (GenP.V m c (Pipeline.arrRef spec0 10)) t
theorem iblk_11 (c : Dev nD) (t : Fin cfg0.N) : (GenP.iblk m c 11 t : Vec Ideal S64x144 .f32) = X m c 11 :=
  read_11 c (GenP.V m c (Pipeline.arrRef spec0 11)) t
theorem iblk_12 (c : Dev nD) (t : Fin cfg0.N) : (GenP.iblk m c 12 t : Vec Ideal S1x144 .f32) = X m c 12 :=
  read_12 c (GenP.V m c (Pipeline.arrRef spec0 12)) t
theorem iblk_13 (c : Dev nD) (t : Fin cfg0.N) : (GenP.iblk m c 13 t : Vec Ideal S64x144 .f32) = X m c 13 :=
  read_13 c (GenP.V m c (Pipeline.arrRef spec0 13)) t
theorem iblk_14 (c : Dev nD) (t : Fin cfg0.N) : (GenP.iblk m c 14 t : Vec Ideal S1x144 .f32) = X m c 14 :=
  read_14 c (GenP.V m c (Pipeline.arrRef spec0 14)) t
theorem iblk_15 (c : Dev nD) (t : Fin cfg0.N) : (GenP.iblk m c 15 t : Vec Ideal S24x128 .f32) = X m c 15 :=
  read_15 c (GenP.V m c (Pipeline.arrRef spec0 15)) t
theorem iblk_16 (c : Dev nD) (t : Fin cfg0.N) : (GenP.iblk m c 16 t : Vec Ideal S1x128 .f32) = X m c 16 :=
  read_16 c (GenP.V m c (Pipeline.arrRef spec0 16)) t
theorem iblk_17 (c : Dev nD) (t : Fin cfg0.N) : (GenP.iblk m c 17 t : Vec Ideal S1x128 .f32) = X m c 17 :=
  read_17 c (GenP.V m c (Pipeline.arrRef spec0 17)) t
theorem iblk_18 (c : Dev nD) (t : Fin cfg0.N) : (GenP.iblk m c 18 t : Vec Ideal S1x128 .f32) = X m c 18 :=
  read_18 c (GenP.V m c (Pipeline.arrRef spec0 18)) t
theorem iblk_19 (c : Dev nD) (t : Fin cfg0.N) : (GenP.iblk m c 19 t : Vec Ideal S128x128 .f32) = X m c 19 :=
  read_19 c (GenP.V m c (Pipeline.arrRef spec0 19)) t
theorem iblk_20 (c : Dev nD) (t : Fin cfg0.N) : (GenP.iblk m c 20 t : Vec Ideal S1x128 .f32) = X m c 20 :=
  read_20 c (GenP.V m c (Pipeline.arrRef spec0 20)) t
theorem iblk_21 (c : Dev nD) (t : Fin cfg0.N) : (GenP.iblk m c 21 t : Vec Ideal S1x128 .f32) = X m c 21 :=
  read_21 c (GenP.V m c (Pipeline.arrRef spec0 21)) t
theorem iblk_22 (c : Dev nD) (t : Fin cfg0.N) : (GenP.iblk m c 22 t : Vec Ideal S1x128 .f32) = X m c 22 :=
  read_22 c (GenP.V m c (Pipeline.arrRef spec0 22)) t
theorem iblk_23 (c : Dev nD) (t : Fin cfg0.N) : (GenP.iblk m c 23 t : Vec Ideal S128x64 .f32) = X m c 23 :=
  read_23 c (GenP.V m c (Pipeline.arrRef spec0 23)) t
theorem iblk_24 (c : Dev nD) (t : Fin cfg0.N) : (GenP.iblk m c 24 t : Vec Ideal S1x64 .f32) = X m c 24 :=
  read_24 c (GenP.V m c (Pipeline.arrRef spec0 24)) t
theorem iblk_25 (c : Dev nD) (t : Fin cfg0.N) : (GenP.iblk m c 25 t : Vec Ideal S64x144 .f32) = X m c 25 :=
  read_25 c (GenP.V m c (Pipeline.arrRef spec0 25)) t
theorem iblk_26 (c : Dev nD) (t : Fin cfg0.N) : (GenP.iblk m c 26 t : Vec Ideal S1x144 .f32) = X m c 26 :=
  read_26 c (GenP.V m c (Pipeline.arrRef spec0 26)) t
theorem iblk_27 (c : Dev nD) (t : Fin cfg0.N) : (GenP.iblk m c 27 t : Vec Ideal S64x144 .f32) = X m c 27 :=
  read_27 c (GenP.V m c (Pipeline.arrRef spec0 27)) t
theorem iblk_28 (c : Dev nD) (t : Fin cfg0.N) : (GenP.iblk m c 28 t : Vec Ideal S1x144 .f32) = X m c 28 :=
  read_28 c (GenP.V m c (Pipeline.arrRef spec0 28)) t

/-- What a point leaves in the output's staging buffer, read at an index of the block, is the array function at the
    index the block places it, when the small blocks are their arrays and row r of the first block is the row of the
    first array the row window places it at: row r of the block is row 2048·t + r of the array on both windows. -/
theorem block_apply (A0 : S262144x24.Idx → EReal) (A1 : S24x128.Idx → EReal) (A2 : S1x128.Idx → EReal) (A3 : S1x128.Idx → EReal) (A4 : S1x128.Idx → EReal) (A5 : S128x128.Idx → EReal) (A6 : S1x128.Idx → EReal) (A7 : S1x128.Idx → EReal) (A8 : S1x128.Idx → EReal) (A9 : S128x64.Idx → EReal) (A10 : S1x64.Idx → EReal) (A11 : S64x144.Idx → EReal) (A12 : S1x144.Idx → EReal) (A13 : S64x144.Idx → EReal) (A14 : S1x144.Idx → EReal) (A15 : S24x128.Idx → EReal) (A16 : S1x128.Idx → EReal) (A17 : S1x128.Idx → EReal) (A18 : S1x128.Idx → EReal) (A19 : S128x128.Idx → EReal) (A20 : S1x128.Idx → EReal) (A21 : S1x128.Idx → EReal) (A22 : S1x128.Idx → EReal) (A23 : S128x64.Idx → EReal) (A24 : S1x64.Idx → EReal) (A25 : S64x144.Idx → EReal) (A26 : S1x144.Idx → EReal) (A27 : S64x144.Idx → EReal) (A28 : S1x144.Idx → EReal) (x0 : Vec Ideal S2048x24 .f32) (x1 : Vec Ideal S24x128 .f32) (x2 : Vec Ideal S1x128 .f32) (x3 : Vec Ideal S1x128 .f32) (x4 : Vec Ideal S1x128 .f32) (x5 : Vec Ideal S128x128 .f32) (x6 : Vec Ideal S1x128 .f32) (x7 : Vec Ideal S1x128 .f32) (x8 : Vec Ideal S1x128 .f32) (x9 : Vec Ideal S128x64 .f32) (x10 : Vec Ideal S1x64 .f32) (x11 : Vec Ideal S64x144 .f32) (x12 : Vec Ideal S1x144 .f32) (x13 : Vec Ideal S64x144 .f32) (x14 : Vec Ideal S1x144 .f32) (x15 : Vec Ideal S24x128 .f32) (x16 : Vec Ideal S1x128 .f32) (x17 : Vec Ideal S1x128 .f32) (x18 : Vec Ideal S1x128 .f32) (x19 : Vec Ideal S128x128 .f32) (x20 : Vec Ideal S1x128 .f32) (x21 : Vec Ideal S1x128 .f32) (x22 : Vec Ideal S1x128 .f32) (x23 : Vec Ideal S128x64 .f32) (x24 : Vec Ideal S1x64 .f32) (x25 : Vec Ideal S64x144 .f32) (x26 : Vec Ideal S1x144 .f32) (x27 : Vec Ideal S64x144 .f32) (x28 : Vec Ideal S1x144 .f32) (t : Fin cfg0.N)
    (hx : ∀ (r : Fin 2048) (k : Fin 24), x0 (ix2 r k) = A0 (((cfg0.win 0).blk t).view.emb (ix2 r k)))
    (h1 : x1 = A1) (h2 : x2 = A2) (h3 : x3 = A3) (h4 : x4 = A4) (h5 : x5 = A5) (h6 : x6 = A6) (h7 : x7 = A7) (h8 : x8 = A8) (h9 : x9 = A9) (h10 : x10 = A10) (h11 : x11 = A11) (h12 : x12 = A12) (h13 : x13 = A13) (h14 : x14 = A14) (h15 : x15 = A15) (h16 : x16 = A16) (h17 : x17 = A17) (h18 : x18 = A18) (h19 : x19 = A19) (h20 : x20 = A20) (h21 : x21 = A21) (h22 : x22 = A22) (h23 : x23 = A23) (h24 : x24 = A24) (h25 : x25 = A25) (h26 : x26 = A26) (h27 : x27 = A27) (h28 : x28 = A28) (j : S4x2048x144.Idx) :
    GenP.out0_29 x0 x1 x2 x3 x4 x5 x6 x7 x8 x9 x10 x11 x12 x13 x14 x15 x16 x17 x18 x19 x20 x21 x22 x23 x24 x25 x26 x27 x28 j
      = blockOut A0 A1 A2 A3 A4 A5 A6 A7 A8 A9 A10 A11 A12 A13 A14 A15 A16 A17 A18 A19 A20 A21 A22 A23 A24 A25 A26 A27 A28 (((cfg0.win 29).blk t).view.emb j) := by
  subst h1 h2 h3 h4 h5 h6 h7 h8 h9 h10 h11 h12 h13 h14 h15 h16 h17 h18 h19 h20 h21 h22 h23 h24 h25 h26 h27 h28
  refine (out_apply x0 x1 x2 x3 x4 x5 x6 x7 x8 x9 x10 x11 x12 x13 x14 x15 x16 x17 x18 x19 x20 x21 x22 x23 x24 x25 x26 x27 x28 j).trans ?_
  obtain ⟨f0, f1, f2, f3, f4⟩ := idx_facts t
  have h0 : (((cfg0.win 29).blk t).view.emb j) 0 = j 0 :=
    Fin.ext (by show win0_29.index t (0 : Fin 3) * 4 + 1 * (j 0).val = (j 0).val; rw [f2]; omega)
  have h2 : (((cfg0.win 29).blk t).view.emb j) 2 = j 2 :=
    Fin.ext (by show win0_29.index t (2 : Fin 3) * 144 + 1 * (j 2).val = (j 2).val; rw [f4]; omega)
  have hx' : (fun k : Fin 24 => A0 (ix2 ((((cfg0.win 29).blk t).view.emb j) 1 : Fin 262144) k)) = rowOf x0 (j 1) := by
    funext k
    refine Eq.trans ?_ (hx (j 1) k).symm
    have e : ((cfg0.win 0).blk t).view.emb (ix2 (j 1 : Fin 2048) k) = ix2 ((((cfg0.win 29).blk t).view.emb j) 1 : Fin 262144) k := by
      funext a; apply Fin.ext
      match a with
      | ⟨0, _⟩ => show win0_0.index t (0 : Fin 2) * 2048 + 1 * (j 1).val = win0_29.index t (1 : Fin 3) * 2048 + 1 * (j 1).val; rw [f0, f3]
      | ⟨1, _⟩ => show win0_0.index t (1 : Fin 2) * 24 + 1 * k.val = k.val; rw [f1]; omega
    exact (congrArg A0 e).symm
  unfold blockOut
  rw [h0, h2, hx']

set_option maxHeartbeats 4000000 in
/-- What point t writes back is block t of the array function of the staged arrays. -/
theorem flushed_eq (c : Dev nD) (t : Fin cfg0.N) :
    (GenP.dats m 0 c).flushed 29 t = ((cfg0.win 29).blk t).view.read (Elt Ideal) (blockOut (X m c 0) (X m c 1) (X m c 2) (X m c 3) (X m c 4) (X m c 5) (X m c 6) (X m c 7) (X m c 8) (X m c 9) (X m c 10) (X m c 11) (X m c 12) (X m c 13) (X m c 14) (X m c 15) (X m c 16) (X m c 17) (X m c 18) (X m c 19) (X m c 20) (X m c 21) (X m c 22) (X m c 23) (X m c 24) (X m c 25) (X m c 26) (X m c 27) (X m c 28)) := by
  show (cfg0.win 29).cut (grid0.coords t) ((GenP.dats m 0 c).after 29 t) = _
  rw [GenP.after0_29]
  exact funext fun j => block_apply (X m c 0) (X m c 1) (X m c 2) (X m c 3) (X m c 4) (X m c 5) (X m c 6) (X m c 7) (X m c 8) (X m c 9) (X m c 10) (X m c 11) (X m c 12) (X m c 13) (X m c 14) (X m c 15) (X m c 16) (X m c 17) (X m c 18) (X m c 19) (X m c 20) (X m c 21) (X m c 22) (X m c 23) (X m c 24) (X m c 25) (X m c 26) (X m c 27) (X m c 28) (GenP.iblk m c 0 t) (GenP.iblk m c 1 t) (GenP.iblk m c 2 t) (GenP.iblk m c 3 t) (GenP.iblk m c 4 t) (GenP.iblk m c 5 t) (GenP.iblk m c 6 t) (GenP.iblk m c 7 t) (GenP.iblk m c 8 t) (GenP.iblk m c 9 t) (GenP.iblk m c 10 t) (GenP.iblk m c 11 t) (GenP.iblk m c 12 t) (GenP.iblk m c 13 t) (GenP.iblk m c 14 t) (GenP.iblk m c 15 t) (GenP.iblk m c 16 t) (GenP.iblk m c 17 t) (GenP.iblk m c 18 t) (GenP.iblk m c 19 t) (GenP.iblk m c 20 t) (GenP.iblk m c 21 t) (GenP.iblk m c 22 t) (GenP.iblk m c 23 t) (GenP.iblk m c 24 t) (GenP.iblk m c 25 t) (GenP.iblk m c 26 t) (GenP.iblk m c 27 t) (GenP.iblk m c 28 t) t (iblk0_apply m c t)
    (iblk_1 m c t) (iblk_2 m c t) (iblk_3 m c t) (iblk_4 m c t) (iblk_5 m c t) (iblk_6 m c t) (iblk_7 m c t) (iblk_8 m c t) (iblk_9 m c t) (iblk_10 m c t) (iblk_11 m c t) (iblk_12 m c t) (iblk_13 m c t) (iblk_14 m c t) (iblk_15 m c t) (iblk_16 m c t) (iblk_17 m c t) (iblk_18 m c t) (iblk_19 m c t) (iblk_20 m c t) (iblk_21 m c t) (iblk_22 m c t) (iblk_23 m c t) (iblk_24 m c t) (iblk_25 m c t) (iblk_26 m c t) (iblk_27 m c t) (iblk_28 m c t) j

/-- An index of the array is in point t's block iff each coordinate is in the block's range on its axis. -/
theorem mem_blk (t : Fin cfg0.N) (i : S4x262144x144.Idx) :
    i ∈ ((cfg0.win 29).blk t).view.set ↔ ∀ a : Fin 3, win0_29.index t a * S4x2048x144.size a ≤ (i a).val ∧ (i a).val < win0_29.index t a * S4x2048x144.size a + S4x2048x144.size a := by
  show i ∈ ((View.whole main_v43).slice (win0_29.rect t)).set ↔ _
  rw [View.set_slice_whole, Rect.mem_set_unit]
  exact Iff.rfl

/-- Every index of the array is in the block of the point its row falls in: point r / 2048. -/
theorem cover (i : S4x262144x144.Idx) :
    ∃ t : Fin cfg0.N, (cfg0.win 29).flush t = true ∧ i ∈ ((cfg0.win 29).blk t).view.set := by
  have hN : cfg0.N = 128 := N_0
  have h0 : (i 0).val < 4 := (i 0).isLt
  have h1 : (i 1).val < 262144 := (i 1).isLt
  have h2 : (i 2).val < 144 := (i 2).isLt
  obtain ⟨t, ht⟩ : ∃ t : Fin cfg0.N, t.val = (i 1).val / 2048 := ⟨⟨(i 1).val / 2048, by rw [hN]; omega⟩, rfl⟩
  obtain ⟨f0, f1, f2, f3, f4⟩ := idx_facts t
  refine ⟨t, flush0_29 t, ?_⟩
  rw [mem_blk]
  intro a
  match a with
  | ⟨0, _⟩ => show win0_29.index t (0 : Fin 3) * 4 ≤ (i 0).val ∧ (i 0).val < win0_29.index t (0 : Fin 3) * 4 + 4; rw [f2]; omega
  | ⟨1, _⟩ => show win0_29.index t (1 : Fin 3) * 2048 ≤ (i 1).val ∧ (i 1).val < win0_29.index t (1 : Fin 3) * 2048 + 2048; rw [f3, ht]; omega
  | ⟨2, _⟩ => show win0_29.index t (2 : Fin 3) * 144 ≤ (i 2).val ∧ (i 2).val < win0_29.index t (2 : Fin 3) * 144 + 144; rw [f4]; omega

set_option maxHeartbeats 1000000 in
/-- The array after the run is the array function of the staged arrays. -/
theorem final (c : Dev nD) : (GenP.dats m 0 c).arrAt 29 cfg0.N = blockOut (X m c 0) (X m c 1) (X m c 2) (X m c 3) (X m c 4) (X m c 5) (X m c 6) (X m c 7) (X m c 8) (X m c 9) (X m c 10) (X m c 11) (X m c 12) (X m c 13) (X m c 14) (X m c 15) (X m c 16) (X m c 17) (X m c 18) (X m c 19) (X m c 20) (X m c 21) (X m c 22) (X m c 23) (X m c 24) (X m c 25) (X m c 26) (X m c 27) (X m c 28) :=
  (GenP.dats m 0 c).arrAt_eq_of_cover 29 (blockOut (X m c 0) (X m c 1) (X m c 2) (X m c 3) (X m c 4) (X m c 5) (X m c 6) (X m c 7) (X m c 8) (X m c 9) (X m c 10) (X m c 11) (X m c 12) (X m c 13) (X m c 14) (X m c 15) (X m c 16) (X m c 17) (X m c 18) (X m c 19) (X m c 20) (X m c 21) (X m c 22) (X m c 23) (X m c 24) (X m c 25) (X m c 26) (X m c 27) (X m c 28)) (fun t _ => flushed_eq m c t) cover

/-- The result buffer: the [4, 262144, 144] array regrouped as [4, 262144, 12, 12], position 12·i + j becoming (i, j). -/
def result (c : Dev nD) : Buf (Elt Ideal) ((c.tc : Thread nD τ).loc main_v44) :=
  shapeCast S4x262144x12x12 (blockOut (X m c 0) (X m c 1) (X m c 2) (X m c 3) (X m c 4) (X m c 5) (X m c 6) (X m c 7) (X m c 8) (X m c 9) (X m c 10) (X m c 11) (X m c 12) (X m c 13) (X m c 14) (X m c 15) (X m c 16) (X m c 17) (X m c 18) (X m c 19) (X m c 20) (X m c 21) (X m c 22) (X m c 23) (X m c 24) (X m c 25) (X m c 26) (X m c 27) (X m c 28)) shapeCasts_S4x262144x144_S4x262144x12x12

/-- The one host operation after the region regroups the filled array. -/
theorem tail_eq (c : Dev nD) :
    Pipeline.afterTail₀ cfgs (GenP.dats m) 0 (GenP.V0 m) [hostOps1] c main_v44 = result m c := by
  unfold Pipeline.afterTail₀
  show StableHlo.after hostOps1 _ (Proc.devRef .tc main_v44) = _
  after_results
  have e := (Pipeline.withArrays_arr spec0 launch0.win.arr_inj c (GenP.V0 m c) (fun w => (GenP.dats m 0 c).arrAt w cfg0.N) 29).trans (final m c)
  first
    | (rw [e]; rfl)
    | exact congrArg (fun W : S4x262144x144.Idx → EReal => shapeCast S4x262144x12x12 W shapeCasts_S4x262144x144_S4x262144x12x12) e

/-- The result read at part b, row r, entry (i, j) is the array function at position 12·i + j. -/
theorem result_apply (c : Dev nD) (b : Fin 4) (r : Fin 262144) (i j : Fin 12) :
    (result m c : S4x262144x12x12.Idx → EReal) (ix4 b r i j)
      = blockOut (X m c 0) (X m c 1) (X m c 2) (X m c 3) (X m c 4) (X m c 5) (X m c 6) (X m c 7) (X m c 8) (X m c 9) (X m c 10) (X m c 11) (X m c 12) (X m c 13) (X m c 14) (X m c 15) (X m c 16) (X m c 17) (X m c 18) (X m c 19) (X m c 20) (X m c 21) (X m c 22) (X m c 23) (X m c 24) (X m c 25) (X m c 26) (X m c 27) (X m c 28) (ix3 b r (⟨12 * i.val + j.val, by omega⟩ : Fin 144)) := by
  unfold result
  refine shapeCast_apply _ _ _ _ ?_
  rw [Shape.rowMajor_val_three, Shape.rowMajor_val_four]
  show (b.val * 262144 + r.val) * 144 + (12 * i.val + j.val) = ((b.val * 262144 + r.val) * 12 + i.val) * 12 + j.val
  omega

/-- The run: the result buffer ends at `result`, the arguments unchanged. -/
theorem run : θ_run (defs (F := Ideal)) (onTc (τ := τ) (main (F := Ideal))) ⟨m, fun _ => 0, ρ⟩ (fun r => ∀ c : Dev nD,
      r.2.mem ((c.tc : Thread nD τ).loc main_v44) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun _ h c => ⟨((h c).2 main_v44 (Pipeline.mem_restRefs_of main_v44 (by decide) (by decide))).trans (tail_eq m c),
      (((h c).2 main_arg0 (Pipeline.mem_restRefs_of main_arg0 (by decide) (by decide))).trans (GenP.W_main_arg0 m (GenP.dats m) c)),
      (((h c).2 main_arg1 (Pipeline.mem_restRefs_of main_arg1 (by decide) (by decide))).trans (GenP.W_main_arg1 m (GenP.dats m) c)),
      ((h c).1 1).trans (((GenP.dats m 0 c).arrAt_in 1 rfl _).trans ((GenP.A_eq m c 1).trans (GenP.V_main_arg2 m c))),
      (((h c).2 main_arg3 (Pipeline.mem_restRefs_of main_arg3 (by decide) (by decide))).trans (GenP.W_main_arg3 m (GenP.dats m) c)),
      (((h c).2 main_arg4 (Pipeline.mem_restRefs_of main_arg4 (by decide) (by decide))).trans (GenP.W_main_arg4 m (GenP.dats m) c)),
      (((h c).2 main_arg5 (Pipeline.mem_restRefs_of main_arg5 (by decide) (by decide))).trans (GenP.W_main_arg5 m (GenP.dats m) c)),
      ((h c).1 5).trans (((GenP.dats m 0 c).arrAt_in 5 rfl _).trans ((GenP.A_eq m c 5).trans (GenP.V_main_arg6 m c))),
      (((h c).2 main_arg7 (Pipeline.mem_restRefs_of main_arg7 (by decide) (by decide))).trans (GenP.W_main_arg7 m (GenP.dats m) c)),
      (((h c).2 main_arg8 (Pipeline.mem_restRefs_of main_arg8 (by decide) (by decide))).trans (GenP.W_main_arg8 m (GenP.dats m) c)),
      (((h c).2 main_arg9 (Pipeline.mem_restRefs_of main_arg9 (by decide) (by decide))).trans (GenP.W_main_arg9 m (GenP.dats m) c)),
      ((h c).1 9).trans (((GenP.dats m 0 c).arrAt_in 9 rfl _).trans ((GenP.A_eq m c 9).trans (GenP.V_main_arg10 m c))),
      (((h c).2 main_arg11 (Pipeline.mem_restRefs_of main_arg11 (by decide) (by decide))).trans (GenP.W_main_arg11 m (GenP.dats m) c)),
      (((h c).2 main_arg12 (Pipeline.mem_restRefs_of main_arg12 (by decide) (by decide))).trans (GenP.W_main_arg12 m (GenP.dats m) c)),
      (((h c).2 main_arg13 (Pipeline.mem_restRefs_of main_arg13 (by decide) (by decide))).trans (GenP.W_main_arg13 m (GenP.dats m) c)),
      ((h c).1 15).trans (((GenP.dats m 0 c).arrAt_in 15 rfl _).trans ((GenP.A_eq m c 15).trans (GenP.V_main_arg14 m c))),
      (((h c).2 main_arg15 (Pipeline.mem_restRefs_of main_arg15 (by decide) (by decide))).trans (GenP.W_main_arg15 m (GenP.dats m) c)),
      (((h c).2 main_arg16 (Pipeline.mem_restRefs_of main_arg16 (by decide) (by decide))).trans (GenP.W_main_arg16 m (GenP.dats m) c)),
      (((h c).2 main_arg17 (Pipeline.mem_restRefs_of main_arg17 (by decide) (by decide))).trans (GenP.W_main_arg17 m (GenP.dats m) c)),
      ((h c).1 19).trans (((GenP.dats m 0 c).arrAt_in 19 rfl _).trans ((GenP.A_eq m c 19).trans (GenP.V_main_arg18 m c))),
      (((h c).2 main_arg19 (Pipeline.mem_restRefs_of main_arg19 (by decide) (by decide))).trans (GenP.W_main_arg19 m (GenP.dats m) c)),
      (((h c).2 main_arg20 (Pipeline.mem_restRefs_of main_arg20 (by decide) (by decide))).trans (GenP.W_main_arg20 m (GenP.dats m) c)),
      (((h c).2 main_arg21 (Pipeline.mem_restRefs_of main_arg21 (by decide) (by decide))).trans (GenP.W_main_arg21 m (GenP.dats m) c)),
      ((h c).1 23).trans (((GenP.dats m 0 c).arrAt_in 23 rfl _).trans ((GenP.A_eq m c 23).trans (GenP.V_main_arg22 m c))),
      (((h c).2 main_arg23 (Pipeline.mem_restRefs_of main_arg23 (by decide) (by decide))).trans (GenP.W_main_arg23 m (GenP.dats m) c)),
      (((h c).2 main_arg24 (Pipeline.mem_restRefs_of main_arg24 (by decide) (by decide))).trans (GenP.W_main_arg24 m (GenP.dats m) c)),
      (((h c).2 main_arg25 (Pipeline.mem_restRefs_of main_arg25 (by decide) (by decide))).trans (GenP.W_main_arg25 m (GenP.dats m) c))⟩) (GenP.run_main m ρ)

end Cert.KernelIdeal.Final

end
-- ==== Proof.KTables.lean ====
/-
  The kernel's gathered, masked last layer against the placement of the 144 numbers.

  Column q = 12·i + j of the gathered weight matrix is column src q of the weight matrix times a mask word. Checked here
  once over the 144 positions of the two pairs of literal tables: where entry (i, j) of the real part takes one of the
  144 numbers, the mask is the float 1 and src q is that number's position; where it takes none, the mask is the float
  0 — and the same for the imaginary part. The float words 0x3F800000 and 0 denote the extended reals 1 and 0.
-/
import proofs.«138334_j60430189854928_2_alg».proof.Proof.Gen.KernelIdeal
import proofs.«138334_j60430189854928_2_alg».proof.Proof.Mlp
import Idealize.ShloMosaic.PureOps.Ideal.Laws

noncomputable section

namespace Cert.KernelIdeal.Tables

open Idealize.ShloMosaic Cert.KernelIdeal Cert.Mlp

/-- The float word 0x3F800000 is the extended real 1. -/
theorem ofBits_one_f32 : Ideal.ofBits .f32 0x3F800000#32 = 1 := by
  simp [Ideal.ofBits, Ideal.ieee]
  rw [← EReal.coe_mul]
  norm_num

/-- Entry (i, j) of a 12 × 12 matrix flattened row-major. -/
def pos (i j : Fin 12) : Fin 144 := ⟨12 * i.val + j.val, by omega⟩

/-- The check of one position of the real part's tables against its placement. -/
def okRe (i j : Fin 12) : Bool :=
  match slotRe i j with
  | some s => (lit0 (pos i j) == 0x3F800000#32) && ((lit2 (pos i j)).toNat == s.val)
  | none => lit0 (pos i j) == 0x00000000#32

/-- The same for the imaginary part. -/
def okIm (i j : Fin 12) : Bool :=
  match slotIm i j with
  | some s => (lit1 (pos i j) == 0x3F800000#32) && ((lit3 (pos i j)).toNat == s.val)
  | none => lit1 (pos i j) == 0x00000000#32

theorem okRe_all : ∀ i j : Fin 12, okRe i j = true := by decide
theorem okIm_all : ∀ i j : Fin 12, okIm i j = true := by decide

/-- Where the real part takes number s, the mask word is the float 1 and the gathered column is s. -/
theorem table_re_some (i j : Fin 12) (s : Fin 144) (h : slotRe i j = some s) :
    lit0 (pos i j) = 0x3F800000#32 ∧ (lit2 (pos i j)).toNat = s.val := by
  have := okRe_all i j
  unfold okRe at this
  rw [h] at this
  simpa using this

/-- Where the real part takes none, the mask word is the float 0. -/
theorem table_re_none (i j : Fin 12) (h : slotRe i j = none) : lit0 (pos i j) = 0x00000000#32 := by
  have := okRe_all i j
  unfold okRe at this
  rw [h] at this
  simpa using this

theorem table_im_some (i j : Fin 12) (s : Fin 144) (h : slotIm i j = some s) :
    lit1 (pos i j) = 0x3F800000#32 ∧ (lit3 (pos i j)).toNat = s.val := by
  have := okIm_all i j
  unfold okIm at this
  rw [h] at this
  simpa using this

theorem table_im_none (i j : Fin 12) (h : slotIm i j = none) : lit1 (pos i j) = 0x00000000#32 := by
  have := okIm_all i j
  unfold okIm at this
  rw [h] at this
  simpa using this

/-- Every mask word is the float 1 or the float 0. -/
theorem mask0_cases : ∀ q : Fin 144, Ideal.ofBits .f32 (lit0 q) = 1 ∨ Ideal.ofBits .f32 (lit0 q) = 0 := by
  intro q
  have h : lit0 q = 0x3F800000#32 ∨ lit0 q = 0x00000000#32 := by revert q; decide
  rcases h with h | h
  · left; rw [h]; exact ofBits_one_f32
  · right; rw [h]; exact Ideal.ofBits_zero_f32

theorem mask1_cases : ∀ q : Fin 144, Ideal.ofBits .f32 (lit1 q) = 1 ∨ Ideal.ofBits .f32 (lit1 q) = 0 := by
  intro q
  have h : lit1 q = 0x3F800000#32 ∨ lit1 q = 0x00000000#32 := by revert q; decide
  rcases h with h | h
  · left; rw [h]; exact ofBits_one_f32
  · right; rw [h]; exact Ideal.ofBits_zero_f32

/-- The last layer with gathered, masked columns (column q of the matrix is column src q of W4 times the mask word's
    value, the bias likewise), read at position 12·i + j, is the placement of the plain last layer's numbers. -/
theorem head_place (srcT maskT : Fin 144 → BitVec 32) (slot : Fin 12 → Fin 12 → Option (Fin 144))
    (hlt : ∀ q, (srcT q).toNat < 144)
    (hsome : ∀ i j s, slot i j = some s → maskT (pos i j) = 0x3F800000#32 ∧ (srcT (pos i j)).toNat = s.val)
    (hnone : ∀ i j, slot i j = none → maskT (pos i j) = 0x00000000#32)
    (W4 : (⟨2, ![64, 144]⟩ : Shape).Idx → EReal) (b4 : (⟨1, ![144]⟩ : Shape).Idx → EReal)
    (X11 : (⟨2, ![64, 144]⟩ : Shape).Idx → EReal) (X12 : (⟨2, ![1, 144]⟩ : Shape).Idx → EReal)
    (h11 : ∀ k q, X11 (ValueIdx.ix2 k q) = W4 (ValueIdx.ix2 k ⟨(srcT q).toNat, hlt q⟩) * Ideal.ofBits .f32 (maskT q))
    (h12 : ∀ q, X12 (ValueIdx.ix2 (0 : Fin 1) q) = b4 (ValueIdx.ix1 ⟨(srcT q).toNat, hlt q⟩) * Ideal.ofBits .f32 (maskT q))
    (h : Fin 64 → EReal) (i j : Fin 12) :
    affine (mat X11) (fun q => X12 (ValueIdx.ix2 (0 : Fin 1) q)) h (pos i j) = place (slot i j) (affine (mat W4) (vec b4) h) := by
  have e11 : mat X11 = fun k q => mat W4 k ⟨(srcT q).toNat, hlt q⟩ * Ideal.ofBits .f32 (maskT q) := by
    funext k q; exact h11 k q
  have e12 : (fun q => X12 (ValueIdx.ix2 (0 : Fin 1) q)) = fun q => vec b4 ⟨(srcT q).toNat, hlt q⟩ * Ideal.ofBits .f32 (maskT q) := by
    funext q; exact h12 q
  rw [e11, e12]
  cases hs : slot i j with
  | none =>
    have hm := hnone i j hs
    unfold affine place
    simp only [hm, Ideal.ofBits_zero_f32, mul_zero, Finset.sum_const_zero, add_zero]
  | some s =>
    obtain ⟨hm, hsrc⟩ := hsome i j s hs
    have hq : (⟨(srcT (pos i j)).toNat, hlt (pos i j)⟩ : Fin 144) = s := Fin.ext hsrc
    unfold affine place
    simp only [hm, ofBits_one_f32, mul_one, hq]

end Cert.KernelIdeal.Tables

end
-- ==== Proof.Entry.lean ====
/-
  The result array, entry by entry: the value both programs end with.

  The result has shape [4, 262144, 12, 12]. Its four leading slices are, for each row r, the real and the imaginary
  lower-triangular matrix built from the 144 numbers the first parameter set's network gives on row r, then the same
  two for the second parameter set.
-/
import proofs.«138334_j60430189854928_2_alg».proof.Proof.Mlp

noncomputable section

namespace Cert.Mlp

open Idealize.ShloMosaic Idealize.ShloMosaic.ValueIdx

/-- Entry (k, r, i, j) of the result, from the 26 argument arrays. -/
def entry (a0 a1 : (⟨2, ![262144, 12]⟩ : Shape).Idx → EReal)
    (a2 : (⟨2, ![24, 128]⟩ : Shape).Idx → EReal) (a3 a4 a5 : (⟨1, ![128]⟩ : Shape).Idx → EReal) (a6 : (⟨2, ![128, 128]⟩ : Shape).Idx → EReal) (a7 a8 a9 : (⟨1, ![128]⟩ : Shape).Idx → EReal)
    (a10 : (⟨2, ![128, 64]⟩ : Shape).Idx → EReal) (a11 : (⟨1, ![64]⟩ : Shape).Idx → EReal) (a12 : (⟨2, ![64, 144]⟩ : Shape).Idx → EReal) (a13 : (⟨1, ![144]⟩ : Shape).Idx → EReal)
    (a14 : (⟨2, ![24, 128]⟩ : Shape).Idx → EReal) (a15 a16 a17 : (⟨1, ![128]⟩ : Shape).Idx → EReal) (a18 : (⟨2, ![128, 128]⟩ : Shape).Idx → EReal) (a19 a20 a21 : (⟨1, ![128]⟩ : Shape).Idx → EReal)
    (a22 : (⟨2, ![128, 64]⟩ : Shape).Idx → EReal) (a23 : (⟨1, ![64]⟩ : Shape).Idx → EReal) (a24 : (⟨2, ![64, 144]⟩ : Shape).Idx → EReal) (a25 : (⟨1, ![144]⟩ : Shape).Idx → EReal)
    (k : Fin 4) (r : Fin 262144) (i j : Fin 12) : EReal :=
  match k with
  | 0 => place (slotRe i j) (factors a2 a3 a4 a5 a6 a7 a8 a9 a10 a11 a12 a13 (xrow a0 a1 r))
  | 1 => place (slotIm i j) (factors a2 a3 a4 a5 a6 a7 a8 a9 a10 a11 a12 a13 (xrow a0 a1 r))
  | 2 => place (slotRe i j) (factors a14 a15 a16 a17 a18 a19 a20 a21 a22 a23 a24 a25 (xrow a0 a1 r))
  | 3 => place (slotIm i j) (factors a14 a15 a16 a17 a18 a19 a20 a21 a22 a23 a24 a25 (xrow a0 a1 r))

end Cert.Mlp

end
-- ==== Proof.GatherRead.lean ====
/-
  Reading the two `stablehlo.gather`s of the printed kernel program at one index of their result.

  Both take ONE start-index component per result column, `idx[p, 0]` (index_vector_dim `1` over start indices
  `[P, 1]`), read it as a signed integer and clamp it into `[0, N − 1]` — the operand axis has `N` entries and the
  slice one of them, so the clamp's upper bound is `N − 1` (`GatherDims.start`).
  `colDims`: operand `[K, N]`, result `[K, P]`, offset_dims `[0]`, collapsed_slice_dims `[1]`, start_index_map
  `[1]`, slice sizes `[K, 1]`: result column `p` is operand column `clamp idx[p, 0]`, the row kept
  (`gather_col_apply`). `flatDims`: operand `[N]`, result `[P]`, collapsed_slice_dims `[0]`, start_index_map `[0]`,
  slice sizes `[1]`: result entry `p` is operand entry `clamp idx[p, 0]` (`gather_flat_apply`). The printed records
  are these at `K = 64`, `N = P = 144` (`gatherCol_eq`, `gatherFlat_eq`), for which the reads are restated
  (`gatherCol_apply`, `gatherFlat_apply`).
-/
import Idealize.ShloMosaic.PureOps
import Idealize.ShloMosaic.Lib.ValueIdx
import proofs.«138334_j60430189854928_2_alg».proof.KernelIdeal

noncomputable section

namespace Cert.KernelIdeal.GatherRead

open Idealize.ShloMosaic Idealize.ShloMosaic.ValueIdx

variable {α : Type}

/-- Column gather: operand `[K, N]`, start indices `[P, 1]`, result `[K, P]`. -/
abbrev colDims (K N P : Nat) (wf : GatherDims.WF ⟨2, ![K, N]⟩ ⟨2, ![P, 1]⟩ ⟨2, ![K, P]⟩ [0] [1] [] [1] [] 1 ![K, 1]) :
    GatherDims ⟨2, ![K, N]⟩ ⟨2, ![P, 1]⟩ ⟨2, ![K, P]⟩ where
  offsetDims := [0]
  collapsedSliceDims := [1]
  operandBatchingDims := []
  startIndicesBatchingDims := []
  startIndexMap := [1]
  indexVectorDim := 1
  sliceSizes := ![K, 1]
  wf := wf

theorem gather_col_apply {K N P w : Nat} (hN : 0 < N)
    (wf : GatherDims.WF ⟨2, ![K, N]⟩ ⟨2, ![P, 1]⟩ ⟨2, ![K, P]⟩ [0] [1] [] [1] [] 1 ![K, 1])
    (x : (⟨2, ![K, N]⟩ : Shape).Idx → α) (idx : IVec ⟨2, ![P, 1]⟩ w) (k : Fin K) (p : Fin P) :
    Host.gather (colDims K N P wf) x idx (ix2 k p) = x (ix2 k ⟨min (idx (ix2 p 0)).toInt.toNat (N - 1), by omega⟩) := by
  unfold Host.gather
  congr 1
  funext a
  refine Fin.ext ?_
  match a with
  | ⟨0, _⟩ =>
    show (colDims K N P wf).start (ix2 k p) idx 0 + (colDims K N P wf).batchCoord (ix2 k p) 0 + (colDims K N P wf).offCoord (ix2 k p) 0 = k.val
    rw [GatherDims.batchCoord_eq_zero _ _ _ List.not_mem_nil]
    unfold GatherDims.start
    rw [dif_neg (show (0 : Fin 2) ∉ ([1] : List (Fin 2)) by decide)]
    unfold GatherDims.offCoord
    rw [dif_pos (show (0 : Fin 2) ∈ (colDims K N P wf).sKept by
      show (0 : Fin 2) ∈ (List.finRange 2).filter (· ∉ (([1] : List (Fin 2)) ++ [])); decide)]
    simp only [Nat.zero_add, Nat.add_zero]
    rfl
  | ⟨1, _⟩ =>
    show (colDims K N P wf).start (ix2 k p) idx 1 + (colDims K N P wf).batchCoord (ix2 k p) 1 + (colDims K N P wf).offCoord (ix2 k p) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims K N P wf).startIndexMap from List.mem_singleton.mpr rfl)]
    have hsi : (colDims K N P wf).siIdx (ix2 k p) ⟨List.idxOf (1 : Fin 2) (colDims K N P wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl

/-- Flat gather: operand `[N]`, start indices `[P, 1]`, result `[P]`. -/
abbrev flatDims (N P : Nat) (wf : GatherDims.WF ⟨1, ![N]⟩ ⟨2, ![P, 1]⟩ ⟨1, ![P]⟩ [] [0] [] [0] [] 1 ![1]) :
    GatherDims ⟨1, ![N]⟩ ⟨2, ![P, 1]⟩ ⟨1, ![P]⟩ where
  offsetDims := []
  collapsedSliceDims := [0]
  operandBatchingDims := []
  startIndicesBatchingDims := []
  startIndexMap := [0]
  indexVectorDim := 1
  sliceSizes := ![1]
  wf := wf

theorem gather_flat_apply {N P w : Nat} (hN : 0 < N)
    (wf : GatherDims.WF ⟨1, ![N]⟩ ⟨2, ![P, 1]⟩ ⟨1, ![P]⟩ [] [0] [] [0] [] 1 ![1])
    (x : (⟨1, ![N]⟩ : Shape).Idx → α) (idx : IVec ⟨2, ![P, 1]⟩ w) (p : Fin P) :
    Host.gather (flatDims N P wf) x idx (ix1 p) = x (ix1 ⟨min (idx (ix2 p 0)).toInt.toNat (N - 1), by omega⟩) := by
  unfold Host.gather
  congr 1
  funext a
  obtain rfl : a = 0 := Subsingleton.elim _ _
  refine Fin.ext ?_
  show (flatDims N P wf).start (ix1 p) idx 0 + (flatDims N P wf).batchCoord (ix1 p) 0 + (flatDims N P wf).offCoord (ix1 p) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N P wf).startIndexMap from List.mem_singleton.mpr rfl)]
  have hsi : (flatDims N P wf).siIdx (ix1 p) ⟨List.idxOf (0 : Fin 1) (flatDims N P wf).startIndexMap,
      List.idxOf_lt_length_iff.2 (List.mem_singleton.mpr rfl)⟩ = ix2 p 0 := by
    funext b; refine Fin.ext ?_
    match b with
    | ⟨0, _⟩ => rfl
    | ⟨1, _⟩ => rfl
  rw [hsi]
  rfl

/-! ## The two records of the printed kernel program -/

section Records
variable [Facts₀] {w : Nat}

/-- The column gather's record is `colDims` at `K = 64`, `N = P = 144`. -/
theorem gatherCol_eq : gather_S64x144_S144x1_S64x144_0_1_n_n_1_1_641
    = colDims 64 144 144 Facts₀.gather_S64x144_S144x1_S64x144_0_1_n_n_1_1_641_wf := rfl

/-- The flat gather's record is `flatDims` at `N = P = 144`. -/
theorem gatherFlat_eq : gather_S144_S144x1_S144_n_0_n_n_0_1_1
    = flatDims 144 144 Facts₀.gather_S144_S144x1_S144_n_0_n_n_0_1_1_wf := rfl

/-- Column `p` of the gathered `[64, 144]` array is column `min idx[p, 0] 143` (read signed, negative to `0`) of the
    operand, row `k` kept. -/
theorem gatherCol_apply (x : S64x144.Idx → α) (idx : IVec S144x1 w) (k : Fin 64) (p : Fin 144) :
    Host.gather gather_S64x144_S144x1_S64x144_0_1_n_n_1_1_641 x idx (ix2 k p)
      = x (ix2 k ⟨min (idx (ix2 p 0)).toInt.toNat 143, by omega⟩) := by
  rw [gatherCol_eq]
  exact gather_col_apply (by decide) _ x idx k p

/-- Entry `p` of the gathered `[144]` array is entry `min idx[p, 0] 143` (read signed, negative to `0`) of the operand. -/
theorem gatherFlat_apply (x : S144.Idx → α) (idx : IVec S144x1 w) (p : Fin 144) :
    Host.gather gather_S144_S144x1_S144_n_0_n_n_0_1_1 x idx (ix1 p)
      = x (ix1 ⟨min (idx (ix2 p 0)).toInt.toNat 143, by omega⟩) := by
  rw [gatherFlat_eq]
  exact gather_flat_apply (by decide) _ x idx p

end Records

end Cert.KernelIdeal.GatherRead
-- ==== Proof.KStageDefs.lean ====
/-
  The index-take chain of the idealized kernel program and the staged arrays read at an index.

  `jnp.take` with a constant index table prints as: the table normalised (a negative index counts from the end), a
  bounds mask (`0 ≤ idx ≤ 143`, reduced by `and` over the unit axis), a gather with clamped start indices, and a select
  of the gathered value against a NaN splat where the mask is off.  For a table all of whose entries lie in
  `[0, 144)` (`GoodTable`, decided once over the 144 positions of each literal table) the normalisation and the clamp
  are the identity and the mask is on everywhere, so the chain reads column (entry) `tbl q` of its operand
  (`takeCols_apply`, `takeVec_apply`).  Also here: a vector reshaped to a one-row matrix, a two-piece concatenation
  along the columns and a 0/1 table broadcast down the rows, each read at an index.
-/
import proofs.«138334_j60430189854928_2_alg».proof.Proof.Gen.KernelIdeal
import proofs.«138334_j60430189854928_2_alg».proof.Proof.GatherRead
import Idealize.ShloMosaic.Lib.ValueIdx
import Idealize.ShloMosaic.Lib.Pipeline.Value
import Idealize.ShloMosaic.Lib.ReduceAll

noncomputable section

namespace Cert.KernelIdeal.Stage

open Idealize.ShloMosaic Idealize.ShloMosaic.ValueIdx
open Cert.KernelIdeal Cert.KernelIdeal.Gen

/-! ## The chain, as the callee composes it -/

/-- The index table normalised as `jnp.take` does: a negative index counts from the end. -/
def normIdx (tbl : IVec S144 32) : IVec S144 32 :=
  select (cmpi .slt tbl (broadcastInDim S144 ![] bcast_S_S144 (constantI S_ 32 0#32)))
    (addi tbl (broadcastInDim S144 ![] bcast_S_S144 (constantI S_ 32 144#32))) tbl

/-- The normalised indices as a column of start indices. -/
def idxCol (tbl : IVec S144 32) : IVec S144x1 32 := broadcastInDim S144x1 ![0] bcast_S144_S144x1_0 (normIdx tbl)

/-- The bounds mask: position `q` is kept when `0 ≤ idx q ≤ 143`. -/
def inBounds (tbl : IVec S144 32) : IVec S144 1 :=
  Host.reduce IntOp.andi
    (andi (cmpi .sge (idxCol tbl) (broadcastInDim S144x1 ![] bcast_S_S144x1 (constantI S_ 32 0#32)))
      (cmpi .sle (idxCol tbl) (broadcastInDim S144x1 ![0, 1] bcast_S1x1_S144x1_0_1
        (broadcastInDim S1x1 ![1] bcast_S1_S1x1_1 (constantI S1 32 143#32)))))
    (constantI S_ 1 1#1) reducesTo_S144x1_S144_d1 h_S_

/-- `jnp.take(W, tbl, axis=1)` of a 64×144 matrix: column `q` of the result is column `tbl q` of `W`, a NaN column
    where the index is out of bounds. -/
def takeCols (W : FVec Ideal S64x144 .f32) (tbl : IVec S144 32) : FVec Ideal S64x144 .f32 :=
  select (broadcastInDim S64x144 ![1] bcast_S144_S64x144_1 (inBounds tbl))
    (Host.gather gather_S64x144_S144x1_S64x144_0_1_n_n_1_1_641 W (idxCol tbl))
    (broadcastInDim S64x144 ![] bcast_S_S64x144 (constant S_ .f32 0x7FC00000#32))

/-- `jnp.take(b, tbl)` of a 144-vector: entry `q` of the result is entry `tbl q` of `b`, NaN where the index is out
    of bounds. -/
def takeVec (b : FVec Ideal S144 .f32) (tbl : IVec S144 32) : FVec Ideal S144 .f32 :=
  select (inBounds tbl) (Host.gather gather_S144_S144x1_S144_n_0_n_n_0_1_1 b (idxCol tbl))
    (broadcastInDim S144 ![] bcast_S_S144 (constant S_ .f32 0x7FC00000#32))

/-- The two index tables and the two 0/1 tables, as vectors. -/
def tblA : IVec S144 32 := fun i => lit2 (S144.rowMajor i)
def tblB : IVec S144 32 := fun i => lit3 (S144.rowMajor i)
def maskA : FVec Ideal S144 .f32 := fun i => FloatOps.ofBits .f32 (lit0 (S144.rowMajor i))
def maskB : FVec Ideal S144 .f32 := fun i => FloatOps.ofBits .f32 (lit1 (S144.rowMajor i))

/-- A 0/1 table broadcast down the 64 rows. -/
def maskRows (mk : FVec Ideal S144 .f32) : FVec Ideal S64x144 .f32 :=
  broadcastInDim S64x144 ![0, 1] bcast_S1x144_S64x144_0_1 (broadcastInDim S1x144 ![1] bcast_S144_S1x144_1 mk)

/-! ## Tables whose entries are valid indices -/

/-- Every entry of the table is an index into `[0, 144)`: not negative, within the bounds the mask tests, and left
    alone by the gather's clamp. -/
structure GoodTable (L : Fin 144 → BitVec 32) : Prop where
  nonneg : ∀ q, IntOp.cmpi .slt (L q) 0#32 = 0#1
  ge : ∀ q, IntOp.cmpi .sge (L q) 0#32 = 1#1
  le : ∀ q, IntOp.cmpi .sle (L q) 143#32 = 1#1
  clamp : ∀ q, min (L q).toInt.toNat 143 = (L q).toNat

theorem GoodTable.lt {L : Fin 144 → BitVec 32} (h : GoodTable L) (q : Fin 144) : (L q).toNat < 144 := by
  have := h.clamp q; omega

set_option maxRecDepth 100000 in
theorem good_lit2 : GoodTable lit2 := ⟨by decide, by decide, by decide, by decide⟩
set_option maxRecDepth 100000 in
theorem good_lit3 : GoodTable lit3 := ⟨by decide, by decide, by decide, by decide⟩

/-- The row-major position of a rank-1 index is its coordinate. -/
theorem rowMajor_ix1 (q : Fin 144) : S144.rowMajor (ix1 q) = q := Fin.ext (Shape.rowMajor_val_one _)

theorem tblA_ix1 (q : Fin 144) : tblA (ix1 q) = lit2 q := by
  show lit2 (S144.rowMajor (ix1 q)) = lit2 q
  rw [rowMajor_ix1]
theorem tblB_ix1 (q : Fin 144) : tblB (ix1 q) = lit3 q := by
  show lit3 (S144.rowMajor (ix1 q)) = lit3 q
  rw [rowMajor_ix1]
theorem maskA_ix1 (q : Fin 144) : maskA (ix1 q) = Ideal.ofBits .f32 (lit0 q) := by
  show Ideal.ofBits .f32 (lit0 (S144.rowMajor (ix1 q))) = _
  rw [rowMajor_ix1]
theorem maskB_ix1 (q : Fin 144) : maskB (ix1 q) = Ideal.ofBits .f32 (lit1 q) := by
  show Ideal.ofBits .f32 (lit1 (S144.rowMajor (ix1 q))) = _
  rw [rowMajor_ix1]

/-! ## The chain at an index -/

theorem normIdx_apply (tbl : IVec S144 32) (i : S144.Idx) :
    normIdx tbl i = Scalar.select (IntOp.cmpi .slt (tbl i) 0#32) (IntOp.addi (tbl i) 144#32) (tbl i) := rfl

theorem idxCol_apply (tbl : IVec S144 32) (i : S144x1.Idx) : idxCol tbl i = normIdx tbl (ix1 (i 0)) := by
  unfold idxCol
  exact broadcastInDim_apply _ _ _ _ _ (fun a => match a with | ⟨0, _⟩ => rfl)

/-- A left fold by `and` from 1 over 1s is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 by decide]
    exact foldl_andi_one f l fun n hn => h n (List.mem_cons_of_mem _ hn)

section Good
variable (tbl : IVec S144 32) (L : Fin 144 → BitVec 32) (hL : ∀ q, tbl (ix1 q) = L q) (hg : GoodTable L)
include hL hg

/-- A valid index is its own normalisation. -/
theorem normIdx_good (q : Fin 144) : normIdx tbl (ix1 q) = L q := by
  rw [normIdx_apply, hL, hg.nonneg, select_zero]

/-- The bounds mask is on at every position. -/
theorem inBounds_good (j : S144.Idx) : inBounds tbl j = 1#1 := by
  unfold inBounds
  rw [Host.reduce_eq_foldl]
  refine foldl_andi_one _ _ fun i _ => ?_
  show IntOp.andi (IntOp.cmpi .sge (idxCol tbl i) 0#32) (IntOp.cmpi .sle (idxCol tbl i) 143#32) = 1#1
  have e : idxCol tbl i = L (i 0) := by rw [idxCol_apply]; exact normIdx_good tbl L hL hg (i 0)
  have h1 : ∀ q : Fin 144, IntOp.andi (IntOp.cmpi .sge (L q) 0#32) (IntOp.cmpi .sle (L q) 143#32) = 1#1 :=
    fun q => by rw [hg.ge, hg.le]; decide
  rw [e]
  exact h1 (i 0)

/-- THE COLUMN TAKE AT AN INDEX: column `q` of the result is column `L q` of the operand. -/
theorem takeCols_apply (W : FVec Ideal S64x144 .f32) (k : Fin 64) (q : Fin 144) :
    takeCols W tbl (ix2 k q) = W (ix2 k ⟨(L q).toNat, hg.lt q⟩) := by
  unfold takeCols
  rw [select_apply]
  have hb : broadcastInDim S64x144 ![1] bcast_S144_S64x144_1 (inBounds tbl) (ix2 k q) = inBounds tbl (ix1 q) :=
    broadcastInDim_apply _ _ _ _ _ (fun a => match a with | ⟨0, _⟩ => rfl)
  rw [hb, inBounds_good tbl L hL hg, select_one, GatherRead.gatherCol_apply]
  have e : idxCol tbl (ix2 q (0 : Fin 1)) = L q := by rw [idxCol_apply]; exact normIdx_good tbl L hL hg q
  refine congrArg W (funext fun a => ?_)
  match a with
  | ⟨0, _⟩ => rfl
  | ⟨1, _⟩ => exact Fin.ext (by show min (idxCol tbl (ix2 q (0 : Fin 1))).toInt.toNat 143 = (L q).toNat; rw [e, hg.clamp])

/-- THE ENTRY TAKE AT AN INDEX: entry `q` of the result is entry `L q` of the operand. -/
theorem takeVec_apply (b : FVec Ideal S144 .f32) (q : Fin 144) :
    takeVec b tbl (ix1 q) = b (ix1 ⟨(L q).toNat, hg.lt q⟩) := by
  unfold takeVec
  rw [select_apply, inBounds_good tbl L hL hg, select_one, GatherRead.gatherFlat_apply]
  have e : idxCol tbl (ix2 q (0 : Fin 1)) = L q := by rw [idxCol_apply]; exact normIdx_good tbl L hL hg q
  refine congrArg b (funext fun a => ?_)
  match a with
  | ⟨0, _⟩ => exact Fin.ext (by show min (idxCol tbl (ix2 q (0 : Fin 1))).toInt.toNat 143 = (L q).toNat; rw [e, hg.clamp])

end Good

/-! ## A broadcast table, a one-row reshape and a column concatenation at an index -/

/-- The 0/1 table broadcast down the rows reads the table at the column. -/
theorem maskRows_apply (mk : FVec Ideal S144 .f32) (k : Fin 64) (q : Fin 144) : maskRows mk (ix2 k q) = mk (ix1 q) := by
  unfold maskRows
  rw [broadcastInDim_apply (![0, 1]) bcast_S1x144_S64x144_0_1 _ (ix2 k q) (ix2 (0 : Fin 1) q)
    (fun a => match a with | ⟨0, _⟩ => rfl | ⟨1, _⟩ => rfl)]
  exact broadcastInDim_apply _ _ _ _ _ (fun a => match a with | ⟨0, _⟩ => rfl)

/-- A vector reshaped to a one-row matrix reads the vector at the column. -/
theorem shapeCast_row_apply {α : Type} {n : Nat} (x : (⟨1, ![n]⟩ : Shape).Idx → α)
    (h : (⟨1, ![n]⟩ : Shape).ShapeCasts ⟨2, ![1, n]⟩) (j : Fin n) :
    shapeCast ⟨2, ![1, n]⟩ x h (ix2 (0 : Fin 1) j) = x (ix1 j) :=
  shapeCast_apply x h _ _ (by rw [Shape.rowMajor_val_one, Shape.rowMajor_val_two]; show j.val = 0 * n + j.val; omega)

/-- Two 12-column pieces side by side: a column below 12 reads the first, a column from 12 on the second. -/
theorem concat_cols_apply {α : Type} (a b : S262144x12.Idx → α) (r : Fin 262144) (k : Fin 24) :
    concatenate S262144x24 1 [⟨S262144x12, a⟩, ⟨S262144x12, b⟩] concatenates_S262144x12_S262144x12_S262144x24_d1 (ix2 r k)
      = if h : k.val < 12 then a (ix2 r ⟨k.val, h⟩) else b (ix2 r ⟨k.val - 12, by omega⟩) := by
  by_cases h : k.val < 12
  · rw [dif_pos h]
    exact concatenate_pair_apply_left (1 : Fin S262144x24.rank) a b concatenates_S262144x12_S262144x12_S262144x24_d1 (ix2 r k) rfl
      (ix2 r ⟨k.val, h⟩) (fun c => match c with | ⟨0, _⟩ => rfl | ⟨1, _⟩ => rfl)
  · rw [dif_neg h]
    refine concatenate_pair_apply_right (1 : Fin S262144x24.rank) a b concatenates_S262144x12_S262144x12_S262144x24_d1 (ix2 r k) rfl rfl
      (ix2 r ⟨k.val - 12, by omega⟩) (fun c hc => match c, hc with | ⟨0, _⟩, _ => rfl | ⟨1, _⟩, hc => (hc (Fin.ext rfl)).elim) ?_
    show (k.val - 12) + 12 = k.val
    omega

end Cert.KernelIdeal.Stage
-- ==== Proof.KStage.lean ====
/-
  The staged arrays of the idealized kernel program: what each input window's array holds when the one region is
  entered, as a function of the program's argument arrays.  The contents at entry are the fold of the host
  operations before the region over the launch memory (the frame's valuation `V`).  Part 1 states each staged array
  as the composition of the operations that wrote it: a concatenation along the columns, reshapes of vectors to
  one-row matrices, and the index-take chains (`takeCols`, `takeVec`) multiplied by a 0/1 table.  Part 2 reads the
  same arrays at an index as plain formulas over the argument arrays: since every entry of the two index tables is a
  valid index, a taken column (entry) `q` is column (entry) `tbl q` of the operand, times the 0/1 table at `q`.
-/
import proofs.«138334_j60430189854928_2_alg».proof.Proof.KStageDefs
import proofs.«138334_j60430189854928_2_alg».proof.Proof.KernelIdealFrame
import Idealize.ShloMosaic.Lib.Tactic

set_option maxRecDepth 16384

noncomputable section

namespace Cert.KernelIdeal.Stage

open Idealize.ShloMosaic Idealize.ShloMosaic.TcCoe Idealize.ShloMosaic.Tactic Idealize.ShloMosaic.ValueIdx
open Idealize.ShloMosaic.StableHlo
open Cert.KernelIdeal Cert.KernelIdeal.Gen

/-- Running two lines one after the other is running their concatenation. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => rw [List.cons_append, after_cons, after_cons, ih]

variable (m : (ℓ : Loc nD τ sig) → Buf (Elt Ideal) ℓ)

/-! ## The argument arrays -/

/-- Core `c`'s argument arrays as launched, each at its printed type. -/
abbrev A0 (c : Dev nD) : S262144x12.Idx → EReal := m ((c : Thread nD τ).loc main_arg0)
abbrev A1 (c : Dev nD) : S262144x12.Idx → EReal := m ((c : Thread nD τ).loc main_arg1)
abbrev A3 (c : Dev nD) : S128.Idx → EReal := m ((c : Thread nD τ).loc main_arg3)
abbrev A4 (c : Dev nD) : S128.Idx → EReal := m ((c : Thread nD τ).loc main_arg4)
abbrev A5 (c : Dev nD) : S128.Idx → EReal := m ((c : Thread nD τ).loc main_arg5)
abbrev A7 (c : Dev nD) : S128.Idx → EReal := m ((c : Thread nD τ).loc main_arg7)
abbrev A8 (c : Dev nD) : S128.Idx → EReal := m ((c : Thread nD τ).loc main_arg8)
abbrev A9 (c : Dev nD) : S128.Idx → EReal := m ((c : Thread nD τ).loc main_arg9)
abbrev A11 (c : Dev nD) : S64.Idx → EReal := m ((c : Thread nD τ).loc main_arg11)
abbrev A12 (c : Dev nD) : S64x144.Idx → EReal := m ((c : Thread nD τ).loc main_arg12)
abbrev A13 (c : Dev nD) : S144.Idx → EReal := m ((c : Thread nD τ).loc main_arg13)
abbrev A15 (c : Dev nD) : S128.Idx → EReal := m ((c : Thread nD τ).loc main_arg15)
abbrev A16 (c : Dev nD) : S128.Idx → EReal := m ((c : Thread nD τ).loc main_arg16)
abbrev A17 (c : Dev nD) : S128.Idx → EReal := m ((c : Thread nD τ).loc main_arg17)
abbrev A19 (c : Dev nD) : S128.Idx → EReal := m ((c : Thread nD τ).loc main_arg19)
abbrev A20 (c : Dev nD) : S128.Idx → EReal := m ((c : Thread nD τ).loc main_arg20)
abbrev A21 (c : Dev nD) : S128.Idx → EReal := m ((c : Thread nD τ).loc main_arg21)
abbrev A23 (c : Dev nD) : S64.Idx → EReal := m ((c : Thread nD τ).loc main_arg23)
abbrev A24 (c : Dev nD) : S64x144.Idx → EReal := m ((c : Thread nD τ).loc main_arg24)
abbrev A25 (c : Dev nD) : S144.Idx → EReal := m ((c : Thread nD τ).loc main_arg25)

/-! ## Part 1: each staged array as the composition of the operations that wrote it -/

set_option maxHeartbeats 2000000 in
/-- `main_v0` is the two 12-column inputs side by side: written by the first stretch of host operations and by no later
    one. -/
theorem V_main_v0 (c : Dev nD) : (GenP.V m c main_v0 : S262144x24.Idx → EReal)
    = concatenate S262144x24 1 [⟨S262144x12, (A0 m c)⟩, ⟨S262144x12, (A1 m c)⟩]
        concatenates_S262144x12_S262144x12_S262144x24_d1 := by
  dsimp only [GenP.V, GenP.V0]
  simp only [List.flatten_cons, List.flatten_nil, List.append_nil]
  rw [after_append]
  rw [StableHlo.after_of_forall_not_mem (b := Proc.devRef .tc main_v0) _ _ (List.forall_iff_forall_mem.mp (by
    simp only [hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.cons_append, List.nil_append, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide)))]
  simp only [hostOps0]
  after_results

set_option maxHeartbeats 1000000 in
/-- `main_v25` is the vector `main_arg3` as a one-row matrix. -/
theorem V_main_v25 (c : Dev nD) : (GenP.V m c main_v25 : S1x128.Idx → EReal)
    = shapeCast S1x128 (A3 m c) shapeCasts_S128_S1x128 := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

set_option maxHeartbeats 1000000 in
/-- `main_v26` is the vector `main_arg4` as a one-row matrix. -/
theorem V_main_v26 (c : Dev nD) : (GenP.V m c main_v26 : S1x128.Idx → EReal)
    = shapeCast S1x128 (A4 m c) shapeCasts_S128_S1x128 := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

set_option maxHeartbeats 1000000 in
/-- `main_v27` is the vector `main_arg5` as a one-row matrix. -/
theorem V_main_v27 (c : Dev nD) : (GenP.V m c main_v27 : S1x128.Idx → EReal)
    = shapeCast S1x128 (A5 m c) shapeCasts_S128_S1x128 := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

set_option maxHeartbeats 1000000 in
/-- `main_v28` is the vector `main_arg7` as a one-row matrix. -/
theorem V_main_v28 (c : Dev nD) : (GenP.V m c main_v28 : S1x128.Idx → EReal)
    = shapeCast S1x128 (A7 m c) shapeCasts_S128_S1x128 := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

set_option maxHeartbeats 1000000 in
/-- `main_v29` is the vector `main_arg8` as a one-row matrix. -/
theorem V_main_v29 (c : Dev nD) : (GenP.V m c main_v29 : S1x128.Idx → EReal)
    = shapeCast S1x128 (A8 m c) shapeCasts_S128_S1x128 := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

set_option maxHeartbeats 1000000 in
/-- `main_v30` is the vector `main_arg9` as a one-row matrix. -/
theorem V_main_v30 (c : Dev nD) : (GenP.V m c main_v30 : S1x128.Idx → EReal)
    = shapeCast S1x128 (A9 m c) shapeCasts_S128_S1x128 := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

set_option maxHeartbeats 1000000 in
/-- `main_v31` is the vector `main_arg11` as a one-row matrix. -/
theorem V_main_v31 (c : Dev nD) : (GenP.V m c main_v31 : S1x64.Idx → EReal)
    = shapeCast S1x64 (A11 m c) shapeCasts_S64_S1x64 := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

set_option maxHeartbeats 1000000 in
/-- `main_v34` is the vector `main_arg15` as a one-row matrix. -/
theorem V_main_v34 (c : Dev nD) : (GenP.V m c main_v34 : S1x128.Idx → EReal)
    = shapeCast S1x128 (A15 m c) shapeCasts_S128_S1x128 := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

set_option maxHeartbeats 1000000 in
/-- `main_v35` is the vector `main_arg16` as a one-row matrix. -/
theorem V_main_v35 (c : Dev nD) : (GenP.V m c main_v35 : S1x128.Idx → EReal)
    = shapeCast S1x128 (A16 m c) shapeCasts_S128_S1x128 := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

set_option maxHeartbeats 1000000 in
/-- `main_v36` is the vector `main_arg17` as a one-row matrix. -/
theorem V_main_v36 (c : Dev nD) : (GenP.V m c main_v36 : S1x128.Idx → EReal)
    = shapeCast S1x128 (A17 m c) shapeCasts_S128_S1x128 := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

set_option maxHeartbeats 1000000 in
/-- `main_v37` is the vector `main_arg19` as a one-row matrix. -/
theorem V_main_v37 (c : Dev nD) : (GenP.V m c main_v37 : S1x128.Idx → EReal)
    = shapeCast S1x128 (A19 m c) shapeCasts_S128_S1x128 := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

set_option maxHeartbeats 1000000 in
/-- `main_v38` is the vector `main_arg20` as a one-row matrix. -/
theorem V_main_v38 (c : Dev nD) : (GenP.V m c main_v38 : S1x128.Idx → EReal)
    = shapeCast S1x128 (A20 m c) shapeCasts_S128_S1x128 := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

set_option maxHeartbeats 1000000 in
/-- `main_v39` is the vector `main_arg21` as a one-row matrix. -/
theorem V_main_v39 (c : Dev nD) : (GenP.V m c main_v39 : S1x128.Idx → EReal)
    = shapeCast S1x128 (A21 m c) shapeCasts_S128_S1x128 := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

set_option maxHeartbeats 1000000 in
/-- `main_v40` is the vector `main_arg23` as a one-row matrix. -/
theorem V_main_v40 (c : Dev nD) : (GenP.V m c main_v40 : S1x64.Idx → EReal)
    = shapeCast S1x64 (A23 m c) shapeCasts_S64_S1x64 := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

set_option maxHeartbeats 2000000 in
/-- `main_v4` is the columns of `main_arg12` taken at the table, times the 0/1 table. -/
theorem V_main_v4 (c : Dev nD) : (GenP.V m c main_v4 : S64x144.Idx → EReal)
    = mulf (takeCols (A12 m c) tblA) (maskRows maskA) := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

set_option maxHeartbeats 2000000 in
/-- `main_v10` is the columns of `main_arg12` taken at the table, times the 0/1 table. -/
theorem V_main_v10 (c : Dev nD) : (GenP.V m c main_v10 : S64x144.Idx → EReal)
    = mulf (takeCols (A12 m c) tblB) (maskRows maskB) := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

set_option maxHeartbeats 2000000 in
/-- `main_v16` is the columns of `main_arg24` taken at the table, times the 0/1 table. -/
theorem V_main_v16 (c : Dev nD) : (GenP.V m c main_v16 : S64x144.Idx → EReal)
    = mulf (takeCols (A24 m c) tblA) (maskRows maskA) := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

set_option maxHeartbeats 2000000 in
/-- `main_v22` is the columns of `main_arg24` taken at the table, times the 0/1 table. -/
theorem V_main_v22 (c : Dev nD) : (GenP.V m c main_v22 : S64x144.Idx → EReal)
    = mulf (takeCols (A24 m c) tblB) (maskRows maskB) := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

set_option maxHeartbeats 2000000 in
/-- `main_v32` is the entries of `main_arg13` taken at the table, times the 0/1 table, as a one-row matrix. -/
theorem V_main_v32 (c : Dev nD) : (GenP.V m c main_v32 : S1x144.Idx → EReal)
    = shapeCast S1x144 (mulf (takeVec (A13 m c) tblA) maskA) shapeCasts_S144_S1x144 := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

set_option maxHeartbeats 2000000 in
/-- `main_v33` is the entries of `main_arg13` taken at the table, times the 0/1 table, as a one-row matrix. -/
theorem V_main_v33 (c : Dev nD) : (GenP.V m c main_v33 : S1x144.Idx → EReal)
    = shapeCast S1x144 (mulf (takeVec (A13 m c) tblB) maskB) shapeCasts_S144_S1x144 := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

set_option maxHeartbeats 2000000 in
/-- `main_v41` is the entries of `main_arg25` taken at the table, times the 0/1 table, as a one-row matrix. -/
theorem V_main_v41 (c : Dev nD) : (GenP.V m c main_v41 : S1x144.Idx → EReal)
    = shapeCast S1x144 (mulf (takeVec (A25 m c) tblA) maskA) shapeCasts_S144_S1x144 := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

set_option maxHeartbeats 2000000 in
/-- `main_v42` is the entries of `main_arg25` taken at the table, times the 0/1 table, as a one-row matrix. -/
theorem V_main_v42 (c : Dev nD) : (GenP.V m c main_v42 : S1x144.Idx → EReal)
    = shapeCast S1x144 (mulf (takeVec (A25 m c) tblB) maskB) shapeCasts_S144_S1x144 := by
  dsimp only [GenP.V, GenP.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

/-! ## Part 2: the same arrays read at an index -/

/-- `main_v0` at row `r`, column `k`: the first input below column 12, the second from column 12 on. -/
theorem V_main_v0_apply (c : Dev nD) (r : Fin 262144) (k : Fin 24) :
    (GenP.V m c main_v0 : S262144x24.Idx → EReal) (ix2 r k)
      = if h : k.val < 12 then (A0 m c) (ix2 r ⟨k.val, h⟩)
        else (A1 m c) (ix2 r ⟨k.val - 12, by omega⟩) := by
  rw [V_main_v0 m c]
  exact concat_cols_apply _ _ r k

theorem V_main_v25_apply (c : Dev nD) (j : Fin 128) :
    (GenP.V m c main_v25 : S1x128.Idx → EReal) (ix2 (0 : Fin 1) j) = (A3 m c) (ix1 j) := by
  rw [V_main_v25 m c]
  exact shapeCast_row_apply _ _ j

theorem V_main_v26_apply (c : Dev nD) (j : Fin 128) :
    (GenP.V m c main_v26 : S1x128.Idx → EReal) (ix2 (0 : Fin 1) j) = (A4 m c) (ix1 j) := by
  rw [V_main_v26 m c]
  exact shapeCast_row_apply _ _ j

theorem V_main_v27_apply (c : Dev nD) (j : Fin 128) :
    (GenP.V m c main_v27 : S1x128.Idx → EReal) (ix2 (0 : Fin 1) j) = (A5 m c) (ix1 j) := by
  rw [V_main_v27 m c]
  exact shapeCast_row_apply _ _ j

theorem V_main_v28_apply (c : Dev nD) (j : Fin 128) :
    (GenP.V m c main_v28 : S1x128.Idx → EReal) (ix2 (0 : Fin 1) j) = (A7 m c) (ix1 j) := by
  rw [V_main_v28 m c]
  exact shapeCast_row_apply _ _ j

theorem V_main_v29_apply (c : Dev nD) (j : Fin 128) :
    (GenP.V m c main_v29 : S1x128.Idx → EReal) (ix2 (0 : Fin 1) j) = (A8 m c) (ix1 j) := by
  rw [V_main_v29 m c]
  exact shapeCast_row_apply _ _ j

theorem V_main_v30_apply (c : Dev nD) (j : Fin 128) :
    (GenP.V m c main_v30 : S1x128.Idx → EReal) (ix2 (0 : Fin 1) j) = (A9 m c) (ix1 j) := by
  rw [V_main_v30 m c]
  exact shapeCast_row_apply _ _ j

theorem V_main_v31_apply (c : Dev nD) (j : Fin 64) :
    (GenP.V m c main_v31 : S1x64.Idx → EReal) (ix2 (0 : Fin 1) j) = (A11 m c) (ix1 j) := by
  rw [V_main_v31 m c]
  exact shapeCast_row_apply _ _ j

theorem V_main_v34_apply (c : Dev nD) (j : Fin 128) :
    (GenP.V m c main_v34 : S1x128.Idx → EReal) (ix2 (0 : Fin 1) j) = (A15 m c) (ix1 j) := by
  rw [V_main_v34 m c]
  exact shapeCast_row_apply _ _ j

theorem V_main_v35_apply (c : Dev nD) (j : Fin 128) :
    (GenP.V m c main_v35 : S1x128.Idx → EReal) (ix2 (0 : Fin 1) j) = (A16 m c) (ix1 j) := by
  rw [V_main_v35 m c]
  exact shapeCast_row_apply _ _ j

theorem V_main_v36_apply (c : Dev nD) (j : Fin 128) :
    (GenP.V m c main_v36 : S1x128.Idx → EReal) (ix2 (0 : Fin 1) j) = (A17 m c) (ix1 j) := by
  rw [V_main_v36 m c]
  exact shapeCast_row_apply _ _ j

theorem V_main_v37_apply (c : Dev nD) (j : Fin 128) :
    (GenP.V m c main_v37 : S1x128.Idx → EReal) (ix2 (0 : Fin 1) j) = (A19 m c) (ix1 j) := by
  rw [V_main_v37 m c]
  exact shapeCast_row_apply _ _ j

theorem V_main_v38_apply (c : Dev nD) (j : Fin 128) :
    (GenP.V m c main_v38 : S1x128.Idx → EReal) (ix2 (0 : Fin 1) j) = (A20 m c) (ix1 j) := by
  rw [V_main_v38 m c]
  exact shapeCast_row_apply _ _ j

theorem V_main_v39_apply (c : Dev nD) (j : Fin 128) :
    (GenP.V m c main_v39 : S1x128.Idx → EReal) (ix2 (0 : Fin 1) j) = (A21 m c) (ix1 j) := by
  rw [V_main_v39 m c]
  exact shapeCast_row_apply _ _ j

theorem V_main_v40_apply (c : Dev nD) (j : Fin 64) :
    (GenP.V m c main_v40 : S1x64.Idx → EReal) (ix2 (0 : Fin 1) j) = (A23 m c) (ix1 j) := by
  rw [V_main_v40 m c]
  exact shapeCast_row_apply _ _ j

/-- `main_v4` at row `k`, column `q`: column `lit2 q` of `main_arg12`, times the 0/1 table `lit0` at `q`. -/
theorem V_main_v4_apply (c : Dev nD) (k : Fin 64) (q : Fin 144) :
    (GenP.V m c main_v4 : S64x144.Idx → EReal) (ix2 k q)
      = (A12 m c) (ix2 k ⟨(lit2 q).toNat, good_lit2.lt q⟩) * Ideal.ofBits .f32 (lit0 q) := by
  rw [V_main_v4 m c, mulf_apply, takeCols_apply tblA lit2 tblA_ix1 good_lit2, maskRows_apply, maskA_ix1]

/-- `main_v10` at row `k`, column `q`: column `lit3 q` of `main_arg12`, times the 0/1 table `lit1` at `q`. -/
theorem V_main_v10_apply (c : Dev nD) (k : Fin 64) (q : Fin 144) :
    (GenP.V m c main_v10 : S64x144.Idx → EReal) (ix2 k q)
      = (A12 m c) (ix2 k ⟨(lit3 q).toNat, good_lit3.lt q⟩) * Ideal.ofBits .f32 (lit1 q) := by
  rw [V_main_v10 m c, mulf_apply, takeCols_apply tblB lit3 tblB_ix1 good_lit3, maskRows_apply, maskB_ix1]

/-- `main_v16` at row `k`, column `q`: column `lit2 q` of `main_arg24`, times the 0/1 table `lit0` at `q`. -/
theorem V_main_v16_apply (c : Dev nD) (k : Fin 64) (q : Fin 144) :
    (GenP.V m c main_v16 : S64x144.Idx → EReal) (ix2 k q)
      = (A24 m c) (ix2 k ⟨(lit2 q).toNat, good_lit2.lt q⟩) * Ideal.ofBits .f32 (lit0 q) := by
  rw [V_main_v16 m c, mulf_apply, takeCols_apply tblA lit2 tblA_ix1 good_lit2, maskRows_apply, maskA_ix1]

/-- `main_v22` at row `k`, column `q`: column `lit3 q` of `main_arg24`, times the 0/1 table `lit1` at `q`. -/
theorem V_main_v22_apply (c : Dev nD) (k : Fin 64) (q : Fin 144) :
    (GenP.V m c main_v22 : S64x144.Idx → EReal) (ix2 k q)
      = (A24 m c) (ix2 k ⟨(lit3 q).toNat, good_lit3.lt q⟩) * Ideal.ofBits .f32 (lit1 q) := by
  rw [V_main_v22 m c, mulf_apply, takeCols_apply tblB lit3 tblB_ix1 good_lit3, maskRows_apply, maskB_ix1]

/-- `main_v32` at column `q`: entry `lit2 q` of `main_arg13`, times the 0/1 table `lit0` at `q`. -/
theorem V_main_v32_apply (c : Dev nD) (q : Fin 144) :
    (GenP.V m c main_v32 : S1x144.Idx → EReal) (ix2 (0 : Fin 1) q)
      = (A13 m c) (ix1 ⟨(lit2 q).toNat, good_lit2.lt q⟩) * Ideal.ofBits .f32 (lit0 q) := by
  rw [V_main_v32 m c, shapeCast_row_apply, mulf_apply, takeVec_apply tblA lit2 tblA_ix1 good_lit2, maskA_ix1]

/-- `main_v33` at column `q`: entry `lit3 q` of `main_arg13`, times the 0/1 table `lit1` at `q`. -/
theorem V_main_v33_apply (c : Dev nD) (q : Fin 144) :
    (GenP.V m c main_v33 : S1x144.Idx → EReal) (ix2 (0 : Fin 1) q)
      = (A13 m c) (ix1 ⟨(lit3 q).toNat, good_lit3.lt q⟩) * Ideal.ofBits .f32 (lit1 q) := by
  rw [V_main_v33 m c, shapeCast_row_apply, mulf_apply, takeVec_apply tblB lit3 tblB_ix1 good_lit3, maskB_ix1]

/-- `main_v41` at column `q`: entry `lit2 q` of `main_arg25`, times the 0/1 table `lit0` at `q`. -/
theorem V_main_v41_apply (c : Dev nD) (q : Fin 144) :
    (GenP.V m c main_v41 : S1x144.Idx → EReal) (ix2 (0 : Fin 1) q)
      = (A25 m c) (ix1 ⟨(lit2 q).toNat, good_lit2.lt q⟩) * Ideal.ofBits .f32 (lit0 q) := by
  rw [V_main_v41 m c, shapeCast_row_apply, mulf_apply, takeVec_apply tblA lit2 tblA_ix1 good_lit2, maskA_ix1]

/-- `main_v42` at column `q`: entry `lit3 q` of `main_arg25`, times the 0/1 table `lit1` at `q`. -/
theorem V_main_v42_apply (c : Dev nD) (q : Fin 144) :
    (GenP.V m c main_v42 : S1x144.Idx → EReal) (ix2 (0 : Fin 1) q)
      = (A25 m c) (ix1 ⟨(lit3 q).toNat, good_lit3.lt q⟩) * Ideal.ofBits .f32 (lit1 q) := by
  rw [V_main_v42 m c, shapeCast_row_apply, mulf_apply, takeVec_apply tblB lit3 tblB_ix1 good_lit3, maskB_ix1]

end Cert.KernelIdeal.Stage
-- ==== Proof.KValue.lean ====
/-
  The kernel program's result, entry by entry.

  The kernel stages 29 arrays for its one pipelined region: the concatenated input rows, and for each of the two
  parameter sets the three matrices as they are, the seven vectors as one-row arrays, and the last layer's matrix and
  bias twice — their columns gathered through a literal table and multiplied by a literal 0/1 mask, once for the real
  part and once for the imaginary part. The region computes, per row, the network on these staged arrays, with the
  gathered last layer; its output position 12·i + j is entry (i, j) of the 12 × 12 matrix. `head_value` says that one
  such quarter of the output is the placement (`place`, `slotRe` / `slotIm`) of the plain network's 144 numbers, given
  what each staged array is in terms of the argument arrays: it rewrites the network's arguments by those equalities
  and applies the table lemma for the gathered last layer (`head_place`). `stage_value0` … `stage_value3` instantiate it
  at the four quarters with the staged arrays' reads. `kernel_value` puts them together: the final contents of the
  result buffer at (k, r, i, j) is entry (k, r, i, j) of the specification over the 26 argument arrays.
-/
import proofs.«138334_j60430189854928_2_alg».proof.Proof.KTables
import proofs.«138334_j60430189854928_2_alg».proof.Proof.KRows
import proofs.«138334_j60430189854928_2_alg».proof.Proof.Entry
import proofs.«138334_j60430189854928_2_alg».proof.Proof.KStage
import proofs.«138334_j60430189854928_2_alg».proof.Proof.KFinal

noncomputable section

namespace Cert.KernelIdeal.Value

open Idealize.ShloMosaic Idealize.ShloMosaic.ValueIdx Idealize.ShloMosaic.TcCoe Cert.KernelIdeal Cert.KernelIdeal.Gen Cert.Mlp
open Cert.KernelIdeal.Tables Cert.KernelIdeal.Rows Cert.KernelIdeal.Stage

/-- One quarter of the result: the network with its last layer's columns gathered and masked, read at position
    12·i + j of row r, is the placement of the plain network's 144 numbers of row r. The hypotheses say what each staged
    array is in terms of the argument arrays: the input rows, the whole matrices, the vectors as one-row arrays, and
    the gathered, masked last matrix and bias. -/
theorem head_value (srcT maskT : Fin 144 → BitVec 32) (slot : Fin 12 → Fin 12 → Option (Fin 144))
    (hlt : ∀ q, (srcT q).toNat < 144)
    (hsome : ∀ i j s, slot i j = some s → maskT (pos i j) = 0x3F800000#32 ∧ (srcT (pos i j)).toNat = s.val)
    (hnone : ∀ i j, slot i j = none → maskT (pos i j) = 0x00000000#32)
    (a0 a1 : (⟨2, ![262144, 12]⟩ : Shape).Idx → EReal)
    (a2 : (⟨2, ![24, 128]⟩ : Shape).Idx → EReal) (a3 a4 a5 : (⟨1, ![128]⟩ : Shape).Idx → EReal)
    (a6 : (⟨2, ![128, 128]⟩ : Shape).Idx → EReal) (a7 a8 a9 : (⟨1, ![128]⟩ : Shape).Idx → EReal)
    (a10 : (⟨2, ![128, 64]⟩ : Shape).Idx → EReal) (a11 : (⟨1, ![64]⟩ : Shape).Idx → EReal)
    (a12 : (⟨2, ![64, 144]⟩ : Shape).Idx → EReal) (a13 : (⟨1, ![144]⟩ : Shape).Idx → EReal)
    (X0 : (⟨2, ![262144, 24]⟩ : Shape).Idx → EReal)
    (X1 : (⟨2, ![24, 128]⟩ : Shape).Idx → EReal) (X2 X3 X4 : (⟨2, ![1, 128]⟩ : Shape).Idx → EReal)
    (X5 : (⟨2, ![128, 128]⟩ : Shape).Idx → EReal) (X6 X7 X8 : (⟨2, ![1, 128]⟩ : Shape).Idx → EReal)
    (X9 : (⟨2, ![128, 64]⟩ : Shape).Idx → EReal) (X10 : (⟨2, ![1, 64]⟩ : Shape).Idx → EReal)
    (X11 : (⟨2, ![64, 144]⟩ : Shape).Idx → EReal) (X12 : (⟨2, ![1, 144]⟩ : Shape).Idx → EReal)
    (h0 : ∀ r k, X0 (ix2 r k) = xrow a0 a1 r k)
    (h1 : X1 = a2) (h2 : ∀ j, X2 (ix2 (0 : Fin 1) j) = a3 (ix1 j)) (h3 : ∀ j, X3 (ix2 (0 : Fin 1) j) = a4 (ix1 j))
    (h4 : ∀ j, X4 (ix2 (0 : Fin 1) j) = a5 (ix1 j))
    (h5 : X5 = a6) (h6 : ∀ j, X6 (ix2 (0 : Fin 1) j) = a7 (ix1 j)) (h7 : ∀ j, X7 (ix2 (0 : Fin 1) j) = a8 (ix1 j))
    (h8 : ∀ j, X8 (ix2 (0 : Fin 1) j) = a9 (ix1 j))
    (h9 : X9 = a10) (h10 : ∀ j, X10 (ix2 (0 : Fin 1) j) = a11 (ix1 j))
    (h11 : ∀ k q, X11 (ix2 k q) = a12 (ix2 k ⟨(srcT q).toNat, hlt q⟩) * Ideal.ofBits .f32 (maskT q))
    (h12 : ∀ q, X12 (ix2 (0 : Fin 1) q) = a13 (ix1 ⟨(srcT q).toNat, hlt q⟩) * Ideal.ofBits .f32 (maskT q))
    (r : Fin 262144) (i j : Fin 12) :
    affine (mat X11) (only X12)
        (trunk (mat X1) (only X2) (only X3) (only X4) (mat X5) (only X6) (only X7) (only X8) (mat X9) (only X10)
          (fun k => X0 (ix2 r k))) (pos i j)
      = place (slot i j) (factors a2 a3 a4 a5 a6 a7 a8 a9 a10 a11 a12 a13 (xrow a0 a1 r)) := by
  have e0 : (fun k => X0 (ix2 r k)) = xrow a0 a1 r := funext fun k => h0 r k
  have e2 : only X2 = vec a3 := funext h2
  have e3 : only X3 = vec a4 := funext h3
  have e4 : only X4 = vec a5 := funext h4
  have e6 : only X6 = vec a7 := funext h6
  have e7 : only X7 = vec a8 := funext h7
  have e8 : only X8 = vec a9 := funext h8
  have e10 : only X10 = vec a11 := funext h10
  rw [e0, e2, e3, e4, e6, e7, e8, e10, h1, h5, h9]
  exact head_place srcT maskT slot hlt hsome hnone a12 a13 X11 X12 h11 h12 _ i j

variable (m : (ℓ : Loc nD τ sig) → Buf (Elt Ideal) ℓ)

/-- Core `c`'s six matrix arguments as launched (the other twenty are `Stage.A0` …). -/
abbrev A2 (c : Dev nD) : S24x128.Idx → EReal := m ((c : Thread nD τ).loc main_arg2)
abbrev A6 (c : Dev nD) : S128x128.Idx → EReal := m ((c : Thread nD τ).loc main_arg6)
abbrev A10 (c : Dev nD) : S128x64.Idx → EReal := m ((c : Thread nD τ).loc main_arg10)
abbrev A14 (c : Dev nD) : S24x128.Idx → EReal := m ((c : Thread nD τ).loc main_arg14)
abbrev A18 (c : Dev nD) : S128x128.Idx → EReal := m ((c : Thread nD τ).loc main_arg18)
abbrev A22 (c : Dev nD) : S128x64.Idx → EReal := m ((c : Thread nD τ).loc main_arg22)

/-- Part 0: the first parameter set's real part. -/
theorem stage_value0 (c : Dev nD) (r : Fin 262144) (i j : Fin 12) :
    affine (mat (GenP.V m c main_v4 : S64x144.Idx → EReal)) (only (GenP.V m c main_v32 : S1x144.Idx → EReal))
        (trunk (mat (GenP.V m c main_arg2 : S24x128.Idx → EReal)) (only (GenP.V m c main_v25 : S1x128.Idx → EReal))
          (only (GenP.V m c main_v26 : S1x128.Idx → EReal)) (only (GenP.V m c main_v27 : S1x128.Idx → EReal))
          (mat (GenP.V m c main_arg6 : S128x128.Idx → EReal)) (only (GenP.V m c main_v28 : S1x128.Idx → EReal))
          (only (GenP.V m c main_v29 : S1x128.Idx → EReal)) (only (GenP.V m c main_v30 : S1x128.Idx → EReal))
          (mat (GenP.V m c main_arg10 : S128x64.Idx → EReal)) (only (GenP.V m c main_v31 : S1x64.Idx → EReal))
          (fun k => (GenP.V m c main_v0 : S262144x24.Idx → EReal) (ix2 r k))) (pos i j)
      = place (slotRe i j) (factors (A2 m c) (A3 m c) (A4 m c) (A5 m c) (A6 m c) (A7 m c) (A8 m c) (A9 m c)
          (A10 m c) (A11 m c) (A12 m c) (A13 m c) (xrow (A0 m c) (A1 m c) r)) :=
  head_value lit2 lit0 slotRe good_lit2.lt table_re_some table_re_none (A0 m c) (A1 m c)
    (A2 m c) (A3 m c) (A4 m c) (A5 m c) (A6 m c) (A7 m c) (A8 m c) (A9 m c) (A10 m c) (A11 m c) (A12 m c) (A13 m c)
    _ _ _ _ _ _ _ _ _ _ _ _ _
    (fun r k => V_main_v0_apply m c r k)
    (GenP.V_main_arg2 m c) (V_main_v25_apply m c) (V_main_v26_apply m c) (V_main_v27_apply m c)
    (GenP.V_main_arg6 m c) (V_main_v28_apply m c) (V_main_v29_apply m c) (V_main_v30_apply m c)
    (GenP.V_main_arg10 m c) (V_main_v31_apply m c)
    (V_main_v4_apply m c) (V_main_v32_apply m c) r i j

/-- Part 1: the first parameter set's imaginary part. -/
theorem stage_value1 (c : Dev nD) (r : Fin 262144) (i j : Fin 12) :
    affine (mat (GenP.V m c main_v10 : S64x144.Idx → EReal)) (only (GenP.V m c main_v33 : S1x144.Idx → EReal))
        (trunk (mat (GenP.V m c main_arg2 : S24x128.Idx → EReal)) (only (GenP.V m c main_v25 : S1x128.Idx → EReal))
          (only (GenP.V m c main_v26 : S1x128.Idx → EReal)) (only (GenP.V m c main_v27 : S1x128.Idx → EReal))
          (mat (GenP.V m c main_arg6 : S128x128.Idx → EReal)) (only (GenP.V m c main_v28 : S1x128.Idx → EReal))
          (only (GenP.V m c main_v29 : S1x128.Idx → EReal)) (only (GenP.V m c main_v30 : S1x128.Idx → EReal))
          (mat (GenP.V m c main_arg10 : S128x64.Idx → EReal)) (only (GenP.V m c main_v31 : S1x64.Idx → EReal))
          (fun k => (GenP.V m c main_v0 : S262144x24.Idx → EReal) (ix2 r k))) (pos i j)
      = place (slotIm i j) (factors (A2 m c) (A3 m c) (A4 m c) (A5 m c) (A6 m c) (A7 m c) (A8 m c) (A9 m c)
          (A10 m c) (A11 m c) (A12 m c) (A13 m c) (xrow (A0 m c) (A1 m c) r)) :=
  head_value lit3 lit1 slotIm good_lit3.lt table_im_some table_im_none (A0 m c) (A1 m c)
    (A2 m c) (A3 m c) (A4 m c) (A5 m c) (A6 m c) (A7 m c) (A8 m c) (A9 m c) (A10 m c) (A11 m c) (A12 m c) (A13 m c)
    _ _ _ _ _ _ _ _ _ _ _ _ _
    (fun r k => V_main_v0_apply m c r k)
    (GenP.V_main_arg2 m c) (V_main_v25_apply m c) (V_main_v26_apply m c) (V_main_v27_apply m c)
    (GenP.V_main_arg6 m c) (V_main_v28_apply m c) (V_main_v29_apply m c) (V_main_v30_apply m c)
    (GenP.V_main_arg10 m c) (V_main_v31_apply m c)
    (V_main_v10_apply m c) (V_main_v33_apply m c) r i j

/-- Part 2: the second parameter set's real part. -/
theorem stage_value2 (c : Dev nD) (r : Fin 262144) (i j : Fin 12) :
    affine (mat (GenP.V m c main_v16 : S64x144.Idx → EReal)) (only (GenP.V m c main_v41 : S1x144.Idx → EReal))
        (trunk (mat (GenP.V m c main_arg14 : S24x128.Idx → EReal)) (only (GenP.V m c main_v34 : S1x128.Idx → EReal))
          (only (GenP.V m c main_v35 : S1x128.Idx → EReal)) (only (GenP.V m c main_v36 : S1x128.Idx → EReal))
          (mat (GenP.V m c main_arg18 : S128x128.Idx → EReal)) (only (GenP.V m c main_v37 : S1x128.Idx → EReal))
          (only (GenP.V m c main_v38 : S1x128.Idx → EReal)) (only (GenP.V m c main_v39 : S1x128.Idx → EReal))
          (mat (GenP.V m c main_arg22 : S128x64.Idx → EReal)) (only (GenP.V m c main_v40 : S1x64.Idx → EReal))
          (fun k => (GenP.V m c main_v0 : S262144x24.Idx → EReal) (ix2 r k))) (pos i j)
      = place (slotRe i j) (factors (A14 m c) (A15 m c) (A16 m c) (A17 m c) (A18 m c) (A19 m c) (A20 m c) (A21 m c)
          (A22 m c) (A23 m c) (A24 m c) (A25 m c) (xrow (A0 m c) (A1 m c) r)) :=
  head_value lit2 lit0 slotRe good_lit2.lt table_re_some table_re_none (A0 m c) (A1 m c)
    (A14 m c) (A15 m c) (A16 m c) (A17 m c) (A18 m c) (A19 m c) (A20 m c) (A21 m c) (A22 m c) (A23 m c) (A24 m c) (A25 m c)
    _ _ _ _ _ _ _ _ _ _ _ _ _
    (fun r k => V_main_v0_apply m c r k)
    (GenP.V_main_arg14 m c) (V_main_v34_apply m c) (V_main_v35_apply m c) (V_main_v36_apply m c)
    (GenP.V_main_arg18 m c) (V_main_v37_apply m c) (V_main_v38_apply m c) (V_main_v39_apply m c)
    (GenP.V_main_arg22 m c) (V_main_v40_apply m c)
    (V_main_v16_apply m c) (V_main_v41_apply m c) r i j

/-- Part 3: the second parameter set's imaginary part. -/
theorem stage_value3 (c : Dev nD) (r : Fin 262144) (i j : Fin 12) :
    affine (mat (GenP.V m c main_v22 : S64x144.Idx → EReal)) (only (GenP.V m c main_v42 : S1x144.Idx → EReal))
        (trunk (mat (GenP.V m c main_arg14 : S24x128.Idx → EReal)) (only (GenP.V m c main_v34 : S1x128.Idx → EReal))
          (only (GenP.V m c main_v35 : S1x128.Idx → EReal)) (only (GenP.V m c main_v36 : S1x128.Idx → EReal))
          (mat (GenP.V m c main_arg18 : S128x128.Idx → EReal)) (only (GenP.V m c main_v37 : S1x128.Idx → EReal))
          (only (GenP.V m c main_v38 : S1x128.Idx → EReal)) (only (GenP.V m c main_v39 : S1x128.Idx → EReal))
          (mat (GenP.V m c main_arg22 : S128x64.Idx → EReal)) (only (GenP.V m c main_v40 : S1x64.Idx → EReal))
          (fun k => (GenP.V m c main_v0 : S262144x24.Idx → EReal) (ix2 r k))) (pos i j)
      = place (slotIm i j) (factors (A14 m c) (A15 m c) (A16 m c) (A17 m c) (A18 m c) (A19 m c) (A20 m c) (A21 m c)
          (A22 m c) (A23 m c) (A24 m c) (A25 m c) (xrow (A0 m c) (A1 m c) r)) :=
  head_value lit3 lit1 slotIm good_lit3.lt table_im_some table_im_none (A0 m c) (A1 m c)
    (A14 m c) (A15 m c) (A16 m c) (A17 m c) (A18 m c) (A19 m c) (A20 m c) (A21 m c) (A22 m c) (A23 m c) (A24 m c) (A25 m c)
    _ _ _ _ _ _ _ _ _ _ _ _ _
    (fun r k => V_main_v0_apply m c r k)
    (GenP.V_main_arg14 m c) (V_main_v34_apply m c) (V_main_v35_apply m c) (V_main_v36_apply m c)
    (GenP.V_main_arg18 m c) (V_main_v37_apply m c) (V_main_v38_apply m c) (V_main_v39_apply m c)
    (GenP.V_main_arg22 m c) (V_main_v40_apply m c)
    (V_main_v22_apply m c) (V_main_v42_apply m c) r i j

/-! ## The result buffer, entry by entry -/

theorem fin4_cases (k : Fin 4) : k = 0 ∨ k = 1 ∨ k = 2 ∨ k = 3 := by revert k; decide

/-- The kernel program's result at (k, r, i, j) is the specification's entry over the 26 argument arrays. -/
theorem kernel_value (c : Dev nD) (k : Fin 4) (r : Fin 262144) (i j : Fin 12) :
    (Cert.KernelIdeal.Final.result m c : S4x262144x12x12.Idx → EReal) (ix4 k r i j)
      = Cert.Mlp.entry (A0 m c) (A1 m c) (A2 m c) (A3 m c) (A4 m c) (A5 m c) (A6 m c) (A7 m c) (A8 m c) (A9 m c) (A10 m c) (A11 m c)
          (A12 m c) (A13 m c) (A14 m c) (A15 m c) (A16 m c) (A17 m c) (A18 m c) (A19 m c) (A20 m c) (A21 m c) (A22 m c)
          (A23 m c) (A24 m c) (A25 m c) k r i j := by
  rw [Cert.KernelIdeal.Final.result_apply]
  rcases fin4_cases k with rfl | rfl | rfl | rfl
  · exact stage_value0 m c r i j
  · exact stage_value1 m c r i j
  · exact stage_value2 m c r i j
  · exact stage_value3 m c r i j

end Cert.KernelIdeal.Value
-- ==== Proof.RefRunOps.lean ====
/- The reference program as a list of operations, and the stages of its result.

   @main of the reference is a straight line of 308 StableHLO operations: the two inputs are concatenated
   (`xcat`), the same four-layer network (`factors`: affine map, layer norm and leaky ReLU twice; affine map and
   leaky ReLU; affine map) is applied to the concatenation with two parameter sets, each network's 144 outputs per
   row are scattered into a real and an imaginary lower-triangular 12 × 12 matrix (`buildReal`, `buildImag`), and
   the four matrices are stacked (`stack4`). Each stage is a small definition that is literally the program's
   operations composed; `result` composes the stages. The operations are listed in consecutive pieces (`ops`),
   `main = seq ops`, and every operation touches TensorCore references only and determines its results. -/
import proofs.«138334_j60430189854928_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The stages of the result -/

/-- `%0`: the two inputs side by side, `[real | imag]` along the feature axis. -/
def xcat (a0 a1 : (⟨S262144x12, .f32⟩ : BufTy).Contents (Elt F)) : (⟨S262144x24, .f32⟩ : BufTy).Contents (Elt F) :=
  (((fun a b => concatenate S262144x24 1 [⟨S262144x12, a⟩, ⟨S262144x12, b⟩] concatenates_S262144x12_S262144x12_S262144x24_d1) : (⟨S262144x12, .f32⟩ : BufTy).Contents (Elt F) → (⟨S262144x12, .f32⟩ : BufTy).Contents (Elt F) → (⟨S262144x24, .f32⟩ : BufTy).Contents (Elt F)) a0 a1)

/-- Layer 1's affine map `x·W + b` (dot_general, the bias broadcast over the rows). -/
def dense1 (W : (⟨S24x128, .f32⟩ : BufTy).Contents (Elt F)) (b : (⟨S128, .f32⟩ : BufTy).Contents (Elt F)) (x : (⟨S262144x24, .f32⟩ : BufTy).Contents (Elt F)) : (⟨S262144x128, .f32⟩ : BufTy).Contents (Elt F) :=
  ((addf : (⟨S262144x128, .f32⟩ : BufTy).Contents (Elt F) → (⟨S262144x128, .f32⟩ : BufTy).Contents (Elt F) → (⟨S262144x128, .f32⟩ : BufTy).Contents (Elt F)) (((fun l r => Host.dotGeneral dot_S262144x24_S24x128_S262144x128_1_0_0_1_n_n none l r) : (⟨S262144x24, .f32⟩ : BufTy).Contents (Elt F) → (⟨S24x128, .f32⟩ : BufTy).Contents (Elt F) → (⟨S262144x128, .f32⟩ : BufTy).Contents (Elt F)) x W) ((broadcastInDim S262144x128 ![0, 1] bcast_S1x128_S262144x128_0_1 : (⟨S1x128, .f32⟩ : BufTy).Contents (Elt F) → (⟨S262144x128, .f32⟩ : BufTy).Contents (Elt F)) ((broadcastInDim S1x128 ![1] bcast_S128_S1x128_1 : (⟨S128, .f32⟩ : BufTy).Contents (Elt F) → (⟨S1x128, .f32⟩ : BufTy).Contents (Elt F)) b)))

/-- Layer 2's affine map. -/
def dense2 (W : (⟨S128x128, .f32⟩ : BufTy).Contents (Elt F)) (b : (⟨S128, .f32⟩ : BufTy).Contents (Elt F)) (h : (⟨S262144x128, .f32⟩ : BufTy).Contents (Elt F)) : (⟨S262144x128, .f32⟩ : BufTy).Contents (Elt F) :=
  ((addf : (⟨S262144x128, .f32⟩ : BufTy).Contents (Elt F) → (⟨S262144x128, .f32⟩ : BufTy).Contents (Elt F) → (⟨S262144x128, .f32⟩ : BufTy).Contents (Elt F)) (((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)) h W) ((broadcastInDim S262144x128 ![0, 1] bcast_S1x128_S262144x128_0_1 : (⟨S1x128, .f32⟩ : BufTy).Contents (Elt F) → (⟨S262144x128, .f32⟩ : BufTy).Contents (Elt F)) ((broadcastInDim S1x128 ![1] bcast_S128_S1x128_1 : (⟨S128, .f32⟩ : BufTy).Contents (Elt F) → (⟨S1x128, .f32⟩ : BufTy).Contents (Elt F)) b)))

/-- Layer 3's affine map. -/
def dense3 (W : (⟨S128x64, .f32⟩ : BufTy).Contents (Elt F)) (b : (⟨S64, .f32⟩ : BufTy).Contents (Elt F)) (h : (⟨S262144x128, .f32⟩ : BufTy).Contents (Elt F)) : (⟨S262144x64, .f32⟩ : BufTy).Contents (Elt F) :=
  ((addf : (⟨S262144x64, .f32⟩ : BufTy).Contents (Elt F) → (⟨S262144x64, .f32⟩ : BufTy).Contents (Elt F) → (⟨S262144x64, .f32⟩ : BufTy).Contents (Elt F)) (((fun l r => Host.dotGeneral dot_S262144x128_S128x64_S262144x64_1_0_0_1_n_n none l r) : (⟨S262144x128, .f32⟩ : BufTy).Contents (Elt F) → (⟨S128x64, .f32⟩ : BufTy).Contents (Elt F) → (⟨S262144x64, .f32⟩ : BufTy).Contents (Elt F)) h W) ((broadcastInDim S262144x64 ![0, 1] bcast_S1x64_S262144x64_0_1 : (⟨S1x64, .f32⟩ : BufTy).Contents (Elt F) → (⟨S262144x64, .f32⟩ : BufTy).Contents (Elt F)) ((broadcastInDim S1x64 ![1] bcast_S64_S1x64_1 : (⟨S64, .f32⟩ : BufTy).Contents (Elt F) → (⟨S1x64, .f32⟩ : BufTy).Contents (Elt F)) b)))

/-- Layer 4's affine map. -/
def dense4 (W : (⟨S64x144, .f32⟩ : BufTy).Contents (Elt F)) (b : (⟨S144, .f32⟩ : BufTy).Contents (Elt F)) (h : (⟨S262144x64, .f32⟩ : BufTy).Contents (Elt F)) : (⟨S262144x144, .f32⟩ : BufTy).Contents (Elt F) :=
  ((addf : (⟨S262144x144, .f32⟩ : BufTy).Contents (Elt F) → (⟨S262144x144, .f32⟩ : BufTy).Contents (Elt F) → (⟨S262144x144, .f32⟩ : BufTy).Contents (Elt F)) (((fun l r => Host.dotGeneral dot_S262144x64_S64x144_S262144x144_1_0_0_1_n_n none l r) : (⟨S262144x64, .f32⟩ : BufTy).Contents (Elt F) → (⟨S64x144, .f32⟩ : BufTy).Contents (Elt F) → (⟨S262144x144, .f32⟩ : BufTy).Contents (Elt F)) h W) ((broadcastInDim S262144x144 ![0, 1] bcast_S1x144_S262144x144_0_1 : (⟨S1x144, .f32⟩ : BufTy).Contents (Elt F) → (⟨S262144x144, .f32⟩ : BufTy).Contents (Elt F)) ((broadcastInDim S1x144 ![1] bcast_S144_S1x144_1 : (⟨S144, .f32⟩ : BufTy).Contents (Elt F) → (⟨S1x144, .f32⟩ : BufTy).Contents (Elt F)) b)))

/-- The row mean over the 128 features, kept as a column: the reduce-add from `0`, divided by `128`. -/
def mean128 (h : (⟨S262144x128, .f32⟩ : BufTy).Contents (Elt F)) : (⟨S262144x1, .f32⟩ : BufTy).Contents (Elt F) :=
  ((Host.divf : (⟨S262144x1, .f32⟩ : BufTy).Contents (Elt F) → (⟨S262144x1, .f32⟩ : BufTy).Contents (Elt F) → (⟨S262144x1, .f32⟩ : BufTy).Contents (Elt F)) ((broadcastInDim S262144x1 ![0] bcast_S262144_S262144x1_0 : (⟨S262144, .f32⟩ : BufTy).Contents (Elt F) → (⟨S262144x1, .f32⟩ : BufTy).Contents (Elt F)) (((fun x v => Host.reduceAdd x v reducesTo_S262144x128_S262144_d1 h_S_) : (⟨S262144x128, .f32⟩ : BufTy).Contents (Elt F) → (⟨S_, .f32⟩ : BufTy).Contents (Elt F) → (⟨S262144, .f32⟩ : BufTy).Contents (Elt F)) h (constant S_ .f32 0x00000000#32))) ((broadcastInDim S262144x1 ![] bcast_S_S262144x1 : (⟨S_, .f32⟩ : BufTy).Contents (Elt F) → (⟨S262144x1, .f32⟩ : BufTy).Contents (Elt F)) (constant S_ .f32 0x43000000#32)))

/-- `h` minus its row mean. -/
def centered (h : (⟨S262144x128, .f32⟩ : BufTy).Contents (Elt F)) : (⟨S262144x128, .f32⟩ : BufTy).Contents (Elt F) :=
  ((subf : (⟨S262144x128, .f32⟩ : BufTy).Contents (Elt F) → (⟨S262144x128, .f32⟩ : BufTy).Contents (Elt F) → (⟨S262144x128, .f32⟩ : BufTy).Contents (Elt F)) h ((broadcastInDim S262144x128 ![0, 1] bcast_S262144x1_S262144x128_0_1 : (⟨S262144x1, .f32⟩ : BufTy).Contents (Elt F) → (⟨S262144x128, .f32⟩ : BufTy).Contents (Elt F)) (mean128 h)))

/-- Layer norm over the 128 features: `(h - mean) * rsqrt(var + 1e-5) * g + be`, `var` the mean of the centred squares. -/
def layerNorm (g be : (⟨S128, .f32⟩ : BufTy).Contents (Elt F)) (h : (⟨S262144x128, .f32⟩ : BufTy).Contents (Elt F)) : (⟨S262144x128, .f32⟩ : BufTy).Contents (Elt F) :=
  ((addf : (⟨S262144x128, .f32⟩ : BufTy).Contents (Elt F) → (⟨S262144x128, .f32⟩ : BufTy).Contents (Elt F) → (⟨S262144x128, .f32⟩ : BufTy).Contents (Elt F)) ((mulf : (⟨S262144x128, .f32⟩ : BufTy).Contents (Elt F) → (⟨S262144x128, .f32⟩ : BufTy).Contents (Elt F) → (⟨S262144x128, .f32⟩ : BufTy).Contents (Elt F)) ((mulf : (⟨S262144x128, .f32⟩ : BufTy).Contents (Elt F) → (⟨S262144x128, .f32⟩ : BufTy).Contents (Elt F) → (⟨S262144x128, .f32⟩ : BufTy).Contents (Elt F)) (centered h) ((broadcastInDim S262144x128 ![0, 1] bcast_S262144x1_S262144x128_0_1 : (⟨S262144x1, .f32⟩ : BufTy).Contents (Elt F) → (⟨S262144x128, .f32⟩ : BufTy).Contents (Elt F)) ((Host.rsqrt : (⟨S262144x1, .f32⟩ : BufTy).Contents (Elt F) → (⟨S262144x1, .f32⟩ : BufTy).Contents (Elt F)) ((addf : (⟨S262144x1, .f32⟩ : BufTy).Contents (Elt F) → (⟨S262144x1, .f32⟩ : BufTy).Contents (Elt F) → (⟨S262144x1, .f32⟩ : BufTy).Contents (Elt F)) (mean128 ((mulf : (⟨S262144x128, .f32⟩ : BufTy).Contents (Elt F) → (⟨S262144x128, .f32⟩ : BufTy).Contents (Elt F) → (⟨S262144x128, .f32⟩ : BufTy).Contents (Elt F)) (centered h) (centered h))) ((broadcastInDim S262144x1 ![] bcast_S_S262144x1 : (⟨S_, .f32⟩ : BufTy).Contents (Elt F) → (⟨S262144x1, .f32⟩ : BufTy).Contents (Elt F)) (constant S_ .f32 0x3727C5AC#32)))))) ((broadcastInDim S262144x128 ![0, 1] bcast_S1x128_S262144x128_0_1 : (⟨S1x128, .f32⟩ : BufTy).Contents (Elt F) → (⟨S262144x128, .f32⟩ : BufTy).Contents (Elt F)) ((broadcastInDim S1x128 ![1] bcast_S128_S1x128_1 : (⟨S128, .f32⟩ : BufTy).Contents (Elt F) → (⟨S1x128, .f32⟩ : BufTy).Contents (Elt F)) g))) ((broadcastInDim S262144x128 ![0, 1] bcast_S1x128_S262144x128_0_1 : (⟨S1x128, .f32⟩ : BufTy).Contents (Elt F) → (⟨S262144x128, .f32⟩ : BufTy).Contents (Elt F)) ((broadcastInDim S1x128 ![1] bcast_S128_S1x128_1 : (⟨S128, .f32⟩ : BufTy).Contents (Elt F) → (⟨S1x128, .f32⟩ : BufTy).Contents (Elt F)) be)))

/-- Leaky ReLU of slope `0.1` at width 128: `select (z ≥ 0) z (0.1 * z)`. -/
def lrelu128 (z : (⟨S262144x128, .f32⟩ : BufTy).Contents (Elt F)) : (⟨S262144x128, .f32⟩ : BufTy).Contents (Elt F) :=
  (select ((cmpf .oge : (⟨S262144x128, .f32⟩ : BufTy).Contents (Elt F) → (⟨S262144x128, .f32⟩ : BufTy).Contents (Elt F) → (⟨S262144x128, .i1⟩ : BufTy).Contents (Elt F)) z ((broadcastInDim S262144x128 ![] bcast_S_S262144x128 : (⟨S_, .f32⟩ : BufTy).Contents (Elt F) → (⟨S262144x128, .f32⟩ : BufTy).Contents (Elt F)) (constant S_ .f32 0x00000000#32))) z ((mulf : (⟨S262144x128, .f32⟩ : BufTy).Contents (Elt F) → (⟨S262144x128, .f32⟩ : BufTy).Contents (Elt F) → (⟨S262144x128, .f32⟩ : BufTy).Contents (Elt F)) ((broadcastInDim S262144x128 ![] bcast_S_S262144x128 : (⟨S_, .f32⟩ : BufTy).Contents (Elt F) → (⟨S262144x128, .f32⟩ : BufTy).Contents (Elt F)) (constant S_ .f32 0x3DCCCCCD#32)) z))

/-- Leaky ReLU of slope `0.1` at width 64. -/
def lrelu64 (z : (⟨S262144x64, .f32⟩ : BufTy).Contents (Elt F)) : (⟨S262144x64, .f32⟩ : BufTy).Contents (Elt F) :=
  (select ((cmpf .oge : (⟨S262144x64, .f32⟩ : BufTy).Contents (Elt F) → (⟨S262144x64, .f32⟩ : BufTy).Contents (Elt F) → (⟨S262144x64, .i1⟩ : BufTy).Contents (Elt F)) z ((broadcastInDim S262144x64 ![] bcast_S_S262144x64 : (⟨S_, .f32⟩ : BufTy).Contents (Elt F) → (⟨S262144x64, .f32⟩ : BufTy).Contents (Elt F)) (constant S_ .f32 0x00000000#32))) z ((mulf : (⟨S262144x64, .f32⟩ : BufTy).Contents (Elt F) → (⟨S262144x64, .f32⟩ : BufTy).Contents (Elt F) → (⟨S262144x64, .f32⟩ : BufTy).Contents (Elt F)) ((broadcastInDim S262144x64 ![] bcast_S_S262144x64 : (⟨S_, .f32⟩ : BufTy).Contents (Elt F) → (⟨S262144x64, .f32⟩ : BufTy).Contents (Elt F)) (constant S_ .f32 0x3DCCCCCD#32)) z))

/-- Layer 1: affine, layer norm, leaky ReLU. -/
def layer1 (W : (⟨S24x128, .f32⟩ : BufTy).Contents (Elt F)) (b g be : (⟨S128, .f32⟩ : BufTy).Contents (Elt F)) (x : (⟨S262144x24, .f32⟩ : BufTy).Contents (Elt F)) : (⟨S262144x128, .f32⟩ : BufTy).Contents (Elt F) :=
  lrelu128 (layerNorm g be (dense1 W b x))

/-- Layer 2: affine, layer norm, leaky ReLU. -/
def layer2 (W : (⟨S128x128, .f32⟩ : BufTy).Contents (Elt F)) (b g be : (⟨S128, .f32⟩ : BufTy).Contents (Elt F)) (h : (⟨S262144x128, .f32⟩ : BufTy).Contents (Elt F)) : (⟨S262144x128, .f32⟩ : BufTy).Contents (Elt F) :=
  lrelu128 (layerNorm g be (dense2 W b h))

/-- Layer 3: affine, leaky ReLU. -/
def layer3 (W : (⟨S128x64, .f32⟩ : BufTy).Contents (Elt F)) (b : (⟨S64, .f32⟩ : BufTy).Contents (Elt F)) (h : (⟨S262144x128, .f32⟩ : BufTy).Contents (Elt F)) : (⟨S262144x64, .f32⟩ : BufTy).Contents (Elt F) :=
  lrelu64 (dense3 W b h)

/-- The four-layer network: the 144 Cholesky-factor entries of every row of `x`. -/
def factors (W1 : (⟨S24x128, .f32⟩ : BufTy).Contents (Elt F)) (b1 g1 be1 : (⟨S128, .f32⟩ : BufTy).Contents (Elt F)) (W2 : (⟨S128x128, .f32⟩ : BufTy).Contents (Elt F)) (b2 g2 be2 : (⟨S128, .f32⟩ : BufTy).Contents (Elt F)) (W3 : (⟨S128x64, .f32⟩ : BufTy).Contents (Elt F)) (b3 : (⟨S64, .f32⟩ : BufTy).Contents (Elt F)) (W4 : (⟨S64x144, .f32⟩ : BufTy).Contents (Elt F)) (b4 : (⟨S144, .f32⟩ : BufTy).Contents (Elt F)) (x : (⟨S262144x24, .f32⟩ : BufTy).Contents (Elt F)) : (⟨S262144x144, .f32⟩ : BufTy).Contents (Elt F) :=
  dense4 W4 b4 (layer3 W3 b3 (layer2 W2 b2 g2 be2 (layer1 W1 b1 g1 be1 x)))

/-- The table of the 66 strictly-lower row indices. -/
def rowsT : (⟨S66, .i32⟩ : BufTy).Contents (Elt F) :=
  (fun i => lit0 (S66.rowMajor i))

/-- The table of the 66 strictly-lower column indices. -/
def colsT : (⟨S66, .i32⟩ : BufTy).Contents (Elt F) :=
  (fun i => lit1 (S66.rowMajor i))

/-- The all-false mask over the 66 entries (no index of the tables is negative). -/
def falseT : (⟨S66, .i1⟩ : BufTy).Contents (Elt F) :=
  (constantI S66 1 0#1)

/-- Columns `0 … 11` of the factors: the diagonal entries. -/
def slice0 (f : (⟨S262144x144, .f32⟩ : BufTy).Contents (Elt F)) : (⟨S262144x12, .f32⟩ : BufTy).Contents (Elt F) :=
  (((extractStridedSlice S262144x12 ![0, 0] · slices_S262144x144_S262144x12_0_0) : (⟨S262144x144, .f32⟩ : BufTy).Contents (Elt F) → (⟨S262144x12, .f32⟩ : BufTy).Contents (Elt F)) f)

/-- Columns `12 … 77`: the real strictly-lower entries. -/
def slice12 (f : (⟨S262144x144, .f32⟩ : BufTy).Contents (Elt F)) : (⟨S262144x66, .f32⟩ : BufTy).Contents (Elt F) :=
  (((extractStridedSlice S262144x66 ![0, 12] · slices_S262144x144_S262144x66_0_12) : (⟨S262144x144, .f32⟩ : BufTy).Contents (Elt F) → (⟨S262144x66, .f32⟩ : BufTy).Contents (Elt F)) f)

/-- Columns `78 … 143`: the imaginary strictly-lower entries. -/
def slice78 (f : (⟨S262144x144, .f32⟩ : BufTy).Contents (Elt F)) : (⟨S262144x66, .f32⟩ : BufTy).Contents (Elt F) :=
  (((extractStridedSlice S262144x66 ![0, 78] · slices_S262144x144_S262144x66_0_78) : (⟨S262144x144, .f32⟩ : BufTy).Contents (Elt F) → (⟨S262144x66, .f32⟩ : BufTy).Contents (Elt F)) f)

/-- The zero matrices. -/
def zeros : (⟨S262144x12x12, .f32⟩ : BufTy).Contents (Elt F) :=
  ((broadcastInDim S262144x12x12 ![] bcast_S_S262144x12x12 : (⟨S_, .f32⟩ : BufTy).Contents (Elt F) → (⟨S262144x12x12, .f32⟩ : BufTy).Contents (Elt F)) (constant S_ .f32 0x00000000#32))

/-- An index vector normalised as the program does: `select (t < 0) (t + 12) t`. -/
def normIdx12 (t : (⟨S12, .i32⟩ : BufTy).Contents (Elt F)) : (⟨S12, .i32⟩ : BufTy).Contents (Elt F) :=
  ((select : (⟨S12, .i1⟩ : BufTy).Contents (Elt F) → (⟨S12, .i32⟩ : BufTy).Contents (Elt F) → (⟨S12, .i32⟩ : BufTy).Contents (Elt F) → (⟨S12, .i32⟩ : BufTy).Contents (Elt F)) ((cmpi .slt : (⟨S12, .i32⟩ : BufTy).Contents (Elt F) → (⟨S12, .i32⟩ : BufTy).Contents (Elt F) → (⟨S12, .i1⟩ : BufTy).Contents (Elt F)) t ((broadcastInDim S12 ![] bcast_S_S12 : (⟨S_, .i32⟩ : BufTy).Contents (Elt F) → (⟨S12, .i32⟩ : BufTy).Contents (Elt F)) (constantI S_ 32 0#32))) ((addi : (⟨S12, .i32⟩ : BufTy).Contents (Elt F) → (⟨S12, .i32⟩ : BufTy).Contents (Elt F) → (⟨S12, .i32⟩ : BufTy).Contents (Elt F)) t ((broadcastInDim S12 ![] bcast_S_S12 : (⟨S_, .i32⟩ : BufTy).Contents (Elt F) → (⟨S12, .i32⟩ : BufTy).Contents (Elt F)) (constantI S_ 32 12#32))) t)

/-- The `[12,2]` index array of the diagonal: `(d, d)` for `d = iota 12`, each column normalised. -/
def idx12 : (⟨S12x2, .i32⟩ : BufTy).Contents (Elt F) :=
  (((fun a b => concatenate S12x2 1 [⟨S12x1, a⟩, ⟨S12x1, b⟩] concatenates_S12x1_S12x1_S12x2_d1) : (⟨S12x1, .i32⟩ : BufTy).Contents (Elt F) → (⟨S12x1, .i32⟩ : BufTy).Contents (Elt F) → (⟨S12x2, .i32⟩ : BufTy).Contents (Elt F)) ((broadcastInDim S12x1 ![0] bcast_S12_S12x1_0 : (⟨S12, .i32⟩ : BufTy).Contents (Elt F) → (⟨S12x1, .i32⟩ : BufTy).Contents (Elt F)) (normIdx12 (iotaInDim S12 32 0))) ((broadcastInDim S12x1 ![0] bcast_S12_S12x1_0 : (⟨S12, .i32⟩ : BufTy).Contents (Elt F) → (⟨S12x1, .i32⟩ : BufTy).Contents (Elt F)) (normIdx12 (iotaInDim S12 32 0))))

/-- A table normalised as the program does: `select false (t + 12) t`. -/
def normIdx66 (t : (⟨S66, .i32⟩ : BufTy).Contents (Elt F)) : (⟨S66, .i32⟩ : BufTy).Contents (Elt F) :=
  ((select : (⟨S66, .i1⟩ : BufTy).Contents (Elt F) → (⟨S66, .i32⟩ : BufTy).Contents (Elt F) → (⟨S66, .i32⟩ : BufTy).Contents (Elt F) → (⟨S66, .i32⟩ : BufTy).Contents (Elt F)) (falseT (F := F)) ((addi : (⟨S66, .i32⟩ : BufTy).Contents (Elt F) → (⟨S66, .i32⟩ : BufTy).Contents (Elt F) → (⟨S66, .i32⟩ : BufTy).Contents (Elt F)) t ((broadcastInDim S66 ![] bcast_S_S66 : (⟨S_, .i32⟩ : BufTy).Contents (Elt F) → (⟨S66, .i32⟩ : BufTy).Contents (Elt F)) (constantI S_ 32 12#32))) t)

/-- The `[66,2]` index array of the strictly-lower entries: `(rows, cols)`, each column normalised. -/
def idx66 : (⟨S66x2, .i32⟩ : BufTy).Contents (Elt F) :=
  (((fun a b => concatenate S66x2 1 [⟨S66x1, a⟩, ⟨S66x1, b⟩] concatenates_S66x1_S66x1_S66x2_d1) : (⟨S66x1, .i32⟩ : BufTy).Contents (Elt F) → (⟨S66x1, .i32⟩ : BufTy).Contents (Elt F) → (⟨S66x2, .i32⟩ : BufTy).Contents (Elt F)) ((broadcastInDim S66x1 ![0] bcast_S66_S66x1_0 : (⟨S66, .i32⟩ : BufTy).Contents (Elt F) → (⟨S66x1, .i32⟩ : BufTy).Contents (Elt F)) (normIdx66 (rowsT (F := F)))) ((broadcastInDim S66x1 ![0] bcast_S66_S66x1_0 : (⟨S66, .i32⟩ : BufTy).Contents (Elt F) → (⟨S66x1, .i32⟩ : BufTy).Contents (Elt F)) (normIdx66 (colsT (F := F)))))

/-- The real part: the diagonal scattered into zeros, then the real strictly-lower entries. -/
def buildReal (f : (⟨S262144x144, .f32⟩ : BufTy).Contents (Elt F)) : (⟨S262144x12x12, .f32⟩ : BufTy).Contents (Elt F) :=
  (((fun x i u => Host.scatter scatter_S262144x12x12_S66x2_S262144x66_0_12_12_1 (fun _ b => b) x i u) : (⟨S262144x12x12, .f32⟩ : BufTy).Contents (Elt F) → (⟨S66x2, .i32⟩ : BufTy).Contents (Elt F) → (⟨S262144x66, .f32⟩ : BufTy).Contents (Elt F) → (⟨S262144x12x12, .f32⟩ : BufTy).Contents (Elt F)) (((fun x i u => Host.scatter scatter_S262144x12x12_S12x2_S262144x12_0_12_12_1 (fun _ b => b) x i u) : (⟨S262144x12x12, .f32⟩ : BufTy).Contents (Elt F) → (⟨S12x2, .i32⟩ : BufTy).Contents (Elt F) → (⟨S262144x12, .f32⟩ : BufTy).Contents (Elt F) → (⟨S262144x12x12, .f32⟩ : BufTy).Contents (Elt F)) (zeros (F := F)) (idx12 (F := F)) (slice0 f)) (idx66 (F := F)) (slice12 f))

/-- The imaginary part: the imaginary strictly-lower entries scattered into zeros. -/
def buildImag (f : (⟨S262144x144, .f32⟩ : BufTy).Contents (Elt F)) : (⟨S262144x12x12, .f32⟩ : BufTy).Contents (Elt F) :=
  (((fun x i u => Host.scatter scatter_S262144x12x12_S66x2_S262144x66_0_12_12_1 (fun _ b => b) x i u) : (⟨S262144x12x12, .f32⟩ : BufTy).Contents (Elt F) → (⟨S66x2, .i32⟩ : BufTy).Contents (Elt F) → (⟨S262144x66, .f32⟩ : BufTy).Contents (Elt F) → (⟨S262144x12x12, .f32⟩ : BufTy).Contents (Elt F)) (zeros (F := F)) (idx66 (F := F)) (slice78 f))

/-- A matrix batch under a new leading axis of length one. -/
def lead (a : (⟨S262144x12x12, .f32⟩ : BufTy).Contents (Elt F)) : (⟨S1x262144x12x12, .f32⟩ : BufTy).Contents (Elt F) :=
  ((broadcastInDim S1x262144x12x12 ![1, 2, 3] bcast_S262144x12x12_S1x262144x12x12_1_2_3 : (⟨S262144x12x12, .f32⟩ : BufTy).Contents (Elt F) → (⟨S1x262144x12x12, .f32⟩ : BufTy).Contents (Elt F)) a)

/-- Four such batches concatenated along the leading axis. -/
def stackRows (u0 u1 u2 u3 : (⟨S1x262144x12x12, .f32⟩ : BufTy).Contents (Elt F)) : (⟨S4x262144x12x12, .f32⟩ : BufTy).Contents (Elt F) :=
  concatenate S4x262144x12x12 0 [⟨S1x262144x12x12, u0⟩, ⟨S1x262144x12x12, u1⟩, ⟨S1x262144x12x12, u2⟩, ⟨S1x262144x12x12, u3⟩] concatenates_S1x262144x12x12_S1x262144x12x12_S1x262144x12x12_S1x262144x12x12_S4x262144x12x12_d0

/-- The four matrices stacked along a new leading axis. -/
def stack4 (a b c d : (⟨S262144x12x12, .f32⟩ : BufTy).Contents (Elt F)) : (⟨S4x262144x12x12, .f32⟩ : BufTy).Contents (Elt F) :=
  stackRows (lead a) (lead b) (lead c) (lead d)

/-- What @main returns: `[C_real, C_imag, R_real, R_imag]`, each built from its network's factors of the same input. -/
def result (a0 : (⟨S262144x12, .f32⟩ : BufTy).Contents (Elt F)) (a1 : (⟨S262144x12, .f32⟩ : BufTy).Contents (Elt F)) (a2 : (⟨S24x128, .f32⟩ : BufTy).Contents (Elt F)) (a3 : (⟨S128, .f32⟩ : BufTy).Contents (Elt F)) (a4 : (⟨S128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S128, .f32⟩ : BufTy).Contents (Elt F)) (a9 : (⟨S128, .f32⟩ : BufTy).Contents (Elt F)) (a10 : (⟨S128x64, .f32⟩ : BufTy).Contents (Elt F)) (a11 : (⟨S64, .f32⟩ : BufTy).Contents (Elt F)) (a12 : (⟨S64x144, .f32⟩ : BufTy).Contents (Elt F)) (a13 : (⟨S144, .f32⟩ : BufTy).Contents (Elt F)) (a14 : (⟨S24x128, .f32⟩ : BufTy).Contents (Elt F)) (a15 : (⟨S128, .f32⟩ : BufTy).Contents (Elt F)) (a16 : (⟨S128, .f32⟩ : BufTy).Contents (Elt F)) (a17 : (⟨S128, .f32⟩ : BufTy).Contents (Elt F)) (a18 : (⟨S128x128, .f32⟩ : BufTy).Contents (Elt F)) (a19 : (⟨S128, .f32⟩ : BufTy).Contents (Elt F)) (a20 : (⟨S128, .f32⟩ : BufTy).Contents (Elt F)) (a21 : (⟨S128, .f32⟩ : BufTy).Contents (Elt F)) (a22 : (⟨S128x64, .f32⟩ : BufTy).Contents (Elt F)) (a23 : (⟨S64, .f32⟩ : BufTy).Contents (Elt F)) (a24 : (⟨S64x144, .f32⟩ : BufTy).Contents (Elt F)) (a25 : (⟨S144, .f32⟩ : BufTy).Contents (Elt F)) : (⟨S4x262144x12x12, .f32⟩ : BufTy).Contents (Elt F) :=
  stack4 (buildReal (factors a2 a3 a4 a5 a6 a7 a8 a9 a10 a11 a12 a13 (xcat a0 a1))) (buildImag (factors a2 a3 a4 a5 a6 a7 a8 a9 a10 a11 a12 a13 (xcat a0 a1))) (buildReal (factors a14 a15 a16 a17 a18 a19 a20 a21 a22 a23 a24 a25 (xcat a0 a1))) (buildImag (factors a14 a15 a16 a17 a18 a19 a20 a21 a22 a23 a24 a25 (xcat a0 a1)))

/-! ## The operations, in consecutive pieces

The pieces end where a stage of the result ends and where the printed program's windows end. -/

/-- @main's operations 1 … 12 of 308. -/
abbrev p0 : List (HloOp τ sig (Elt F)) :=
  [ nullary main_c (fun i => lit0 (S66.rowMajor i)),
    nullary main_c_0 (constantI S66 1 0#1),
    nullary main_c_1 (fun i => lit1 (S66.rowMajor i)),
    nullary main_c_2 (constantI S66 1 0#1),
    nullary main_c_3 (constantI S66 1 0#1),
    nullary main_c_4 (constantI S66 1 0#1),
    nullary main_c_5 (fun i => lit2 (S66.rowMajor i)),
    nullary main_c_6 (constantI S66 1 0#1),
    nullary main_c_7 (fun i => lit3 (S66.rowMajor i)),
    nullary main_c_8 (constantI S66 1 0#1),
    nullary main_c_9 (constantI S66 1 0#1),
    nullary main_c_10 (constantI S66 1 0#1) ]

/-- @main's operations 13 … 13 of 308. -/
abbrev p1 : List (HloOp τ sig (Elt F)) :=
  [ binary main_arg0 main_arg1 main_v0 ((fun a b => concatenate S262144x24 1 [⟨S262144x12, a⟩, ⟨S262144x12, b⟩] concatenates_S262144x12_S262144x12_S262144x24_d1) : (⟨S262144x12, .f32⟩ : BufTy).Contents (Elt F) → (⟨S262144x12, .f32⟩ : BufTy).Contents (Elt F) → (⟨S262144x24, .f32⟩ : BufTy).Contents (Elt F)) ]

/-- @main's operations 14 … 53 of 308. -/
abbrev p2 : List (HloOp τ sig (Elt F)) :=
  [ binary main_v0 main_arg2 main_v1 ((fun l r => Host.dotGeneral dot_S262144x24_S24x128_S262144x128_1_0_0_1_n_n none l r) : (⟨S262144x24, .f32⟩ : BufTy).Contents (Elt F) → (⟨S24x128, .f32⟩ : BufTy).Contents (Elt F) → (⟨S262144x128, .f32⟩ : BufTy).Contents (Elt F)),
    unary main_arg3 main_v2 (broadcastInDim S1x128 ![1] bcast_S128_S1x128_1 : (⟨S128, .f32⟩ : BufTy).Contents (Elt F) → (⟨S1x128, .f32⟩ : BufTy).Contents (Elt F)),
    unary main_v2 main_v3 (broadcastInDim S262144x128 ![0, 1] bcast_S1x128_S262144x128_0_1 : (⟨S1x128, .f32⟩ : BufTy).Contents (Elt F) → (⟨S262144x128, .f32⟩ : BufTy).Contents (Elt F)),
    binary main_v1 main_v3 main_v4 (addf : (⟨S262144x128, .f32⟩ : BufTy).Contents (Elt F) → (⟨S262144x128, .f32⟩ : BufTy).Contents (Elt F) → (⟨S262144x128, .f32⟩ : BufTy).Contents (Elt F)),
    nullary main_cst (constant S_ .f32 0x00000000#32),
    binary main_v4 main_cst main_v5 ((fun x v => Host.reduceAdd x v reducesTo_S262144x128_S262144_d1 h_S_) : (⟨S262144x128, .f32⟩ : BufTy).Contents (Elt F) → (⟨S_, .f32⟩ : BufTy).Contents (Elt F) → (⟨S262144, .f32⟩ : BufTy).Contents (Elt F)),
    unary main_v5 main_v6 (broadcastInDim S262144x1 ![0] bcast_S262144_S262144x1_0 : (⟨S262144, .f32⟩ : BufTy).Contents (Elt F) → (⟨S262144x1, .f32⟩ : BufTy).Contents (Elt F)),
    nullary main_cst_11 (constant S_ .f32 0x43000000#32),
    unary main_cst_11 main_v7 (broadcastInDim S262144x1 ![] bcast_S_S262144x1 : (⟨S_, .f32⟩ : BufTy).Contents (Elt F) → (⟨S262144x1, .f32⟩ : BufTy).Contents (Elt F)),
    binary main_v6 main_v7 main_v8 (Host.divf : (⟨S262144x1, .f32⟩ : BufTy).Contents (Elt F) → (⟨S262144x1, .f32⟩ : BufTy).Contents (Elt F) → (⟨S262144x1, .f32⟩ : BufTy).Contents (Elt F)),
    unary main_v8 main_v9 (broadcastInDim S262144x128 ![0, 1] bcast_S262144x1_S262144x128_0_1 : (⟨S262144x1, .f32⟩ : BufTy).Contents (Elt F) → (⟨S262144x128, .f32⟩ : BufTy).Contents (Elt F)),
    binary main_v4 main_v9 main_v10 (subf : (⟨S262144x128, .f32⟩ : BufTy).Contents (Elt F) → (⟨S262144x128, .f32⟩ : BufTy).Contents (Elt F) → (⟨S262144x128, .f32⟩ : BufTy).Contents (Elt F)),
    binary main_v10 main_v10 main_v11 (mulf : (⟨S262144x128, .f32⟩ : BufTy).Contents (Elt F) → (⟨S262144x128, .f32⟩ : BufTy).Contents (Elt F) → (⟨S262144x128, .f32⟩ : BufTy).Contents (Elt F)),
    nullary main_cst_12 (constant S_ .f32 0x00000000#32),
    binary main_v11 main_cst_12 main_v12 ((fun x v => Host.reduceAdd x v reducesTo_S262144x128_S262144_d1 h_S_) : (⟨S262144x128, .f32⟩ : BufTy).Contents (Elt F) → (⟨S_, .f32⟩ : BufTy).Contents (Elt F) → (⟨S262144, .f32⟩ : BufTy).Contents (Elt F)),
    unary main_v12 main_v13 (broadcastInDim S262144x1 ![0] bcast_S262144_S262144x1_0 : (⟨S262144, .f32⟩ : BufTy).Contents (Elt F) → (⟨S262144x1, .f32⟩ : BufTy).Contents (Elt F)),
    nullary main_cst_13 (constant S_ .f32 0x43000000#32),
    unary main_cst_13 main_v14 (broadcastInDim S262144x1 ![] bcast_S_S262144x1 : (⟨S_, .f32⟩ : BufTy).Contents (Elt F) → (⟨S262144x1, .f32⟩ : BufTy).Contents (Elt F)),
    binary main_v13 main_v14 main_v15 (Host.divf : (⟨S262144x1, .f32⟩ : BufTy).Contents (Elt F) → (⟨S262144x1, .f32⟩ : BufTy).Contents (Elt F) → (⟨S262144x1, .f32⟩ : BufTy).Contents (Elt F)),
    unary main_v8 main_v16 (broadcastInDim S262144x128 ![0, 1] bcast_S262144x1_S262144x128_0_1 : (⟨S262144x1, .f32⟩ : BufTy).Contents (Elt F) → (⟨S262144x128, .f32⟩ : BufTy).Contents (Elt F)),
    binary main_v4 main_v16 main_v17 (subf : (⟨S262144x128, .f32⟩ : BufTy).Contents (Elt F) → (⟨S262144x128, .f32⟩ : BufTy).Contents (Elt F) → (⟨S262144x128, .f32⟩ : BufTy).Contents (Elt F)),
    nullary main_cst_14 (constant S_ .f32 0x3727C5AC#32),
    unary main_cst_14 main_v18 (broadcastInDim S262144x1 ![] bcast_S_S262144x1 : (⟨S_, .f32⟩ : BufTy).Contents (Elt F) → (⟨S262144x1, .f32⟩ : BufTy).Contents (Elt F)),
    binary main_v15 main_v18 main_v19 (addf : (⟨S262144x1, .f32⟩ : BufTy).Contents (Elt F) → (⟨S262144x1, .f32⟩ : BufTy).Contents (Elt F) → (⟨S262144x1, .f32⟩ : BufTy).Contents (Elt F)),
    unary main_v19 main_v20 (Host.rsqrt : (⟨S262144x1, .f32⟩ : BufTy).Contents (Elt F) → (⟨S262144x1, .f32⟩ : BufTy).Contents (Elt F)),
    unary main_v20 main_v21 (broadcastInDim S262144x128 ![0, 1] bcast_S262144x1_S262144x128_0_1 : (⟨S262144x1, .f32⟩ : BufTy).Contents (Elt F) → (⟨S262144x128, .f32⟩ : BufTy).Contents (Elt F)),
    binary main_v17 main_v21 main_v22 (mulf : (⟨S262144x128, .f32⟩ : BufTy).Contents (Elt F) → (⟨S262144x128, .f32⟩ : BufTy).Contents (Elt F) → (⟨S262144x128, .f32⟩ : BufTy).Contents (Elt F)),
    unary main_arg4 main_v23 (broadcastInDim S1x128 ![1] bcast_S128_S1x128_1 : (⟨S128, .f32⟩ : BufTy).Contents (Elt F) → (⟨S1x128, .f32⟩ : BufTy).Contents (Elt F)),
    unary main_v23 main_v24 (broadcastInDim S262144x128 ![0, 1] bcast_S1x128_S262144x128_0_1 : (⟨S1x128, .f32⟩ : BufTy).Contents (Elt F) → (⟨S262144x128, .f32⟩ : BufTy).Contents (Elt F)),
    binary main_v22 main_v24 main_v25 (mulf : (⟨S262144x128, .f32⟩ : BufTy).Contents (Elt F) → (⟨S262144x128, .f32⟩ : BufTy).Contents (Elt F) → (⟨S262144x128, .f32⟩ : BufTy).Contents (Elt F)),
    unary main_arg5 main_v26 (broadcastInDim S1x128 ![1] bcast_S128_S1x128_1 : (⟨S128, .f32⟩ : BufTy).Contents (Elt F) → (⟨S1x128, .f32⟩ : BufTy).Contents (Elt F)),
    unary main_v26 main_v27 (broadcastInDim S262144x128 ![0, 1] bcast_S1x128_S262144x128_0_1 : (⟨S1x128, .f32⟩ : BufTy).Contents (Elt F) → (⟨S262144x128, .f32⟩ : BufTy).Contents (Elt F)),
    binary main_v25 main_v27 main_v28 (addf : (⟨S262144x128, .f32⟩ : BufTy).Contents (Elt F) → (⟨S262144x128, .f32⟩ : BufTy).Contents (Elt F) → (⟨S262144x128, .f32⟩ : BufTy).Contents (Elt F)),
    nullary main_cst_15 (constant S_ .f32 0x00000000#32),
    unary main_cst_15 main_v29 (broadcastInDim S262144x128 ![] bcast_S_S262144x128 : (⟨S_, .f32⟩ : BufTy).Contents (Elt F) → (⟨S262144x128, .f32⟩ : BufTy).Contents (Elt F)),
    binary main_v28 main_v29 main_v30 (cmpf .oge : (⟨S262144x128, .f32⟩ : BufTy).Contents (Elt F) → (⟨S262144x128, .f32⟩ : BufTy).Contents (Elt F) → (⟨S262144x128, .i1⟩ : BufTy).Contents (Elt F)),
    nullary main_cst_16 (constant S_ .f32 0x3DCCCCCD#32),
    unary main_cst_16 main_v31 (broadcastInDim S262144x128 ![] bcast_S_S262144x128 : (⟨S_, .f32⟩ : BufTy).Contents (Elt F) → (⟨S262144x128, .f32⟩ : BufTy).Contents (Elt F)),
    binary main_v31 main_v28 main_v32 (mulf : (⟨S262144x128, .f32⟩ : BufTy).Contents (Elt F) → (⟨S262144x128, .f32⟩ : BufTy).Contents (Elt F) → (⟨S262144x128, .f32⟩ : BufTy).Contents (Elt F)),
    TRef.ternary (.of main_v30) (.of main_v28) (.of main_v32) main_call0.v0 select ]

/-- @main's operations 54 … 60 of 308. -/
abbrev p3 : List (HloOp τ sig (Elt F)) :=
  [ binary main_v33 main_arg6 main_v34 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg7 main_v35 (broadcastInDim S1x128 ![1] bcast_S128_S1x128_1 : (⟨S128, .f32⟩ : BufTy).Contents (Elt F) → (⟨S1x128, .f32⟩ : BufTy).Contents (Elt F)),
    unary main_v35 main_v36 (broadcastInDim S262144x128 ![0, 1] bcast_S1x128_S262144x128_0_1 : (⟨S1x128, .f32⟩ : BufTy).Contents (Elt F) → (⟨S262144x128, .f32⟩ : BufTy).Contents (Elt F)),
    binary main_v34 main_v36 main_v37 (addf : (⟨S262144x128, .f32⟩ : BufTy).Contents (Elt F) → (⟨S262144x128, .f32⟩ : BufTy).Contents (Elt F) → (⟨S262144x128, .f32⟩ : BufTy).Contents (Elt F)),
    nullary main_cst_17 (constant S_ .f32 0x00000000#32),
    binary main_v37 main_cst_17 main_v38 ((fun x v => Host.reduceAdd x v reducesTo_S262144x128_S262144_d1 h_S_) : (⟨S262144x128, .f32⟩ : BufTy).Contents (Elt F) → (⟨S_, .f32⟩ : BufTy).Contents (Elt F) → (⟨S262144, .f32⟩ : BufTy).Contents (Elt F)),
    unary main_v38 main_v39 (broadcastInDim S262144x1 ![0] bcast_S262144_S262144x1_0 : (⟨S262144, .f32⟩ : BufTy).Contents (Elt F) → (⟨S262144x1, .f32⟩ : BufTy).Contents (Elt F)) ]

/-- @main's operations 61 … 93 of 308. -/
abbrev p4 : List (HloOp τ sig (Elt F)) :=
  [ nullary main_cst_18 (constant S_ .f32 0x43000000#32),
    unary main_cst_18 main_v40 (broadcastInDim S262144x1 ![] bcast_S_S262144x1 : (⟨S_, .f32⟩ : BufTy).Contents (Elt F) → (⟨S262144x1, .f32⟩ : BufTy).Contents (Elt F)),
    binary main_v39 main_v40 main_v41 (Host.divf : (⟨S262144x1, .f32⟩ : BufTy).Contents (Elt F) → (⟨S262144x1, .f32⟩ : BufTy).Contents (Elt F) → (⟨S262144x1, .f32⟩ : BufTy).Contents (Elt F)),
    unary main_v41 main_v42 (broadcastInDim S262144x128 ![0, 1] bcast_S262144x1_S262144x128_0_1 : (⟨S262144x1, .f32⟩ : BufTy).Contents (Elt F) → (⟨S262144x128, .f32⟩ : BufTy).Contents (Elt F)),
    binary main_v37 main_v42 main_v43 (subf : (⟨S262144x128, .f32⟩ : BufTy).Contents (Elt F) → (⟨S262144x128, .f32⟩ : BufTy).Contents (Elt F) → (⟨S262144x128, .f32⟩ : BufTy).Contents (Elt F)),
    binary main_v43 main_v43 main_v44 (mulf : (⟨S262144x128, .f32⟩ : BufTy).Contents (Elt F) → (⟨S262144x128, .f32⟩ : BufTy).Contents (Elt F) → (⟨S262144x128, .f32⟩ : BufTy).Contents (Elt F)),
    nullary main_cst_19 (constant S_ .f32 0x00000000#32),
    binary main_v44 main_cst_19 main_v45 ((fun x v => Host.reduceAdd x v reducesTo_S262144x128_S262144_d1 h_S_) : (⟨S262144x128, .f32⟩ : BufTy).Contents (Elt F) → (⟨S_, .f32⟩ : BufTy).Contents (Elt F) → (⟨S262144, .f32⟩ : BufTy).Contents (Elt F)),
    unary main_v45 main_v46 (broadcastInDim S262144x1 ![0] bcast_S262144_S262144x1_0 : (⟨S262144, .f32⟩ : BufTy).Contents (Elt F) → (⟨S262144x1, .f32⟩ : BufTy).Contents (Elt F)),
    nullary main_cst_20 (constant S_ .f32 0x43000000#32),
    unary main_cst_20 main_v47 (broadcastInDim S262144x1 ![] bcast_S_S262144x1 : (⟨S_, .f32⟩ : BufTy).Contents (Elt F) → (⟨S262144x1, .f32⟩ : BufTy).Contents (Elt F)),
    binary main_v46 main_v47 main_v48 (Host.divf : (⟨S262144x1, .f32⟩ : BufTy).Contents (Elt F) → (⟨S262144x1, .f32⟩ : BufTy).Contents (Elt F) → (⟨S262144x1, .f32⟩ : BufTy).Contents (Elt F)),
    unary main_v41 main_v49 (broadcastInDim S262144x128 ![0, 1] bcast_S262144x1_S262144x128_0_1 : (⟨S262144x1, .f32⟩ : BufTy).Contents (Elt F) → (⟨S262144x128, .f32⟩ : BufTy).Contents (Elt F)),
    binary main_v37 main_v49 main_v50 (subf : (⟨S262144x128, .f32⟩ : BufTy).Contents (Elt F) → (⟨S262144x128, .f32⟩ : BufTy).Contents (Elt F) → (⟨S262144x128, .f32⟩ : BufTy).Contents (Elt F)),
    nullary main_cst_21 (constant S_ .f32 0x3727C5AC#32),
    unary main_cst_21 main_v51 (broadcastInDim S262144x1 ![] bcast_S_S262144x1 : (⟨S_, .f32⟩ : BufTy).Contents (Elt F) → (⟨S262144x1, .f32⟩ : BufTy).Contents (Elt F)),
    binary main_v48 main_v51 main_v52 (addf : (⟨S262144x1, .f32⟩ : BufTy).Contents (Elt F) → (⟨S262144x1, .f32⟩ : BufTy).Contents (Elt F) → (⟨S262144x1, .f32⟩ : BufTy).Contents (Elt F)),
    unary main_v52 main_v53 (Host.rsqrt : (⟨S262144x1, .f32⟩ : BufTy).Contents (Elt F) → (⟨S262144x1, .f32⟩ : BufTy).Contents (Elt F)),
    unary main_v53 main_v54 (broadcastInDim S262144x128 ![0, 1] bcast_S262144x1_S262144x128_0_1 : (⟨S262144x1, .f32⟩ : BufTy).Contents (Elt F) → (⟨S262144x128, .f32⟩ : BufTy).Contents (Elt F)),
    binary main_v50 main_v54 main_v55 (mulf : (⟨S262144x128, .f32⟩ : BufTy).Contents (Elt F) → (⟨S262144x128, .f32⟩ : BufTy).Contents (Elt F) → (⟨S262144x128, .f32⟩ : BufTy).Contents (Elt F)),
    unary main_arg8 main_v56 (broadcastInDim S1x128 ![1] bcast_S128_S1x128_1 : (⟨S128, .f32⟩ : BufTy).Contents (Elt F) → (⟨S1x128, .f32⟩ : BufTy).Contents (Elt F)),
    unary main_v56 main_v57 (broadcastInDim S262144x128 ![0, 1] bcast_S1x128_S262144x128_0_1 : (⟨S1x128, .f32⟩ : BufTy).Contents (Elt F) → (⟨S262144x128, .f32⟩ : BufTy).Contents (Elt F)),
    binary main_v55 main_v57 main_v58 (mulf : (⟨S262144x128, .f32⟩ : BufTy).Contents (Elt F) → (⟨S262144x128, .f32⟩ : BufTy).Contents (Elt F) → (⟨S262144x128, .f32⟩ : BufTy).Contents (Elt F)),
    unary main_arg9 main_v59 (broadcastInDim S1x128 ![1] bcast_S128_S1x128_1 : (⟨S128, .f32⟩ : BufTy).Contents (Elt F) → (⟨S1x128, .f32⟩ : BufTy).Contents (Elt F)),
    unary main_v59 main_v60 (broadcastInDim S262144x128 ![0, 1] bcast_S1x128_S262144x128_0_1 : (⟨S1x128, .f32⟩ : BufTy).Contents (Elt F) → (⟨S262144x128, .f32⟩ : BufTy).Contents (Elt F)),
    binary main_v58 main_v60 main_v61 (addf : (⟨S262144x128, .f32⟩ : BufTy).Contents (Elt F) → (⟨S262144x128, .f32⟩ : BufTy).Contents (Elt F) → (⟨S262144x128, .f32⟩ : BufTy).Contents (Elt F)),
    nullary main_cst_22 (constant S_ .f32 0x00000000#32),
    unary main_cst_22 main_v62 (broadcastInDim S262144x128 ![] bcast_S_S262144x128 : (⟨S_, .f32⟩ : BufTy).Contents (Elt F) → (⟨S262144x128, .f32⟩ : BufTy).Contents (Elt F)),
    binary main_v61 main_v62 main_v63 (cmpf .oge : (⟨S262144x128, .f32⟩ : BufTy).Contents (Elt F) → (⟨S262144x128, .f32⟩ : BufTy).Contents (Elt F) → (⟨S262144x128, .i1⟩ : BufTy).Contents (Elt F)),
    nullary main_cst_23 (constant S_ .f32 0x3DCCCCCD#32),
    unary main_cst_23 main_v64 (broadcastInDim S262144x128 ![] bcast_S_S262144x128 : (⟨S_, .f32⟩ : BufTy).Contents (Elt F) → (⟨S262144x128, .f32⟩ : BufTy).Contents (Elt F)),
    binary main_v64 main_v61 main_v65 (mulf : (⟨S262144x128, .f32⟩ : BufTy).Contents (Elt F) → (⟨S262144x128, .f32⟩ : BufTy).Contents (Elt F) → (⟨S262144x128, .f32⟩ : BufTy).Contents (Elt F)),
    TRef.ternary (.of main_v63) (.of main_v61) (.of main_v65) main_call1.v0 select ]

/-- @main's operations 94 … 104 of 308. -/
abbrev p5 : List (HloOp τ sig (Elt F)) :=
  [ binary main_v66 main_arg10 main_v67 ((fun l r => Host.dotGeneral dot_S262144x128_S128x64_S262144x64_1_0_0_1_n_n none l r) : (⟨S262144x128, .f32⟩ : BufTy).Contents (Elt F) → (⟨S128x64, .f32⟩ : BufTy).Contents (Elt F) → (⟨S262144x64, .f32⟩ : BufTy).Contents (Elt F)),
    unary main_arg11 main_v68 (broadcastInDim S1x64 ![1] bcast_S64_S1x64_1 : (⟨S64, .f32⟩ : BufTy).Contents (Elt F) → (⟨S1x64, .f32⟩ : BufTy).Contents (Elt F)),
    unary main_v68 main_v69 (broadcastInDim S262144x64 ![0, 1] bcast_S1x64_S262144x64_0_1 : (⟨S1x64, .f32⟩ : BufTy).Contents (Elt F) → (⟨S262144x64, .f32⟩ : BufTy).Contents (Elt F)),
    binary main_v67 main_v69 main_v70 (addf : (⟨S262144x64, .f32⟩ : BufTy).Contents (Elt F) → (⟨S262144x64, .f32⟩ : BufTy).Contents (Elt F) → (⟨S262144x64, .f32⟩ : BufTy).Contents (Elt F)),
    nullary main_cst_24 (constant S_ .f32 0x00000000#32),
    unary main_cst_24 main_v71 (broadcastInDim S262144x64 ![] bcast_S_S262144x64 : (⟨S_, .f32⟩ : BufTy).Contents (Elt F) → (⟨S262144x64, .f32⟩ : BufTy).Contents (Elt F)),
    binary main_v70 main_v71 main_v72 (cmpf .oge : (⟨S262144x64, .f32⟩ : BufTy).Contents (Elt F) → (⟨S262144x64, .f32⟩ : BufTy).Contents (Elt F) → (⟨S262144x64, .i1⟩ : BufTy).Contents (Elt F)),
    nullary main_cst_25 (constant S_ .f32 0x3DCCCCCD#32),
    unary main_cst_25 main_v73 (broadcastInDim S262144x64 ![] bcast_S_S262144x64 : (⟨S_, .f32⟩ : BufTy).Contents (Elt F) → (⟨S262144x64, .f32⟩ : BufTy).Contents (Elt F)),
    binary main_v73 main_v70 main_v74 (mulf : (⟨S262144x64, .f32⟩ : BufTy).Contents (Elt F) → (⟨S262144x64, .f32⟩ : BufTy).Contents (Elt F) → (⟨S262144x64, .f32⟩ : BufTy).Contents (Elt F)),
    TRef.ternary (.of main_v72) (.of main_v70) (.of main_v74) main_call2.v0 select ]

/-- @main's operations 105 … 108 of 308. -/
abbrev p6 : List (HloOp τ sig (Elt F)) :=
  [ binary main_v75 main_arg12 main_v76 ((fun l r => Host.dotGeneral dot_S262144x64_S64x144_S262144x144_1_0_0_1_n_n none l r) : (⟨S262144x64, .f32⟩ : BufTy).Contents (Elt F) → (⟨S64x144, .f32⟩ : BufTy).Contents (Elt F) → (⟨S262144x144, .f32⟩ : BufTy).Contents (Elt F)),
    unary main_arg13 main_v77 (broadcastInDim S1x144 ![1] bcast_S144_S1x144_1 : (⟨S144, .f32⟩ : BufTy).Contents (Elt F) → (⟨S1x144, .f32⟩ : BufTy).Contents (Elt F)),
    unary main_v77 main_v78 (broadcastInDim S262144x144 ![0, 1] bcast_S1x144_S262144x144_0_1 : (⟨S1x144, .f32⟩ : BufTy).Contents (Elt F) → (⟨S262144x144, .f32⟩ : BufTy).Contents (Elt F)),
    binary main_v76 main_v78 main_v79 (addf : (⟨S262144x144, .f32⟩ : BufTy).Contents (Elt F) → (⟨S262144x144, .f32⟩ : BufTy).Contents (Elt F) → (⟨S262144x144, .f32⟩ : BufTy).Contents (Elt F)) ]

/-- @main's operations 109 … 120 of 308. -/
abbrev p7 : List (HloOp τ sig (Elt F)) :=
  [ binary main_v0 main_arg14 main_v80 ((fun l r => Host.dotGeneral dot_S262144x24_S24x128_S262144x128_1_0_0_1_n_n none l r) : (⟨S262144x24, .f32⟩ : BufTy).Contents (Elt F) → (⟨S24x128, .f32⟩ : BufTy).Contents (Elt F) → (⟨S262144x128, .f32⟩ : BufTy).Contents (Elt F)),
    unary main_arg15 main_v81 (broadcastInDim S1x128 ![1] bcast_S128_S1x128_1 : (⟨S128, .f32⟩ : BufTy).Contents (Elt F) → (⟨S1x128, .f32⟩ : BufTy).Contents (Elt F)),
    unary main_v81 main_v82 (broadcastInDim S262144x128 ![0, 1] bcast_S1x128_S262144x128_0_1 : (⟨S1x128, .f32⟩ : BufTy).Contents (Elt F) → (⟨S262144x128, .f32⟩ : BufTy).Contents (Elt F)),
    binary main_v80 main_v82 main_v83 (addf : (⟨S262144x128, .f32⟩ : BufTy).Contents (Elt F) → (⟨S262144x128, .f32⟩ : BufTy).Contents (Elt F) → (⟨S262144x128, .f32⟩ : BufTy).Contents (Elt F)),
    nullary main_cst_26 (constant S_ .f32 0x00000000#32),
    binary main_v83 main_cst_26 main_v84 ((fun x v => Host.reduceAdd x v reducesTo_S262144x128_S262144_d1 h_S_) : (⟨S262144x128, .f32⟩ : BufTy).Contents (Elt F) → (⟨S_, .f32⟩ : BufTy).Contents (Elt F) → (⟨S262144, .f32⟩ : BufTy).Contents (Elt F)),
    unary main_v84 main_v85 (broadcastInDim S262144x1 ![0] bcast_S262144_S262144x1_0 : (⟨S262144, .f32⟩ : BufTy).Contents (Elt F) → (⟨S262144x1, .f32⟩ : BufTy).Contents (Elt F)),
    nullary main_cst_27 (constant S_ .f32 0x43000000#32),
    unary main_cst_27 main_v86 (broadcastInDim S262144x1 ![] bcast_S_S262144x1 : (⟨S_, .f32⟩ : BufTy).Contents (Elt F) → (⟨S262144x1, .f32⟩ : BufTy).Contents (Elt F)),
    binary main_v85 main_v86 main_v87 (Host.divf : (⟨S262144x1, .f32⟩ : BufTy).Contents (Elt F) → (⟨S262144x1, .f32⟩ : BufTy).Contents (Elt F) → (⟨S262144x1, .f32⟩ : BufTy).Contents (Elt F)),
    unary main_v87 main_v88 (broadcastInDim S262144x128 ![0, 1] bcast_S262144x1_S262144x128_0_1 : (⟨S262144x1, .f32⟩ : BufTy).Contents (Elt F) → (⟨S262144x128, .f32⟩ : BufTy).Contents (Elt F)),
    binary main_v83 main_v88 main_v89 (subf : (⟨S262144x128, .f32⟩ : BufTy).Contents (Elt F) → (⟨S262144x128, .f32⟩ : BufTy).Contents (Elt F) → (⟨S262144x128, .f32⟩ : BufTy).Contents (Elt F)) ]

/-- @main's operations 121 … 148 of 308. -/
abbrev p8 : List (HloOp τ sig (Elt F)) :=
  [ binary main_v89 main_v89 main_v90 (mulf : (⟨S262144x128, .f32⟩ : BufTy).Contents (Elt F) → (⟨S262144x128, .f32⟩ : BufTy).Contents (Elt F) → (⟨S262144x128, .f32⟩ : BufTy).Contents (Elt F)),
    nullary main_cst_28 (constant S_ .f32 0x00000000#32),
    binary main_v90 main_cst_28 main_v91 ((fun x v => Host.reduceAdd x v reducesTo_S262144x128_S262144_d1 h_S_) : (⟨S262144x128, .f32⟩ : BufTy).Contents (Elt F) → (⟨S_, .f32⟩ : BufTy).Contents (Elt F) → (⟨S262144, .f32⟩ : BufTy).Contents (Elt F)),
    unary main_v91 main_v92 (broadcastInDim S262144x1 ![0] bcast_S262144_S262144x1_0 : (⟨S262144, .f32⟩ : BufTy).Contents (Elt F) → (⟨S262144x1, .f32⟩ : BufTy).Contents (Elt F)),
    nullary main_cst_29 (constant S_ .f32 0x43000000#32),
    unary main_cst_29 main_v93 (broadcastInDim S262144x1 ![] bcast_S_S262144x1 : (⟨S_, .f32⟩ : BufTy).Contents (Elt F) → (⟨S262144x1, .f32⟩ : BufTy).Contents (Elt F)),
    binary main_v92 main_v93 main_v94 (Host.divf : (⟨S262144x1, .f32⟩ : BufTy).Contents (Elt F) → (⟨S262144x1, .f32⟩ : BufTy).Contents (Elt F) → (⟨S262144x1, .f32⟩ : BufTy).Contents (Elt F)),
    unary main_v87 main_v95 (broadcastInDim S262144x128 ![0, 1] bcast_S262144x1_S262144x128_0_1 : (⟨S262144x1, .f32⟩ : BufTy).Contents (Elt F) → (⟨S262144x128, .f32⟩ : BufTy).Contents (Elt F)),
    binary main_v83 main_v95 main_v96 (subf : (⟨S262144x128, .f32⟩ : BufTy).Contents (Elt F) → (⟨S262144x128, .f32⟩ : BufTy).Contents (Elt F) → (⟨S262144x128, .f32⟩ : BufTy).Contents (Elt F)),
    nullary main_cst_30 (constant S_ .f32 0x3727C5AC#32),
    unary main_cst_30 main_v97 (broadcastInDim S262144x1 ![] bcast_S_S262144x1 : (⟨S_, .f32⟩ : BufTy).Contents (Elt F) → (⟨S262144x1, .f32⟩ : BufTy).Contents (Elt F)),
    binary main_v94 main_v97 main_v98 (addf : (⟨S262144x1, .f32⟩ : BufTy).Contents (Elt F) → (⟨S262144x1, .f32⟩ : BufTy).Contents (Elt F) → (⟨S262144x1, .f32⟩ : BufTy).Contents (Elt F)),
    unary main_v98 main_v99 (Host.rsqrt : (⟨S262144x1, .f32⟩ : BufTy).Contents (Elt F) → (⟨S262144x1, .f32⟩ : BufTy).Contents (Elt F)),
    unary main_v99 main_v100 (broadcastInDim S262144x128 ![0, 1] bcast_S262144x1_S262144x128_0_1 : (⟨S262144x1, .f32⟩ : BufTy).Contents (Elt F) → (⟨S262144x128, .f32⟩ : BufTy).Contents (Elt F)),
    binary main_v96 main_v100 main_v101 (mulf : (⟨S262144x128, .f32⟩ : BufTy).Contents (Elt F) → (⟨S262144x128, .f32⟩ : BufTy).Contents (Elt F) → (⟨S262144x128, .f32⟩ : BufTy).Contents (Elt F)),
    unary main_arg16 main_v102 (broadcastInDim S1x128 ![1] bcast_S128_S1x128_1 : (⟨S128, .f32⟩ : BufTy).Contents (Elt F) → (⟨S1x128, .f32⟩ : BufTy).Contents (Elt F)),
    unary main_v102 main_v103 (broadcastInDim S262144x128 ![0, 1] bcast_S1x128_S262144x128_0_1 : (⟨S1x128, .f32⟩ : BufTy).Contents (Elt F) → (⟨S262144x128, .f32⟩ : BufTy).Contents (Elt F)),
    binary main_v101 main_v103 main_v104 (mulf : (⟨S262144x128, .f32⟩ : BufTy).Contents (Elt F) → (⟨S262144x128, .f32⟩ : BufTy).Contents (Elt F) → (⟨S262144x128, .f32⟩ : BufTy).Contents (Elt F)),
    unary main_arg17 main_v105 (broadcastInDim S1x128 ![1] bcast_S128_S1x128_1 : (⟨S128, .f32⟩ : BufTy).Contents (Elt F) → (⟨S1x128, .f32⟩ : BufTy).Contents (Elt F)),
    unary main_v105 main_v106 (broadcastInDim S262144x128 ![0, 1] bcast_S1x128_S262144x128_0_1 : (⟨S1x128, .f32⟩ : BufTy).Contents (Elt F) → (⟨S262144x128, .f32⟩ : BufTy).Contents (Elt F)),
    binary main_v104 main_v106 main_v107 (addf : (⟨S262144x128, .f32⟩ : BufTy).Contents (Elt F) → (⟨S262144x128, .f32⟩ : BufTy).Contents (Elt F) → (⟨S262144x128, .f32⟩ : BufTy).Contents (Elt F)),
    nullary main_cst_31 (constant S_ .f32 0x00000000#32),
    unary main_cst_31 main_v108 (broadcastInDim S262144x128 ![] bcast_S_S262144x128 : (⟨S_, .f32⟩ : BufTy).Contents (Elt F) → (⟨S262144x128, .f32⟩ : BufTy).Contents (Elt F)),
    binary main_v107 main_v108 main_v109 (cmpf .oge : (⟨S262144x128, .f32⟩ : BufTy).Contents (Elt F) → (⟨S262144x128, .f32⟩ : BufTy).Contents (Elt F) → (⟨S262144x128, .i1⟩ : BufTy).Contents (Elt F)),
    nullary main_cst_32 (constant S_ .f32 0x3DCCCCCD#32),
    unary main_cst_32 main_v110 (broadcastInDim S262144x128 ![] bcast_S_S262144x128 : (⟨S_, .f32⟩ : BufTy).Contents (Elt F) → (⟨S262144x128, .f32⟩ : BufTy).Contents (Elt F)),
    binary main_v110 main_v107 main_v111 (mulf : (⟨S262144x128, .f32⟩ : BufTy).Contents (Elt F) → (⟨S262144x128, .f32⟩ : BufTy).Contents (Elt F) → (⟨S262144x128, .f32⟩ : BufTy).Contents (Elt F)),
    TRef.ternary (.of main_v109) (.of main_v107) (.of main_v111) main_call3.v0 select ]

/-- @main's operations 149 … 180 of 308. -/
abbrev p9 : List (HloOp τ sig (Elt F)) :=
  [ binary main_v112 main_arg18 main_v113 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg19 main_v114 (broadcastInDim S1x128 ![1] bcast_S128_S1x128_1 : (⟨S128, .f32⟩ : BufTy).Contents (Elt F) → (⟨S1x128, .f32⟩ : BufTy).Contents (Elt F)),
    unary main_v114 main_v115 (broadcastInDim S262144x128 ![0, 1] bcast_S1x128_S262144x128_0_1 : (⟨S1x128, .f32⟩ : BufTy).Contents (Elt F) → (⟨S262144x128, .f32⟩ : BufTy).Contents (Elt F)),
    binary main_v113 main_v115 main_v116 (addf : (⟨S262144x128, .f32⟩ : BufTy).Contents (Elt F) → (⟨S262144x128, .f32⟩ : BufTy).Contents (Elt F) → (⟨S262144x128, .f32⟩ : BufTy).Contents (Elt F)),
    nullary main_cst_33 (constant S_ .f32 0x00000000#32),
    binary main_v116 main_cst_33 main_v117 ((fun x v => Host.reduceAdd x v reducesTo_S262144x128_S262144_d1 h_S_) : (⟨S262144x128, .f32⟩ : BufTy).Contents (Elt F) → (⟨S_, .f32⟩ : BufTy).Contents (Elt F) → (⟨S262144, .f32⟩ : BufTy).Contents (Elt F)),
    unary main_v117 main_v118 (broadcastInDim S262144x1 ![0] bcast_S262144_S262144x1_0 : (⟨S262144, .f32⟩ : BufTy).Contents (Elt F) → (⟨S262144x1, .f32⟩ : BufTy).Contents (Elt F)),
    nullary main_cst_34 (constant S_ .f32 0x43000000#32),
    unary main_cst_34 main_v119 (broadcastInDim S262144x1 ![] bcast_S_S262144x1 : (⟨S_, .f32⟩ : BufTy).Contents (Elt F) → (⟨S262144x1, .f32⟩ : BufTy).Contents (Elt F)),
    binary main_v118 main_v119 main_v120 (Host.divf : (⟨S262144x1, .f32⟩ : BufTy).Contents (Elt F) → (⟨S262144x1, .f32⟩ : BufTy).Contents (Elt F) → (⟨S262144x1, .f32⟩ : BufTy).Contents (Elt F)),
    unary main_v120 main_v121 (broadcastInDim S262144x128 ![0, 1] bcast_S262144x1_S262144x128_0_1 : (⟨S262144x1, .f32⟩ : BufTy).Contents (Elt F) → (⟨S262144x128, .f32⟩ : BufTy).Contents (Elt F)),
    binary main_v116 main_v121 main_v122 (subf : (⟨S262144x128, .f32⟩ : BufTy).Contents (Elt F) → (⟨S262144x128, .f32⟩ : BufTy).Contents (Elt F) → (⟨S262144x128, .f32⟩ : BufTy).Contents (Elt F)),
    binary main_v122 main_v122 main_v123 (mulf : (⟨S262144x128, .f32⟩ : BufTy).Contents (Elt F) → (⟨S262144x128, .f32⟩ : BufTy).Contents (Elt F) → (⟨S262144x128, .f32⟩ : BufTy).Contents (Elt F)),
    nullary main_cst_35 (constant S_ .f32 0x00000000#32),
    binary main_v123 main_cst_35 main_v124 ((fun x v => Host.reduceAdd x v reducesTo_S262144x128_S262144_d1 h_S_) : (⟨S262144x128, .f32⟩ : BufTy).Contents (Elt F) → (⟨S_, .f32⟩ : BufTy).Contents (Elt F) → (⟨S262144, .f32⟩ : BufTy).Contents (Elt F)),
    unary main_v124 main_v125 (broadcastInDim S262144x1 ![0] bcast_S262144_S262144x1_0 : (⟨S262144, .f32⟩ : BufTy).Contents (Elt F) → (⟨S262144x1, .f32⟩ : BufTy).Contents (Elt F)),
    nullary main_cst_36 (constant S_ .f32 0x43000000#32),
    unary main_cst_36 main_v126 (broadcastInDim S262144x1 ![] bcast_S_S262144x1 : (⟨S_, .f32⟩ : BufTy).Contents (Elt F) → (⟨S262144x1, .f32⟩ : BufTy).Contents (Elt F)),
    binary main_v125 main_v126 main_v127 (Host.divf : (⟨S262144x1, .f32⟩ : BufTy).Contents (Elt F) → (⟨S262144x1, .f32⟩ : BufTy).Contents (Elt F) → (⟨S262144x1, .f32⟩ : BufTy).Contents (Elt F)),
    unary main_v120 main_v128 (broadcastInDim S262144x128 ![0, 1] bcast_S262144x1_S262144x128_0_1 : (⟨S262144x1, .f32⟩ : BufTy).Contents (Elt F) → (⟨S262144x128, .f32⟩ : BufTy).Contents (Elt F)),
    binary main_v116 main_v128 main_v129 (subf : (⟨S262144x128, .f32⟩ : BufTy).Contents (Elt F) → (⟨S262144x128, .f32⟩ : BufTy).Contents (Elt F) → (⟨S262144x128, .f32⟩ : BufTy).Contents (Elt F)),
    nullary main_cst_37 (constant S_ .f32 0x3727C5AC#32),
    unary main_cst_37 main_v130 (broadcastInDim S262144x1 ![] bcast_S_S262144x1 : (⟨S_, .f32⟩ : BufTy).Contents (Elt F) → (⟨S262144x1, .f32⟩ : BufTy).Contents (Elt F)),
    binary main_v127 main_v130 main_v131 (addf : (⟨S262144x1, .f32⟩ : BufTy).Contents (Elt F) → (⟨S262144x1, .f32⟩ : BufTy).Contents (Elt F) → (⟨S262144x1, .f32⟩ : BufTy).Contents (Elt F)),
    unary main_v131 main_v132 (Host.rsqrt : (⟨S262144x1, .f32⟩ : BufTy).Contents (Elt F) → (⟨S262144x1, .f32⟩ : BufTy).Contents (Elt F)),
    unary main_v132 main_v133 (broadcastInDim S262144x128 ![0, 1] bcast_S262144x1_S262144x128_0_1 : (⟨S262144x1, .f32⟩ : BufTy).Contents (Elt F) → (⟨S262144x128, .f32⟩ : BufTy).Contents (Elt F)),
    binary main_v129 main_v133 main_v134 (mulf : (⟨S262144x128, .f32⟩ : BufTy).Contents (Elt F) → (⟨S262144x128, .f32⟩ : BufTy).Contents (Elt F) → (⟨S262144x128, .f32⟩ : BufTy).Contents (Elt F)),
    unary main_arg20 main_v135 (broadcastInDim S1x128 ![1] bcast_S128_S1x128_1 : (⟨S128, .f32⟩ : BufTy).Contents (Elt F) → (⟨S1x128, .f32⟩ : BufTy).Contents (Elt F)),
    unary main_v135 main_v136 (broadcastInDim S262144x128 ![0, 1] bcast_S1x128_S262144x128_0_1 : (⟨S1x128, .f32⟩ : BufTy).Contents (Elt F) → (⟨S262144x128, .f32⟩ : BufTy).Contents (Elt F)),
    binary main_v134 main_v136 main_v137 (mulf : (⟨S262144x128, .f32⟩ : BufTy).Contents (Elt F) → (⟨S262144x128, .f32⟩ : BufTy).Contents (Elt F) → (⟨S262144x128, .f32⟩ : BufTy).Contents (Elt F)),
    unary main_arg21 main_v138 (broadcastInDim S1x128 ![1] bcast_S128_S1x128_1 : (⟨S128, .f32⟩ : BufTy).Contents (Elt F) → (⟨S1x128, .f32⟩ : BufTy).Contents (Elt F)),
    unary main_v138 main_v139 (broadcastInDim S262144x128 ![0, 1] bcast_S1x128_S262144x128_0_1 : (⟨S1x128, .f32⟩ : BufTy).Contents (Elt F) → (⟨S262144x128, .f32⟩ : BufTy).Contents (Elt F)) ]

/-- @main's operations 181 … 188 of 308. -/
abbrev p10 : List (HloOp τ sig (Elt F)) :=
  [ binary main_v137 main_v139 main_v140 (addf : (⟨S262144x128, .f32⟩ : BufTy).Contents (Elt F) → (⟨S262144x128, .f32⟩ : BufTy).Contents (Elt F) → (⟨S262144x128, .f32⟩ : BufTy).Contents (Elt F)),
    nullary main_cst_38 (constant S_ .f32 0x00000000#32),
    unary main_cst_38 main_v141 (broadcastInDim S262144x128 ![] bcast_S_S262144x128 : (⟨S_, .f32⟩ : BufTy).Contents (Elt F) → (⟨S262144x128, .f32⟩ : BufTy).Contents (Elt F)),
    binary main_v140 main_v141 main_v142 (cmpf .oge : (⟨S262144x128, .f32⟩ : BufTy).Contents (Elt F) → (⟨S262144x128, .f32⟩ : BufTy).Contents (Elt F) → (⟨S262144x128, .i1⟩ : BufTy).Contents (Elt F)),
    nullary main_cst_39 (constant S_ .f32 0x3DCCCCCD#32),
    unary main_cst_39 main_v143 (broadcastInDim S262144x128 ![] bcast_S_S262144x128 : (⟨S_, .f32⟩ : BufTy).Contents (Elt F) → (⟨S262144x128, .f32⟩ : BufTy).Contents (Elt F)),
    binary main_v143 main_v140 main_v144 (mulf : (⟨S262144x128, .f32⟩ : BufTy).Contents (Elt F) → (⟨S262144x128, .f32⟩ : BufTy).Contents (Elt F) → (⟨S262144x128, .f32⟩ : BufTy).Contents (Elt F)),
    TRef.ternary (.of main_v142) (.of main_v140) (.of main_v144) main_call4.v0 select ]

/-- @main's operations 189 … 199 of 308. -/
abbrev p11 : List (HloOp τ sig (Elt F)) :=
  [ binary main_v145 main_arg22 main_v146 ((fun l r => Host.dotGeneral dot_S262144x128_S128x64_S262144x64_1_0_0_1_n_n none l r) : (⟨S262144x128, .f32⟩ : BufTy).Contents (Elt F) → (⟨S128x64, .f32⟩ : BufTy).Contents (Elt F) → (⟨S262144x64, .f32⟩ : BufTy).Contents (Elt F)),
    unary main_arg23 main_v147 (broadcastInDim S1x64 ![1] bcast_S64_S1x64_1 : (⟨S64, .f32⟩ : BufTy).Contents (Elt F) → (⟨S1x64, .f32⟩ : BufTy).Contents (Elt F)),
    unary main_v147 main_v148 (broadcastInDim S262144x64 ![0, 1] bcast_S1x64_S262144x64_0_1 : (⟨S1x64, .f32⟩ : BufTy).Contents (Elt F) → (⟨S262144x64, .f32⟩ : BufTy).Contents (Elt F)),
    binary main_v146 main_v148 main_v149 (addf : (⟨S262144x64, .f32⟩ : BufTy).Contents (Elt F) → (⟨S262144x64, .f32⟩ : BufTy).Contents (Elt F) → (⟨S262144x64, .f32⟩ : BufTy).Contents (Elt F)),
    nullary main_cst_40 (constant S_ .f32 0x00000000#32),
    unary main_cst_40 main_v150 (broadcastInDim S262144x64 ![] bcast_S_S262144x64 : (⟨S_, .f32⟩ : BufTy).Contents (Elt F) → (⟨S262144x64, .f32⟩ : BufTy).Contents (Elt F)),
    binary main_v149 main_v150 main_v151 (cmpf .oge : (⟨S262144x64, .f32⟩ : BufTy).Contents (Elt F) → (⟨S262144x64, .f32⟩ : BufTy).Contents (Elt F) → (⟨S262144x64, .i1⟩ : BufTy).Contents (Elt F)),
    nullary main_cst_41 (constant S_ .f32 0x3DCCCCCD#32),
    unary main_cst_41 main_v152 (broadcastInDim S262144x64 ![] bcast_S_S262144x64 : (⟨S_, .f32⟩ : BufTy).Contents (Elt F) → (⟨S262144x64, .f32⟩ : BufTy).Contents (Elt F)),
    binary main_v152 main_v149 main_v153 (mulf : (⟨S262144x64, .f32⟩ : BufTy).Contents (Elt F) → (⟨S262144x64, .f32⟩ : BufTy).Contents (Elt F) → (⟨S262144x64, .f32⟩ : BufTy).Contents (Elt F)),
    TRef.ternary (.of main_v151) (.of main_v149) (.of main_v153) main_call5.v0 select ]

/-- @main's operations 200 … 203 of 308. -/
abbrev p12 : List (HloOp τ sig (Elt F)) :=
  [ binary main_v154 main_arg24 main_v155 ((fun l r => Host.dotGeneral dot_S262144x64_S64x144_S262144x144_1_0_0_1_n_n none l r) : (⟨S262144x64, .f32⟩ : BufTy).Contents (Elt F) → (⟨S64x144, .f32⟩ : BufTy).Contents (Elt F) → (⟨S262144x144, .f32⟩ : BufTy).Contents (Elt F)),
    unary main_arg25 main_v156 (broadcastInDim S1x144 ![1] bcast_S144_S1x144_1 : (⟨S144, .f32⟩ : BufTy).Contents (Elt F) → (⟨S1x144, .f32⟩ : BufTy).Contents (Elt F)),
    unary main_v156 main_v157 (broadcastInDim S262144x144 ![0, 1] bcast_S1x144_S262144x144_0_1 : (⟨S1x144, .f32⟩ : BufTy).Contents (Elt F) → (⟨S262144x144, .f32⟩ : BufTy).Contents (Elt F)),
    binary main_v155 main_v157 main_v158 (addf : (⟨S262144x144, .f32⟩ : BufTy).Contents (Elt F) → (⟨S262144x144, .f32⟩ : BufTy).Contents (Elt F) → (⟨S262144x144, .f32⟩ : BufTy).Contents (Elt F)) ]

/-- @main's operations 204 … 239 of 308. -/
abbrev p13 : List (HloOp τ sig (Elt F)) :=
  [ unary main_v79 main_v159 ((extractStridedSlice S262144x12 ![0, 0] · slices_S262144x144_S262144x12_0_0) : (⟨S262144x144, .f32⟩ : BufTy).Contents (Elt F) → (⟨S262144x12, .f32⟩ : BufTy).Contents (Elt F)),
    unary main_v79 main_v160 ((extractStridedSlice S262144x66 ![0, 12] · slices_S262144x144_S262144x66_0_12) : (⟨S262144x144, .f32⟩ : BufTy).Contents (Elt F) → (⟨S262144x66, .f32⟩ : BufTy).Contents (Elt F)),
    unary main_v79 main_v161 ((extractStridedSlice S262144x66 ![0, 78] · slices_S262144x144_S262144x66_0_78) : (⟨S262144x144, .f32⟩ : BufTy).Contents (Elt F) → (⟨S262144x66, .f32⟩ : BufTy).Contents (Elt F)),
    nullary main_v162 (iotaInDim S12 32 0),
    nullary main_cst_42 (constant S_ .f32 0x00000000#32),
    unary main_cst_42 main_v163 (broadcastInDim S262144x12x12 ![] bcast_S_S262144x12x12 : (⟨S_, .f32⟩ : BufTy).Contents (Elt F) → (⟨S262144x12x12, .f32⟩ : BufTy).Contents (Elt F)),
    nullary main_c_43 (constantI S_ 32 0#32),
    unary main_c_43 main_v164 (broadcastInDim S12 ![] bcast_S_S12 : (⟨S_, .i32⟩ : BufTy).Contents (Elt F) → (⟨S12, .i32⟩ : BufTy).Contents (Elt F)),
    binary main_v162 main_v164 main_v165 (cmpi .slt : (⟨S12, .i32⟩ : BufTy).Contents (Elt F) → (⟨S12, .i32⟩ : BufTy).Contents (Elt F) → (⟨S12, .i1⟩ : BufTy).Contents (Elt F)),
    nullary main_c_44 (constantI S_ 32 12#32),
    unary main_c_44 main_v166 (broadcastInDim S12 ![] bcast_S_S12 : (⟨S_, .i32⟩ : BufTy).Contents (Elt F) → (⟨S12, .i32⟩ : BufTy).Contents (Elt F)),
    binary main_v162 main_v166 main_v167 (addi : (⟨S12, .i32⟩ : BufTy).Contents (Elt F) → (⟨S12, .i32⟩ : BufTy).Contents (Elt F) → (⟨S12, .i32⟩ : BufTy).Contents (Elt F)),
    ternary main_v165 main_v167 main_v162 main_v168 (select : (⟨S12, .i1⟩ : BufTy).Contents (Elt F) → (⟨S12, .i32⟩ : BufTy).Contents (Elt F) → (⟨S12, .i32⟩ : BufTy).Contents (Elt F) → (⟨S12, .i32⟩ : BufTy).Contents (Elt F)),
    nullary main_c_45 (constantI S_ 32 0#32),
    unary main_c_45 main_v169 (broadcastInDim S12 ![] bcast_S_S12 : (⟨S_, .i32⟩ : BufTy).Contents (Elt F) → (⟨S12, .i32⟩ : BufTy).Contents (Elt F)),
    binary main_v162 main_v169 main_v170 (cmpi .slt : (⟨S12, .i32⟩ : BufTy).Contents (Elt F) → (⟨S12, .i32⟩ : BufTy).Contents (Elt F) → (⟨S12, .i1⟩ : BufTy).Contents (Elt F)),
    nullary main_c_46 (constantI S_ 32 12#32),
    unary main_c_46 main_v171 (broadcastInDim S12 ![] bcast_S_S12 : (⟨S_, .i32⟩ : BufTy).Contents (Elt F) → (⟨S12, .i32⟩ : BufTy).Contents (Elt F)),
    binary main_v162 main_v171 main_v172 (addi : (⟨S12, .i32⟩ : BufTy).Contents (Elt F) → (⟨S12, .i32⟩ : BufTy).Contents (Elt F) → (⟨S12, .i32⟩ : BufTy).Contents (Elt F)),
    ternary main_v170 main_v172 main_v162 main_v173 (select : (⟨S12, .i1⟩ : BufTy).Contents (Elt F) → (⟨S12, .i32⟩ : BufTy).Contents (Elt F) → (⟨S12, .i32⟩ : BufTy).Contents (Elt F) → (⟨S12, .i32⟩ : BufTy).Contents (Elt F)),
    unary main_v168 main_v174 (broadcastInDim S12x1 ![0] bcast_S12_S12x1_0 : (⟨S12, .i32⟩ : BufTy).Contents (Elt F) → (⟨S12x1, .i32⟩ : BufTy).Contents (Elt F)),
    unary main_v173 main_v175 (broadcastInDim S12x1 ![0] bcast_S12_S12x1_0 : (⟨S12, .i32⟩ : BufTy).Contents (Elt F) → (⟨S12x1, .i32⟩ : BufTy).Contents (Elt F)),
    binary main_v174 main_v175 main_v176 ((fun a b => concatenate S12x2 1 [⟨S12x1, a⟩, ⟨S12x1, b⟩] concatenates_S12x1_S12x1_S12x2_d1) : (⟨S12x1, .i32⟩ : BufTy).Contents (Elt F) → (⟨S12x1, .i32⟩ : BufTy).Contents (Elt F) → (⟨S12x2, .i32⟩ : BufTy).Contents (Elt F)),
    ternary main_v163 main_v176 main_v159 main_v177 ((fun x i u => Host.scatter scatter_S262144x12x12_S12x2_S262144x12_0_12_12_1 (fun _ b => b) x i u) : (⟨S262144x12x12, .f32⟩ : BufTy).Contents (Elt F) → (⟨S12x2, .i32⟩ : BufTy).Contents (Elt F) → (⟨S262144x12, .f32⟩ : BufTy).Contents (Elt F) → (⟨S262144x12x12, .f32⟩ : BufTy).Contents (Elt F)),
    nullary main_c_47 (constantI S_ 32 12#32),
    unary main_c_47 main_v178 (broadcastInDim S66 ![] bcast_S_S66 : (⟨S_, .i32⟩ : BufTy).Contents (Elt F) → (⟨S66, .i32⟩ : BufTy).Contents (Elt F)),
    binary main_c main_v178 main_v179 (addi : (⟨S66, .i32⟩ : BufTy).Contents (Elt F) → (⟨S66, .i32⟩ : BufTy).Contents (Elt F) → (⟨S66, .i32⟩ : BufTy).Contents (Elt F)),
    ternary main_c_0 main_v179 main_c main_v180 (select : (⟨S66, .i1⟩ : BufTy).Contents (Elt F) → (⟨S66, .i32⟩ : BufTy).Contents (Elt F) → (⟨S66, .i32⟩ : BufTy).Contents (Elt F) → (⟨S66, .i32⟩ : BufTy).Contents (Elt F)),
    nullary main_c_48 (constantI S_ 32 12#32),
    unary main_c_48 main_v181 (broadcastInDim S66 ![] bcast_S_S66 : (⟨S_, .i32⟩ : BufTy).Contents (Elt F) → (⟨S66, .i32⟩ : BufTy).Contents (Elt F)),
    binary main_c_1 main_v181 main_v182 (addi : (⟨S66, .i32⟩ : BufTy).Contents (Elt F) → (⟨S66, .i32⟩ : BufTy).Contents (Elt F) → (⟨S66, .i32⟩ : BufTy).Contents (Elt F)),
    ternary main_c_2 main_v182 main_c_1 main_v183 (select : (⟨S66, .i1⟩ : BufTy).Contents (Elt F) → (⟨S66, .i32⟩ : BufTy).Contents (Elt F) → (⟨S66, .i32⟩ : BufTy).Contents (Elt F) → (⟨S66, .i32⟩ : BufTy).Contents (Elt F)),
    unary main_v180 main_v184 (broadcastInDim S66x1 ![0] bcast_S66_S66x1_0 : (⟨S66, .i32⟩ : BufTy).Contents (Elt F) → (⟨S66x1, .i32⟩ : BufTy).Contents (Elt F)),
    unary main_v183 main_v185 (broadcastInDim S66x1 ![0] bcast_S66_S66x1_0 : (⟨S66, .i32⟩ : BufTy).Contents (Elt F) → (⟨S66x1, .i32⟩ : BufTy).Contents (Elt F)),
    binary main_v184 main_v185 main_v186 ((fun a b => concatenate S66x2 1 [⟨S66x1, a⟩, ⟨S66x1, b⟩] concatenates_S66x1_S66x1_S66x2_d1) : (⟨S66x1, .i32⟩ : BufTy).Contents (Elt F) → (⟨S66x1, .i32⟩ : BufTy).Contents (Elt F) → (⟨S66x2, .i32⟩ : BufTy).Contents (Elt F)),
    ternary main_v177 main_v186 main_v160 main_v187 ((fun x i u => Host.scatter scatter_S262144x12x12_S66x2_S262144x66_0_12_12_1 (fun _ b => b) x i u) : (⟨S262144x12x12, .f32⟩ : BufTy).Contents (Elt F) → (⟨S66x2, .i32⟩ : BufTy).Contents (Elt F) → (⟨S262144x66, .f32⟩ : BufTy).Contents (Elt F) → (⟨S262144x12x12, .f32⟩ : BufTy).Contents (Elt F)) ]

/-- @main's operations 240 … 240 of 308. -/
abbrev p14 : List (HloOp τ sig (Elt F)) :=
  [ nullary main_cst_49 (constant S_ .f32 0x00000000#32) ]

/-- @main's operations 241 … 253 of 308. -/
abbrev p15 : List (HloOp τ sig (Elt F)) :=
  [ unary main_cst_49 main_v188 (broadcastInDim S262144x12x12 ![] bcast_S_S262144x12x12 : (⟨S_, .f32⟩ : BufTy).Contents (Elt F) → (⟨S262144x12x12, .f32⟩ : BufTy).Contents (Elt F)),
    nullary main_c_50 (constantI S_ 32 12#32),
    unary main_c_50 main_v189 (broadcastInDim S66 ![] bcast_S_S66 : (⟨S_, .i32⟩ : BufTy).Contents (Elt F) → (⟨S66, .i32⟩ : BufTy).Contents (Elt F)),
    binary main_c main_v189 main_v190 (addi : (⟨S66, .i32⟩ : BufTy).Contents (Elt F) → (⟨S66, .i32⟩ : BufTy).Contents (Elt F) → (⟨S66, .i32⟩ : BufTy).Contents (Elt F)),
    ternary main_c_3 main_v190 main_c main_v191 (select : (⟨S66, .i1⟩ : BufTy).Contents (Elt F) → (⟨S66, .i32⟩ : BufTy).Contents (Elt F) → (⟨S66, .i32⟩ : BufTy).Contents (Elt F) → (⟨S66, .i32⟩ : BufTy).Contents (Elt F)),
    nullary main_c_51 (constantI S_ 32 12#32),
    unary main_c_51 main_v192 (broadcastInDim S66 ![] bcast_S_S66 : (⟨S_, .i32⟩ : BufTy).Contents (Elt F) → (⟨S66, .i32⟩ : BufTy).Contents (Elt F)),
    binary main_c_1 main_v192 main_v193 (addi : (⟨S66, .i32⟩ : BufTy).Contents (Elt F) → (⟨S66, .i32⟩ : BufTy).Contents (Elt F) → (⟨S66, .i32⟩ : BufTy).Contents (Elt F)),
    ternary main_c_4 main_v193 main_c_1 main_v194 (select : (⟨S66, .i1⟩ : BufTy).Contents (Elt F) → (⟨S66, .i32⟩ : BufTy).Contents (Elt F) → (⟨S66, .i32⟩ : BufTy).Contents (Elt F) → (⟨S66, .i32⟩ : BufTy).Contents (Elt F)),
    unary main_v191 main_v195 (broadcastInDim S66x1 ![0] bcast_S66_S66x1_0 : (⟨S66, .i32⟩ : BufTy).Contents (Elt F) → (⟨S66x1, .i32⟩ : BufTy).Contents (Elt F)),
    unary main_v194 main_v196 (broadcastInDim S66x1 ![0] bcast_S66_S66x1_0 : (⟨S66, .i32⟩ : BufTy).Contents (Elt F) → (⟨S66x1, .i32⟩ : BufTy).Contents (Elt F)),
    binary main_v195 main_v196 main_v197 ((fun a b => concatenate S66x2 1 [⟨S66x1, a⟩, ⟨S66x1, b⟩] concatenates_S66x1_S66x1_S66x2_d1) : (⟨S66x1, .i32⟩ : BufTy).Contents (Elt F) → (⟨S66x1, .i32⟩ : BufTy).Contents (Elt F) → (⟨S66x2, .i32⟩ : BufTy).Contents (Elt F)),
    ternary main_v188 main_v197 main_v161 main_v198 ((fun x i u => Host.scatter scatter_S262144x12x12_S66x2_S262144x66_0_12_12_1 (fun _ b => b) x i u) : (⟨S262144x12x12, .f32⟩ : BufTy).Contents (Elt F) → (⟨S66x2, .i32⟩ : BufTy).Contents (Elt F) → (⟨S262144x66, .f32⟩ : BufTy).Contents (Elt F) → (⟨S262144x12x12, .f32⟩ : BufTy).Contents (Elt F)) ]

/-- @main's operations 254 … 289 of 308. -/
abbrev p16 : List (HloOp τ sig (Elt F)) :=
  [ unary main_v158 main_v199 ((extractStridedSlice S262144x12 ![0, 0] · slices_S262144x144_S262144x12_0_0) : (⟨S262144x144, .f32⟩ : BufTy).Contents (Elt F) → (⟨S262144x12, .f32⟩ : BufTy).Contents (Elt F)),
    unary main_v158 main_v200 ((extractStridedSlice S262144x66 ![0, 12] · slices_S262144x144_S262144x66_0_12) : (⟨S262144x144, .f32⟩ : BufTy).Contents (Elt F) → (⟨S262144x66, .f32⟩ : BufTy).Contents (Elt F)),
    unary main_v158 main_v201 ((extractStridedSlice S262144x66 ![0, 78] · slices_S262144x144_S262144x66_0_78) : (⟨S262144x144, .f32⟩ : BufTy).Contents (Elt F) → (⟨S262144x66, .f32⟩ : BufTy).Contents (Elt F)),
    nullary main_v202 (iotaInDim S12 32 0),
    nullary main_cst_52 (constant S_ .f32 0x00000000#32),
    unary main_cst_52 main_v203 (broadcastInDim S262144x12x12 ![] bcast_S_S262144x12x12 : (⟨S_, .f32⟩ : BufTy).Contents (Elt F) → (⟨S262144x12x12, .f32⟩ : BufTy).Contents (Elt F)),
    nullary main_c_53 (constantI S_ 32 0#32),
    unary main_c_53 main_v204 (broadcastInDim S12 ![] bcast_S_S12 : (⟨S_, .i32⟩ : BufTy).Contents (Elt F) → (⟨S12, .i32⟩ : BufTy).Contents (Elt F)),
    binary main_v202 main_v204 main_v205 (cmpi .slt : (⟨S12, .i32⟩ : BufTy).Contents (Elt F) → (⟨S12, .i32⟩ : BufTy).Contents (Elt F) → (⟨S12, .i1⟩ : BufTy).Contents (Elt F)),
    nullary main_c_54 (constantI S_ 32 12#32),
    unary main_c_54 main_v206 (broadcastInDim S12 ![] bcast_S_S12 : (⟨S_, .i32⟩ : BufTy).Contents (Elt F) → (⟨S12, .i32⟩ : BufTy).Contents (Elt F)),
    binary main_v202 main_v206 main_v207 (addi : (⟨S12, .i32⟩ : BufTy).Contents (Elt F) → (⟨S12, .i32⟩ : BufTy).Contents (Elt F) → (⟨S12, .i32⟩ : BufTy).Contents (Elt F)),
    ternary main_v205 main_v207 main_v202 main_v208 (select : (⟨S12, .i1⟩ : BufTy).Contents (Elt F) → (⟨S12, .i32⟩ : BufTy).Contents (Elt F) → (⟨S12, .i32⟩ : BufTy).Contents (Elt F) → (⟨S12, .i32⟩ : BufTy).Contents (Elt F)),
    nullary main_c_55 (constantI S_ 32 0#32),
    unary main_c_55 main_v209 (broadcastInDim S12 ![] bcast_S_S12 : (⟨S_, .i32⟩ : BufTy).Contents (Elt F) → (⟨S12, .i32⟩ : BufTy).Contents (Elt F)),
    binary main_v202 main_v209 main_v210 (cmpi .slt : (⟨S12, .i32⟩ : BufTy).Contents (Elt F) → (⟨S12, .i32⟩ : BufTy).Contents (Elt F) → (⟨S12, .i1⟩ : BufTy).Contents (Elt F)),
    nullary main_c_56 (constantI S_ 32 12#32),
    unary main_c_56 main_v211 (broadcastInDim S12 ![] bcast_S_S12 : (⟨S_, .i32⟩ : BufTy).Contents (Elt F) → (⟨S12, .i32⟩ : BufTy).Contents (Elt F)),
    binary main_v202 main_v211 main_v212 (addi : (⟨S12, .i32⟩ : BufTy).Contents (Elt F) → (⟨S12, .i32⟩ : BufTy).Contents (Elt F) → (⟨S12, .i32⟩ : BufTy).Contents (Elt F)),
    ternary main_v210 main_v212 main_v202 main_v213 (select : (⟨S12, .i1⟩ : BufTy).Contents (Elt F) → (⟨S12, .i32⟩ : BufTy).Contents (Elt F) → (⟨S12, .i32⟩ : BufTy).Contents (Elt F) → (⟨S12, .i32⟩ : BufTy).Contents (Elt F)),
    unary main_v208 main_v214 (broadcastInDim S12x1 ![0] bcast_S12_S12x1_0 : (⟨S12, .i32⟩ : BufTy).Contents (Elt F) → (⟨S12x1, .i32⟩ : BufTy).Contents (Elt F)),
    unary main_v213 main_v215 (broadcastInDim S12x1 ![0] bcast_S12_S12x1_0 : (⟨S12, .i32⟩ : BufTy).Contents (Elt F) → (⟨S12x1, .i32⟩ : BufTy).Contents (Elt F)),
    binary main_v214 main_v215 main_v216 ((fun a b => concatenate S12x2 1 [⟨S12x1, a⟩, ⟨S12x1, b⟩] concatenates_S12x1_S12x1_S12x2_d1) : (⟨S12x1, .i32⟩ : BufTy).Contents (Elt F) → (⟨S12x1, .i32⟩ : BufTy).Contents (Elt F) → (⟨S12x2, .i32⟩ : BufTy).Contents (Elt F)),
    ternary main_v203 main_v216 main_v199 main_v217 ((fun x i u => Host.scatter scatter_S262144x12x12_S12x2_S262144x12_0_12_12_1 (fun _ b => b) x i u) : (⟨S262144x12x12, .f32⟩ : BufTy).Contents (Elt F) → (⟨S12x2, .i32⟩ : BufTy).Contents (Elt F) → (⟨S262144x12, .f32⟩ : BufTy).Contents (Elt F) → (⟨S262144x12x12, .f32⟩ : BufTy).Contents (Elt F)),
    nullary main_c_57 (constantI S_ 32 12#32),
    unary main_c_57 main_v218 (broadcastInDim S66 ![] bcast_S_S66 : (⟨S_, .i32⟩ : BufTy).Contents (Elt F) → (⟨S66, .i32⟩ : BufTy).Contents (Elt F)),
    binary main_c_5 main_v218 main_v219 (addi : (⟨S66, .i32⟩ : BufTy).Contents (Elt F) → (⟨S66, .i32⟩ : BufTy).Contents (Elt F) → (⟨S66, .i32⟩ : BufTy).Contents (Elt F)),
    ternary main_c_6 main_v219 main_c_5 main_v220 (select : (⟨S66, .i1⟩ : BufTy).Contents (Elt F) → (⟨S66, .i32⟩ : BufTy).Contents (Elt F) → (⟨S66, .i32⟩ : BufTy).Contents (Elt F) → (⟨S66, .i32⟩ : BufTy).Contents (Elt F)),
    nullary main_c_58 (constantI S_ 32 12#32),
    unary main_c_58 main_v221 (broadcastInDim S66 ![] bcast_S_S66 : (⟨S_, .i32⟩ : BufTy).Contents (Elt F) → (⟨S66, .i32⟩ : BufTy).Contents (Elt F)),
    binary main_c_7 main_v221 main_v222 (addi : (⟨S66, .i32⟩ : BufTy).Contents (Elt F) → (⟨S66, .i32⟩ : BufTy).Contents (Elt F) → (⟨S66, .i32⟩ : BufTy).Contents (Elt F)),
    ternary main_c_8 main_v222 main_c_7 main_v223 (select : (⟨S66, .i1⟩ : BufTy).Contents (Elt F) → (⟨S66, .i32⟩ : BufTy).Contents (Elt F) → (⟨S66, .i32⟩ : BufTy).Contents (Elt F) → (⟨S66, .i32⟩ : BufTy).Contents (Elt F)),
    unary main_v220 main_v224 (broadcastInDim S66x1 ![0] bcast_S66_S66x1_0 : (⟨S66, .i32⟩ : BufTy).Contents (Elt F) → (⟨S66x1, .i32⟩ : BufTy).Contents (Elt F)),
    unary main_v223 main_v225 (broadcastInDim S66x1 ![0] bcast_S66_S66x1_0 : (⟨S66, .i32⟩ : BufTy).Contents (Elt F) → (⟨S66x1, .i32⟩ : BufTy).Contents (Elt F)),
    binary main_v224 main_v225 main_v226 ((fun a b => concatenate S66x2 1 [⟨S66x1, a⟩, ⟨S66x1, b⟩] concatenates_S66x1_S66x1_S66x2_d1) : (⟨S66x1, .i32⟩ : BufTy).Contents (Elt F) → (⟨S66x1, .i32⟩ : BufTy).Contents (Elt F) → (⟨S66x2, .i32⟩ : BufTy).Contents (Elt F)),
    ternary main_v217 main_v226 main_v200 main_v227 ((fun x i u => Host.scatter scatter_S262144x12x12_S66x2_S262144x66_0_12_12_1 (fun _ b => b) x i u) : (⟨S262144x12x12, .f32⟩ : BufTy).Contents (Elt F) → (⟨S66x2, .i32⟩ : BufTy).Contents (Elt F) → (⟨S262144x66, .f32⟩ : BufTy).Contents (Elt F) → (⟨S262144x12x12, .f32⟩ : BufTy).Contents (Elt F)) ]

/-- @main's operations 290 … 300 of 308. -/
abbrev p17 : List (HloOp τ sig (Elt F)) :=
  [ nullary main_cst_59 (constant S_ .f32 0x00000000#32),
    unary main_cst_59 main_v228 (broadcastInDim S262144x12x12 ![] bcast_S_S262144x12x12 : (⟨S_, .f32⟩ : BufTy).Contents (Elt F) → (⟨S262144x12x12, .f32⟩ : BufTy).Contents (Elt F)),
    nullary main_c_60 (constantI S_ 32 12#32),
    unary main_c_60 main_v229 (broadcastInDim S66 ![] bcast_S_S66 : (⟨S_, .i32⟩ : BufTy).Contents (Elt F) → (⟨S66, .i32⟩ : BufTy).Contents (Elt F)),
    binary main_c_5 main_v229 main_v230 (addi : (⟨S66, .i32⟩ : BufTy).Contents (Elt F) → (⟨S66, .i32⟩ : BufTy).Contents (Elt F) → (⟨S66, .i32⟩ : BufTy).Contents (Elt F)),
    ternary main_c_9 main_v230 main_c_5 main_v231 (select : (⟨S66, .i1⟩ : BufTy).Contents (Elt F) → (⟨S66, .i32⟩ : BufTy).Contents (Elt F) → (⟨S66, .i32⟩ : BufTy).Contents (Elt F) → (⟨S66, .i32⟩ : BufTy).Contents (Elt F)),
    nullary main_c_61 (constantI S_ 32 12#32),
    unary main_c_61 main_v232 (broadcastInDim S66 ![] bcast_S_S66 : (⟨S_, .i32⟩ : BufTy).Contents (Elt F) → (⟨S66, .i32⟩ : BufTy).Contents (Elt F)),
    binary main_c_7 main_v232 main_v233 (addi : (⟨S66, .i32⟩ : BufTy).Contents (Elt F) → (⟨S66, .i32⟩ : BufTy).Contents (Elt F) → (⟨S66, .i32⟩ : BufTy).Contents (Elt F)),
    ternary main_c_10 main_v233 main_c_7 main_v234 (select : (⟨S66, .i1⟩ : BufTy).Contents (Elt F) → (⟨S66, .i32⟩ : BufTy).Contents (Elt F) → (⟨S66, .i32⟩ : BufTy).Contents (Elt F) → (⟨S66, .i32⟩ : BufTy).Contents (Elt F)),
    unary main_v231 main_v235 (broadcastInDim S66x1 ![0] bcast_S66_S66x1_0 : (⟨S66, .i32⟩ : BufTy).Contents (Elt F) → (⟨S66x1, .i32⟩ : BufTy).Contents (Elt F)) ]

/-- @main's operations 301 … 303 of 308. -/
abbrev p18 : List (HloOp τ sig (Elt F)) :=
  [ unary main_v234 main_v236 (broadcastInDim S66x1 ![0] bcast_S66_S66x1_0 : (⟨S66, .i32⟩ : BufTy).Contents (Elt F) → (⟨S66x1, .i32⟩ : BufTy).Contents (Elt F)),
    binary main_v235 main_v236 main_v237 ((fun a b => concatenate S66x2 1 [⟨S66x1, a⟩, ⟨S66x1, b⟩] concatenates_S66x1_S66x1_S66x2_d1) : (⟨S66x1, .i32⟩ : BufTy).Contents (Elt F) → (⟨S66x1, .i32⟩ : BufTy).Contents (Elt F) → (⟨S66x2, .i32⟩ : BufTy).Contents (Elt F)),
    ternary main_v228 main_v237 main_v201 main_v238 ((fun x i u => Host.scatter scatter_S262144x12x12_S66x2_S262144x66_0_12_12_1 (fun _ b => b) x i u) : (⟨S262144x12x12, .f32⟩ : BufTy).Contents (Elt F) → (⟨S66x2, .i32⟩ : BufTy).Contents (Elt F) → (⟨S262144x66, .f32⟩ : BufTy).Contents (Elt F) → (⟨S262144x12x12, .f32⟩ : BufTy).Contents (Elt F)) ]

/-- @main's operations 304 … 308 of 308. -/
abbrev p19 : List (HloOp τ sig (Elt F)) :=
  [ unary main_v187 main_v239 (broadcastInDim S1x262144x12x12 ![1, 2, 3] bcast_S262144x12x12_S1x262144x12x12_1_2_3 : (⟨S262144x12x12, .f32⟩ : BufTy).Contents (Elt F) → (⟨S1x262144x12x12, .f32⟩ : BufTy).Contents (Elt F)),
    unary main_v198 main_v240 (broadcastInDim S1x262144x12x12 ![1, 2, 3] bcast_S262144x12x12_S1x262144x12x12_1_2_3 : (⟨S262144x12x12, .f32⟩ : BufTy).Contents (Elt F) → (⟨S1x262144x12x12, .f32⟩ : BufTy).Contents (Elt F)),
    unary main_v227 main_v241 (broadcastInDim S1x262144x12x12 ![1, 2, 3] bcast_S262144x12x12_S1x262144x12x12_1_2_3 : (⟨S262144x12x12, .f32⟩ : BufTy).Contents (Elt F) → (⟨S1x262144x12x12, .f32⟩ : BufTy).Contents (Elt F)),
    unary main_v238 main_v242 (broadcastInDim S1x262144x12x12 ![1, 2, 3] bcast_S262144x12x12_S1x262144x12x12_1_2_3 : (⟨S262144x12x12, .f32⟩ : BufTy).Contents (Elt F) → (⟨S1x262144x12x12, .f32⟩ : BufTy).Contents (Elt F)),
    nary ![main_v239, main_v240, main_v241, main_v242] main_v243 (fun u => concatenate S4x262144x12x12 0 [⟨S1x262144x12x12, u 0⟩, ⟨S1x262144x12x12, u 1⟩, ⟨S1x262144x12x12, u 2⟩, ⟨S1x262144x12x12, u 3⟩] concatenates_S1x262144x12x12_S1x262144x12x12_S1x262144x12x12_S1x262144x12x12_S4x262144x12x12_d0) ]

/-- @main's 308 operations, in order. -/
def ops : List (HloOp τ sig (Elt F)) :=
  p0 ++ (p1 ++ (p2 ++ (p3 ++ (p4 ++ (p5 ++ (p6 ++ (p7 ++ (p8 ++ (p9 ++ (p10 ++ (p11 ++ (p12 ++ (p13 ++ (p14 ++ (p15 ++ (p16 ++ (p17 ++ (p18 ++ p19))))))))))))))))))

set_option maxRecDepth 8192 in
set_option maxHeartbeats 4000000 in
theorem main_part0_eq (c : Dev nD) : main_part0 (F := F) c = seq (p0 ++ (p1 ++ (p2 ++ p3))) := rfl
set_option maxRecDepth 8192 in
set_option maxHeartbeats 4000000 in
theorem main_part1_eq (c : Dev nD) : main_part1 (F := F) c = seq (p4 ++ (p5 ++ (p6 ++ p7))) := rfl
set_option maxRecDepth 8192 in
set_option maxHeartbeats 4000000 in
theorem main_part2_eq (c : Dev nD) : main_part2 (F := F) c = seq (p8 ++ p9) := rfl
set_option maxRecDepth 8192 in
set_option maxHeartbeats 4000000 in
theorem main_part3_eq (c : Dev nD) : main_part3 (F := F) c = seq (p10 ++ (p11 ++ (p12 ++ (p13 ++ p14)))) := rfl
set_option maxRecDepth 8192 in
set_option maxHeartbeats 4000000 in
theorem main_part4_eq (c : Dev nD) : main_part4 (F := F) c = seq (p15 ++ (p16 ++ p17)) := rfl
set_option maxRecDepth 8192 in
set_option maxHeartbeats 4000000 in
theorem main_part5_eq (c : Dev nD) : main_part5 (F := F) c = seq (p18 ++ p19) := rfl

set_option maxRecDepth 8192 in
/-- @main is that straight line: its windows in order, each the pieces it spans. -/
theorem main_eq (c : Dev nD) : main (F := F) c = seq ops := by
  simp only [main, ops, main_part0_eq, main_part1_eq, main_part2_eq, main_part3_eq, main_part4_eq, main_part5_eq, seq_append, bind_assoc]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem p0_sub : (p0 : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub ..⟩
set_option maxRecDepth 8192 in
theorem p0_fresh : ∀ op ∈ (p0 : List (HloOp τ sig (Elt F))), op.fresh = ∅ := by
  intro _ h; (repeat (cases h with | head => rfl | tail _ h => ?_)); exact nomatch h
set_option maxRecDepth 8192 in
theorem p1_sub : (p1 : List (HloOp τ sig (Elt F))).Forall fun op => op.bufs ⊆ tcRefs τ sig :=
  binary_bufs_sub ..
set_option maxRecDepth 8192 in
theorem p1_fresh : ∀ op ∈ (p1 : List (HloOp τ sig (Elt F))), op.fresh = ∅ := by
  intro _ h; (repeat (cases h with | head => rfl | tail _ h => ?_)); exact nomatch h
set_option maxRecDepth 8192 in
theorem p2_sub : (p2 : List (HloOp τ sig (Elt F))).Forall fun op => op.bufs ⊆ tcRefs τ sig :=
  ⟨binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩
set_option maxRecDepth 8192 in
theorem p2_fresh : ∀ op ∈ (p2 : List (HloOp τ sig (Elt F))), op.fresh = ∅ := by
  intro _ h; (repeat (cases h with | head => rfl | tail _ h => ?_)); exact nomatch h
set_option maxRecDepth 8192 in
theorem p3_sub : (p3 : List (HloOp τ sig (Elt F))).Forall fun op => op.bufs ⊆ tcRefs τ sig :=
  ⟨binary_bufs_sub .., unary_bufs_sub .., unary_bufs_sub .., binary_bufs_sub .., nullary_bufs_sub .., binary_bufs_sub .., unary_bufs_sub ..⟩
set_option maxRecDepth 8192 in
theorem p3_fresh : ∀ op ∈ (p3 : List (HloOp τ sig (Elt F))), op.fresh = ∅ := by
  intro _ h; (repeat (cases h with | head => rfl | tail _ h => ?_)); exact nomatch h
set_option maxRecDepth 8192 in
theorem p4_sub : (p4 : List (HloOp τ sig (Elt F))).Forall fun op => op.bufs ⊆ tcRefs τ sig :=
  ⟨nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩
set_option maxRecDepth 8192 in
theorem p4_fresh : ∀ op ∈ (p4 : List (HloOp τ sig (Elt F))), op.fresh = ∅ := by
  intro _ h; (repeat (cases h with | head => rfl | tail _ h => ?_)); exact nomatch h
set_option maxRecDepth 8192 in
theorem p5_sub : (p5 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩
set_option maxRecDepth 8192 in
theorem p5_fresh : ∀ op ∈ (p5 : List (HloOp τ sig (Elt F))), op.fresh = ∅ := by
  intro _ h; (repeat (cases h with | head => rfl | tail _ h => ?_)); exact nomatch h
set_option maxRecDepth 8192 in
theorem p6_sub : (p6 : List (HloOp τ sig (Elt F))).Forall fun op => op.bufs ⊆ tcRefs τ sig :=
  ⟨binary_bufs_sub .., unary_bufs_sub .., unary_bufs_sub .., binary_bufs_sub ..⟩
set_option maxRecDepth 8192 in
theorem p6_fresh : ∀ op ∈ (p6 : List (HloOp τ sig (Elt F))), op.fresh = ∅ := by
  intro _ h; (repeat (cases h with | head => rfl | tail _ h => ?_)); exact nomatch h
set_option maxRecDepth 8192 in
theorem p7_sub : (p7 : List (HloOp τ sig (Elt F))).Forall fun op => op.bufs ⊆ tcRefs τ sig :=
  ⟨binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub ..⟩
set_option maxRecDepth 8192 in
theorem p7_fresh : ∀ op ∈ (p7 : List (HloOp τ sig (Elt F))), op.fresh = ∅ := by
  intro _ h; (repeat (cases h with | head => rfl | tail _ h => ?_)); exact nomatch h
set_option maxRecDepth 8192 in
theorem p8_sub : (p8 : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩
set_option maxRecDepth 8192 in
theorem p8_fresh : ∀ op ∈ (p8 : List (HloOp τ sig (Elt F))), op.fresh = ∅ := by
  intro _ h; (repeat (cases h with | head => rfl | tail _ h => ?_)); exact nomatch h
set_option maxRecDepth 8192 in
theorem p9_sub : (p9 : List (HloOp τ sig (Elt F))).Forall fun op => op.bufs ⊆ tcRefs τ sig :=
  ⟨binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub ..⟩
set_option maxRecDepth 8192 in
theorem p9_fresh : ∀ op ∈ (p9 : List (HloOp τ sig (Elt F))), op.fresh = ∅ := by
  intro _ h; (repeat (cases h with | head => rfl | tail _ h => ?_)); exact nomatch h
set_option maxRecDepth 8192 in
theorem p10_sub : (p10 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub ..⟩
set_option maxRecDepth 8192 in
theorem p10_fresh : ∀ op ∈ (p10 : List (HloOp τ sig (Elt F))), op.fresh = ∅ := by
  intro _ h; (repeat (cases h with | head => rfl | tail _ h => ?_)); exact nomatch h
set_option maxRecDepth 8192 in
theorem p11_sub : (p11 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩
set_option maxRecDepth 8192 in
theorem p11_fresh : ∀ op ∈ (p11 : List (HloOp τ sig (Elt F))), op.fresh = ∅ := by
  intro _ h; (repeat (cases h with | head => rfl | tail _ h => ?_)); exact nomatch h
set_option maxRecDepth 8192 in
theorem p12_sub : (p12 : List (HloOp τ sig (Elt F))).Forall fun op => op.bufs ⊆ tcRefs τ sig :=
  ⟨binary_bufs_sub .., unary_bufs_sub .., unary_bufs_sub .., binary_bufs_sub ..⟩
set_option maxRecDepth 8192 in
theorem p12_fresh : ∀ op ∈ (p12 : List (HloOp τ sig (Elt F))), op.fresh = ∅ := by
  intro _ h; (repeat (cases h with | head => rfl | tail _ h => ?_)); exact nomatch h
set_option maxRecDepth 8192 in
theorem p13_sub : (p13 : List (HloOp τ sig (Elt F))).Forall fun op => op.bufs ⊆ tcRefs τ sig :=
  ⟨unary_bufs_sub .., unary_bufs_sub .., unary_bufs_sub .., nullary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., ternary_bufs_sub ..⟩
set_option maxRecDepth 8192 in
theorem p13_fresh : ∀ op ∈ (p13 : List (HloOp τ sig (Elt F))), op.fresh = ∅ := by
  intro _ h; (repeat (cases h with | head => rfl | tail _ h => ?_)); exact nomatch h
set_option maxRecDepth 8192 in
theorem p14_sub : (p14 : List (HloOp τ sig (Elt F))).Forall fun op => op.bufs ⊆ tcRefs τ sig :=
  nullary_bufs_sub ..
set_option maxRecDepth 8192 in
theorem p14_fresh : ∀ op ∈ (p14 : List (HloOp τ sig (Elt F))), op.fresh = ∅ := by
  intro _ h; (repeat (cases h with | head => rfl | tail _ h => ?_)); exact nomatch h
set_option maxRecDepth 8192 in
theorem p15_sub : (p15 : List (HloOp τ sig (Elt F))).Forall fun op => op.bufs ⊆ tcRefs τ sig :=
  ⟨unary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., ternary_bufs_sub ..⟩
set_option maxRecDepth 8192 in
theorem p15_fresh : ∀ op ∈ (p15 : List (HloOp τ sig (Elt F))), op.fresh = ∅ := by
  intro _ h; (repeat (cases h with | head => rfl | tail _ h => ?_)); exact nomatch h
set_option maxRecDepth 8192 in
theorem p16_sub : (p16 : List (HloOp τ sig (Elt F))).Forall fun op => op.bufs ⊆ tcRefs τ sig :=
  ⟨unary_bufs_sub .., unary_bufs_sub .., unary_bufs_sub .., nullary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., ternary_bufs_sub ..⟩
set_option maxRecDepth 8192 in
theorem p16_fresh : ∀ op ∈ (p16 : List (HloOp τ sig (Elt F))), op.fresh = ∅ := by
  intro _ h; (repeat (cases h with | head => rfl | tail _ h => ?_)); exact nomatch h
set_option maxRecDepth 8192 in
theorem p17_sub : (p17 : List (HloOp τ sig (Elt F))).Forall fun op => op.bufs ⊆ tcRefs τ sig :=
  ⟨nullary_bufs_sub .., unary_bufs_sub .., nullary_bufs_sub .., unary_bufs_sub .., binary_bufs_sub .., ternary_bufs_sub .., nullary_bufs_sub .., unary_bufs_sub .., binary_bufs_sub .., ternary_bufs_sub .., unary_bufs_sub ..⟩
set_option maxRecDepth 8192 in
theorem p17_fresh : ∀ op ∈ (p17 : List (HloOp τ sig (Elt F))), op.fresh = ∅ := by
  intro _ h; (repeat (cases h with | head => rfl | tail _ h => ?_)); exact nomatch h
set_option maxRecDepth 8192 in
theorem p18_sub : (p18 : List (HloOp τ sig (Elt F))).Forall fun op => op.bufs ⊆ tcRefs τ sig :=
  ⟨unary_bufs_sub .., binary_bufs_sub .., ternary_bufs_sub ..⟩
set_option maxRecDepth 8192 in
theorem p18_fresh : ∀ op ∈ (p18 : List (HloOp τ sig (Elt F))), op.fresh = ∅ := by
  intro _ h; (repeat (cases h with | head => rfl | tail _ h => ?_)); exact nomatch h
set_option maxRecDepth 8192 in
theorem p19_sub : (p19 : List (HloOp τ sig (Elt F))).Forall fun op => op.bufs ⊆ tcRefs τ sig :=
  ⟨unary_bufs_sub .., unary_bufs_sub .., unary_bufs_sub .., unary_bufs_sub .., nary_bufs_sub ..⟩
set_option maxRecDepth 8192 in
theorem p19_fresh : ∀ op ∈ (p19 : List (HloOp τ sig (Elt F))), op.fresh = ∅ := by
  intro _ h; (repeat (cases h with | head => rfl | tail _ h => ?_)); exact nomatch h

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h | h | h | h | h | h | h | h
    exacts [List.forall_iff_forall_mem.mp p0_sub op h, List.forall_iff_forall_mem.mp p1_sub op h, List.forall_iff_forall_mem.mp p2_sub op h, List.forall_iff_forall_mem.mp p3_sub op h, List.forall_iff_forall_mem.mp p4_sub op h, List.forall_iff_forall_mem.mp p5_sub op h, List.forall_iff_forall_mem.mp p6_sub op h, List.forall_iff_forall_mem.mp p7_sub op h, List.forall_iff_forall_mem.mp p8_sub op h, List.forall_iff_forall_mem.mp p9_sub op h, List.forall_iff_forall_mem.mp p10_sub op h, List.forall_iff_forall_mem.mp p11_sub op h, List.forall_iff_forall_mem.mp p12_sub op h, List.forall_iff_forall_mem.mp p13_sub op h, List.forall_iff_forall_mem.mp p14_sub op h, List.forall_iff_forall_mem.mp p15_sub op h, List.forall_iff_forall_mem.mp p16_sub op h, List.forall_iff_forall_mem.mp p17_sub op h, List.forall_iff_forall_mem.mp p18_sub op h, List.forall_iff_forall_mem.mp p19_sub op h]

theorem ops_fresh : ∀ op ∈ (ops : List (HloOp τ sig (Elt F))), op.fresh = ∅ := by
  intro op h
  simp only [ops, List.mem_append] at h
  rcases h with h | h | h | h | h | h | h | h | h | h | h | h | h | h | h | h | h | h | h | h
  exacts [p0_fresh op h, p1_fresh op h, p2_fresh op h, p3_fresh op h, p4_fresh op h, p5_fresh op h, p6_fresh op h, p7_fresh op h, p8_fresh op h, p9_fresh op h, p10_fresh op h, p11_fresh op h, p12_fresh op h, p13_fresh op h, p14_fresh op h, p15_fresh op h, p16_fresh op h, p17_fresh op h, p18_fresh op h, p19_fresh op h]

end Cert.ReferenceIdeal.HandRun

end
-- ==== Proof.RefRun.lean ====
/- The reference program's run.

   The operations of @main (`ops`, listed in the imported module with the stages of the result) are read stage by
   stage from any contents: `valK V0` is what the device's buffers hold after the first K stages, and for every
   buffer still needed then a lemma gives its contents as the stages' composed term of the arguments. The last
   stage's lemma at the result buffer is `result` of the arguments; with `run_seq` this is the run: every weakly
   fair execution of @main terminates with the result buffer at `result` of the arguments' launch contents and
   the arguments unchanged (`run`). -/
import proofs.«138334_j60430189854928_2_alg».proof.Proof.RefRunOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The fold, stage by stage, from any contents -/

/-- The fold over two lists in a row. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The device's buffer contents before @main's first operation. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl
theorem val0_main_arg10 (V0 : Valuation τ sig (Elt F)) : val0 V0 (no_index (Proc.devRef .tc main_arg10)) = V0 (Proc.devRef .tc main_arg10) := rfl
theorem val0_main_arg11 (V0 : Valuation τ sig (Elt F)) : val0 V0 (no_index (Proc.devRef .tc main_arg11)) = V0 (Proc.devRef .tc main_arg11) := rfl
theorem val0_main_arg12 (V0 : Valuation τ sig (Elt F)) : val0 V0 (no_index (Proc.devRef .tc main_arg12)) = V0 (Proc.devRef .tc main_arg12) := rfl
theorem val0_main_arg13 (V0 : Valuation τ sig (Elt F)) : val0 V0 (no_index (Proc.devRef .tc main_arg13)) = V0 (Proc.devRef .tc main_arg13) := rfl
theorem val0_main_arg14 (V0 : Valuation τ sig (Elt F)) : val0 V0 (no_index (Proc.devRef .tc main_arg14)) = V0 (Proc.devRef .tc main_arg14) := rfl
theorem val0_main_arg15 (V0 : Valuation τ sig (Elt F)) : val0 V0 (no_index (Proc.devRef .tc main_arg15)) = V0 (Proc.devRef .tc main_arg15) := rfl
theorem val0_main_arg16 (V0 : Valuation τ sig (Elt F)) : val0 V0 (no_index (Proc.devRef .tc main_arg16)) = V0 (Proc.devRef .tc main_arg16) := rfl
theorem val0_main_arg17 (V0 : Valuation τ sig (Elt F)) : val0 V0 (no_index (Proc.devRef .tc main_arg17)) = V0 (Proc.devRef .tc main_arg17) := rfl
theorem val0_main_arg18 (V0 : Valuation τ sig (Elt F)) : val0 V0 (no_index (Proc.devRef .tc main_arg18)) = V0 (Proc.devRef .tc main_arg18) := rfl
theorem val0_main_arg19 (V0 : Valuation τ sig (Elt F)) : val0 V0 (no_index (Proc.devRef .tc main_arg19)) = V0 (Proc.devRef .tc main_arg19) := rfl
theorem val0_main_arg20 (V0 : Valuation τ sig (Elt F)) : val0 V0 (no_index (Proc.devRef .tc main_arg20)) = V0 (Proc.devRef .tc main_arg20) := rfl
theorem val0_main_arg21 (V0 : Valuation τ sig (Elt F)) : val0 V0 (no_index (Proc.devRef .tc main_arg21)) = V0 (Proc.devRef .tc main_arg21) := rfl
theorem val0_main_arg22 (V0 : Valuation τ sig (Elt F)) : val0 V0 (no_index (Proc.devRef .tc main_arg22)) = V0 (Proc.devRef .tc main_arg22) := rfl
theorem val0_main_arg23 (V0 : Valuation τ sig (Elt F)) : val0 V0 (no_index (Proc.devRef .tc main_arg23)) = V0 (Proc.devRef .tc main_arg23) := rfl
theorem val0_main_arg24 (V0 : Valuation τ sig (Elt F)) : val0 V0 (no_index (Proc.devRef .tc main_arg24)) = V0 (Proc.devRef .tc main_arg24) := rfl
theorem val0_main_arg25 (V0 : Valuation τ sig (Elt F)) : val0 V0 (no_index (Proc.devRef .tc main_arg25)) = V0 (Proc.devRef .tc main_arg25) := rfl

/-- The buffers that operations 1 … 12 write. -/
abbrev st0_W : List (Ref sig .tc) := [main_c, main_c_0, main_c_1, main_c_2, main_c_3, main_c_4, main_c_5, main_c_6, main_c_7, main_c_8, main_c_9, main_c_10]
set_option maxRecDepth 8192 in
theorem p0_writes : (p0 : List (HloOp τ sig (Elt F))).Forall fun op => op.writes ⊆ (st0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The device's buffer contents after @main's first 12 operations. -/
def val1 (V0 : Valuation τ sig (Elt F)) : Valuation τ sig (Elt F) := after p0 (val0 V0)
/-- A buffer those operations do not write keeps its contents through them. -/
theorem val1_keep (V0 : Valuation τ sig (Elt F)) (r : Ref sig .tc) (h : r ∉ st0_W) :
    val1 V0 (Proc.devRef .tc r) = val0 V0 (Proc.devRef .tc r) :=
  after_of_writes_sub p0 _ p0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
theorem val1_main_arg8 (V0 : Valuation τ sig (Elt F)) : val1 V0 (no_index (Proc.devRef .tc main_arg8)) = V0 (Proc.devRef .tc main_arg8) :=
  (val1_keep V0 main_arg8 (by decide)).trans (val0_main_arg8 V0)
theorem val1_main_arg9 (V0 : Valuation τ sig (Elt F)) : val1 V0 (no_index (Proc.devRef .tc main_arg9)) = V0 (Proc.devRef .tc main_arg9) :=
  (val1_keep V0 main_arg9 (by decide)).trans (val0_main_arg9 V0)
theorem val1_main_arg10 (V0 : Valuation τ sig (Elt F)) : val1 V0 (no_index (Proc.devRef .tc main_arg10)) = V0 (Proc.devRef .tc main_arg10) :=
  (val1_keep V0 main_arg10 (by decide)).trans (val0_main_arg10 V0)
theorem val1_main_arg11 (V0 : Valuation τ sig (Elt F)) : val1 V0 (no_index (Proc.devRef .tc main_arg11)) = V0 (Proc.devRef .tc main_arg11) :=
  (val1_keep V0 main_arg11 (by decide)).trans (val0_main_arg11 V0)
theorem val1_main_arg12 (V0 : Valuation τ sig (Elt F)) : val1 V0 (no_index (Proc.devRef .tc main_arg12)) = V0 (Proc.devRef .tc main_arg12) :=
  (val1_keep V0 main_arg12 (by decide)).trans (val0_main_arg12 V0)
theorem val1_main_arg13 (V0 : Valuation τ sig (Elt F)) : val1 V0 (no_index (Proc.devRef .tc main_arg13)) = V0 (Proc.devRef .tc main_arg13) :=
  (val1_keep V0 main_arg13 (by decide)).trans (val0_main_arg13 V0)
theorem val1_main_arg14 (V0 : Valuation τ sig (Elt F)) : val1 V0 (no_index (Proc.devRef .tc main_arg14)) = V0 (Proc.devRef .tc main_arg14) :=
  (val1_keep V0 main_arg14 (by decide)).trans (val0_main_arg14 V0)
theorem val1_main_arg15 (V0 : Valuation τ sig (Elt F)) : val1 V0 (no_index (Proc.devRef .tc main_arg15)) = V0 (Proc.devRef .tc main_arg15) :=
  (val1_keep V0 main_arg15 (by decide)).trans (val0_main_arg15 V0)
theorem val1_main_arg16 (V0 : Valuation τ sig (Elt F)) : val1 V0 (no_index (Proc.devRef .tc main_arg16)) = V0 (Proc.devRef .tc main_arg16) :=
  (val1_keep V0 main_arg16 (by decide)).trans (val0_main_arg16 V0)
theorem val1_main_arg17 (V0 : Valuation τ sig (Elt F)) : val1 V0 (no_index (Proc.devRef .tc main_arg17)) = V0 (Proc.devRef .tc main_arg17) :=
  (val1_keep V0 main_arg17 (by decide)).trans (val0_main_arg17 V0)
theorem val1_main_arg18 (V0 : Valuation τ sig (Elt F)) : val1 V0 (no_index (Proc.devRef .tc main_arg18)) = V0 (Proc.devRef .tc main_arg18) :=
  (val1_keep V0 main_arg18 (by decide)).trans (val0_main_arg18 V0)
theorem val1_main_arg19 (V0 : Valuation τ sig (Elt F)) : val1 V0 (no_index (Proc.devRef .tc main_arg19)) = V0 (Proc.devRef .tc main_arg19) :=
  (val1_keep V0 main_arg19 (by decide)).trans (val0_main_arg19 V0)
theorem val1_main_arg20 (V0 : Valuation τ sig (Elt F)) : val1 V0 (no_index (Proc.devRef .tc main_arg20)) = V0 (Proc.devRef .tc main_arg20) :=
  (val1_keep V0 main_arg20 (by decide)).trans (val0_main_arg20 V0)
theorem val1_main_arg21 (V0 : Valuation τ sig (Elt F)) : val1 V0 (no_index (Proc.devRef .tc main_arg21)) = V0 (Proc.devRef .tc main_arg21) :=
  (val1_keep V0 main_arg21 (by decide)).trans (val0_main_arg21 V0)
theorem val1_main_arg22 (V0 : Valuation τ sig (Elt F)) : val1 V0 (no_index (Proc.devRef .tc main_arg22)) = V0 (Proc.devRef .tc main_arg22) :=
  (val1_keep V0 main_arg22 (by decide)).trans (val0_main_arg22 V0)
theorem val1_main_arg23 (V0 : Valuation τ sig (Elt F)) : val1 V0 (no_index (Proc.devRef .tc main_arg23)) = V0 (Proc.devRef .tc main_arg23) :=
  (val1_keep V0 main_arg23 (by decide)).trans (val0_main_arg23 V0)
theorem val1_main_arg24 (V0 : Valuation τ sig (Elt F)) : val1 V0 (no_index (Proc.devRef .tc main_arg24)) = V0 (Proc.devRef .tc main_arg24) :=
  (val1_keep V0 main_arg24 (by decide)).trans (val0_main_arg24 V0)
theorem val1_main_arg25 (V0 : Valuation τ sig (Elt F)) : val1 V0 (no_index (Proc.devRef .tc main_arg25)) = V0 (Proc.devRef .tc main_arg25) :=
  (val1_keep V0 main_arg25 (by decide)).trans (val0_main_arg25 V0)
set_option maxRecDepth 8192 in
set_option maxHeartbeats 1200000 in
theorem val1_main_c (V0 : Valuation τ sig (Elt F)) : val1 V0 (no_index (Proc.devRef .tc main_c)) = (rowsT (F := F)) := by
  unfold val1
  simp only [p0]
  after_results_simp
  all_goals rfl
set_option maxRecDepth 8192 in
set_option maxHeartbeats 1200000 in
theorem val1_main_c_0 (V0 : Valuation τ sig (Elt F)) : val1 V0 (no_index (Proc.devRef .tc main_c_0)) = (falseT (F := F)) := by
  unfold val1
  simp only [p0]
  after_results_simp
  all_goals rfl
set_option maxRecDepth 8192 in
set_option maxHeartbeats 1200000 in
theorem val1_main_c_1 (V0 : Valuation τ sig (Elt F)) : val1 V0 (no_index (Proc.devRef .tc main_c_1)) = (colsT (F := F)) := by
  unfold val1
  simp only [p0]
  after_results_simp
  all_goals rfl
set_option maxRecDepth 8192 in
set_option maxHeartbeats 1200000 in
theorem val1_main_c_2 (V0 : Valuation τ sig (Elt F)) : val1 V0 (no_index (Proc.devRef .tc main_c_2)) = (falseT (F := F)) := by
  unfold val1
  simp only [p0]
  after_results_simp
  all_goals rfl
set_option maxRecDepth 8192 in
set_option maxHeartbeats 1200000 in
theorem val1_main_c_3 (V0 : Valuation τ sig (Elt F)) : val1 V0 (no_index (Proc.devRef .tc main_c_3)) = (falseT (F := F)) := by
  unfold val1
  simp only [p0]
  after_results_simp
  all_goals rfl
set_option maxRecDepth 8192 in
set_option maxHeartbeats 1200000 in
theorem val1_main_c_4 (V0 : Valuation τ sig (Elt F)) : val1 V0 (no_index (Proc.devRef .tc main_c_4)) = (falseT (F := F)) := by
  unfold val1
  simp only [p0]
  after_results_simp
  all_goals rfl
set_option maxRecDepth 8192 in
set_option maxHeartbeats 1200000 in
theorem val1_main_c_5 (V0 : Valuation τ sig (Elt F)) : val1 V0 (no_index (Proc.devRef .tc main_c_5)) = (rowsT (F := F)) := by
  unfold val1
  simp only [p0]
  after_results_simp
  all_goals rfl
set_option maxRecDepth 8192 in
set_option maxHeartbeats 1200000 in
theorem val1_main_c_6 (V0 : Valuation τ sig (Elt F)) : val1 V0 (no_index (Proc.devRef .tc main_c_6)) = (falseT (F := F)) := by
  unfold val1
  simp only [p0]
  after_results_simp
  all_goals rfl
set_option maxRecDepth 8192 in
set_option maxHeartbeats 1200000 in
theorem val1_main_c_7 (V0 : Valuation τ sig (Elt F)) : val1 V0 (no_index (Proc.devRef .tc main_c_7)) = (colsT (F := F)) := by
  unfold val1
  simp only [p0]
  after_results_simp
  all_goals rfl
set_option maxRecDepth 8192 in
set_option maxHeartbeats 1200000 in
theorem val1_main_c_8 (V0 : Valuation τ sig (Elt F)) : val1 V0 (no_index (Proc.devRef .tc main_c_8)) = (falseT (F := F)) := by
  unfold val1
  simp only [p0]
  after_results_simp
  all_goals rfl
set_option maxRecDepth 8192 in
set_option maxHeartbeats 1200000 in
theorem val1_main_c_9 (V0 : Valuation τ sig (Elt F)) : val1 V0 (no_index (Proc.devRef .tc main_c_9)) = (falseT (F := F)) := by
  unfold val1
  simp only [p0]
  after_results_simp
  all_goals rfl
set_option maxRecDepth 8192 in
set_option maxHeartbeats 1200000 in
theorem val1_main_c_10 (V0 : Valuation τ sig (Elt F)) : val1 V0 (no_index (Proc.devRef .tc main_c_10)) = (falseT (F := F)) := by
  unfold val1
  simp only [p0]
  after_results_simp
  all_goals rfl

/-- The buffers that operations 13 … 13 write. -/
abbrev st1_W : List (Ref sig .tc) := [main_v0]
set_option maxRecDepth 8192 in
theorem p1_writes : (p1 : List (HloOp τ sig (Elt F))).Forall fun op => op.writes ⊆ (st1_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- The device's buffer contents after @main's first 13 operations. -/
def val2 (V0 : Valuation τ sig (Elt F)) : Valuation τ sig (Elt F) := after p1 (val1 V0)
/-- A buffer those operations do not write keeps its contents through them. -/
theorem val2_keep (V0 : Valuation τ sig (Elt F)) (r : Ref sig .tc) (h : r ∉ st1_W) :
    val2 V0 (Proc.devRef .tc r) = val1 V0 (Proc.devRef .tc r) :=
  after_of_writes_sub p1 _ p1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_arg9 (V0 : Valuation τ sig (Elt F)) : val2 V0 (no_index (Proc.devRef .tc main_arg9)) = V0 (Proc.devRef .tc main_arg9) :=
  (val2_keep V0 main_arg9 (by decide)).trans (val1_main_arg9 V0)
theorem val2_main_arg10 (V0 : Valuation τ sig (Elt F)) : val2 V0 (no_index (Proc.devRef .tc main_arg10)) = V0 (Proc.devRef .tc main_arg10) :=
  (val2_keep V0 main_arg10 (by decide)).trans (val1_main_arg10 V0)
theorem val2_main_arg11 (V0 : Valuation τ sig (Elt F)) : val2 V0 (no_index (Proc.devRef .tc main_arg11)) = V0 (Proc.devRef .tc main_arg11) :=
  (val2_keep V0 main_arg11 (by decide)).trans (val1_main_arg11 V0)
theorem val2_main_arg12 (V0 : Valuation τ sig (Elt F)) : val2 V0 (no_index (Proc.devRef .tc main_arg12)) = V0 (Proc.devRef .tc main_arg12) :=
  (val2_keep V0 main_arg12 (by decide)).trans (val1_main_arg12 V0)
theorem val2_main_arg13 (V0 : Valuation τ sig (Elt F)) : val2 V0 (no_index (Proc.devRef .tc main_arg13)) = V0 (Proc.devRef .tc main_arg13) :=
  (val2_keep V0 main_arg13 (by decide)).trans (val1_main_arg13 V0)
theorem val2_main_arg14 (V0 : Valuation τ sig (Elt F)) : val2 V0 (no_index (Proc.devRef .tc main_arg14)) = V0 (Proc.devRef .tc main_arg14) :=
  (val2_keep V0 main_arg14 (by decide)).trans (val1_main_arg14 V0)
theorem val2_main_arg15 (V0 : Valuation τ sig (Elt F)) : val2 V0 (no_index (Proc.devRef .tc main_arg15)) = V0 (Proc.devRef .tc main_arg15) :=
  (val2_keep V0 main_arg15 (by decide)).trans (val1_main_arg15 V0)
theorem val2_main_arg16 (V0 : Valuation τ sig (Elt F)) : val2 V0 (no_index (Proc.devRef .tc main_arg16)) = V0 (Proc.devRef .tc main_arg16) :=
  (val2_keep V0 main_arg16 (by decide)).trans (val1_main_arg16 V0)
theorem val2_main_arg17 (V0 : Valuation τ sig (Elt F)) : val2 V0 (no_index (Proc.devRef .tc main_arg17)) = V0 (Proc.devRef .tc main_arg17) :=
  (val2_keep V0 main_arg17 (by decide)).trans (val1_main_arg17 V0)
theorem val2_main_arg18 (V0 : Valuation τ sig (Elt F)) : val2 V0 (no_index (Proc.devRef .tc main_arg18)) = V0 (Proc.devRef .tc main_arg18) :=
  (val2_keep V0 main_arg18 (by decide)).trans (val1_main_arg18 V0)
theorem val2_main_arg19 (V0 : Valuation τ sig (Elt F)) : val2 V0 (no_index (Proc.devRef .tc main_arg19)) = V0 (Proc.devRef .tc main_arg19) :=
  (val2_keep V0 main_arg19 (by decide)).trans (val1_main_arg19 V0)
theorem val2_main_arg20 (V0 : Valuation τ sig (Elt F)) : val2 V0 (no_index (Proc.devRef .tc main_arg20)) = V0 (Proc.devRef .tc main_arg20) :=
  (val2_keep V0 main_arg20 (by decide)).trans (val1_main_arg20 V0)
theorem val2_main_arg21 (V0 : Valuation τ sig (Elt F)) : val2 V0 (no_index (Proc.devRef .tc main_arg21)) = V0 (Proc.devRef .tc main_arg21) :=
  (val2_keep V0 main_arg21 (by decide)).trans (val1_main_arg21 V0)
theorem val2_main_arg22 (V0 : Valuation τ sig (Elt F)) : val2 V0 (no_index (Proc.devRef .tc main_arg22)) = V0 (Proc.devRef .tc main_arg22) :=
  (val2_keep V0 main_arg22 (by decide)).trans (val1_main_arg22 V0)
theorem val2_main_arg23 (V0 : Valuation τ sig (Elt F)) : val2 V0 (no_index (Proc.devRef .tc main_arg23)) = V0 (Proc.devRef .tc main_arg23) :=
  (val2_keep V0 main_arg23 (by decide)).trans (val1_main_arg23 V0)
theorem val2_main_arg24 (V0 : Valuation τ sig (Elt F)) : val2 V0 (no_index (Proc.devRef .tc main_arg24)) = V0 (Proc.devRef .tc main_arg24) :=
  (val2_keep V0 main_arg24 (by decide)).trans (val1_main_arg24 V0)
theorem val2_main_arg25 (V0 : Valuation τ sig (Elt F)) : val2 V0 (no_index (Proc.devRef .tc main_arg25)) = V0 (Proc.devRef .tc main_arg25) :=
  (val2_keep V0 main_arg25 (by decide)).trans (val1_main_arg25 V0)
theorem val2_main_c (V0 : Valuation τ sig (Elt F)) : val2 V0 (no_index (Proc.devRef .tc main_c)) = (rowsT (F := F)) :=
  (val2_keep V0 main_c (by decide)).trans (val1_main_c V0)
theorem val2_main_c_0 (V0 : Valuation τ sig (Elt F)) : val2 V0 (no_index (Proc.devRef .tc main_c_0)) = (falseT (F := F)) :=
  (val2_keep V0 main_c_0 (by decide)).trans (val1_main_c_0 V0)
theorem val2_main_c_1 (V0 : Valuation τ sig (Elt F)) : val2 V0 (no_index (Proc.devRef .tc main_c_1)) = (colsT (F := F)) :=
  (val2_keep V0 main_c_1 (by decide)).trans (val1_main_c_1 V0)
theorem val2_main_c_2 (V0 : Valuation τ sig (Elt F)) : val2 V0 (no_index (Proc.devRef .tc main_c_2)) = (falseT (F := F)) :=
  (val2_keep V0 main_c_2 (by decide)).trans (val1_main_c_2 V0)
theorem val2_main_c_3 (V0 : Valuation τ sig (Elt F)) : val2 V0 (no_index (Proc.devRef .tc main_c_3)) = (falseT (F := F)) :=
  (val2_keep V0 main_c_3 (by decide)).trans (val1_main_c_3 V0)
theorem val2_main_c_4 (V0 : Valuation τ sig (Elt F)) : val2 V0 (no_index (Proc.devRef .tc main_c_4)) = (falseT (F := F)) :=
  (val2_keep V0 main_c_4 (by decide)).trans (val1_main_c_4 V0)
theorem val2_main_c_5 (V0 : Valuation τ sig (Elt F)) : val2 V0 (no_index (Proc.devRef .tc main_c_5)) = (rowsT (F := F)) :=
  (val2_keep V0 main_c_5 (by decide)).trans (val1_main_c_5 V0)
theorem val2_main_c_6 (V0 : Valuation τ sig (Elt F)) : val2 V0 (no_index (Proc.devRef .tc main_c_6)) = (falseT (F := F)) :=
  (val2_keep V0 main_c_6 (by decide)).trans (val1_main_c_6 V0)
theorem val2_main_c_7 (V0 : Valuation τ sig (Elt F)) : val2 V0 (no_index (Proc.devRef .tc main_c_7)) = (colsT (F := F)) :=
  (val2_keep V0 main_c_7 (by decide)).trans (val1_main_c_7 V0)
theorem val2_main_c_8 (V0 : Valuation τ sig (Elt F)) : val2 V0 (no_index (Proc.devRef .tc main_c_8)) = (falseT (F := F)) :=
  (val2_keep V0 main_c_8 (by decide)).trans (val1_main_c_8 V0)
theorem val2_main_c_9 (V0 : Valuation τ sig (Elt F)) : val2 V0 (no_index (Proc.devRef .tc main_c_9)) = (falseT (F := F)) :=
  (val2_keep V0 main_c_9 (by decide)).trans (val1_main_c_9 V0)
theorem val2_main_c_10 (V0 : Valuation τ sig (Elt F)) : val2 V0 (no_index (Proc.devRef .tc main_c_10)) = (falseT (F := F)) :=
  (val2_keep V0 main_c_10 (by decide)).trans (val1_main_c_10 V0)
set_option maxRecDepth 8192 in
theorem val2_main_v0 (V0 : Valuation τ sig (Elt F)) : val2 V0 (no_index (Proc.devRef .tc main_v0)) = (xcat (V0 (Proc.devRef .tc main_arg0)) (V0 (Proc.devRef .tc main_arg1))) := by
  unfold val2
  simp only [p1]
  after_results_simp
  show xcat _ _ = _
  simp only [val1_main_arg1, val1_main_arg0]

/-- The buffers that operations 14 … 53 write. -/
abbrev st2_W : List (Ref sig .tc) := [main_v1, main_v2, main_v3, main_v4, main_cst, main_v5, main_v6, main_cst_11, main_v7, main_v8, main_v9, main_v10, main_v11, main_cst_12, main_v12, main_v13, main_cst_13, main_v14, main_v15, main_v16, main_v17, main_cst_14, main_v18, main_v19, main_v20, main_v21, main_v22, main_v23, main_v24, main_v25, main_v26, main_v27, main_v28, main_cst_15, main_v29, main_v30, main_cst_16, main_v31, main_v32, main_v33]
set_option maxRecDepth 8192 in
theorem p2_writes : (p2 : List (HloOp τ sig (Elt F))).Forall fun op => op.writes ⊆ (st2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The device's buffer contents after @main's first 53 operations. -/
def val3 (V0 : Valuation τ sig (Elt F)) : Valuation τ sig (Elt F) := after p2 (val2 V0)
/-- A buffer those operations do not write keeps its contents through them. -/
theorem val3_keep (V0 : Valuation τ sig (Elt F)) (r : Ref sig .tc) (h : r ∉ st2_W) :
    val3 V0 (Proc.devRef .tc r) = val2 V0 (Proc.devRef .tc r) :=
  after_of_writes_sub p2 _ p2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)
theorem val3_main_arg10 (V0 : Valuation τ sig (Elt F)) : val3 V0 (no_index (Proc.devRef .tc main_arg10)) = V0 (Proc.devRef .tc main_arg10) :=
  (val3_keep V0 main_arg10 (by decide)).trans (val2_main_arg10 V0)
theorem val3_main_arg11 (V0 : Valuation τ sig (Elt F)) : val3 V0 (no_index (Proc.devRef .tc main_arg11)) = V0 (Proc.devRef .tc main_arg11) :=
  (val3_keep V0 main_arg11 (by decide)).trans (val2_main_arg11 V0)
theorem val3_main_arg12 (V0 : Valuation τ sig (Elt F)) : val3 V0 (no_index (Proc.devRef .tc main_arg12)) = V0 (Proc.devRef .tc main_arg12) :=
  (val3_keep V0 main_arg12 (by decide)).trans (val2_main_arg12 V0)
theorem val3_main_arg13 (V0 : Valuation τ sig (Elt F)) : val3 V0 (no_index (Proc.devRef .tc main_arg13)) = V0 (Proc.devRef .tc main_arg13) :=
  (val3_keep V0 main_arg13 (by decide)).trans (val2_main_arg13 V0)
theorem val3_main_arg14 (V0 : Valuation τ sig (Elt F)) : val3 V0 (no_index (Proc.devRef .tc main_arg14)) = V0 (Proc.devRef .tc main_arg14) :=
  (val3_keep V0 main_arg14 (by decide)).trans (val2_main_arg14 V0)
theorem val3_main_arg15 (V0 : Valuation τ sig (Elt F)) : val3 V0 (no_index (Proc.devRef .tc main_arg15)) = V0 (Proc.devRef .tc main_arg15) :=
  (val3_keep V0 main_arg15 (by decide)).trans (val2_main_arg15 V0)
theorem val3_main_arg16 (V0 : Valuation τ sig (Elt F)) : val3 V0 (no_index (Proc.devRef .tc main_arg16)) = V0 (Proc.devRef .tc main_arg16) :=
  (val3_keep V0 main_arg16 (by decide)).trans (val2_main_arg16 V0)
theorem val3_main_arg17 (V0 : Valuation τ sig (Elt F)) : val3 V0 (no_index (Proc.devRef .tc main_arg17)) = V0 (Proc.devRef .tc main_arg17) :=
  (val3_keep V0 main_arg17 (by decide)).trans (val2_main_arg17 V0)
theorem val3_main_arg18 (V0 : Valuation τ sig (Elt F)) : val3 V0 (no_index (Proc.devRef .tc main_arg18)) = V0 (Proc.devRef .tc main_arg18) :=
  (val3_keep V0 main_arg18 (by decide)).trans (val2_main_arg18 V0)
theorem val3_main_arg19 (V0 : Valuation τ sig (Elt F)) : val3 V0 (no_index (Proc.devRef .tc main_arg19)) = V0 (Proc.devRef .tc main_arg19) :=
  (val3_keep V0 main_arg19 (by decide)).trans (val2_main_arg19 V0)
theorem val3_main_arg20 (V0 : Valuation τ sig (Elt F)) : val3 V0 (no_index (Proc.devRef .tc main_arg20)) = V0 (Proc.devRef .tc main_arg20) :=
  (val3_keep V0 main_arg20 (by decide)).trans (val2_main_arg20 V0)
theorem val3_main_arg21 (V0 : Valuation τ sig (Elt F)) : val3 V0 (no_index (Proc.devRef .tc main_arg21)) = V0 (Proc.devRef .tc main_arg21) :=
  (val3_keep V0 main_arg21 (by decide)).trans (val2_main_arg21 V0)
theorem val3_main_arg22 (V0 : Valuation τ sig (Elt F)) : val3 V0 (no_index (Proc.devRef .tc main_arg22)) = V0 (Proc.devRef .tc main_arg22) :=
  (val3_keep V0 main_arg22 (by decide)).trans (val2_main_arg22 V0)
theorem val3_main_arg23 (V0 : Valuation τ sig (Elt F)) : val3 V0 (no_index (Proc.devRef .tc main_arg23)) = V0 (Proc.devRef .tc main_arg23) :=
  (val3_keep V0 main_arg23 (by decide)).trans (val2_main_arg23 V0)
theorem val3_main_arg24 (V0 : Valuation τ sig (Elt F)) : val3 V0 (no_index (Proc.devRef .tc main_arg24)) = V0 (Proc.devRef .tc main_arg24) :=
  (val3_keep V0 main_arg24 (by decide)).trans (val2_main_arg24 V0)
theorem val3_main_arg25 (V0 : Valuation τ sig (Elt F)) : val3 V0 (no_index (Proc.devRef .tc main_arg25)) = V0 (Proc.devRef .tc main_arg25) :=
  (val3_keep V0 main_arg25 (by decide)).trans (val2_main_arg25 V0)
theorem val3_main_c (V0 : Valuation τ sig (Elt F)) : val3 V0 (no_index (Proc.devRef .tc main_c)) = (rowsT (F := F)) :=
  (val3_keep V0 main_c (by decide)).trans (val2_main_c V0)
theorem val3_main_c_0 (V0 : Valuation τ sig (Elt F)) : val3 V0 (no_index (Proc.devRef .tc main_c_0)) = (falseT (F := F)) :=
  (val3_keep V0 main_c_0 (by decide)).trans (val2_main_c_0 V0)
theorem val3_main_c_1 (V0 : Valuation τ sig (Elt F)) : val3 V0 (no_index (Proc.devRef .tc main_c_1)) = (colsT (F := F)) :=
  (val3_keep V0 main_c_1 (by decide)).trans (val2_main_c_1 V0)
theorem val3_main_c_2 (V0 : Valuation τ sig (Elt F)) : val3 V0 (no_index (Proc.devRef .tc main_c_2)) = (falseT (F := F)) :=
  (val3_keep V0 main_c_2 (by decide)).trans (val2_main_c_2 V0)
theorem val3_main_c_3 (V0 : Valuation τ sig (Elt F)) : val3 V0 (no_index (Proc.devRef .tc main_c_3)) = (falseT (F := F)) :=
  (val3_keep V0 main_c_3 (by decide)).trans (val2_main_c_3 V0)
theorem val3_main_c_4 (V0 : Valuation τ sig (Elt F)) : val3 V0 (no_index (Proc.devRef .tc main_c_4)) = (falseT (F := F)) :=
  (val3_keep V0 main_c_4 (by decide)).trans (val2_main_c_4 V0)
theorem val3_main_c_5 (V0 : Valuation τ sig (Elt F)) : val3 V0 (no_index (Proc.devRef .tc main_c_5)) = (rowsT (F := F)) :=
  (val3_keep V0 main_c_5 (by decide)).trans (val2_main_c_5 V0)
theorem val3_main_c_6 (V0 : Valuation τ sig (Elt F)) : val3 V0 (no_index (Proc.devRef .tc main_c_6)) = (falseT (F := F)) :=
  (val3_keep V0 main_c_6 (by decide)).trans (val2_main_c_6 V0)
theorem val3_main_c_7 (V0 : Valuation τ sig (Elt F)) : val3 V0 (no_index (Proc.devRef .tc main_c_7)) = (colsT (F := F)) :=
  (val3_keep V0 main_c_7 (by decide)).trans (val2_main_c_7 V0)
theorem val3_main_c_8 (V0 : Valuation τ sig (Elt F)) : val3 V0 (no_index (Proc.devRef .tc main_c_8)) = (falseT (F := F)) :=
  (val3_keep V0 main_c_8 (by decide)).trans (val2_main_c_8 V0)
theorem val3_main_c_9 (V0 : Valuation τ sig (Elt F)) : val3 V0 (no_index (Proc.devRef .tc main_c_9)) = (falseT (F := F)) :=
  (val3_keep V0 main_c_9 (by decide)).trans (val2_main_c_9 V0)
theorem val3_main_c_10 (V0 : Valuation τ sig (Elt F)) : val3 V0 (no_index (Proc.devRef .tc main_c_10)) = (falseT (F := F)) :=
  (val3_keep V0 main_c_10 (by decide)).trans (val2_main_c_10 V0)
theorem val3_main_v0 (V0 : Valuation τ sig (Elt F)) : val3 V0 (no_index (Proc.devRef .tc main_v0)) = (xcat (V0 (Proc.devRef .tc main_arg0)) (V0 (Proc.devRef .tc main_arg1))) :=
  (val3_keep V0 main_v0 (by decide)).trans (val2_main_v0 V0)
set_option maxRecDepth 8192 in
set_option maxHeartbeats 2000000 in
theorem val3_main_v33 (V0 : Valuation τ sig (Elt F)) : val3 V0 (no_index (Proc.devRef .tc main_v33)) = (layer1 (V0 (Proc.devRef .tc main_arg2)) (V0 (Proc.devRef .tc main_arg3)) (V0 (Proc.devRef .tc main_arg4)) (V0 (Proc.devRef .tc main_arg5)) (xcat (V0 (Proc.devRef .tc main_arg0)) (V0 (Proc.devRef .tc main_arg1)))) := by
  unfold val3
  simp only [p2]
  after_results_simp
  simp only [val2_main_arg5, val2_main_arg4, val2_main_arg3, val2_main_arg2, val2_main_v0] <;> rfl

/-- The buffers that operations 54 … 93 write. -/
abbrev st3_W : List (Ref sig .tc) := [main_v34, main_v35, main_v36, main_v37, main_cst_17, main_v38, main_v39, main_cst_18, main_v40, main_v41, main_v42, main_v43, main_v44, main_cst_19, main_v45, main_v46, main_cst_20, main_v47, main_v48, main_v49, main_v50, main_cst_21, main_v51, main_v52, main_v53, main_v54, main_v55, main_v56, main_v57, main_v58, main_v59, main_v60, main_v61, main_cst_22, main_v62, main_v63, main_cst_23, main_v64, main_v65, main_v66]
set_option maxRecDepth 8192 in
theorem p3_writes : (p3 : List (HloOp τ sig (Elt F))).Forall fun op => op.writes ⊆ (st3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
set_option maxRecDepth 8192 in
theorem p4_writes : (p4 : List (HloOp τ sig (Elt F))).Forall fun op => op.writes ⊆ (st3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The device's buffer contents after @main's first 93 operations. -/
def val4 (V0 : Valuation τ sig (Elt F)) : Valuation τ sig (Elt F) := after p4 (after p3 (val3 V0))
/-- A buffer those operations do not write keeps its contents through them. -/
theorem val4_keep (V0 : Valuation τ sig (Elt F)) (r : Ref sig .tc) (h : r ∉ st3_W) :
    val4 V0 (Proc.devRef .tc r) = val3 V0 (Proc.devRef .tc r) :=
  (after_of_writes_sub p4 _ p4_writes h).trans (after_of_writes_sub p3 _ p3_writes h)
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_arg8 (V0 : Valuation τ sig (Elt F)) : val4 V0 (no_index (Proc.devRef .tc main_arg8)) = V0 (Proc.devRef .tc main_arg8) :=
  (val4_keep V0 main_arg8 (by decide)).trans (val3_main_arg8 V0)
theorem val4_main_arg9 (V0 : Valuation τ sig (Elt F)) : val4 V0 (no_index (Proc.devRef .tc main_arg9)) = V0 (Proc.devRef .tc main_arg9) :=
  (val4_keep V0 main_arg9 (by decide)).trans (val3_main_arg9 V0)
theorem val4_main_arg10 (V0 : Valuation τ sig (Elt F)) : val4 V0 (no_index (Proc.devRef .tc main_arg10)) = V0 (Proc.devRef .tc main_arg10) :=
  (val4_keep V0 main_arg10 (by decide)).trans (val3_main_arg10 V0)
theorem val4_main_arg11 (V0 : Valuation τ sig (Elt F)) : val4 V0 (no_index (Proc.devRef .tc main_arg11)) = V0 (Proc.devRef .tc main_arg11) :=
  (val4_keep V0 main_arg11 (by decide)).trans (val3_main_arg11 V0)
theorem val4_main_arg12 (V0 : Valuation τ sig (Elt F)) : val4 V0 (no_index (Proc.devRef .tc main_arg12)) = V0 (Proc.devRef .tc main_arg12) :=
  (val4_keep V0 main_arg12 (by decide)).trans (val3_main_arg12 V0)
theorem val4_main_arg13 (V0 : Valuation τ sig (Elt F)) : val4 V0 (no_index (Proc.devRef .tc main_arg13)) = V0 (Proc.devRef .tc main_arg13) :=
  (val4_keep V0 main_arg13 (by decide)).trans (val3_main_arg13 V0)
theorem val4_main_arg14 (V0 : Valuation τ sig (Elt F)) : val4 V0 (no_index (Proc.devRef .tc main_arg14)) = V0 (Proc.devRef .tc main_arg14) :=
  (val4_keep V0 main_arg14 (by decide)).trans (val3_main_arg14 V0)
theorem val4_main_arg15 (V0 : Valuation τ sig (Elt F)) : val4 V0 (no_index (Proc.devRef .tc main_arg15)) = V0 (Proc.devRef .tc main_arg15) :=
  (val4_keep V0 main_arg15 (by decide)).trans (val3_main_arg15 V0)
theorem val4_main_arg16 (V0 : Valuation τ sig (Elt F)) : val4 V0 (no_index (Proc.devRef .tc main_arg16)) = V0 (Proc.devRef .tc main_arg16) :=
  (val4_keep V0 main_arg16 (by decide)).trans (val3_main_arg16 V0)
theorem val4_main_arg17 (V0 : Valuation τ sig (Elt F)) : val4 V0 (no_index (Proc.devRef .tc main_arg17)) = V0 (Proc.devRef .tc main_arg17) :=
  (val4_keep V0 main_arg17 (by decide)).trans (val3_main_arg17 V0)
theorem val4_main_arg18 (V0 : Valuation τ sig (Elt F)) : val4 V0 (no_index (Proc.devRef .tc main_arg18)) = V0 (Proc.devRef .tc main_arg18) :=
  (val4_keep V0 main_arg18 (by decide)).trans (val3_main_arg18 V0)
theorem val4_main_arg19 (V0 : Valuation τ sig (Elt F)) : val4 V0 (no_index (Proc.devRef .tc main_arg19)) = V0 (Proc.devRef .tc main_arg19) :=
  (val4_keep V0 main_arg19 (by decide)).trans (val3_main_arg19 V0)
theorem val4_main_arg20 (V0 : Valuation τ sig (Elt F)) : val4 V0 (no_index (Proc.devRef .tc main_arg20)) = V0 (Proc.devRef .tc main_arg20) :=
  (val4_keep V0 main_arg20 (by decide)).trans (val3_main_arg20 V0)
theorem val4_main_arg21 (V0 : Valuation τ sig (Elt F)) : val4 V0 (no_index (Proc.devRef .tc main_arg21)) = V0 (Proc.devRef .tc main_arg21) :=
  (val4_keep V0 main_arg21 (by decide)).trans (val3_main_arg21 V0)
theorem val4_main_arg22 (V0 : Valuation τ sig (Elt F)) : val4 V0 (no_index (Proc.devRef .tc main_arg22)) = V0 (Proc.devRef .tc main_arg22) :=
  (val4_keep V0 main_arg22 (by decide)).trans (val3_main_arg22 V0)
theorem val4_main_arg23 (V0 : Valuation τ sig (Elt F)) : val4 V0 (no_index (Proc.devRef .tc main_arg23)) = V0 (Proc.devRef .tc main_arg23) :=
  (val4_keep V0 main_arg23 (by decide)).trans (val3_main_arg23 V0)
theorem val4_main_arg24 (V0 : Valuation τ sig (Elt F)) : val4 V0 (no_index (Proc.devRef .tc main_arg24)) = V0 (Proc.devRef .tc main_arg24) :=
  (val4_keep V0 main_arg24 (by decide)).trans (val3_main_arg24 V0)
theorem val4_main_arg25 (V0 : Valuation τ sig (Elt F)) : val4 V0 (no_index (Proc.devRef .tc main_arg25)) = V0 (Proc.devRef .tc main_arg25) :=
  (val4_keep V0 main_arg25 (by decide)).trans (val3_main_arg25 V0)
theorem val4_main_c (V0 : Valuation τ sig (Elt F)) : val4 V0 (no_index (Proc.devRef .tc main_c)) = (rowsT (F := F)) :=
  (val4_keep V0 main_c (by decide)).trans (val3_main_c V0)
theorem val4_main_c_0 (V0 : Valuation τ sig (Elt F)) : val4 V0 (no_index (Proc.devRef .tc main_c_0)) = (falseT (F := F)) :=
  (val4_keep V0 main_c_0 (by decide)).trans (val3_main_c_0 V0)
theorem val4_main_c_1 (V0 : Valuation τ sig (Elt F)) : val4 V0 (no_index (Proc.devRef .tc main_c_1)) = (colsT (F := F)) :=
  (val4_keep V0 main_c_1 (by decide)).trans (val3_main_c_1 V0)
theorem val4_main_c_2 (V0 : Valuation τ sig (Elt F)) : val4 V0 (no_index (Proc.devRef .tc main_c_2)) = (falseT (F := F)) :=
  (val4_keep V0 main_c_2 (by decide)).trans (val3_main_c_2 V0)
theorem val4_main_c_3 (V0 : Valuation τ sig (Elt F)) : val4 V0 (no_index (Proc.devRef .tc main_c_3)) = (falseT (F := F)) :=
  (val4_keep V0 main_c_3 (by decide)).trans (val3_main_c_3 V0)
theorem val4_main_c_4 (V0 : Valuation τ sig (Elt F)) : val4 V0 (no_index (Proc.devRef .tc main_c_4)) = (falseT (F := F)) :=
  (val4_keep V0 main_c_4 (by decide)).trans (val3_main_c_4 V0)
theorem val4_main_c_5 (V0 : Valuation τ sig (Elt F)) : val4 V0 (no_index (Proc.devRef .tc main_c_5)) = (rowsT (F := F)) :=
  (val4_keep V0 main_c_5 (by decide)).trans (val3_main_c_5 V0)
theorem val4_main_c_6 (V0 : Valuation τ sig (Elt F)) : val4 V0 (no_index (Proc.devRef .tc main_c_6)) = (falseT (F := F)) :=
  (val4_keep V0 main_c_6 (by decide)).trans (val3_main_c_6 V0)
theorem val4_main_c_7 (V0 : Valuation τ sig (Elt F)) : val4 V0 (no_index (Proc.devRef .tc main_c_7)) = (colsT (F := F)) :=
  (val4_keep V0 main_c_7 (by decide)).trans (val3_main_c_7 V0)
theorem val4_main_c_8 (V0 : Valuation τ sig (Elt F)) : val4 V0 (no_index (Proc.devRef .tc main_c_8)) = (falseT (F := F)) :=
  (val4_keep V0 main_c_8 (by decide)).trans (val3_main_c_8 V0)
theorem val4_main_c_9 (V0 : Valuation τ sig (Elt F)) : val4 V0 (no_index (Proc.devRef .tc main_c_9)) = (falseT (F := F)) :=
  (val4_keep V0 main_c_9 (by decide)).trans (val3_main_c_9 V0)
theorem val4_main_c_10 (V0 : Valuation τ sig (Elt F)) : val4 V0 (no_index (Proc.devRef .tc main_c_10)) = (falseT (F := F)) :=
  (val4_keep V0 main_c_10 (by decide)).trans (val3_main_c_10 V0)
theorem val4_main_v0 (V0 : Valuation τ sig (Elt F)) : val4 V0 (no_index (Proc.devRef .tc main_v0)) = (xcat (V0 (Proc.devRef .tc main_arg0)) (V0 (Proc.devRef .tc main_arg1))) :=
  (val4_keep V0 main_v0 (by decide)).trans (val3_main_v0 V0)
set_option maxRecDepth 8192 in
set_option maxHeartbeats 2000000 in
theorem val4_main_v66 (V0 : Valuation τ sig (Elt F)) : val4 V0 (no_index (Proc.devRef .tc main_v66)) = (layer2 (V0 (Proc.devRef .tc main_arg6)) (V0 (Proc.devRef .tc main_arg7)) (V0 (Proc.devRef .tc main_arg8)) (V0 (Proc.devRef .tc main_arg9)) (layer1 (V0 (Proc.devRef .tc main_arg2)) (V0 (Proc.devRef .tc main_arg3)) (V0 (Proc.devRef .tc main_arg4)) (V0 (Proc.devRef .tc main_arg5)) (xcat (V0 (Proc.devRef .tc main_arg0)) (V0 (Proc.devRef .tc main_arg1))))) := by
  unfold val4
  simp only [p3, p4]
  after_results_simp
  simp only [val3_main_arg9, val3_main_arg8, val3_main_arg7, val3_main_arg6, val3_main_v33] <;> rfl

/-- The buffers that operations 94 … 104 write. -/
abbrev st4_W : List (Ref sig .tc) := [main_v67, main_v68, main_v69, main_v70, main_cst_24, main_v71, main_v72, main_cst_25, main_v73, main_v74, main_v75]
set_option maxRecDepth 8192 in
theorem p5_writes : (p5 : List (HloOp τ sig (Elt F))).Forall fun op => op.writes ⊆ (st4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The device's buffer contents after @main's first 104 operations. -/
def val5 (V0 : Valuation τ sig (Elt F)) : Valuation τ sig (Elt F) := after p5 (val4 V0)
/-- A buffer those operations do not write keeps its contents through them. -/
theorem val5_keep (V0 : Valuation τ sig (Elt F)) (r : Ref sig .tc) (h : r ∉ st4_W) :
    val5 V0 (Proc.devRef .tc r) = val4 V0 (Proc.devRef .tc r) :=
  after_of_writes_sub p5 _ p5_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_arg7 (V0 : Valuation τ sig (Elt F)) : val5 V0 (no_index (Proc.devRef .tc main_arg7)) = V0 (Proc.devRef .tc main_arg7) :=
  (val5_keep V0 main_arg7 (by decide)).trans (val4_main_arg7 V0)
theorem val5_main_arg8 (V0 : Valuation τ sig (Elt F)) : val5 V0 (no_index (Proc.devRef .tc main_arg8)) = V0 (Proc.devRef .tc main_arg8) :=
  (val5_keep V0 main_arg8 (by decide)).trans (val4_main_arg8 V0)
theorem val5_main_arg9 (V0 : Valuation τ sig (Elt F)) : val5 V0 (no_index (Proc.devRef .tc main_arg9)) = V0 (Proc.devRef .tc main_arg9) :=
  (val5_keep V0 main_arg9 (by decide)).trans (val4_main_arg9 V0)
theorem val5_main_arg10 (V0 : Valuation τ sig (Elt F)) : val5 V0 (no_index (Proc.devRef .tc main_arg10)) = V0 (Proc.devRef .tc main_arg10) :=
  (val5_keep V0 main_arg10 (by decide)).trans (val4_main_arg10 V0)
theorem val5_main_arg11 (V0 : Valuation τ sig (Elt F)) : val5 V0 (no_index (Proc.devRef .tc main_arg11)) = V0 (Proc.devRef .tc main_arg11) :=
  (val5_keep V0 main_arg11 (by decide)).trans (val4_main_arg11 V0)
theorem val5_main_arg12 (V0 : Valuation τ sig (Elt F)) : val5 V0 (no_index (Proc.devRef .tc main_arg12)) = V0 (Proc.devRef .tc main_arg12) :=
  (val5_keep V0 main_arg12 (by decide)).trans (val4_main_arg12 V0)
theorem val5_main_arg13 (V0 : Valuation τ sig (Elt F)) : val5 V0 (no_index (Proc.devRef .tc main_arg13)) = V0 (Proc.devRef .tc main_arg13) :=
  (val5_keep V0 main_arg13 (by decide)).trans (val4_main_arg13 V0)
theorem val5_main_arg14 (V0 : Valuation τ sig (Elt F)) : val5 V0 (no_index (Proc.devRef .tc main_arg14)) = V0 (Proc.devRef .tc main_arg14) :=
  (val5_keep V0 main_arg14 (by decide)).trans (val4_main_arg14 V0)
theorem val5_main_arg15 (V0 : Valuation τ sig (Elt F)) : val5 V0 (no_index (Proc.devRef .tc main_arg15)) = V0 (Proc.devRef .tc main_arg15) :=
  (val5_keep V0 main_arg15 (by decide)).trans (val4_main_arg15 V0)
theorem val5_main_arg16 (V0 : Valuation τ sig (Elt F)) : val5 V0 (no_index (Proc.devRef .tc main_arg16)) = V0 (Proc.devRef .tc main_arg16) :=
  (val5_keep V0 main_arg16 (by decide)).trans (val4_main_arg16 V0)
theorem val5_main_arg17 (V0 : Valuation τ sig (Elt F)) : val5 V0 (no_index (Proc.devRef .tc main_arg17)) = V0 (Proc.devRef .tc main_arg17) :=
  (val5_keep V0 main_arg17 (by decide)).trans (val4_main_arg17 V0)
theorem val5_main_arg18 (V0 : Valuation τ sig (Elt F)) : val5 V0 (no_index (Proc.devRef .tc main_arg18)) = V0 (Proc.devRef .tc main_arg18) :=
  (val5_keep V0 main_arg18 (by decide)).trans (val4_main_arg18 V0)
theorem val5_main_arg19 (V0 : Valuation τ sig (Elt F)) : val5 V0 (no_index (Proc.devRef .tc main_arg19)) = V0 (Proc.devRef .tc main_arg19) :=
  (val5_keep V0 main_arg19 (by decide)).trans (val4_main_arg19 V0)
theorem val5_main_arg20 (V0 : Valuation τ sig (Elt F)) : val5 V0 (no_index (Proc.devRef .tc main_arg20)) = V0 (Proc.devRef .tc main_arg20) :=
  (val5_keep V0 main_arg20 (by decide)).trans (val4_main_arg20 V0)
theorem val5_main_arg21 (V0 : Valuation τ sig (Elt F)) : val5 V0 (no_index (Proc.devRef .tc main_arg21)) = V0 (Proc.devRef .tc main_arg21) :=
  (val5_keep V0 main_arg21 (by decide)).trans (val4_main_arg21 V0)
theorem val5_main_arg22 (V0 : Valuation τ sig (Elt F)) : val5 V0 (no_index (Proc.devRef .tc main_arg22)) = V0 (Proc.devRef .tc main_arg22) :=
  (val5_keep V0 main_arg22 (by decide)).trans (val4_main_arg22 V0)
theorem val5_main_arg23 (V0 : Valuation τ sig (Elt F)) : val5 V0 (no_index (Proc.devRef .tc main_arg23)) = V0 (Proc.devRef .tc main_arg23) :=
  (val5_keep V0 main_arg23 (by decide)).trans (val4_main_arg23 V0)
theorem val5_main_arg24 (V0 : Valuation τ sig (Elt F)) : val5 V0 (no_index (Proc.devRef .tc main_arg24)) = V0 (Proc.devRef .tc main_arg24) :=
  (val5_keep V0 main_arg24 (by decide)).trans (val4_main_arg24 V0)
theorem val5_main_arg25 (V0 : Valuation τ sig (Elt F)) : val5 V0 (no_index (Proc.devRef .tc main_arg25)) = V0 (Proc.devRef .tc main_arg25) :=
  (val5_keep V0 main_arg25 (by decide)).trans (val4_main_arg25 V0)
theorem val5_main_c (V0 : Valuation τ sig (Elt F)) : val5 V0 (no_index (Proc.devRef .tc main_c)) = (rowsT (F := F)) :=
  (val5_keep V0 main_c (by decide)).trans (val4_main_c V0)
theorem val5_main_c_0 (V0 : Valuation τ sig (Elt F)) : val5 V0 (no_index (Proc.devRef .tc main_c_0)) = (falseT (F := F)) :=
  (val5_keep V0 main_c_0 (by decide)).trans (val4_main_c_0 V0)
theorem val5_main_c_1 (V0 : Valuation τ sig (Elt F)) : val5 V0 (no_index (Proc.devRef .tc main_c_1)) = (colsT (F := F)) :=
  (val5_keep V0 main_c_1 (by decide)).trans (val4_main_c_1 V0)
theorem val5_main_c_2 (V0 : Valuation τ sig (Elt F)) : val5 V0 (no_index (Proc.devRef .tc main_c_2)) = (falseT (F := F)) :=
  (val5_keep V0 main_c_2 (by decide)).trans (val4_main_c_2 V0)
theorem val5_main_c_3 (V0 : Valuation τ sig (Elt F)) : val5 V0 (no_index (Proc.devRef .tc main_c_3)) = (falseT (F := F)) :=
  (val5_keep V0 main_c_3 (by decide)).trans (val4_main_c_3 V0)
theorem val5_main_c_4 (V0 : Valuation τ sig (Elt F)) : val5 V0 (no_index (Proc.devRef .tc main_c_4)) = (falseT (F := F)) :=
  (val5_keep V0 main_c_4 (by decide)).trans (val4_main_c_4 V0)
theorem val5_main_c_5 (V0 : Valuation τ sig (Elt F)) : val5 V0 (no_index (Proc.devRef .tc main_c_5)) = (rowsT (F := F)) :=
  (val5_keep V0 main_c_5 (by decide)).trans (val4_main_c_5 V0)
theorem val5_main_c_6 (V0 : Valuation τ sig (Elt F)) : val5 V0 (no_index (Proc.devRef .tc main_c_6)) = (falseT (F := F)) :=
  (val5_keep V0 main_c_6 (by decide)).trans (val4_main_c_6 V0)
theorem val5_main_c_7 (V0 : Valuation τ sig (Elt F)) : val5 V0 (no_index (Proc.devRef .tc main_c_7)) = (colsT (F := F)) :=
  (val5_keep V0 main_c_7 (by decide)).trans (val4_main_c_7 V0)
theorem val5_main_c_8 (V0 : Valuation τ sig (Elt F)) : val5 V0 (no_index (Proc.devRef .tc main_c_8)) = (falseT (F := F)) :=
  (val5_keep V0 main_c_8 (by decide)).trans (val4_main_c_8 V0)
theorem val5_main_c_9 (V0 : Valuation τ sig (Elt F)) : val5 V0 (no_index (Proc.devRef .tc main_c_9)) = (falseT (F := F)) :=
  (val5_keep V0 main_c_9 (by decide)).trans (val4_main_c_9 V0)
theorem val5_main_c_10 (V0 : Valuation τ sig (Elt F)) : val5 V0 (no_index (Proc.devRef .tc main_c_10)) = (falseT (F := F)) :=
  (val5_keep V0 main_c_10 (by decide)).trans (val4_main_c_10 V0)
theorem val5_main_v0 (V0 : Valuation τ sig (Elt F)) : val5 V0 (no_index (Proc.devRef .tc main_v0)) = (xcat (V0 (Proc.devRef .tc main_arg0)) (V0 (Proc.devRef .tc main_arg1))) :=
  (val5_keep V0 main_v0 (by decide)).trans (val4_main_v0 V0)
set_option maxRecDepth 8192 in
set_option maxHeartbeats 1100000 in
theorem val5_main_v75 (V0 : Valuation τ sig (Elt F)) : val5 V0 (no_index (Proc.devRef .tc main_v75)) = (layer3 (V0 (Proc.devRef .tc main_arg10)) (V0 (Proc.devRef .tc main_arg11)) (layer2 (V0 (Proc.devRef .tc main_arg6)) (V0 (Proc.devRef .tc main_arg7)) (V0 (Proc.devRef .tc main_arg8)) (V0 (Proc.devRef .tc main_arg9)) (layer1 (V0 (Proc.devRef .tc main_arg2)) (V0 (Proc.devRef .tc main_arg3)) (V0 (Proc.devRef .tc main_arg4)) (V0 (Proc.devRef .tc main_arg5)) (xcat (V0 (Proc.devRef .tc main_arg0)) (V0 (Proc.devRef .tc main_arg1)))))) := by
  unfold val5
  simp only [p5]
  after_results_simp
  simp only [val4_main_arg11, val4_main_arg10, val4_main_v66] <;> rfl

/-- The buffers that operations 105 … 108 write. -/
abbrev st5_W : List (Ref sig .tc) := [main_v76, main_v77, main_v78, main_v79]
set_option maxRecDepth 8192 in
theorem p6_writes : (p6 : List (HloOp τ sig (Elt F))).Forall fun op => op.writes ⊆ (st5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The device's buffer contents after @main's first 108 operations. -/
def val6 (V0 : Valuation τ sig (Elt F)) : Valuation τ sig (Elt F) := after p6 (val5 V0)
/-- A buffer those operations do not write keeps its contents through them. -/
theorem val6_keep (V0 : Valuation τ sig (Elt F)) (r : Ref sig .tc) (h : r ∉ st5_W) :
    val6 V0 (Proc.devRef .tc r) = val5 V0 (Proc.devRef .tc r) :=
  after_of_writes_sub p6 _ p6_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
theorem val6_main_arg7 (V0 : Valuation τ sig (Elt F)) : val6 V0 (no_index (Proc.devRef .tc main_arg7)) = V0 (Proc.devRef .tc main_arg7) :=
  (val6_keep V0 main_arg7 (by decide)).trans (val5_main_arg7 V0)
theorem val6_main_arg8 (V0 : Valuation τ sig (Elt F)) : val6 V0 (no_index (Proc.devRef .tc main_arg8)) = V0 (Proc.devRef .tc main_arg8) :=
  (val6_keep V0 main_arg8 (by decide)).trans (val5_main_arg8 V0)
theorem val6_main_arg9 (V0 : Valuation τ sig (Elt F)) : val6 V0 (no_index (Proc.devRef .tc main_arg9)) = V0 (Proc.devRef .tc main_arg9) :=
  (val6_keep V0 main_arg9 (by decide)).trans (val5_main_arg9 V0)
theorem val6_main_arg10 (V0 : Valuation τ sig (Elt F)) : val6 V0 (no_index (Proc.devRef .tc main_arg10)) = V0 (Proc.devRef .tc main_arg10) :=
  (val6_keep V0 main_arg10 (by decide)).trans (val5_main_arg10 V0)
theorem val6_main_arg11 (V0 : Valuation τ sig (Elt F)) : val6 V0 (no_index (Proc.devRef .tc main_arg11)) = V0 (Proc.devRef .tc main_arg11) :=
  (val6_keep V0 main_arg11 (by decide)).trans (val5_main_arg11 V0)
theorem val6_main_arg12 (V0 : Valuation τ sig (Elt F)) : val6 V0 (no_index (Proc.devRef .tc main_arg12)) = V0 (Proc.devRef .tc main_arg12) :=
  (val6_keep V0 main_arg12 (by decide)).trans (val5_main_arg12 V0)
theorem val6_main_arg13 (V0 : Valuation τ sig (Elt F)) : val6 V0 (no_index (Proc.devRef .tc main_arg13)) = V0 (Proc.devRef .tc main_arg13) :=
  (val6_keep V0 main_arg13 (by decide)).trans (val5_main_arg13 V0)
theorem val6_main_arg14 (V0 : Valuation τ sig (Elt F)) : val6 V0 (no_index (Proc.devRef .tc main_arg14)) = V0 (Proc.devRef .tc main_arg14) :=
  (val6_keep V0 main_arg14 (by decide)).trans (val5_main_arg14 V0)
theorem val6_main_arg15 (V0 : Valuation τ sig (Elt F)) : val6 V0 (no_index (Proc.devRef .tc main_arg15)) = V0 (Proc.devRef .tc main_arg15) :=
  (val6_keep V0 main_arg15 (by decide)).trans (val5_main_arg15 V0)
theorem val6_main_arg16 (V0 : Valuation τ sig (Elt F)) : val6 V0 (no_index (Proc.devRef .tc main_arg16)) = V0 (Proc.devRef .tc main_arg16) :=
  (val6_keep V0 main_arg16 (by decide)).trans (val5_main_arg16 V0)
theorem val6_main_arg17 (V0 : Valuation τ sig (Elt F)) : val6 V0 (no_index (Proc.devRef .tc main_arg17)) = V0 (Proc.devRef .tc main_arg17) :=
  (val6_keep V0 main_arg17 (by decide)).trans (val5_main_arg17 V0)
theorem val6_main_arg18 (V0 : Valuation τ sig (Elt F)) : val6 V0 (no_index (Proc.devRef .tc main_arg18)) = V0 (Proc.devRef .tc main_arg18) :=
  (val6_keep V0 main_arg18 (by decide)).trans (val5_main_arg18 V0)
theorem val6_main_arg19 (V0 : Valuation τ sig (Elt F)) : val6 V0 (no_index (Proc.devRef .tc main_arg19)) = V0 (Proc.devRef .tc main_arg19) :=
  (val6_keep V0 main_arg19 (by decide)).trans (val5_main_arg19 V0)
theorem val6_main_arg20 (V0 : Valuation τ sig (Elt F)) : val6 V0 (no_index (Proc.devRef .tc main_arg20)) = V0 (Proc.devRef .tc main_arg20) :=
  (val6_keep V0 main_arg20 (by decide)).trans (val5_main_arg20 V0)
theorem val6_main_arg21 (V0 : Valuation τ sig (Elt F)) : val6 V0 (no_index (Proc.devRef .tc main_arg21)) = V0 (Proc.devRef .tc main_arg21) :=
  (val6_keep V0 main_arg21 (by decide)).trans (val5_main_arg21 V0)
theorem val6_main_arg22 (V0 : Valuation τ sig (Elt F)) : val6 V0 (no_index (Proc.devRef .tc main_arg22)) = V0 (Proc.devRef .tc main_arg22) :=
  (val6_keep V0 main_arg22 (by decide)).trans (val5_main_arg22 V0)
theorem val6_main_arg23 (V0 : Valuation τ sig (Elt F)) : val6 V0 (no_index (Proc.devRef .tc main_arg23)) = V0 (Proc.devRef .tc main_arg23) :=
  (val6_keep V0 main_arg23 (by decide)).trans (val5_main_arg23 V0)
theorem val6_main_arg24 (V0 : Valuation τ sig (Elt F)) : val6 V0 (no_index (Proc.devRef .tc main_arg24)) = V0 (Proc.devRef .tc main_arg24) :=
  (val6_keep V0 main_arg24 (by decide)).trans (val5_main_arg24 V0)
theorem val6_main_arg25 (V0 : Valuation τ sig (Elt F)) : val6 V0 (no_index (Proc.devRef .tc main_arg25)) = V0 (Proc.devRef .tc main_arg25) :=
  (val6_keep V0 main_arg25 (by decide)).trans (val5_main_arg25 V0)
theorem val6_main_c (V0 : Valuation τ sig (Elt F)) : val6 V0 (no_index (Proc.devRef .tc main_c)) = (rowsT (F := F)) :=
  (val6_keep V0 main_c (by decide)).trans (val5_main_c V0)
theorem val6_main_c_0 (V0 : Valuation τ sig (Elt F)) : val6 V0 (no_index (Proc.devRef .tc main_c_0)) = (falseT (F := F)) :=
  (val6_keep V0 main_c_0 (by decide)).trans (val5_main_c_0 V0)
theorem val6_main_c_1 (V0 : Valuation τ sig (Elt F)) : val6 V0 (no_index (Proc.devRef .tc main_c_1)) = (colsT (F := F)) :=
  (val6_keep V0 main_c_1 (by decide)).trans (val5_main_c_1 V0)
theorem val6_main_c_2 (V0 : Valuation τ sig (Elt F)) : val6 V0 (no_index (Proc.devRef .tc main_c_2)) = (falseT (F := F)) :=
  (val6_keep V0 main_c_2 (by decide)).trans (val5_main_c_2 V0)
theorem val6_main_c_3 (V0 : Valuation τ sig (Elt F)) : val6 V0 (no_index (Proc.devRef .tc main_c_3)) = (falseT (F := F)) :=
  (val6_keep V0 main_c_3 (by decide)).trans (val5_main_c_3 V0)
theorem val6_main_c_4 (V0 : Valuation τ sig (Elt F)) : val6 V0 (no_index (Proc.devRef .tc main_c_4)) = (falseT (F := F)) :=
  (val6_keep V0 main_c_4 (by decide)).trans (val5_main_c_4 V0)
theorem val6_main_c_5 (V0 : Valuation τ sig (Elt F)) : val6 V0 (no_index (Proc.devRef .tc main_c_5)) = (rowsT (F := F)) :=
  (val6_keep V0 main_c_5 (by decide)).trans (val5_main_c_5 V0)
theorem val6_main_c_6 (V0 : Valuation τ sig (Elt F)) : val6 V0 (no_index (Proc.devRef .tc main_c_6)) = (falseT (F := F)) :=
  (val6_keep V0 main_c_6 (by decide)).trans (val5_main_c_6 V0)
theorem val6_main_c_7 (V0 : Valuation τ sig (Elt F)) : val6 V0 (no_index (Proc.devRef .tc main_c_7)) = (colsT (F := F)) :=
  (val6_keep V0 main_c_7 (by decide)).trans (val5_main_c_7 V0)
theorem val6_main_c_8 (V0 : Valuation τ sig (Elt F)) : val6 V0 (no_index (Proc.devRef .tc main_c_8)) = (falseT (F := F)) :=
  (val6_keep V0 main_c_8 (by decide)).trans (val5_main_c_8 V0)
theorem val6_main_c_9 (V0 : Valuation τ sig (Elt F)) : val6 V0 (no_index (Proc.devRef .tc main_c_9)) = (falseT (F := F)) :=
  (val6_keep V0 main_c_9 (by decide)).trans (val5_main_c_9 V0)
theorem val6_main_c_10 (V0 : Valuation τ sig (Elt F)) : val6 V0 (no_index (Proc.devRef .tc main_c_10)) = (falseT (F := F)) :=
  (val6_keep V0 main_c_10 (by decide)).trans (val5_main_c_10 V0)
theorem val6_main_v0 (V0 : Valuation τ sig (Elt F)) : val6 V0 (no_index (Proc.devRef .tc main_v0)) = (xcat (V0 (Proc.devRef .tc main_arg0)) (V0 (Proc.devRef .tc main_arg1))) :=
  (val6_keep V0 main_v0 (by decide)).trans (val5_main_v0 V0)
set_option maxRecDepth 8192 in
theorem val6_main_v79 (V0 : Valuation τ sig (Elt F)) : val6 V0 (no_index (Proc.devRef .tc main_v79)) = (factors (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (xcat (V0 (Proc.devRef .tc main_arg0)) (V0 (Proc.devRef .tc main_arg1)))) := by
  unfold val6
  simp only [p6]
  after_results_simp
  simp only [val5_main_arg13, val5_main_arg12, val5_main_v75] <;> rfl

/-- The buffers that operations 109 … 148 write. -/
abbrev st6_W : List (Ref sig .tc) := [main_v80, main_v81, main_v82, main_v83, main_cst_26, main_v84, main_v85, main_cst_27, main_v86, main_v87, main_v88, main_v89, main_v90, main_cst_28, main_v91, main_v92, main_cst_29, main_v93, main_v94, main_v95, main_v96, main_cst_30, main_v97, main_v98, main_v99, main_v100, main_v101, main_v102, main_v103, main_v104, main_v105, main_v106, main_v107, main_cst_31, main_v108, main_v109, main_cst_32, main_v110, main_v111, main_v112]
set_option maxRecDepth 8192 in
theorem p7_writes : (p7 : List (HloOp τ sig (Elt F))).Forall fun op => op.writes ⊆ (st6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
set_option maxRecDepth 8192 in
theorem p8_writes : (p8 : List (HloOp τ sig (Elt F))).Forall fun op => op.writes ⊆ (st6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The device's buffer contents after @main's first 148 operations. -/
def val7 (V0 : Valuation τ sig (Elt F)) : Valuation τ sig (Elt F) := after p8 (after p7 (val6 V0))
/-- A buffer those operations do not write keeps its contents through them. -/
theorem val7_keep (V0 : Valuation τ sig (Elt F)) (r : Ref sig .tc) (h : r ∉ st6_W) :
    val7 V0 (Proc.devRef .tc r) = val6 V0 (Proc.devRef .tc r) :=
  (after_of_writes_sub p8 _ p8_writes h).trans (after_of_writes_sub p7 _ p7_writes h)
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_arg4 (V0 : Valuation τ sig (Elt F)) : val7 V0 (no_index (Proc.devRef .tc main_arg4)) = V0 (Proc.devRef .tc main_arg4) :=
  (val7_keep V0 main_arg4 (by decide)).trans (val6_main_arg4 V0)
theorem val7_main_arg5 (V0 : Valuation τ sig (Elt F)) : val7 V0 (no_index (Proc.devRef .tc main_arg5)) = V0 (Proc.devRef .tc main_arg5) :=
  (val7_keep V0 main_arg5 (by decide)).trans (val6_main_arg5 V0)
theorem val7_main_arg6 (V0 : Valuation τ sig (Elt F)) : val7 V0 (no_index (Proc.devRef .tc main_arg6)) = V0 (Proc.devRef .tc main_arg6) :=
  (val7_keep V0 main_arg6 (by decide)).trans (val6_main_arg6 V0)
theorem val7_main_arg7 (V0 : Valuation τ sig (Elt F)) : val7 V0 (no_index (Proc.devRef .tc main_arg7)) = V0 (Proc.devRef .tc main_arg7) :=
  (val7_keep V0 main_arg7 (by decide)).trans (val6_main_arg7 V0)
theorem val7_main_arg8 (V0 : Valuation τ sig (Elt F)) : val7 V0 (no_index (Proc.devRef .tc main_arg8)) = V0 (Proc.devRef .tc main_arg8) :=
  (val7_keep V0 main_arg8 (by decide)).trans (val6_main_arg8 V0)
theorem val7_main_arg9 (V0 : Valuation τ sig (Elt F)) : val7 V0 (no_index (Proc.devRef .tc main_arg9)) = V0 (Proc.devRef .tc main_arg9) :=
  (val7_keep V0 main_arg9 (by decide)).trans (val6_main_arg9 V0)
theorem val7_main_arg10 (V0 : Valuation τ sig (Elt F)) : val7 V0 (no_index (Proc.devRef .tc main_arg10)) = V0 (Proc.devRef .tc main_arg10) :=
  (val7_keep V0 main_arg10 (by decide)).trans (val6_main_arg10 V0)
theorem val7_main_arg11 (V0 : Valuation τ sig (Elt F)) : val7 V0 (no_index (Proc.devRef .tc main_arg11)) = V0 (Proc.devRef .tc main_arg11) :=
  (val7_keep V0 main_arg11 (by decide)).trans (val6_main_arg11 V0)
theorem val7_main_arg12 (V0 : Valuation τ sig (Elt F)) : val7 V0 (no_index (Proc.devRef .tc main_arg12)) = V0 (Proc.devRef .tc main_arg12) :=
  (val7_keep V0 main_arg12 (by decide)).trans (val6_main_arg12 V0)
theorem val7_main_arg13 (V0 : Valuation τ sig (Elt F)) : val7 V0 (no_index (Proc.devRef .tc main_arg13)) = V0 (Proc.devRef .tc main_arg13) :=
  (val7_keep V0 main_arg13 (by decide)).trans (val6_main_arg13 V0)
theorem val7_main_arg14 (V0 : Valuation τ sig (Elt F)) : val7 V0 (no_index (Proc.devRef .tc main_arg14)) = V0 (Proc.devRef .tc main_arg14) :=
  (val7_keep V0 main_arg14 (by decide)).trans (val6_main_arg14 V0)
theorem val7_main_arg15 (V0 : Valuation τ sig (Elt F)) : val7 V0 (no_index (Proc.devRef .tc main_arg15)) = V0 (Proc.devRef .tc main_arg15) :=
  (val7_keep V0 main_arg15 (by decide)).trans (val6_main_arg15 V0)
theorem val7_main_arg16 (V0 : Valuation τ sig (Elt F)) : val7 V0 (no_index (Proc.devRef .tc main_arg16)) = V0 (Proc.devRef .tc main_arg16) :=
  (val7_keep V0 main_arg16 (by decide)).trans (val6_main_arg16 V0)
theorem val7_main_arg17 (V0 : Valuation τ sig (Elt F)) : val7 V0 (no_index (Proc.devRef .tc main_arg17)) = V0 (Proc.devRef .tc main_arg17) :=
  (val7_keep V0 main_arg17 (by decide)).trans (val6_main_arg17 V0)
theorem val7_main_arg18 (V0 : Valuation τ sig (Elt F)) : val7 V0 (no_index (Proc.devRef .tc main_arg18)) = V0 (Proc.devRef .tc main_arg18) :=
  (val7_keep V0 main_arg18 (by decide)).trans (val6_main_arg18 V0)
theorem val7_main_arg19 (V0 : Valuation τ sig (Elt F)) : val7 V0 (no_index (Proc.devRef .tc main_arg19)) = V0 (Proc.devRef .tc main_arg19) :=
  (val7_keep V0 main_arg19 (by decide)).trans (val6_main_arg19 V0)
theorem val7_main_arg20 (V0 : Valuation τ sig (Elt F)) : val7 V0 (no_index (Proc.devRef .tc main_arg20)) = V0 (Proc.devRef .tc main_arg20) :=
  (val7_keep V0 main_arg20 (by decide)).trans (val6_main_arg20 V0)
theorem val7_main_arg21 (V0 : Valuation τ sig (Elt F)) : val7 V0 (no_index (Proc.devRef .tc main_arg21)) = V0 (Proc.devRef .tc main_arg21) :=
  (val7_keep V0 main_arg21 (by decide)).trans (val6_main_arg21 V0)
theorem val7_main_arg22 (V0 : Valuation τ sig (Elt F)) : val7 V0 (no_index (Proc.devRef .tc main_arg22)) = V0 (Proc.devRef .tc main_arg22) :=
  (val7_keep V0 main_arg22 (by decide)).trans (val6_main_arg22 V0)
theorem val7_main_arg23 (V0 : Valuation τ sig (Elt F)) : val7 V0 (no_index (Proc.devRef .tc main_arg23)) = V0 (Proc.devRef .tc main_arg23) :=
  (val7_keep V0 main_arg23 (by decide)).trans (val6_main_arg23 V0)
theorem val7_main_arg24 (V0 : Valuation τ sig (Elt F)) : val7 V0 (no_index (Proc.devRef .tc main_arg24)) = V0 (Proc.devRef .tc main_arg24) :=
  (val7_keep V0 main_arg24 (by decide)).trans (val6_main_arg24 V0)
theorem val7_main_arg25 (V0 : Valuation τ sig (Elt F)) : val7 V0 (no_index (Proc.devRef .tc main_arg25)) = V0 (Proc.devRef .tc main_arg25) :=
  (val7_keep V0 main_arg25 (by decide)).trans (val6_main_arg25 V0)
theorem val7_main_c (V0 : Valuation τ sig (Elt F)) : val7 V0 (no_index (Proc.devRef .tc main_c)) = (rowsT (F := F)) :=
  (val7_keep V0 main_c (by decide)).trans (val6_main_c V0)
theorem val7_main_c_0 (V0 : Valuation τ sig (Elt F)) : val7 V0 (no_index (Proc.devRef .tc main_c_0)) = (falseT (F := F)) :=
  (val7_keep V0 main_c_0 (by decide)).trans (val6_main_c_0 V0)
theorem val7_main_c_1 (V0 : Valuation τ sig (Elt F)) : val7 V0 (no_index (Proc.devRef .tc main_c_1)) = (colsT (F := F)) :=
  (val7_keep V0 main_c_1 (by decide)).trans (val6_main_c_1 V0)
theorem val7_main_c_2 (V0 : Valuation τ sig (Elt F)) : val7 V0 (no_index (Proc.devRef .tc main_c_2)) = (falseT (F := F)) :=
  (val7_keep V0 main_c_2 (by decide)).trans (val6_main_c_2 V0)
theorem val7_main_c_3 (V0 : Valuation τ sig (Elt F)) : val7 V0 (no_index (Proc.devRef .tc main_c_3)) = (falseT (F := F)) :=
  (val7_keep V0 main_c_3 (by decide)).trans (val6_main_c_3 V0)
theorem val7_main_c_4 (V0 : Valuation τ sig (Elt F)) : val7 V0 (no_index (Proc.devRef .tc main_c_4)) = (falseT (F := F)) :=
  (val7_keep V0 main_c_4 (by decide)).trans (val6_main_c_4 V0)
theorem val7_main_c_5 (V0 : Valuation τ sig (Elt F)) : val7 V0 (no_index (Proc.devRef .tc main_c_5)) = (rowsT (F := F)) :=
  (val7_keep V0 main_c_5 (by decide)).trans (val6_main_c_5 V0)
theorem val7_main_c_6 (V0 : Valuation τ sig (Elt F)) : val7 V0 (no_index (Proc.devRef .tc main_c_6)) = (falseT (F := F)) :=
  (val7_keep V0 main_c_6 (by decide)).trans (val6_main_c_6 V0)
theorem val7_main_c_7 (V0 : Valuation τ sig (Elt F)) : val7 V0 (no_index (Proc.devRef .tc main_c_7)) = (colsT (F := F)) :=
  (val7_keep V0 main_c_7 (by decide)).trans (val6_main_c_7 V0)
theorem val7_main_c_8 (V0 : Valuation τ sig (Elt F)) : val7 V0 (no_index (Proc.devRef .tc main_c_8)) = (falseT (F := F)) :=
  (val7_keep V0 main_c_8 (by decide)).trans (val6_main_c_8 V0)
theorem val7_main_c_9 (V0 : Valuation τ sig (Elt F)) : val7 V0 (no_index (Proc.devRef .tc main_c_9)) = (falseT (F := F)) :=
  (val7_keep V0 main_c_9 (by decide)).trans (val6_main_c_9 V0)
theorem val7_main_c_10 (V0 : Valuation τ sig (Elt F)) : val7 V0 (no_index (Proc.devRef .tc main_c_10)) = (falseT (F := F)) :=
  (val7_keep V0 main_c_10 (by decide)).trans (val6_main_c_10 V0)
theorem val7_main_v79 (V0 : Valuation τ sig (Elt F)) : val7 V0 (no_index (Proc.devRef .tc main_v79)) = (factors (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (xcat (V0 (Proc.devRef .tc main_arg0)) (V0 (Proc.devRef .tc main_arg1)))) :=
  (val7_keep V0 main_v79 (by decide)).trans (val6_main_v79 V0)
set_option maxRecDepth 8192 in
set_option maxHeartbeats 2000000 in
theorem val7_main_v112 (V0 : Valuation τ sig (Elt F)) : val7 V0 (no_index (Proc.devRef .tc main_v112)) = (layer1 (V0 (Proc.devRef .tc main_arg14)) (V0 (Proc.devRef .tc main_arg15)) (V0 (Proc.devRef .tc main_arg16)) (V0 (Proc.devRef .tc main_arg17)) (xcat (V0 (Proc.devRef .tc main_arg0)) (V0 (Proc.devRef .tc main_arg1)))) := by
  unfold val7
  simp only [p7, p8]
  after_results_simp
  simp only [val6_main_arg17, val6_main_arg16, val6_main_arg15, val6_main_arg14, val6_main_v0] <;> rfl

/-- The buffers that operations 149 … 188 write. -/
abbrev st7_W : List (Ref sig .tc) := [main_v113, main_v114, main_v115, main_v116, main_cst_33, main_v117, main_v118, main_cst_34, main_v119, main_v120, main_v121, main_v122, main_v123, main_cst_35, main_v124, main_v125, main_cst_36, main_v126, main_v127, main_v128, main_v129, main_cst_37, main_v130, main_v131, main_v132, main_v133, main_v134, main_v135, main_v136, main_v137, main_v138, main_v139, main_v140, main_cst_38, main_v141, main_v142, main_cst_39, main_v143, main_v144, main_v145]
set_option maxRecDepth 8192 in
theorem p9_writes : (p9 : List (HloOp τ sig (Elt F))).Forall fun op => op.writes ⊆ (st7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
set_option maxRecDepth 8192 in
theorem p10_writes : (p10 : List (HloOp τ sig (Elt F))).Forall fun op => op.writes ⊆ (st7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The device's buffer contents after @main's first 188 operations. -/
def val8 (V0 : Valuation τ sig (Elt F)) : Valuation τ sig (Elt F) := after p10 (after p9 (val7 V0))
/-- A buffer those operations do not write keeps its contents through them. -/
theorem val8_keep (V0 : Valuation τ sig (Elt F)) (r : Ref sig .tc) (h : r ∉ st7_W) :
    val8 V0 (Proc.devRef .tc r) = val7 V0 (Proc.devRef .tc r) :=
  (after_of_writes_sub p10 _ p10_writes h).trans (after_of_writes_sub p9 _ p9_writes h)
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
theorem val8_main_arg3 (V0 : Valuation τ sig (Elt F)) : val8 V0 (no_index (Proc.devRef .tc main_arg3)) = V0 (Proc.devRef .tc main_arg3) :=
  (val8_keep V0 main_arg3 (by decide)).trans (val7_main_arg3 V0)
theorem val8_main_arg4 (V0 : Valuation τ sig (Elt F)) : val8 V0 (no_index (Proc.devRef .tc main_arg4)) = V0 (Proc.devRef .tc main_arg4) :=
  (val8_keep V0 main_arg4 (by decide)).trans (val7_main_arg4 V0)
theorem val8_main_arg5 (V0 : Valuation τ sig (Elt F)) : val8 V0 (no_index (Proc.devRef .tc main_arg5)) = V0 (Proc.devRef .tc main_arg5) :=
  (val8_keep V0 main_arg5 (by decide)).trans (val7_main_arg5 V0)
theorem val8_main_arg6 (V0 : Valuation τ sig (Elt F)) : val8 V0 (no_index (Proc.devRef .tc main_arg6)) = V0 (Proc.devRef .tc main_arg6) :=
  (val8_keep V0 main_arg6 (by decide)).trans (val7_main_arg6 V0)
theorem val8_main_arg7 (V0 : Valuation τ sig (Elt F)) : val8 V0 (no_index (Proc.devRef .tc main_arg7)) = V0 (Proc.devRef .tc main_arg7) :=
  (val8_keep V0 main_arg7 (by decide)).trans (val7_main_arg7 V0)
theorem val8_main_arg8 (V0 : Valuation τ sig (Elt F)) : val8 V0 (no_index (Proc.devRef .tc main_arg8)) = V0 (Proc.devRef .tc main_arg8) :=
  (val8_keep V0 main_arg8 (by decide)).trans (val7_main_arg8 V0)
theorem val8_main_arg9 (V0 : Valuation τ sig (Elt F)) : val8 V0 (no_index (Proc.devRef .tc main_arg9)) = V0 (Proc.devRef .tc main_arg9) :=
  (val8_keep V0 main_arg9 (by decide)).trans (val7_main_arg9 V0)
theorem val8_main_arg10 (V0 : Valuation τ sig (Elt F)) : val8 V0 (no_index (Proc.devRef .tc main_arg10)) = V0 (Proc.devRef .tc main_arg10) :=
  (val8_keep V0 main_arg10 (by decide)).trans (val7_main_arg10 V0)
theorem val8_main_arg11 (V0 : Valuation τ sig (Elt F)) : val8 V0 (no_index (Proc.devRef .tc main_arg11)) = V0 (Proc.devRef .tc main_arg11) :=
  (val8_keep V0 main_arg11 (by decide)).trans (val7_main_arg11 V0)
theorem val8_main_arg12 (V0 : Valuation τ sig (Elt F)) : val8 V0 (no_index (Proc.devRef .tc main_arg12)) = V0 (Proc.devRef .tc main_arg12) :=
  (val8_keep V0 main_arg12 (by decide)).trans (val7_main_arg12 V0)
theorem val8_main_arg13 (V0 : Valuation τ sig (Elt F)) : val8 V0 (no_index (Proc.devRef .tc main_arg13)) = V0 (Proc.devRef .tc main_arg13) :=
  (val8_keep V0 main_arg13 (by decide)).trans (val7_main_arg13 V0)
theorem val8_main_arg14 (V0 : Valuation τ sig (Elt F)) : val8 V0 (no_index (Proc.devRef .tc main_arg14)) = V0 (Proc.devRef .tc main_arg14) :=
  (val8_keep V0 main_arg14 (by decide)).trans (val7_main_arg14 V0)
theorem val8_main_arg15 (V0 : Valuation τ sig (Elt F)) : val8 V0 (no_index (Proc.devRef .tc main_arg15)) = V0 (Proc.devRef .tc main_arg15) :=
  (val8_keep V0 main_arg15 (by decide)).trans (val7_main_arg15 V0)
theorem val8_main_arg16 (V0 : Valuation τ sig (Elt F)) : val8 V0 (no_index (Proc.devRef .tc main_arg16)) = V0 (Proc.devRef .tc main_arg16) :=
  (val8_keep V0 main_arg16 (by decide)).trans (val7_main_arg16 V0)
theorem val8_main_arg17 (V0 : Valuation τ sig (Elt F)) : val8 V0 (no_index (Proc.devRef .tc main_arg17)) = V0 (Proc.devRef .tc main_arg17) :=
  (val8_keep V0 main_arg17 (by decide)).trans (val7_main_arg17 V0)
theorem val8_main_arg18 (V0 : Valuation τ sig (Elt F)) : val8 V0 (no_index (Proc.devRef .tc main_arg18)) = V0 (Proc.devRef .tc main_arg18) :=
  (val8_keep V0 main_arg18 (by decide)).trans (val7_main_arg18 V0)
theorem val8_main_arg19 (V0 : Valuation τ sig (Elt F)) : val8 V0 (no_index (Proc.devRef .tc main_arg19)) = V0 (Proc.devRef .tc main_arg19) :=
  (val8_keep V0 main_arg19 (by decide)).trans (val7_main_arg19 V0)
theorem val8_main_arg20 (V0 : Valuation τ sig (Elt F)) : val8 V0 (no_index (Proc.devRef .tc main_arg20)) = V0 (Proc.devRef .tc main_arg20) :=
  (val8_keep V0 main_arg20 (by decide)).trans (val7_main_arg20 V0)
theorem val8_main_arg21 (V0 : Valuation τ sig (Elt F)) : val8 V0 (no_index (Proc.devRef .tc main_arg21)) = V0 (Proc.devRef .tc main_arg21) :=
  (val8_keep V0 main_arg21 (by decide)).trans (val7_main_arg21 V0)
theorem val8_main_arg22 (V0 : Valuation τ sig (Elt F)) : val8 V0 (no_index (Proc.devRef .tc main_arg22)) = V0 (Proc.devRef .tc main_arg22) :=
  (val8_keep V0 main_arg22 (by decide)).trans (val7_main_arg22 V0)
theorem val8_main_arg23 (V0 : Valuation τ sig (Elt F)) : val8 V0 (no_index (Proc.devRef .tc main_arg23)) = V0 (Proc.devRef .tc main_arg23) :=
  (val8_keep V0 main_arg23 (by decide)).trans (val7_main_arg23 V0)
theorem val8_main_arg24 (V0 : Valuation τ sig (Elt F)) : val8 V0 (no_index (Proc.devRef .tc main_arg24)) = V0 (Proc.devRef .tc main_arg24) :=
  (val8_keep V0 main_arg24 (by decide)).trans (val7_main_arg24 V0)
theorem val8_main_arg25 (V0 : Valuation τ sig (Elt F)) : val8 V0 (no_index (Proc.devRef .tc main_arg25)) = V0 (Proc.devRef .tc main_arg25) :=
  (val8_keep V0 main_arg25 (by decide)).trans (val7_main_arg25 V0)
theorem val8_main_c (V0 : Valuation τ sig (Elt F)) : val8 V0 (no_index (Proc.devRef .tc main_c)) = (rowsT (F := F)) :=
  (val8_keep V0 main_c (by decide)).trans (val7_main_c V0)
theorem val8_main_c_0 (V0 : Valuation τ sig (Elt F)) : val8 V0 (no_index (Proc.devRef .tc main_c_0)) = (falseT (F := F)) :=
  (val8_keep V0 main_c_0 (by decide)).trans (val7_main_c_0 V0)
theorem val8_main_c_1 (V0 : Valuation τ sig (Elt F)) : val8 V0 (no_index (Proc.devRef .tc main_c_1)) = (colsT (F := F)) :=
  (val8_keep V0 main_c_1 (by decide)).trans (val7_main_c_1 V0)
theorem val8_main_c_2 (V0 : Valuation τ sig (Elt F)) : val8 V0 (no_index (Proc.devRef .tc main_c_2)) = (falseT (F := F)) :=
  (val8_keep V0 main_c_2 (by decide)).trans (val7_main_c_2 V0)
theorem val8_main_c_3 (V0 : Valuation τ sig (Elt F)) : val8 V0 (no_index (Proc.devRef .tc main_c_3)) = (falseT (F := F)) :=
  (val8_keep V0 main_c_3 (by decide)).trans (val7_main_c_3 V0)
theorem val8_main_c_4 (V0 : Valuation τ sig (Elt F)) : val8 V0 (no_index (Proc.devRef .tc main_c_4)) = (falseT (F := F)) :=
  (val8_keep V0 main_c_4 (by decide)).trans (val7_main_c_4 V0)
theorem val8_main_c_5 (V0 : Valuation τ sig (Elt F)) : val8 V0 (no_index (Proc.devRef .tc main_c_5)) = (rowsT (F := F)) :=
  (val8_keep V0 main_c_5 (by decide)).trans (val7_main_c_5 V0)
theorem val8_main_c_6 (V0 : Valuation τ sig (Elt F)) : val8 V0 (no_index (Proc.devRef .tc main_c_6)) = (falseT (F := F)) :=
  (val8_keep V0 main_c_6 (by decide)).trans (val7_main_c_6 V0)
theorem val8_main_c_7 (V0 : Valuation τ sig (Elt F)) : val8 V0 (no_index (Proc.devRef .tc main_c_7)) = (colsT (F := F)) :=
  (val8_keep V0 main_c_7 (by decide)).trans (val7_main_c_7 V0)
theorem val8_main_c_8 (V0 : Valuation τ sig (Elt F)) : val8 V0 (no_index (Proc.devRef .tc main_c_8)) = (falseT (F := F)) :=
  (val8_keep V0 main_c_8 (by decide)).trans (val7_main_c_8 V0)
theorem val8_main_c_9 (V0 : Valuation τ sig (Elt F)) : val8 V0 (no_index (Proc.devRef .tc main_c_9)) = (falseT (F := F)) :=
  (val8_keep V0 main_c_9 (by decide)).trans (val7_main_c_9 V0)
theorem val8_main_c_10 (V0 : Valuation τ sig (Elt F)) : val8 V0 (no_index (Proc.devRef .tc main_c_10)) = (falseT (F := F)) :=
  (val8_keep V0 main_c_10 (by decide)).trans (val7_main_c_10 V0)
theorem val8_main_v79 (V0 : Valuation τ sig (Elt F)) : val8 V0 (no_index (Proc.devRef .tc main_v79)) = (factors (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (xcat (V0 (Proc.devRef .tc main_arg0)) (V0 (Proc.devRef .tc main_arg1)))) :=
  (val8_keep V0 main_v79 (by decide)).trans (val7_main_v79 V0)
set_option maxRecDepth 8192 in
set_option maxHeartbeats 2000000 in
theorem val8_main_v145 (V0 : Valuation τ sig (Elt F)) : val8 V0 (no_index (Proc.devRef .tc main_v145)) = (layer2 (V0 (Proc.devRef .tc main_arg18)) (V0 (Proc.devRef .tc main_arg19)) (V0 (Proc.devRef .tc main_arg20)) (V0 (Proc.devRef .tc main_arg21)) (layer1 (V0 (Proc.devRef .tc main_arg14)) (V0 (Proc.devRef .tc main_arg15)) (V0 (Proc.devRef .tc main_arg16)) (V0 (Proc.devRef .tc main_arg17)) (xcat (V0 (Proc.devRef .tc main_arg0)) (V0 (Proc.devRef .tc main_arg1))))) := by
  unfold val8
  simp only [p9, p10]
  after_results_simp
  simp only [val7_main_arg21, val7_main_arg20, val7_main_arg19, val7_main_arg18, val7_main_v112] <;> rfl

/-- The buffers that operations 189 … 199 write. -/
abbrev st8_W : List (Ref sig .tc) := [main_v146, main_v147, main_v148, main_v149, main_cst_40, main_v150, main_v151, main_cst_41, main_v152, main_v153, main_v154]
set_option maxRecDepth 8192 in
theorem p11_writes : (p11 : List (HloOp τ sig (Elt F))).Forall fun op => op.writes ⊆ (st8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The device's buffer contents after @main's first 199 operations. -/
def val9 (V0 : Valuation τ sig (Elt F)) : Valuation τ sig (Elt F) := after p11 (val8 V0)
/-- A buffer those operations do not write keeps its contents through them. -/
theorem val9_keep (V0 : Valuation τ sig (Elt F)) (r : Ref sig .tc) (h : r ∉ st8_W) :
    val9 V0 (Proc.devRef .tc r) = val8 V0 (Proc.devRef .tc r) :=
  after_of_writes_sub p11 _ p11_writes h
theorem val9_main_arg0 (V0 : Valuation τ sig (Elt F)) : val9 V0 (no_index (Proc.devRef .tc main_arg0)) = V0 (Proc.devRef .tc main_arg0) :=
  (val9_keep V0 main_arg0 (by decide)).trans (val8_main_arg0 V0)
theorem val9_main_arg1 (V0 : Valuation τ sig (Elt F)) : val9 V0 (no_index (Proc.devRef .tc main_arg1)) = V0 (Proc.devRef .tc main_arg1) :=
  (val9_keep V0 main_arg1 (by decide)).trans (val8_main_arg1 V0)
theorem val9_main_arg2 (V0 : Valuation τ sig (Elt F)) : val9 V0 (no_index (Proc.devRef .tc main_arg2)) = V0 (Proc.devRef .tc main_arg2) :=
  (val9_keep V0 main_arg2 (by decide)).trans (val8_main_arg2 V0)
theorem val9_main_arg3 (V0 : Valuation τ sig (Elt F)) : val9 V0 (no_index (Proc.devRef .tc main_arg3)) = V0 (Proc.devRef .tc main_arg3) :=
  (val9_keep V0 main_arg3 (by decide)).trans (val8_main_arg3 V0)
theorem val9_main_arg4 (V0 : Valuation τ sig (Elt F)) : val9 V0 (no_index (Proc.devRef .tc main_arg4)) = V0 (Proc.devRef .tc main_arg4) :=
  (val9_keep V0 main_arg4 (by decide)).trans (val8_main_arg4 V0)
theorem val9_main_arg5 (V0 : Valuation τ sig (Elt F)) : val9 V0 (no_index (Proc.devRef .tc main_arg5)) = V0 (Proc.devRef .tc main_arg5) :=
  (val9_keep V0 main_arg5 (by decide)).trans (val8_main_arg5 V0)
theorem val9_main_arg6 (V0 : Valuation τ sig (Elt F)) : val9 V0 (no_index (Proc.devRef .tc main_arg6)) = V0 (Proc.devRef .tc main_arg6) :=
  (val9_keep V0 main_arg6 (by decide)).trans (val8_main_arg6 V0)
theorem val9_main_arg7 (V0 : Valuation τ sig (Elt F)) : val9 V0 (no_index (Proc.devRef .tc main_arg7)) = V0 (Proc.devRef .tc main_arg7) :=
  (val9_keep V0 main_arg7 (by decide)).trans (val8_main_arg7 V0)
theorem val9_main_arg8 (V0 : Valuation τ sig (Elt F)) : val9 V0 (no_index (Proc.devRef .tc main_arg8)) = V0 (Proc.devRef .tc main_arg8) :=
  (val9_keep V0 main_arg8 (by decide)).trans (val8_main_arg8 V0)
theorem val9_main_arg9 (V0 : Valuation τ sig (Elt F)) : val9 V0 (no_index (Proc.devRef .tc main_arg9)) = V0 (Proc.devRef .tc main_arg9) :=
  (val9_keep V0 main_arg9 (by decide)).trans (val8_main_arg9 V0)
theorem val9_main_arg10 (V0 : Valuation τ sig (Elt F)) : val9 V0 (no_index (Proc.devRef .tc main_arg10)) = V0 (Proc.devRef .tc main_arg10) :=
  (val9_keep V0 main_arg10 (by decide)).trans (val8_main_arg10 V0)
theorem val9_main_arg11 (V0 : Valuation τ sig (Elt F)) : val9 V0 (no_index (Proc.devRef .tc main_arg11)) = V0 (Proc.devRef .tc main_arg11) :=
  (val9_keep V0 main_arg11 (by decide)).trans (val8_main_arg11 V0)
theorem val9_main_arg12 (V0 : Valuation τ sig (Elt F)) : val9 V0 (no_index (Proc.devRef .tc main_arg12)) = V0 (Proc.devRef .tc main_arg12) :=
  (val9_keep V0 main_arg12 (by decide)).trans (val8_main_arg12 V0)
theorem val9_main_arg13 (V0 : Valuation τ sig (Elt F)) : val9 V0 (no_index (Proc.devRef .tc main_arg13)) = V0 (Proc.devRef .tc main_arg13) :=
  (val9_keep V0 main_arg13 (by decide)).trans (val8_main_arg13 V0)
theorem val9_main_arg14 (V0 : Valuation τ sig (Elt F)) : val9 V0 (no_index (Proc.devRef .tc main_arg14)) = V0 (Proc.devRef .tc main_arg14) :=
  (val9_keep V0 main_arg14 (by decide)).trans (val8_main_arg14 V0)
theorem val9_main_arg15 (V0 : Valuation τ sig (Elt F)) : val9 V0 (no_index (Proc.devRef .tc main_arg15)) = V0 (Proc.devRef .tc main_arg15) :=
  (val9_keep V0 main_arg15 (by decide)).trans (val8_main_arg15 V0)
theorem val9_main_arg16 (V0 : Valuation τ sig (Elt F)) : val9 V0 (no_index (Proc.devRef .tc main_arg16)) = V0 (Proc.devRef .tc main_arg16) :=
  (val9_keep V0 main_arg16 (by decide)).trans (val8_main_arg16 V0)
theorem val9_main_arg17 (V0 : Valuation τ sig (Elt F)) : val9 V0 (no_index (Proc.devRef .tc main_arg17)) = V0 (Proc.devRef .tc main_arg17) :=
  (val9_keep V0 main_arg17 (by decide)).trans (val8_main_arg17 V0)
theorem val9_main_arg18 (V0 : Valuation τ sig (Elt F)) : val9 V0 (no_index (Proc.devRef .tc main_arg18)) = V0 (Proc.devRef .tc main_arg18) :=
  (val9_keep V0 main_arg18 (by decide)).trans (val8_main_arg18 V0)
theorem val9_main_arg19 (V0 : Valuation τ sig (Elt F)) : val9 V0 (no_index (Proc.devRef .tc main_arg19)) = V0 (Proc.devRef .tc main_arg19) :=
  (val9_keep V0 main_arg19 (by decide)).trans (val8_main_arg19 V0)
theorem val9_main_arg20 (V0 : Valuation τ sig (Elt F)) : val9 V0 (no_index (Proc.devRef .tc main_arg20)) = V0 (Proc.devRef .tc main_arg20) :=
  (val9_keep V0 main_arg20 (by decide)).trans (val8_main_arg20 V0)
theorem val9_main_arg21 (V0 : Valuation τ sig (Elt F)) : val9 V0 (no_index (Proc.devRef .tc main_arg21)) = V0 (Proc.devRef .tc main_arg21) :=
  (val9_keep V0 main_arg21 (by decide)).trans (val8_main_arg21 V0)
theorem val9_main_arg22 (V0 : Valuation τ sig (Elt F)) : val9 V0 (no_index (Proc.devRef .tc main_arg22)) = V0 (Proc.devRef .tc main_arg22) :=
  (val9_keep V0 main_arg22 (by decide)).trans (val8_main_arg22 V0)
theorem val9_main_arg23 (V0 : Valuation τ sig (Elt F)) : val9 V0 (no_index (Proc.devRef .tc main_arg23)) = V0 (Proc.devRef .tc main_arg23) :=
  (val9_keep V0 main_arg23 (by decide)).trans (val8_main_arg23 V0)
theorem val9_main_arg24 (V0 : Valuation τ sig (Elt F)) : val9 V0 (no_index (Proc.devRef .tc main_arg24)) = V0 (Proc.devRef .tc main_arg24) :=
  (val9_keep V0 main_arg24 (by decide)).trans (val8_main_arg24 V0)
theorem val9_main_arg25 (V0 : Valuation τ sig (Elt F)) : val9 V0 (no_index (Proc.devRef .tc main_arg25)) = V0 (Proc.devRef .tc main_arg25) :=
  (val9_keep V0 main_arg25 (by decide)).trans (val8_main_arg25 V0)
theorem val9_main_c (V0 : Valuation τ sig (Elt F)) : val9 V0 (no_index (Proc.devRef .tc main_c)) = (rowsT (F := F)) :=
  (val9_keep V0 main_c (by decide)).trans (val8_main_c V0)
theorem val9_main_c_0 (V0 : Valuation τ sig (Elt F)) : val9 V0 (no_index (Proc.devRef .tc main_c_0)) = (falseT (F := F)) :=
  (val9_keep V0 main_c_0 (by decide)).trans (val8_main_c_0 V0)
theorem val9_main_c_1 (V0 : Valuation τ sig (Elt F)) : val9 V0 (no_index (Proc.devRef .tc main_c_1)) = (colsT (F := F)) :=
  (val9_keep V0 main_c_1 (by decide)).trans (val8_main_c_1 V0)
theorem val9_main_c_2 (V0 : Valuation τ sig (Elt F)) : val9 V0 (no_index (Proc.devRef .tc main_c_2)) = (falseT (F := F)) :=
  (val9_keep V0 main_c_2 (by decide)).trans (val8_main_c_2 V0)
theorem val9_main_c_3 (V0 : Valuation τ sig (Elt F)) : val9 V0 (no_index (Proc.devRef .tc main_c_3)) = (falseT (F := F)) :=
  (val9_keep V0 main_c_3 (by decide)).trans (val8_main_c_3 V0)
theorem val9_main_c_4 (V0 : Valuation τ sig (Elt F)) : val9 V0 (no_index (Proc.devRef .tc main_c_4)) = (falseT (F := F)) :=
  (val9_keep V0 main_c_4 (by decide)).trans (val8_main_c_4 V0)
theorem val9_main_c_5 (V0 : Valuation τ sig (Elt F)) : val9 V0 (no_index (Proc.devRef .tc main_c_5)) = (rowsT (F := F)) :=
  (val9_keep V0 main_c_5 (by decide)).trans (val8_main_c_5 V0)
theorem val9_main_c_6 (V0 : Valuation τ sig (Elt F)) : val9 V0 (no_index (Proc.devRef .tc main_c_6)) = (falseT (F := F)) :=
  (val9_keep V0 main_c_6 (by decide)).trans (val8_main_c_6 V0)
theorem val9_main_c_7 (V0 : Valuation τ sig (Elt F)) : val9 V0 (no_index (Proc.devRef .tc main_c_7)) = (colsT (F := F)) :=
  (val9_keep V0 main_c_7 (by decide)).trans (val8_main_c_7 V0)
theorem val9_main_c_8 (V0 : Valuation τ sig (Elt F)) : val9 V0 (no_index (Proc.devRef .tc main_c_8)) = (falseT (F := F)) :=
  (val9_keep V0 main_c_8 (by decide)).trans (val8_main_c_8 V0)
theorem val9_main_c_9 (V0 : Valuation τ sig (Elt F)) : val9 V0 (no_index (Proc.devRef .tc main_c_9)) = (falseT (F := F)) :=
  (val9_keep V0 main_c_9 (by decide)).trans (val8_main_c_9 V0)
theorem val9_main_c_10 (V0 : Valuation τ sig (Elt F)) : val9 V0 (no_index (Proc.devRef .tc main_c_10)) = (falseT (F := F)) :=
  (val9_keep V0 main_c_10 (by decide)).trans (val8_main_c_10 V0)
theorem val9_main_v79 (V0 : Valuation τ sig (Elt F)) : val9 V0 (no_index (Proc.devRef .tc main_v79)) = (factors (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (xcat (V0 (Proc.devRef .tc main_arg0)) (V0 (Proc.devRef .tc main_arg1)))) :=
  (val9_keep V0 main_v79 (by decide)).trans (val8_main_v79 V0)
set_option maxRecDepth 8192 in
set_option maxHeartbeats 1100000 in
theorem val9_main_v154 (V0 : Valuation τ sig (Elt F)) : val9 V0 (no_index (Proc.devRef .tc main_v154)) = (layer3 (V0 (Proc.devRef .tc main_arg22)) (V0 (Proc.devRef .tc main_arg23)) (layer2 (V0 (Proc.devRef .tc main_arg18)) (V0 (Proc.devRef .tc main_arg19)) (V0 (Proc.devRef .tc main_arg20)) (V0 (Proc.devRef .tc main_arg21)) (layer1 (V0 (Proc.devRef .tc main_arg14)) (V0 (Proc.devRef .tc main_arg15)) (V0 (Proc.devRef .tc main_arg16)) (V0 (Proc.devRef .tc main_arg17)) (xcat (V0 (Proc.devRef .tc main_arg0)) (V0 (Proc.devRef .tc main_arg1)))))) := by
  unfold val9
  simp only [p11]
  after_results_simp
  simp only [val8_main_arg23, val8_main_arg22, val8_main_v145] <;> rfl

/-- The buffers that operations 200 … 203 write. -/
abbrev st9_W : List (Ref sig .tc) := [main_v155, main_v156, main_v157, main_v158]
set_option maxRecDepth 8192 in
theorem p12_writes : (p12 : List (HloOp τ sig (Elt F))).Forall fun op => op.writes ⊆ (st9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The device's buffer contents after @main's first 203 operations. -/
def val10 (V0 : Valuation τ sig (Elt F)) : Valuation τ sig (Elt F) := after p12 (val9 V0)
/-- A buffer those operations do not write keeps its contents through them. -/
theorem val10_keep (V0 : Valuation τ sig (Elt F)) (r : Ref sig .tc) (h : r ∉ st9_W) :
    val10 V0 (Proc.devRef .tc r) = val9 V0 (Proc.devRef .tc r) :=
  after_of_writes_sub p12 _ p12_writes h
theorem val10_main_arg0 (V0 : Valuation τ sig (Elt F)) : val10 V0 (no_index (Proc.devRef .tc main_arg0)) = V0 (Proc.devRef .tc main_arg0) :=
  (val10_keep V0 main_arg0 (by decide)).trans (val9_main_arg0 V0)
theorem val10_main_arg1 (V0 : Valuation τ sig (Elt F)) : val10 V0 (no_index (Proc.devRef .tc main_arg1)) = V0 (Proc.devRef .tc main_arg1) :=
  (val10_keep V0 main_arg1 (by decide)).trans (val9_main_arg1 V0)
theorem val10_main_arg2 (V0 : Valuation τ sig (Elt F)) : val10 V0 (no_index (Proc.devRef .tc main_arg2)) = V0 (Proc.devRef .tc main_arg2) :=
  (val10_keep V0 main_arg2 (by decide)).trans (val9_main_arg2 V0)
theorem val10_main_arg3 (V0 : Valuation τ sig (Elt F)) : val10 V0 (no_index (Proc.devRef .tc main_arg3)) = V0 (Proc.devRef .tc main_arg3) :=
  (val10_keep V0 main_arg3 (by decide)).trans (val9_main_arg3 V0)
theorem val10_main_arg4 (V0 : Valuation τ sig (Elt F)) : val10 V0 (no_index (Proc.devRef .tc main_arg4)) = V0 (Proc.devRef .tc main_arg4) :=
  (val10_keep V0 main_arg4 (by decide)).trans (val9_main_arg4 V0)
theorem val10_main_arg5 (V0 : Valuation τ sig (Elt F)) : val10 V0 (no_index (Proc.devRef .tc main_arg5)) = V0 (Proc.devRef .tc main_arg5) :=
  (val10_keep V0 main_arg5 (by decide)).trans (val9_main_arg5 V0)
theorem val10_main_arg6 (V0 : Valuation τ sig (Elt F)) : val10 V0 (no_index (Proc.devRef .tc main_arg6)) = V0 (Proc.devRef .tc main_arg6) :=
  (val10_keep V0 main_arg6 (by decide)).trans (val9_main_arg6 V0)
theorem val10_main_arg7 (V0 : Valuation τ sig (Elt F)) : val10 V0 (no_index (Proc.devRef .tc main_arg7)) = V0 (Proc.devRef .tc main_arg7) :=
  (val10_keep V0 main_arg7 (by decide)).trans (val9_main_arg7 V0)
theorem val10_main_arg8 (V0 : Valuation τ sig (Elt F)) : val10 V0 (no_index (Proc.devRef .tc main_arg8)) = V0 (Proc.devRef .tc main_arg8) :=
  (val10_keep V0 main_arg8 (by decide)).trans (val9_main_arg8 V0)
theorem val10_main_arg9 (V0 : Valuation τ sig (Elt F)) : val10 V0 (no_index (Proc.devRef .tc main_arg9)) = V0 (Proc.devRef .tc main_arg9) :=
  (val10_keep V0 main_arg9 (by decide)).trans (val9_main_arg9 V0)
theorem val10_main_arg10 (V0 : Valuation τ sig (Elt F)) : val10 V0 (no_index (Proc.devRef .tc main_arg10)) = V0 (Proc.devRef .tc main_arg10) :=
  (val10_keep V0 main_arg10 (by decide)).trans (val9_main_arg10 V0)
theorem val10_main_arg11 (V0 : Valuation τ sig (Elt F)) : val10 V0 (no_index (Proc.devRef .tc main_arg11)) = V0 (Proc.devRef .tc main_arg11) :=
  (val10_keep V0 main_arg11 (by decide)).trans (val9_main_arg11 V0)
theorem val10_main_arg12 (V0 : Valuation τ sig (Elt F)) : val10 V0 (no_index (Proc.devRef .tc main_arg12)) = V0 (Proc.devRef .tc main_arg12) :=
  (val10_keep V0 main_arg12 (by decide)).trans (val9_main_arg12 V0)
theorem val10_main_arg13 (V0 : Valuation τ sig (Elt F)) : val10 V0 (no_index (Proc.devRef .tc main_arg13)) = V0 (Proc.devRef .tc main_arg13) :=
  (val10_keep V0 main_arg13 (by decide)).trans (val9_main_arg13 V0)
theorem val10_main_arg14 (V0 : Valuation τ sig (Elt F)) : val10 V0 (no_index (Proc.devRef .tc main_arg14)) = V0 (Proc.devRef .tc main_arg14) :=
  (val10_keep V0 main_arg14 (by decide)).trans (val9_main_arg14 V0)
theorem val10_main_arg15 (V0 : Valuation τ sig (Elt F)) : val10 V0 (no_index (Proc.devRef .tc main_arg15)) = V0 (Proc.devRef .tc main_arg15) :=
  (val10_keep V0 main_arg15 (by decide)).trans (val9_main_arg15 V0)
theorem val10_main_arg16 (V0 : Valuation τ sig (Elt F)) : val10 V0 (no_index (Proc.devRef .tc main_arg16)) = V0 (Proc.devRef .tc main_arg16) :=
  (val10_keep V0 main_arg16 (by decide)).trans (val9_main_arg16 V0)
theorem val10_main_arg17 (V0 : Valuation τ sig (Elt F)) : val10 V0 (no_index (Proc.devRef .tc main_arg17)) = V0 (Proc.devRef .tc main_arg17) :=
  (val10_keep V0 main_arg17 (by decide)).trans (val9_main_arg17 V0)
theorem val10_main_arg18 (V0 : Valuation τ sig (Elt F)) : val10 V0 (no_index (Proc.devRef .tc main_arg18)) = V0 (Proc.devRef .tc main_arg18) :=
  (val10_keep V0 main_arg18 (by decide)).trans (val9_main_arg18 V0)
theorem val10_main_arg19 (V0 : Valuation τ sig (Elt F)) : val10 V0 (no_index (Proc.devRef .tc main_arg19)) = V0 (Proc.devRef .tc main_arg19) :=
  (val10_keep V0 main_arg19 (by decide)).trans (val9_main_arg19 V0)
theorem val10_main_arg20 (V0 : Valuation τ sig (Elt F)) : val10 V0 (no_index (Proc.devRef .tc main_arg20)) = V0 (Proc.devRef .tc main_arg20) :=
  (val10_keep V0 main_arg20 (by decide)).trans (val9_main_arg20 V0)
theorem val10_main_arg21 (V0 : Valuation τ sig (Elt F)) : val10 V0 (no_index (Proc.devRef .tc main_arg21)) = V0 (Proc.devRef .tc main_arg21) :=
  (val10_keep V0 main_arg21 (by decide)).trans (val9_main_arg21 V0)
theorem val10_main_arg22 (V0 : Valuation τ sig (Elt F)) : val10 V0 (no_index (Proc.devRef .tc main_arg22)) = V0 (Proc.devRef .tc main_arg22) :=
  (val10_keep V0 main_arg22 (by decide)).trans (val9_main_arg22 V0)
theorem val10_main_arg23 (V0 : Valuation τ sig (Elt F)) : val10 V0 (no_index (Proc.devRef .tc main_arg23)) = V0 (Proc.devRef .tc main_arg23) :=
  (val10_keep V0 main_arg23 (by decide)).trans (val9_main_arg23 V0)
theorem val10_main_arg24 (V0 : Valuation τ sig (Elt F)) : val10 V0 (no_index (Proc.devRef .tc main_arg24)) = V0 (Proc.devRef .tc main_arg24) :=
  (val10_keep V0 main_arg24 (by decide)).trans (val9_main_arg24 V0)
theorem val10_main_arg25 (V0 : Valuation τ sig (Elt F)) : val10 V0 (no_index (Proc.devRef .tc main_arg25)) = V0 (Proc.devRef .tc main_arg25) :=
  (val10_keep V0 main_arg25 (by decide)).trans (val9_main_arg25 V0)
theorem val10_main_c (V0 : Valuation τ sig (Elt F)) : val10 V0 (no_index (Proc.devRef .tc main_c)) = (rowsT (F := F)) :=
  (val10_keep V0 main_c (by decide)).trans (val9_main_c V0)
theorem val10_main_c_0 (V0 : Valuation τ sig (Elt F)) : val10 V0 (no_index (Proc.devRef .tc main_c_0)) = (falseT (F := F)) :=
  (val10_keep V0 main_c_0 (by decide)).trans (val9_main_c_0 V0)
theorem val10_main_c_1 (V0 : Valuation τ sig (Elt F)) : val10 V0 (no_index (Proc.devRef .tc main_c_1)) = (colsT (F := F)) :=
  (val10_keep V0 main_c_1 (by decide)).trans (val9_main_c_1 V0)
theorem val10_main_c_2 (V0 : Valuation τ sig (Elt F)) : val10 V0 (no_index (Proc.devRef .tc main_c_2)) = (falseT (F := F)) :=
  (val10_keep V0 main_c_2 (by decide)).trans (val9_main_c_2 V0)
theorem val10_main_c_3 (V0 : Valuation τ sig (Elt F)) : val10 V0 (no_index (Proc.devRef .tc main_c_3)) = (falseT (F := F)) :=
  (val10_keep V0 main_c_3 (by decide)).trans (val9_main_c_3 V0)
theorem val10_main_c_4 (V0 : Valuation τ sig (Elt F)) : val10 V0 (no_index (Proc.devRef .tc main_c_4)) = (falseT (F := F)) :=
  (val10_keep V0 main_c_4 (by decide)).trans (val9_main_c_4 V0)
theorem val10_main_c_5 (V0 : Valuation τ sig (Elt F)) : val10 V0 (no_index (Proc.devRef .tc main_c_5)) = (rowsT (F := F)) :=
  (val10_keep V0 main_c_5 (by decide)).trans (val9_main_c_5 V0)
theorem val10_main_c_6 (V0 : Valuation τ sig (Elt F)) : val10 V0 (no_index (Proc.devRef .tc main_c_6)) = (falseT (F := F)) :=
  (val10_keep V0 main_c_6 (by decide)).trans (val9_main_c_6 V0)
theorem val10_main_c_7 (V0 : Valuation τ sig (Elt F)) : val10 V0 (no_index (Proc.devRef .tc main_c_7)) = (colsT (F := F)) :=
  (val10_keep V0 main_c_7 (by decide)).trans (val9_main_c_7 V0)
theorem val10_main_c_8 (V0 : Valuation τ sig (Elt F)) : val10 V0 (no_index (Proc.devRef .tc main_c_8)) = (falseT (F := F)) :=
  (val10_keep V0 main_c_8 (by decide)).trans (val9_main_c_8 V0)
theorem val10_main_c_9 (V0 : Valuation τ sig (Elt F)) : val10 V0 (no_index (Proc.devRef .tc main_c_9)) = (falseT (F := F)) :=
  (val10_keep V0 main_c_9 (by decide)).trans (val9_main_c_9 V0)
theorem val10_main_c_10 (V0 : Valuation τ sig (Elt F)) : val10 V0 (no_index (Proc.devRef .tc main_c_10)) = (falseT (F := F)) :=
  (val10_keep V0 main_c_10 (by decide)).trans (val9_main_c_10 V0)
theorem val10_main_v79 (V0 : Valuation τ sig (Elt F)) : val10 V0 (no_index (Proc.devRef .tc main_v79)) = (factors (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (xcat (V0 (Proc.devRef .tc main_arg0)) (V0 (Proc.devRef .tc main_arg1)))) :=
  (val10_keep V0 main_v79 (by decide)).trans (val9_main_v79 V0)
set_option maxRecDepth 8192 in
theorem val10_main_v158 (V0 : Valuation τ sig (Elt F)) : val10 V0 (no_index (Proc.devRef .tc main_v158)) = (factors (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (xcat (V0 (Proc.devRef .tc main_arg0)) (V0 (Proc.devRef .tc main_arg1)))) := by
  unfold val10
  simp only [p12]
  after_results_simp
  simp only [val9_main_arg25, val9_main_arg24, val9_main_v154] <;> rfl

/-- The buffers that operations 204 … 239 write. -/
abbrev st10_W : List (Ref sig .tc) := [main_v159, main_v160, main_v161, main_v162, main_cst_42, main_v163, main_c_43, main_v164, main_v165, main_c_44, main_v166, main_v167, main_v168, main_c_45, main_v169, main_v170, main_c_46, main_v171, main_v172, main_v173, main_v174, main_v175, main_v176, main_v177, main_c_47, main_v178, main_v179, main_v180, main_c_48, main_v181, main_v182, main_v183, main_v184, main_v185, main_v186, main_v187]
set_option maxRecDepth 8192 in
theorem p13_writes : (p13 : List (HloOp τ sig (Elt F))).Forall fun op => op.writes ⊆ (st10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The device's buffer contents after @main's first 239 operations. -/
def val11 (V0 : Valuation τ sig (Elt F)) : Valuation τ sig (Elt F) := after p13 (val10 V0)
/-- A buffer those operations do not write keeps its contents through them. -/
theorem val11_keep (V0 : Valuation τ sig (Elt F)) (r : Ref sig .tc) (h : r ∉ st10_W) :
    val11 V0 (Proc.devRef .tc r) = val10 V0 (Proc.devRef .tc r) :=
  after_of_writes_sub p13 _ p13_writes h
theorem val11_main_arg0 (V0 : Valuation τ sig (Elt F)) : val11 V0 (no_index (Proc.devRef .tc main_arg0)) = V0 (Proc.devRef .tc main_arg0) :=
  (val11_keep V0 main_arg0 (by decide)).trans (val10_main_arg0 V0)
theorem val11_main_arg1 (V0 : Valuation τ sig (Elt F)) : val11 V0 (no_index (Proc.devRef .tc main_arg1)) = V0 (Proc.devRef .tc main_arg1) :=
  (val11_keep V0 main_arg1 (by decide)).trans (val10_main_arg1 V0)
theorem val11_main_arg2 (V0 : Valuation τ sig (Elt F)) : val11 V0 (no_index (Proc.devRef .tc main_arg2)) = V0 (Proc.devRef .tc main_arg2) :=
  (val11_keep V0 main_arg2 (by decide)).trans (val10_main_arg2 V0)
theorem val11_main_arg3 (V0 : Valuation τ sig (Elt F)) : val11 V0 (no_index (Proc.devRef .tc main_arg3)) = V0 (Proc.devRef .tc main_arg3) :=
  (val11_keep V0 main_arg3 (by decide)).trans (val10_main_arg3 V0)
theorem val11_main_arg4 (V0 : Valuation τ sig (Elt F)) : val11 V0 (no_index (Proc.devRef .tc main_arg4)) = V0 (Proc.devRef .tc main_arg4) :=
  (val11_keep V0 main_arg4 (by decide)).trans (val10_main_arg4 V0)
theorem val11_main_arg5 (V0 : Valuation τ sig (Elt F)) : val11 V0 (no_index (Proc.devRef .tc main_arg5)) = V0 (Proc.devRef .tc main_arg5) :=
  (val11_keep V0 main_arg5 (by decide)).trans (val10_main_arg5 V0)
theorem val11_main_arg6 (V0 : Valuation τ sig (Elt F)) : val11 V0 (no_index (Proc.devRef .tc main_arg6)) = V0 (Proc.devRef .tc main_arg6) :=
  (val11_keep V0 main_arg6 (by decide)).trans (val10_main_arg6 V0)
theorem val11_main_arg7 (V0 : Valuation τ sig (Elt F)) : val11 V0 (no_index (Proc.devRef .tc main_arg7)) = V0 (Proc.devRef .tc main_arg7) :=
  (val11_keep V0 main_arg7 (by decide)).trans (val10_main_arg7 V0)
theorem val11_main_arg8 (V0 : Valuation τ sig (Elt F)) : val11 V0 (no_index (Proc.devRef .tc main_arg8)) = V0 (Proc.devRef .tc main_arg8) :=
  (val11_keep V0 main_arg8 (by decide)).trans (val10_main_arg8 V0)
theorem val11_main_arg9 (V0 : Valuation τ sig (Elt F)) : val11 V0 (no_index (Proc.devRef .tc main_arg9)) = V0 (Proc.devRef .tc main_arg9) :=
  (val11_keep V0 main_arg9 (by decide)).trans (val10_main_arg9 V0)
theorem val11_main_arg10 (V0 : Valuation τ sig (Elt F)) : val11 V0 (no_index (Proc.devRef .tc main_arg10)) = V0 (Proc.devRef .tc main_arg10) :=
  (val11_keep V0 main_arg10 (by decide)).trans (val10_main_arg10 V0)
theorem val11_main_arg11 (V0 : Valuation τ sig (Elt F)) : val11 V0 (no_index (Proc.devRef .tc main_arg11)) = V0 (Proc.devRef .tc main_arg11) :=
  (val11_keep V0 main_arg11 (by decide)).trans (val10_main_arg11 V0)
theorem val11_main_arg12 (V0 : Valuation τ sig (Elt F)) : val11 V0 (no_index (Proc.devRef .tc main_arg12)) = V0 (Proc.devRef .tc main_arg12) :=
  (val11_keep V0 main_arg12 (by decide)).trans (val10_main_arg12 V0)
theorem val11_main_arg13 (V0 : Valuation τ sig (Elt F)) : val11 V0 (no_index (Proc.devRef .tc main_arg13)) = V0 (Proc.devRef .tc main_arg13) :=
  (val11_keep V0 main_arg13 (by decide)).trans (val10_main_arg13 V0)
theorem val11_main_arg14 (V0 : Valuation τ sig (Elt F)) : val11 V0 (no_index (Proc.devRef .tc main_arg14)) = V0 (Proc.devRef .tc main_arg14) :=
  (val11_keep V0 main_arg14 (by decide)).trans (val10_main_arg14 V0)
theorem val11_main_arg15 (V0 : Valuation τ sig (Elt F)) : val11 V0 (no_index (Proc.devRef .tc main_arg15)) = V0 (Proc.devRef .tc main_arg15) :=
  (val11_keep V0 main_arg15 (by decide)).trans (val10_main_arg15 V0)
theorem val11_main_arg16 (V0 : Valuation τ sig (Elt F)) : val11 V0 (no_index (Proc.devRef .tc main_arg16)) = V0 (Proc.devRef .tc main_arg16) :=
  (val11_keep V0 main_arg16 (by decide)).trans (val10_main_arg16 V0)
theorem val11_main_arg17 (V0 : Valuation τ sig (Elt F)) : val11 V0 (no_index (Proc.devRef .tc main_arg17)) = V0 (Proc.devRef .tc main_arg17) :=
  (val11_keep V0 main_arg17 (by decide)).trans (val10_main_arg17 V0)
theorem val11_main_arg18 (V0 : Valuation τ sig (Elt F)) : val11 V0 (no_index (Proc.devRef .tc main_arg18)) = V0 (Proc.devRef .tc main_arg18) :=
  (val11_keep V0 main_arg18 (by decide)).trans (val10_main_arg18 V0)
theorem val11_main_arg19 (V0 : Valuation τ sig (Elt F)) : val11 V0 (no_index (Proc.devRef .tc main_arg19)) = V0 (Proc.devRef .tc main_arg19) :=
  (val11_keep V0 main_arg19 (by decide)).trans (val10_main_arg19 V0)
theorem val11_main_arg20 (V0 : Valuation τ sig (Elt F)) : val11 V0 (no_index (Proc.devRef .tc main_arg20)) = V0 (Proc.devRef .tc main_arg20) :=
  (val11_keep V0 main_arg20 (by decide)).trans (val10_main_arg20 V0)
theorem val11_main_arg21 (V0 : Valuation τ sig (Elt F)) : val11 V0 (no_index (Proc.devRef .tc main_arg21)) = V0 (Proc.devRef .tc main_arg21) :=
  (val11_keep V0 main_arg21 (by decide)).trans (val10_main_arg21 V0)
theorem val11_main_arg22 (V0 : Valuation τ sig (Elt F)) : val11 V0 (no_index (Proc.devRef .tc main_arg22)) = V0 (Proc.devRef .tc main_arg22) :=
  (val11_keep V0 main_arg22 (by decide)).trans (val10_main_arg22 V0)
theorem val11_main_arg23 (V0 : Valuation τ sig (Elt F)) : val11 V0 (no_index (Proc.devRef .tc main_arg23)) = V0 (Proc.devRef .tc main_arg23) :=
  (val11_keep V0 main_arg23 (by decide)).trans (val10_main_arg23 V0)
theorem val11_main_arg24 (V0 : Valuation τ sig (Elt F)) : val11 V0 (no_index (Proc.devRef .tc main_arg24)) = V0 (Proc.devRef .tc main_arg24) :=
  (val11_keep V0 main_arg24 (by decide)).trans (val10_main_arg24 V0)
theorem val11_main_arg25 (V0 : Valuation τ sig (Elt F)) : val11 V0 (no_index (Proc.devRef .tc main_arg25)) = V0 (Proc.devRef .tc main_arg25) :=
  (val11_keep V0 main_arg25 (by decide)).trans (val10_main_arg25 V0)
theorem val11_main_c (V0 : Valuation τ sig (Elt F)) : val11 V0 (no_index (Proc.devRef .tc main_c)) = (rowsT (F := F)) :=
  (val11_keep V0 main_c (by decide)).trans (val10_main_c V0)
theorem val11_main_c_1 (V0 : Valuation τ sig (Elt F)) : val11 V0 (no_index (Proc.devRef .tc main_c_1)) = (colsT (F := F)) :=
  (val11_keep V0 main_c_1 (by decide)).trans (val10_main_c_1 V0)
theorem val11_main_c_3 (V0 : Valuation τ sig (Elt F)) : val11 V0 (no_index (Proc.devRef .tc main_c_3)) = (falseT (F := F)) :=
  (val11_keep V0 main_c_3 (by decide)).trans (val10_main_c_3 V0)
theorem val11_main_c_4 (V0 : Valuation τ sig (Elt F)) : val11 V0 (no_index (Proc.devRef .tc main_c_4)) = (falseT (F := F)) :=
  (val11_keep V0 main_c_4 (by decide)).trans (val10_main_c_4 V0)
theorem val11_main_c_5 (V0 : Valuation τ sig (Elt F)) : val11 V0 (no_index (Proc.devRef .tc main_c_5)) = (rowsT (F := F)) :=
  (val11_keep V0 main_c_5 (by decide)).trans (val10_main_c_5 V0)
theorem val11_main_c_6 (V0 : Valuation τ sig (Elt F)) : val11 V0 (no_index (Proc.devRef .tc main_c_6)) = (falseT (F := F)) :=
  (val11_keep V0 main_c_6 (by decide)).trans (val10_main_c_6 V0)
theorem val11_main_c_7 (V0 : Valuation τ sig (Elt F)) : val11 V0 (no_index (Proc.devRef .tc main_c_7)) = (colsT (F := F)) :=
  (val11_keep V0 main_c_7 (by decide)).trans (val10_main_c_7 V0)
theorem val11_main_c_8 (V0 : Valuation τ sig (Elt F)) : val11 V0 (no_index (Proc.devRef .tc main_c_8)) = (falseT (F := F)) :=
  (val11_keep V0 main_c_8 (by decide)).trans (val10_main_c_8 V0)
theorem val11_main_c_9 (V0 : Valuation τ sig (Elt F)) : val11 V0 (no_index (Proc.devRef .tc main_c_9)) = (falseT (F := F)) :=
  (val11_keep V0 main_c_9 (by decide)).trans (val10_main_c_9 V0)
theorem val11_main_c_10 (V0 : Valuation τ sig (Elt F)) : val11 V0 (no_index (Proc.devRef .tc main_c_10)) = (falseT (F := F)) :=
  (val11_keep V0 main_c_10 (by decide)).trans (val10_main_c_10 V0)
theorem val11_main_v158 (V0 : Valuation τ sig (Elt F)) : val11 V0 (no_index (Proc.devRef .tc main_v158)) = (factors (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (xcat (V0 (Proc.devRef .tc main_arg0)) (V0 (Proc.devRef .tc main_arg1)))) :=
  (val11_keep V0 main_v158 (by decide)).trans (val10_main_v158 V0)
set_option maxRecDepth 8192 in
set_option maxHeartbeats 2000000 in
theorem val11_main_v161 (V0 : Valuation τ sig (Elt F)) : val11 V0 (no_index (Proc.devRef .tc main_v161)) = (slice78 (factors (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (xcat (V0 (Proc.devRef .tc main_arg0)) (V0 (Proc.devRef .tc main_arg1))))) := by
  unfold val11
  simp only [p13]
  after_results_simp
  simp only [val10_main_v79] <;> rfl
set_option maxRecDepth 8192 in
set_option maxHeartbeats 2000000 in
theorem val11_main_v187 (V0 : Valuation τ sig (Elt F)) : val11 V0 (no_index (Proc.devRef .tc main_v187)) = (buildReal (factors (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (xcat (V0 (Proc.devRef .tc main_arg0)) (V0 (Proc.devRef .tc main_arg1))))) := by
  unfold val11
  simp only [p13]
  after_results_simp
  simp only [val10_main_v79, val10_main_c_1, val10_main_c_2, val10_main_c, val10_main_c_0] <;> rfl

/-- The buffers that operations 240 … 253 write. -/
abbrev st11_W : List (Ref sig .tc) := [main_cst_49, main_v188, main_c_50, main_v189, main_v190, main_v191, main_c_51, main_v192, main_v193, main_v194, main_v195, main_v196, main_v197, main_v198]
set_option maxRecDepth 8192 in
theorem p14_writes : (p14 : List (HloOp τ sig (Elt F))).Forall fun op => op.writes ⊆ (st11_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
set_option maxRecDepth 8192 in
theorem p15_writes : (p15 : List (HloOp τ sig (Elt F))).Forall fun op => op.writes ⊆ (st11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The device's buffer contents after @main's first 253 operations. -/
def val12 (V0 : Valuation τ sig (Elt F)) : Valuation τ sig (Elt F) := after p15 (after p14 (val11 V0))
/-- A buffer those operations do not write keeps its contents through them. -/
theorem val12_keep (V0 : Valuation τ sig (Elt F)) (r : Ref sig .tc) (h : r ∉ st11_W) :
    val12 V0 (Proc.devRef .tc r) = val11 V0 (Proc.devRef .tc r) :=
  (after_of_writes_sub p15 _ p15_writes h).trans (after_of_writes_sub p14 _ p14_writes h)
theorem val12_main_arg0 (V0 : Valuation τ sig (Elt F)) : val12 V0 (no_index (Proc.devRef .tc main_arg0)) = V0 (Proc.devRef .tc main_arg0) :=
  (val12_keep V0 main_arg0 (by decide)).trans (val11_main_arg0 V0)
theorem val12_main_arg1 (V0 : Valuation τ sig (Elt F)) : val12 V0 (no_index (Proc.devRef .tc main_arg1)) = V0 (Proc.devRef .tc main_arg1) :=
  (val12_keep V0 main_arg1 (by decide)).trans (val11_main_arg1 V0)
theorem val12_main_arg2 (V0 : Valuation τ sig (Elt F)) : val12 V0 (no_index (Proc.devRef .tc main_arg2)) = V0 (Proc.devRef .tc main_arg2) :=
  (val12_keep V0 main_arg2 (by decide)).trans (val11_main_arg2 V0)
theorem val12_main_arg3 (V0 : Valuation τ sig (Elt F)) : val12 V0 (no_index (Proc.devRef .tc main_arg3)) = V0 (Proc.devRef .tc main_arg3) :=
  (val12_keep V0 main_arg3 (by decide)).trans (val11_main_arg3 V0)
theorem val12_main_arg4 (V0 : Valuation τ sig (Elt F)) : val12 V0 (no_index (Proc.devRef .tc main_arg4)) = V0 (Proc.devRef .tc main_arg4) :=
  (val12_keep V0 main_arg4 (by decide)).trans (val11_main_arg4 V0)
theorem val12_main_arg5 (V0 : Valuation τ sig (Elt F)) : val12 V0 (no_index (Proc.devRef .tc main_arg5)) = V0 (Proc.devRef .tc main_arg5) :=
  (val12_keep V0 main_arg5 (by decide)).trans (val11_main_arg5 V0)
theorem val12_main_arg6 (V0 : Valuation τ sig (Elt F)) : val12 V0 (no_index (Proc.devRef .tc main_arg6)) = V0 (Proc.devRef .tc main_arg6) :=
  (val12_keep V0 main_arg6 (by decide)).trans (val11_main_arg6 V0)
theorem val12_main_arg7 (V0 : Valuation τ sig (Elt F)) : val12 V0 (no_index (Proc.devRef .tc main_arg7)) = V0 (Proc.devRef .tc main_arg7) :=
  (val12_keep V0 main_arg7 (by decide)).trans (val11_main_arg7 V0)
theorem val12_main_arg8 (V0 : Valuation τ sig (Elt F)) : val12 V0 (no_index (Proc.devRef .tc main_arg8)) = V0 (Proc.devRef .tc main_arg8) :=
  (val12_keep V0 main_arg8 (by decide)).trans (val11_main_arg8 V0)
theorem val12_main_arg9 (V0 : Valuation τ sig (Elt F)) : val12 V0 (no_index (Proc.devRef .tc main_arg9)) = V0 (Proc.devRef .tc main_arg9) :=
  (val12_keep V0 main_arg9 (by decide)).trans (val11_main_arg9 V0)
theorem val12_main_arg10 (V0 : Valuation τ sig (Elt F)) : val12 V0 (no_index (Proc.devRef .tc main_arg10)) = V0 (Proc.devRef .tc main_arg10) :=
  (val12_keep V0 main_arg10 (by decide)).trans (val11_main_arg10 V0)
theorem val12_main_arg11 (V0 : Valuation τ sig (Elt F)) : val12 V0 (no_index (Proc.devRef .tc main_arg11)) = V0 (Proc.devRef .tc main_arg11) :=
  (val12_keep V0 main_arg11 (by decide)).trans (val11_main_arg11 V0)
theorem val12_main_arg12 (V0 : Valuation τ sig (Elt F)) : val12 V0 (no_index (Proc.devRef .tc main_arg12)) = V0 (Proc.devRef .tc main_arg12) :=
  (val12_keep V0 main_arg12 (by decide)).trans (val11_main_arg12 V0)
theorem val12_main_arg13 (V0 : Valuation τ sig (Elt F)) : val12 V0 (no_index (Proc.devRef .tc main_arg13)) = V0 (Proc.devRef .tc main_arg13) :=
  (val12_keep V0 main_arg13 (by decide)).trans (val11_main_arg13 V0)
theorem val12_main_arg14 (V0 : Valuation τ sig (Elt F)) : val12 V0 (no_index (Proc.devRef .tc main_arg14)) = V0 (Proc.devRef .tc main_arg14) :=
  (val12_keep V0 main_arg14 (by decide)).trans (val11_main_arg14 V0)
theorem val12_main_arg15 (V0 : Valuation τ sig (Elt F)) : val12 V0 (no_index (Proc.devRef .tc main_arg15)) = V0 (Proc.devRef .tc main_arg15) :=
  (val12_keep V0 main_arg15 (by decide)).trans (val11_main_arg15 V0)
theorem val12_main_arg16 (V0 : Valuation τ sig (Elt F)) : val12 V0 (no_index (Proc.devRef .tc main_arg16)) = V0 (Proc.devRef .tc main_arg16) :=
  (val12_keep V0 main_arg16 (by decide)).trans (val11_main_arg16 V0)
theorem val12_main_arg17 (V0 : Valuation τ sig (Elt F)) : val12 V0 (no_index (Proc.devRef .tc main_arg17)) = V0 (Proc.devRef .tc main_arg17) :=
  (val12_keep V0 main_arg17 (by decide)).trans (val11_main_arg17 V0)
theorem val12_main_arg18 (V0 : Valuation τ sig (Elt F)) : val12 V0 (no_index (Proc.devRef .tc main_arg18)) = V0 (Proc.devRef .tc main_arg18) :=
  (val12_keep V0 main_arg18 (by decide)).trans (val11_main_arg18 V0)
theorem val12_main_arg19 (V0 : Valuation τ sig (Elt F)) : val12 V0 (no_index (Proc.devRef .tc main_arg19)) = V0 (Proc.devRef .tc main_arg19) :=
  (val12_keep V0 main_arg19 (by decide)).trans (val11_main_arg19 V0)
theorem val12_main_arg20 (V0 : Valuation τ sig (Elt F)) : val12 V0 (no_index (Proc.devRef .tc main_arg20)) = V0 (Proc.devRef .tc main_arg20) :=
  (val12_keep V0 main_arg20 (by decide)).trans (val11_main_arg20 V0)
theorem val12_main_arg21 (V0 : Valuation τ sig (Elt F)) : val12 V0 (no_index (Proc.devRef .tc main_arg21)) = V0 (Proc.devRef .tc main_arg21) :=
  (val12_keep V0 main_arg21 (by decide)).trans (val11_main_arg21 V0)
theorem val12_main_arg22 (V0 : Valuation τ sig (Elt F)) : val12 V0 (no_index (Proc.devRef .tc main_arg22)) = V0 (Proc.devRef .tc main_arg22) :=
  (val12_keep V0 main_arg22 (by decide)).trans (val11_main_arg22 V0)
theorem val12_main_arg23 (V0 : Valuation τ sig (Elt F)) : val12 V0 (no_index (Proc.devRef .tc main_arg23)) = V0 (Proc.devRef .tc main_arg23) :=
  (val12_keep V0 main_arg23 (by decide)).trans (val11_main_arg23 V0)
theorem val12_main_arg24 (V0 : Valuation τ sig (Elt F)) : val12 V0 (no_index (Proc.devRef .tc main_arg24)) = V0 (Proc.devRef .tc main_arg24) :=
  (val12_keep V0 main_arg24 (by decide)).trans (val11_main_arg24 V0)
theorem val12_main_arg25 (V0 : Valuation τ sig (Elt F)) : val12 V0 (no_index (Proc.devRef .tc main_arg25)) = V0 (Proc.devRef .tc main_arg25) :=
  (val12_keep V0 main_arg25 (by decide)).trans (val11_main_arg25 V0)
theorem val12_main_c_5 (V0 : Valuation τ sig (Elt F)) : val12 V0 (no_index (Proc.devRef .tc main_c_5)) = (rowsT (F := F)) :=
  (val12_keep V0 main_c_5 (by decide)).trans (val11_main_c_5 V0)
theorem val12_main_c_6 (V0 : Valuation τ sig (Elt F)) : val12 V0 (no_index (Proc.devRef .tc main_c_6)) = (falseT (F := F)) :=
  (val12_keep V0 main_c_6 (by decide)).trans (val11_main_c_6 V0)
theorem val12_main_c_7 (V0 : Valuation τ sig (Elt F)) : val12 V0 (no_index (Proc.devRef .tc main_c_7)) = (colsT (F := F)) :=
  (val12_keep V0 main_c_7 (by decide)).trans (val11_main_c_7 V0)
theorem val12_main_c_8 (V0 : Valuation τ sig (Elt F)) : val12 V0 (no_index (Proc.devRef .tc main_c_8)) = (falseT (F := F)) :=
  (val12_keep V0 main_c_8 (by decide)).trans (val11_main_c_8 V0)
theorem val12_main_c_9 (V0 : Valuation τ sig (Elt F)) : val12 V0 (no_index (Proc.devRef .tc main_c_9)) = (falseT (F := F)) :=
  (val12_keep V0 main_c_9 (by decide)).trans (val11_main_c_9 V0)
theorem val12_main_c_10 (V0 : Valuation τ sig (Elt F)) : val12 V0 (no_index (Proc.devRef .tc main_c_10)) = (falseT (F := F)) :=
  (val12_keep V0 main_c_10 (by decide)).trans (val11_main_c_10 V0)
theorem val12_main_v158 (V0 : Valuation τ sig (Elt F)) : val12 V0 (no_index (Proc.devRef .tc main_v158)) = (factors (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (xcat (V0 (Proc.devRef .tc main_arg0)) (V0 (Proc.devRef .tc main_arg1)))) :=
  (val12_keep V0 main_v158 (by decide)).trans (val11_main_v158 V0)
theorem val12_main_v187 (V0 : Valuation τ sig (Elt F)) : val12 V0 (no_index (Proc.devRef .tc main_v187)) = (buildReal (factors (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (xcat (V0 (Proc.devRef .tc main_arg0)) (V0 (Proc.devRef .tc main_arg1))))) :=
  (val12_keep V0 main_v187 (by decide)).trans (val11_main_v187 V0)
set_option maxRecDepth 8192 in
set_option maxHeartbeats 1400000 in
theorem val12_main_v198 (V0 : Valuation τ sig (Elt F)) : val12 V0 (no_index (Proc.devRef .tc main_v198)) = (buildImag (factors (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (xcat (V0 (Proc.devRef .tc main_arg0)) (V0 (Proc.devRef .tc main_arg1))))) := by
  unfold val12
  simp only [p14, p15]
  after_results_simp
  simp only [val11_main_v161, val11_main_c_1, val11_main_c_4, val11_main_c, val11_main_c_3] <;> rfl

/-- The buffers that operations 254 … 289 write. -/
abbrev st12_W : List (Ref sig .tc) := [main_v199, main_v200, main_v201, main_v202, main_cst_52, main_v203, main_c_53, main_v204, main_v205, main_c_54, main_v206, main_v207, main_v208, main_c_55, main_v209, main_v210, main_c_56, main_v211, main_v212, main_v213, main_v214, main_v215, main_v216, main_v217, main_c_57, main_v218, main_v219, main_v220, main_c_58, main_v221, main_v222, main_v223, main_v224, main_v225, main_v226, main_v227]
set_option maxRecDepth 8192 in
theorem p16_writes : (p16 : List (HloOp τ sig (Elt F))).Forall fun op => op.writes ⊆ (st12_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The device's buffer contents after @main's first 289 operations. -/
def val13 (V0 : Valuation τ sig (Elt F)) : Valuation τ sig (Elt F) := after p16 (val12 V0)
/-- A buffer those operations do not write keeps its contents through them. -/
theorem val13_keep (V0 : Valuation τ sig (Elt F)) (r : Ref sig .tc) (h : r ∉ st12_W) :
    val13 V0 (Proc.devRef .tc r) = val12 V0 (Proc.devRef .tc r) :=
  after_of_writes_sub p16 _ p16_writes h
theorem val13_main_arg0 (V0 : Valuation τ sig (Elt F)) : val13 V0 (no_index (Proc.devRef .tc main_arg0)) = V0 (Proc.devRef .tc main_arg0) :=
  (val13_keep V0 main_arg0 (by decide)).trans (val12_main_arg0 V0)
theorem val13_main_arg1 (V0 : Valuation τ sig (Elt F)) : val13 V0 (no_index (Proc.devRef .tc main_arg1)) = V0 (Proc.devRef .tc main_arg1) :=
  (val13_keep V0 main_arg1 (by decide)).trans (val12_main_arg1 V0)
theorem val13_main_arg2 (V0 : Valuation τ sig (Elt F)) : val13 V0 (no_index (Proc.devRef .tc main_arg2)) = V0 (Proc.devRef .tc main_arg2) :=
  (val13_keep V0 main_arg2 (by decide)).trans (val12_main_arg2 V0)
theorem val13_main_arg3 (V0 : Valuation τ sig (Elt F)) : val13 V0 (no_index (Proc.devRef .tc main_arg3)) = V0 (Proc.devRef .tc main_arg3) :=
  (val13_keep V0 main_arg3 (by decide)).trans (val12_main_arg3 V0)
theorem val13_main_arg4 (V0 : Valuation τ sig (Elt F)) : val13 V0 (no_index (Proc.devRef .tc main_arg4)) = V0 (Proc.devRef .tc main_arg4) :=
  (val13_keep V0 main_arg4 (by decide)).trans (val12_main_arg4 V0)
theorem val13_main_arg5 (V0 : Valuation τ sig (Elt F)) : val13 V0 (no_index (Proc.devRef .tc main_arg5)) = V0 (Proc.devRef .tc main_arg5) :=
  (val13_keep V0 main_arg5 (by decide)).trans (val12_main_arg5 V0)
theorem val13_main_arg6 (V0 : Valuation τ sig (Elt F)) : val13 V0 (no_index (Proc.devRef .tc main_arg6)) = V0 (Proc.devRef .tc main_arg6) :=
  (val13_keep V0 main_arg6 (by decide)).trans (val12_main_arg6 V0)
theorem val13_main_arg7 (V0 : Valuation τ sig (Elt F)) : val13 V0 (no_index (Proc.devRef .tc main_arg7)) = V0 (Proc.devRef .tc main_arg7) :=
  (val13_keep V0 main_arg7 (by decide)).trans (val12_main_arg7 V0)
theorem val13_main_arg8 (V0 : Valuation τ sig (Elt F)) : val13 V0 (no_index (Proc.devRef .tc main_arg8)) = V0 (Proc.devRef .tc main_arg8) :=
  (val13_keep V0 main_arg8 (by decide)).trans (val12_main_arg8 V0)
theorem val13_main_arg9 (V0 : Valuation τ sig (Elt F)) : val13 V0 (no_index (Proc.devRef .tc main_arg9)) = V0 (Proc.devRef .tc main_arg9) :=
  (val13_keep V0 main_arg9 (by decide)).trans (val12_main_arg9 V0)
theorem val13_main_arg10 (V0 : Valuation τ sig (Elt F)) : val13 V0 (no_index (Proc.devRef .tc main_arg10)) = V0 (Proc.devRef .tc main_arg10) :=
  (val13_keep V0 main_arg10 (by decide)).trans (val12_main_arg10 V0)
theorem val13_main_arg11 (V0 : Valuation τ sig (Elt F)) : val13 V0 (no_index (Proc.devRef .tc main_arg11)) = V0 (Proc.devRef .tc main_arg11) :=
  (val13_keep V0 main_arg11 (by decide)).trans (val12_main_arg11 V0)
theorem val13_main_arg12 (V0 : Valuation τ sig (Elt F)) : val13 V0 (no_index (Proc.devRef .tc main_arg12)) = V0 (Proc.devRef .tc main_arg12) :=
  (val13_keep V0 main_arg12 (by decide)).trans (val12_main_arg12 V0)
theorem val13_main_arg13 (V0 : Valuation τ sig (Elt F)) : val13 V0 (no_index (Proc.devRef .tc main_arg13)) = V0 (Proc.devRef .tc main_arg13) :=
  (val13_keep V0 main_arg13 (by decide)).trans (val12_main_arg13 V0)
theorem val13_main_arg14 (V0 : Valuation τ sig (Elt F)) : val13 V0 (no_index (Proc.devRef .tc main_arg14)) = V0 (Proc.devRef .tc main_arg14) :=
  (val13_keep V0 main_arg14 (by decide)).trans (val12_main_arg14 V0)
theorem val13_main_arg15 (V0 : Valuation τ sig (Elt F)) : val13 V0 (no_index (Proc.devRef .tc main_arg15)) = V0 (Proc.devRef .tc main_arg15) :=
  (val13_keep V0 main_arg15 (by decide)).trans (val12_main_arg15 V0)
theorem val13_main_arg16 (V0 : Valuation τ sig (Elt F)) : val13 V0 (no_index (Proc.devRef .tc main_arg16)) = V0 (Proc.devRef .tc main_arg16) :=
  (val13_keep V0 main_arg16 (by decide)).trans (val12_main_arg16 V0)
theorem val13_main_arg17 (V0 : Valuation τ sig (Elt F)) : val13 V0 (no_index (Proc.devRef .tc main_arg17)) = V0 (Proc.devRef .tc main_arg17) :=
  (val13_keep V0 main_arg17 (by decide)).trans (val12_main_arg17 V0)
theorem val13_main_arg18 (V0 : Valuation τ sig (Elt F)) : val13 V0 (no_index (Proc.devRef .tc main_arg18)) = V0 (Proc.devRef .tc main_arg18) :=
  (val13_keep V0 main_arg18 (by decide)).trans (val12_main_arg18 V0)
theorem val13_main_arg19 (V0 : Valuation τ sig (Elt F)) : val13 V0 (no_index (Proc.devRef .tc main_arg19)) = V0 (Proc.devRef .tc main_arg19) :=
  (val13_keep V0 main_arg19 (by decide)).trans (val12_main_arg19 V0)
theorem val13_main_arg20 (V0 : Valuation τ sig (Elt F)) : val13 V0 (no_index (Proc.devRef .tc main_arg20)) = V0 (Proc.devRef .tc main_arg20) :=
  (val13_keep V0 main_arg20 (by decide)).trans (val12_main_arg20 V0)
theorem val13_main_arg21 (V0 : Valuation τ sig (Elt F)) : val13 V0 (no_index (Proc.devRef .tc main_arg21)) = V0 (Proc.devRef .tc main_arg21) :=
  (val13_keep V0 main_arg21 (by decide)).trans (val12_main_arg21 V0)
theorem val13_main_arg22 (V0 : Valuation τ sig (Elt F)) : val13 V0 (no_index (Proc.devRef .tc main_arg22)) = V0 (Proc.devRef .tc main_arg22) :=
  (val13_keep V0 main_arg22 (by decide)).trans (val12_main_arg22 V0)
theorem val13_main_arg23 (V0 : Valuation τ sig (Elt F)) : val13 V0 (no_index (Proc.devRef .tc main_arg23)) = V0 (Proc.devRef .tc main_arg23) :=
  (val13_keep V0 main_arg23 (by decide)).trans (val12_main_arg23 V0)
theorem val13_main_arg24 (V0 : Valuation τ sig (Elt F)) : val13 V0 (no_index (Proc.devRef .tc main_arg24)) = V0 (Proc.devRef .tc main_arg24) :=
  (val13_keep V0 main_arg24 (by decide)).trans (val12_main_arg24 V0)
theorem val13_main_arg25 (V0 : Valuation τ sig (Elt F)) : val13 V0 (no_index (Proc.devRef .tc main_arg25)) = V0 (Proc.devRef .tc main_arg25) :=
  (val13_keep V0 main_arg25 (by decide)).trans (val12_main_arg25 V0)
theorem val13_main_c_5 (V0 : Valuation τ sig (Elt F)) : val13 V0 (no_index (Proc.devRef .tc main_c_5)) = (rowsT (F := F)) :=
  (val13_keep V0 main_c_5 (by decide)).trans (val12_main_c_5 V0)
theorem val13_main_c_7 (V0 : Valuation τ sig (Elt F)) : val13 V0 (no_index (Proc.devRef .tc main_c_7)) = (colsT (F := F)) :=
  (val13_keep V0 main_c_7 (by decide)).trans (val12_main_c_7 V0)
theorem val13_main_c_9 (V0 : Valuation τ sig (Elt F)) : val13 V0 (no_index (Proc.devRef .tc main_c_9)) = (falseT (F := F)) :=
  (val13_keep V0 main_c_9 (by decide)).trans (val12_main_c_9 V0)
theorem val13_main_c_10 (V0 : Valuation τ sig (Elt F)) : val13 V0 (no_index (Proc.devRef .tc main_c_10)) = (falseT (F := F)) :=
  (val13_keep V0 main_c_10 (by decide)).trans (val12_main_c_10 V0)
theorem val13_main_v187 (V0 : Valuation τ sig (Elt F)) : val13 V0 (no_index (Proc.devRef .tc main_v187)) = (buildReal (factors (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (xcat (V0 (Proc.devRef .tc main_arg0)) (V0 (Proc.devRef .tc main_arg1))))) :=
  (val13_keep V0 main_v187 (by decide)).trans (val12_main_v187 V0)
theorem val13_main_v198 (V0 : Valuation τ sig (Elt F)) : val13 V0 (no_index (Proc.devRef .tc main_v198)) = (buildImag (factors (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (xcat (V0 (Proc.devRef .tc main_arg0)) (V0 (Proc.devRef .tc main_arg1))))) :=
  (val13_keep V0 main_v198 (by decide)).trans (val12_main_v198 V0)
set_option maxRecDepth 8192 in
set_option maxHeartbeats 2000000 in
theorem val13_main_v201 (V0 : Valuation τ sig (Elt F)) : val13 V0 (no_index (Proc.devRef .tc main_v201)) = (slice78 (factors (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (xcat (V0 (Proc.devRef .tc main_arg0)) (V0 (Proc.devRef .tc main_arg1))))) := by
  unfold val13
  simp only [p16]
  after_results_simp
  simp only [val12_main_v158] <;> rfl
set_option maxRecDepth 8192 in
set_option maxHeartbeats 2000000 in
theorem val13_main_v227 (V0 : Valuation τ sig (Elt F)) : val13 V0 (no_index (Proc.devRef .tc main_v227)) = (buildReal (factors (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (xcat (V0 (Proc.devRef .tc main_arg0)) (V0 (Proc.devRef .tc main_arg1))))) := by
  unfold val13
  simp only [p16]
  after_results_simp
  simp only [val12_main_v158, val12_main_c_7, val12_main_c_8, val12_main_c_5, val12_main_c_6] <;> rfl

/-- The buffers that operations 290 … 303 write. -/
abbrev st13_W : List (Ref sig .tc) := [main_cst_59, main_v228, main_c_60, main_v229, main_v230, main_v231, main_c_61, main_v232, main_v233, main_v234, main_v235, main_v236, main_v237, main_v238]
set_option maxRecDepth 8192 in
theorem p17_writes : (p17 : List (HloOp τ sig (Elt F))).Forall fun op => op.writes ⊆ (st13_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
set_option maxRecDepth 8192 in
theorem p18_writes : (p18 : List (HloOp τ sig (Elt F))).Forall fun op => op.writes ⊆ (st13_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The device's buffer contents after @main's first 303 operations. -/
def val14 (V0 : Valuation τ sig (Elt F)) : Valuation τ sig (Elt F) := after p18 (after p17 (val13 V0))
/-- A buffer those operations do not write keeps its contents through them. -/
theorem val14_keep (V0 : Valuation τ sig (Elt F)) (r : Ref sig .tc) (h : r ∉ st13_W) :
    val14 V0 (Proc.devRef .tc r) = val13 V0 (Proc.devRef .tc r) :=
  (after_of_writes_sub p18 _ p18_writes h).trans (after_of_writes_sub p17 _ p17_writes h)
theorem val14_main_arg0 (V0 : Valuation τ sig (Elt F)) : val14 V0 (no_index (Proc.devRef .tc main_arg0)) = V0 (Proc.devRef .tc main_arg0) :=
  (val14_keep V0 main_arg0 (by decide)).trans (val13_main_arg0 V0)
theorem val14_main_arg1 (V0 : Valuation τ sig (Elt F)) : val14 V0 (no_index (Proc.devRef .tc main_arg1)) = V0 (Proc.devRef .tc main_arg1) :=
  (val14_keep V0 main_arg1 (by decide)).trans (val13_main_arg1 V0)
theorem val14_main_arg2 (V0 : Valuation τ sig (Elt F)) : val14 V0 (no_index (Proc.devRef .tc main_arg2)) = V0 (Proc.devRef .tc main_arg2) :=
  (val14_keep V0 main_arg2 (by decide)).trans (val13_main_arg2 V0)
theorem val14_main_arg3 (V0 : Valuation τ sig (Elt F)) : val14 V0 (no_index (Proc.devRef .tc main_arg3)) = V0 (Proc.devRef .tc main_arg3) :=
  (val14_keep V0 main_arg3 (by decide)).trans (val13_main_arg3 V0)
theorem val14_main_arg4 (V0 : Valuation τ sig (Elt F)) : val14 V0 (no_index (Proc.devRef .tc main_arg4)) = V0 (Proc.devRef .tc main_arg4) :=
  (val14_keep V0 main_arg4 (by decide)).trans (val13_main_arg4 V0)
theorem val14_main_arg5 (V0 : Valuation τ sig (Elt F)) : val14 V0 (no_index (Proc.devRef .tc main_arg5)) = V0 (Proc.devRef .tc main_arg5) :=
  (val14_keep V0 main_arg5 (by decide)).trans (val13_main_arg5 V0)
theorem val14_main_arg6 (V0 : Valuation τ sig (Elt F)) : val14 V0 (no_index (Proc.devRef .tc main_arg6)) = V0 (Proc.devRef .tc main_arg6) :=
  (val14_keep V0 main_arg6 (by decide)).trans (val13_main_arg6 V0)
theorem val14_main_arg7 (V0 : Valuation τ sig (Elt F)) : val14 V0 (no_index (Proc.devRef .tc main_arg7)) = V0 (Proc.devRef .tc main_arg7) :=
  (val14_keep V0 main_arg7 (by decide)).trans (val13_main_arg7 V0)
theorem val14_main_arg8 (V0 : Valuation τ sig (Elt F)) : val14 V0 (no_index (Proc.devRef .tc main_arg8)) = V0 (Proc.devRef .tc main_arg8) :=
  (val14_keep V0 main_arg8 (by decide)).trans (val13_main_arg8 V0)
theorem val14_main_arg9 (V0 : Valuation τ sig (Elt F)) : val14 V0 (no_index (Proc.devRef .tc main_arg9)) = V0 (Proc.devRef .tc main_arg9) :=
  (val14_keep V0 main_arg9 (by decide)).trans (val13_main_arg9 V0)
theorem val14_main_arg10 (V0 : Valuation τ sig (Elt F)) : val14 V0 (no_index (Proc.devRef .tc main_arg10)) = V0 (Proc.devRef .tc main_arg10) :=
  (val14_keep V0 main_arg10 (by decide)).trans (val13_main_arg10 V0)
theorem val14_main_arg11 (V0 : Valuation τ sig (Elt F)) : val14 V0 (no_index (Proc.devRef .tc main_arg11)) = V0 (Proc.devRef .tc main_arg11) :=
  (val14_keep V0 main_arg11 (by decide)).trans (val13_main_arg11 V0)
theorem val14_main_arg12 (V0 : Valuation τ sig (Elt F)) : val14 V0 (no_index (Proc.devRef .tc main_arg12)) = V0 (Proc.devRef .tc main_arg12) :=
  (val14_keep V0 main_arg12 (by decide)).trans (val13_main_arg12 V0)
theorem val14_main_arg13 (V0 : Valuation τ sig (Elt F)) : val14 V0 (no_index (Proc.devRef .tc main_arg13)) = V0 (Proc.devRef .tc main_arg13) :=
  (val14_keep V0 main_arg13 (by decide)).trans (val13_main_arg13 V0)
theorem val14_main_arg14 (V0 : Valuation τ sig (Elt F)) : val14 V0 (no_index (Proc.devRef .tc main_arg14)) = V0 (Proc.devRef .tc main_arg14) :=
  (val14_keep V0 main_arg14 (by decide)).trans (val13_main_arg14 V0)
theorem val14_main_arg15 (V0 : Valuation τ sig (Elt F)) : val14 V0 (no_index (Proc.devRef .tc main_arg15)) = V0 (Proc.devRef .tc main_arg15) :=
  (val14_keep V0 main_arg15 (by decide)).trans (val13_main_arg15 V0)
theorem val14_main_arg16 (V0 : Valuation τ sig (Elt F)) : val14 V0 (no_index (Proc.devRef .tc main_arg16)) = V0 (Proc.devRef .tc main_arg16) :=
  (val14_keep V0 main_arg16 (by decide)).trans (val13_main_arg16 V0)
theorem val14_main_arg17 (V0 : Valuation τ sig (Elt F)) : val14 V0 (no_index (Proc.devRef .tc main_arg17)) = V0 (Proc.devRef .tc main_arg17) :=
  (val14_keep V0 main_arg17 (by decide)).trans (val13_main_arg17 V0)
theorem val14_main_arg18 (V0 : Valuation τ sig (Elt F)) : val14 V0 (no_index (Proc.devRef .tc main_arg18)) = V0 (Proc.devRef .tc main_arg18) :=
  (val14_keep V0 main_arg18 (by decide)).trans (val13_main_arg18 V0)
theorem val14_main_arg19 (V0 : Valuation τ sig (Elt F)) : val14 V0 (no_index (Proc.devRef .tc main_arg19)) = V0 (Proc.devRef .tc main_arg19) :=
  (val14_keep V0 main_arg19 (by decide)).trans (val13_main_arg19 V0)
theorem val14_main_arg20 (V0 : Valuation τ sig (Elt F)) : val14 V0 (no_index (Proc.devRef .tc main_arg20)) = V0 (Proc.devRef .tc main_arg20) :=
  (val14_keep V0 main_arg20 (by decide)).trans (val13_main_arg20 V0)
theorem val14_main_arg21 (V0 : Valuation τ sig (Elt F)) : val14 V0 (no_index (Proc.devRef .tc main_arg21)) = V0 (Proc.devRef .tc main_arg21) :=
  (val14_keep V0 main_arg21 (by decide)).trans (val13_main_arg21 V0)
theorem val14_main_arg22 (V0 : Valuation τ sig (Elt F)) : val14 V0 (no_index (Proc.devRef .tc main_arg22)) = V0 (Proc.devRef .tc main_arg22) :=
  (val14_keep V0 main_arg22 (by decide)).trans (val13_main_arg22 V0)
theorem val14_main_arg23 (V0 : Valuation τ sig (Elt F)) : val14 V0 (no_index (Proc.devRef .tc main_arg23)) = V0 (Proc.devRef .tc main_arg23) :=
  (val14_keep V0 main_arg23 (by decide)).trans (val13_main_arg23 V0)
theorem val14_main_arg24 (V0 : Valuation τ sig (Elt F)) : val14 V0 (no_index (Proc.devRef .tc main_arg24)) = V0 (Proc.devRef .tc main_arg24) :=
  (val14_keep V0 main_arg24 (by decide)).trans (val13_main_arg24 V0)
theorem val14_main_arg25 (V0 : Valuation τ sig (Elt F)) : val14 V0 (no_index (Proc.devRef .tc main_arg25)) = V0 (Proc.devRef .tc main_arg25) :=
  (val14_keep V0 main_arg25 (by decide)).trans (val13_main_arg25 V0)
theorem val14_main_v187 (V0 : Valuation τ sig (Elt F)) : val14 V0 (no_index (Proc.devRef .tc main_v187)) = (buildReal (factors (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (xcat (V0 (Proc.devRef .tc main_arg0)) (V0 (Proc.devRef .tc main_arg1))))) :=
  (val14_keep V0 main_v187 (by decide)).trans (val13_main_v187 V0)
theorem val14_main_v198 (V0 : Valuation τ sig (Elt F)) : val14 V0 (no_index (Proc.devRef .tc main_v198)) = (buildImag (factors (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (xcat (V0 (Proc.devRef .tc main_arg0)) (V0 (Proc.devRef .tc main_arg1))))) :=
  (val14_keep V0 main_v198 (by decide)).trans (val13_main_v198 V0)
theorem val14_main_v227 (V0 : Valuation τ sig (Elt F)) : val14 V0 (no_index (Proc.devRef .tc main_v227)) = (buildReal (factors (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (xcat (V0 (Proc.devRef .tc main_arg0)) (V0 (Proc.devRef .tc main_arg1))))) :=
  (val14_keep V0 main_v227 (by decide)).trans (val13_main_v227 V0)
set_option maxRecDepth 8192 in
set_option maxHeartbeats 1400000 in
theorem val14_main_v238 (V0 : Valuation τ sig (Elt F)) : val14 V0 (no_index (Proc.devRef .tc main_v238)) = (buildImag (factors (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (xcat (V0 (Proc.devRef .tc main_arg0)) (V0 (Proc.devRef .tc main_arg1))))) := by
  unfold val14
  simp only [p17, p18]
  after_results_simp
  simp only [val13_main_v201, val13_main_c_7, val13_main_c_10, val13_main_c_5, val13_main_c_9] <;> rfl

/-- The buffers that operations 304 … 308 write. -/
abbrev st14_W : List (Ref sig .tc) := [main_v239, main_v240, main_v241, main_v242, main_v243]
set_option maxRecDepth 8192 in
theorem p19_writes : (p19 : List (HloOp τ sig (Elt F))).Forall fun op => op.writes ⊆ (st14_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The device's buffer contents after @main's first 308 operations. -/
def val15 (V0 : Valuation τ sig (Elt F)) : Valuation τ sig (Elt F) := after p19 (val14 V0)
/-- A buffer those operations do not write keeps its contents through them. -/
theorem val15_keep (V0 : Valuation τ sig (Elt F)) (r : Ref sig .tc) (h : r ∉ st14_W) :
    val15 V0 (Proc.devRef .tc r) = val14 V0 (Proc.devRef .tc r) :=
  after_of_writes_sub p19 _ p19_writes h
theorem val15_main_arg0 (V0 : Valuation τ sig (Elt F)) : val15 V0 (no_index (Proc.devRef .tc main_arg0)) = V0 (Proc.devRef .tc main_arg0) :=
  (val15_keep V0 main_arg0 (by decide)).trans (val14_main_arg0 V0)
theorem val15_main_arg1 (V0 : Valuation τ sig (Elt F)) : val15 V0 (no_index (Proc.devRef .tc main_arg1)) = V0 (Proc.devRef .tc main_arg1) :=
  (val15_keep V0 main_arg1 (by decide)).trans (val14_main_arg1 V0)
theorem val15_main_arg2 (V0 : Valuation τ sig (Elt F)) : val15 V0 (no_index (Proc.devRef .tc main_arg2)) = V0 (Proc.devRef .tc main_arg2) :=
  (val15_keep V0 main_arg2 (by decide)).trans (val14_main_arg2 V0)
theorem val15_main_arg3 (V0 : Valuation τ sig (Elt F)) : val15 V0 (no_index (Proc.devRef .tc main_arg3)) = V0 (Proc.devRef .tc main_arg3) :=
  (val15_keep V0 main_arg3 (by decide)).trans (val14_main_arg3 V0)
theorem val15_main_arg4 (V0 : Valuation τ sig (Elt F)) : val15 V0 (no_index (Proc.devRef .tc main_arg4)) = V0 (Proc.devRef .tc main_arg4) :=
  (val15_keep V0 main_arg4 (by decide)).trans (val14_main_arg4 V0)
theorem val15_main_arg5 (V0 : Valuation τ sig (Elt F)) : val15 V0 (no_index (Proc.devRef .tc main_arg5)) = V0 (Proc.devRef .tc main_arg5) :=
  (val15_keep V0 main_arg5 (by decide)).trans (val14_main_arg5 V0)
theorem val15_main_arg6 (V0 : Valuation τ sig (Elt F)) : val15 V0 (no_index (Proc.devRef .tc main_arg6)) = V0 (Proc.devRef .tc main_arg6) :=
  (val15_keep V0 main_arg6 (by decide)).trans (val14_main_arg6 V0)
theorem val15_main_arg7 (V0 : Valuation τ sig (Elt F)) : val15 V0 (no_index (Proc.devRef .tc main_arg7)) = V0 (Proc.devRef .tc main_arg7) :=
  (val15_keep V0 main_arg7 (by decide)).trans (val14_main_arg7 V0)
theorem val15_main_arg8 (V0 : Valuation τ sig (Elt F)) : val15 V0 (no_index (Proc.devRef .tc main_arg8)) = V0 (Proc.devRef .tc main_arg8) :=
  (val15_keep V0 main_arg8 (by decide)).trans (val14_main_arg8 V0)
theorem val15_main_arg9 (V0 : Valuation τ sig (Elt F)) : val15 V0 (no_index (Proc.devRef .tc main_arg9)) = V0 (Proc.devRef .tc main_arg9) :=
  (val15_keep V0 main_arg9 (by decide)).trans (val14_main_arg9 V0)
theorem val15_main_arg10 (V0 : Valuation τ sig (Elt F)) : val15 V0 (no_index (Proc.devRef .tc main_arg10)) = V0 (Proc.devRef .tc main_arg10) :=
  (val15_keep V0 main_arg10 (by decide)).trans (val14_main_arg10 V0)
theorem val15_main_arg11 (V0 : Valuation τ sig (Elt F)) : val15 V0 (no_index (Proc.devRef .tc main_arg11)) = V0 (Proc.devRef .tc main_arg11) :=
  (val15_keep V0 main_arg11 (by decide)).trans (val14_main_arg11 V0)
theorem val15_main_arg12 (V0 : Valuation τ sig (Elt F)) : val15 V0 (no_index (Proc.devRef .tc main_arg12)) = V0 (Proc.devRef .tc main_arg12) :=
  (val15_keep V0 main_arg12 (by decide)).trans (val14_main_arg12 V0)
theorem val15_main_arg13 (V0 : Valuation τ sig (Elt F)) : val15 V0 (no_index (Proc.devRef .tc main_arg13)) = V0 (Proc.devRef .tc main_arg13) :=
  (val15_keep V0 main_arg13 (by decide)).trans (val14_main_arg13 V0)
theorem val15_main_arg14 (V0 : Valuation τ sig (Elt F)) : val15 V0 (no_index (Proc.devRef .tc main_arg14)) = V0 (Proc.devRef .tc main_arg14) :=
  (val15_keep V0 main_arg14 (by decide)).trans (val14_main_arg14 V0)
theorem val15_main_arg15 (V0 : Valuation τ sig (Elt F)) : val15 V0 (no_index (Proc.devRef .tc main_arg15)) = V0 (Proc.devRef .tc main_arg15) :=
  (val15_keep V0 main_arg15 (by decide)).trans (val14_main_arg15 V0)
theorem val15_main_arg16 (V0 : Valuation τ sig (Elt F)) : val15 V0 (no_index (Proc.devRef .tc main_arg16)) = V0 (Proc.devRef .tc main_arg16) :=
  (val15_keep V0 main_arg16 (by decide)).trans (val14_main_arg16 V0)
theorem val15_main_arg17 (V0 : Valuation τ sig (Elt F)) : val15 V0 (no_index (Proc.devRef .tc main_arg17)) = V0 (Proc.devRef .tc main_arg17) :=
  (val15_keep V0 main_arg17 (by decide)).trans (val14_main_arg17 V0)
theorem val15_main_arg18 (V0 : Valuation τ sig (Elt F)) : val15 V0 (no_index (Proc.devRef .tc main_arg18)) = V0 (Proc.devRef .tc main_arg18) :=
  (val15_keep V0 main_arg18 (by decide)).trans (val14_main_arg18 V0)
theorem val15_main_arg19 (V0 : Valuation τ sig (Elt F)) : val15 V0 (no_index (Proc.devRef .tc main_arg19)) = V0 (Proc.devRef .tc main_arg19) :=
  (val15_keep V0 main_arg19 (by decide)).trans (val14_main_arg19 V0)
theorem val15_main_arg20 (V0 : Valuation τ sig (Elt F)) : val15 V0 (no_index (Proc.devRef .tc main_arg20)) = V0 (Proc.devRef .tc main_arg20) :=
  (val15_keep V0 main_arg20 (by decide)).trans (val14_main_arg20 V0)
theorem val15_main_arg21 (V0 : Valuation τ sig (Elt F)) : val15 V0 (no_index (Proc.devRef .tc main_arg21)) = V0 (Proc.devRef .tc main_arg21) :=
  (val15_keep V0 main_arg21 (by decide)).trans (val14_main_arg21 V0)
theorem val15_main_arg22 (V0 : Valuation τ sig (Elt F)) : val15 V0 (no_index (Proc.devRef .tc main_arg22)) = V0 (Proc.devRef .tc main_arg22) :=
  (val15_keep V0 main_arg22 (by decide)).trans (val14_main_arg22 V0)
theorem val15_main_arg23 (V0 : Valuation τ sig (Elt F)) : val15 V0 (no_index (Proc.devRef .tc main_arg23)) = V0 (Proc.devRef .tc main_arg23) :=
  (val15_keep V0 main_arg23 (by decide)).trans (val14_main_arg23 V0)
theorem val15_main_arg24 (V0 : Valuation τ sig (Elt F)) : val15 V0 (no_index (Proc.devRef .tc main_arg24)) = V0 (Proc.devRef .tc main_arg24) :=
  (val15_keep V0 main_arg24 (by decide)).trans (val14_main_arg24 V0)
theorem val15_main_arg25 (V0 : Valuation τ sig (Elt F)) : val15 V0 (no_index (Proc.devRef .tc main_arg25)) = V0 (Proc.devRef .tc main_arg25) :=
  (val15_keep V0 main_arg25 (by decide)).trans (val14_main_arg25 V0)
set_option maxRecDepth 8192 in
theorem val15_main_v243 (V0 : Valuation τ sig (Elt F)) : val15 V0 (no_index (Proc.devRef .tc main_v243)) = result (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) := by
  unfold val15
  simp only [p19]
  after_results_simp
  dsimp only [Matrix.cons_val]
  show stackRows _ _ _ _ = _
  after_results_simp
  simp only [val14_main_v238, val14_main_v227, val14_main_v198, val14_main_v187] <;> rfl

/-- The whole fold is the last stage's contents. -/
theorem after_ops (V0 : Valuation τ sig (Elt F)) : after ops V0 = val15 V0 := by
  simp only [ops, after_app]
  rfl

/-! ## The run -/

/-- On every device, for any float values, from any memory with zero counters: every weakly fair execution of
    @main terminates with the result buffer at `result` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v243) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  (θ_run defs _ _).mono (fun _ h c => ⟨(h c main_v243).trans (by simp only [after_ops]; exact val15_main_v243 (launchContents m c)),
      (h c main_arg0).trans (by simp only [after_ops]; exact val15_main_arg0 (launchContents m c)),
      (h c main_arg1).trans (by simp only [after_ops]; exact val15_main_arg1 (launchContents m c)),
      (h c main_arg2).trans (by simp only [after_ops]; exact val15_main_arg2 (launchContents m c)),
      (h c main_arg3).trans (by simp only [after_ops]; exact val15_main_arg3 (launchContents m c)),
      (h c main_arg4).trans (by simp only [after_ops]; exact val15_main_arg4 (launchContents m c)),
      (h c main_arg5).trans (by simp only [after_ops]; exact val15_main_arg5 (launchContents m c)),
      (h c main_arg6).trans (by simp only [after_ops]; exact val15_main_arg6 (launchContents m c)),
      (h c main_arg7).trans (by simp only [after_ops]; exact val15_main_arg7 (launchContents m c)),
      (h c main_arg8).trans (by simp only [after_ops]; exact val15_main_arg8 (launchContents m c)),
      (h c main_arg9).trans (by simp only [after_ops]; exact val15_main_arg9 (launchContents m c)),
      (h c main_arg10).trans (by simp only [after_ops]; exact val15_main_arg10 (launchContents m c)),
      (h c main_arg11).trans (by simp only [after_ops]; exact val15_main_arg11 (launchContents m c)),
      (h c main_arg12).trans (by simp only [after_ops]; exact val15_main_arg12 (launchContents m c)),
      (h c main_arg13).trans (by simp only [after_ops]; exact val15_main_arg13 (launchContents m c)),
      (h c main_arg14).trans (by simp only [after_ops]; exact val15_main_arg14 (launchContents m c)),
      (h c main_arg15).trans (by simp only [after_ops]; exact val15_main_arg15 (launchContents m c)),
      (h c main_arg16).trans (by simp only [after_ops]; exact val15_main_arg16 (launchContents m c)),
      (h c main_arg17).trans (by simp only [after_ops]; exact val15_main_arg17 (launchContents m c)),
      (h c main_arg18).trans (by simp only [after_ops]; exact val15_main_arg18 (launchContents m c)),
      (h c main_arg19).trans (by simp only [after_ops]; exact val15_main_arg19 (launchContents m c)),
      (h c main_arg20).trans (by simp only [after_ops]; exact val15_main_arg20 (launchContents m c)),
      (h c main_arg21).trans (by simp only [after_ops]; exact val15_main_arg21 (launchContents m c)),
      (h c main_arg22).trans (by simp only [after_ops]; exact val15_main_arg22 (launchContents m c)),
      (h c main_arg23).trans (by simp only [after_ops]; exact val15_main_arg23 (launchContents m c)),
      (h c main_arg24).trans (by simp only [after_ops]; exact val15_main_arg24 (launchContents m c)),
      (h c main_arg25).trans (by simp only [after_ops]; exact val15_main_arg25 (launchContents m c))⟩)
    (run_seq scopedRefs_eq scopedSems_eq defs main (fun _ => ops) main_eq (fun _ => ops_sub) m ρ (fun _ => ops_fresh))

end Cert.ReferenceIdeal.HandRun

end
-- ==== Proof.RefRows.lean ====
/- The reference's network, read row by row.

   Every operation of the four-layer network acts on each of the 262144 rows separately: a matrix product at (r, j)
   is the sum over k of x(r, k) · w(k, j); a bias, gain or offset vector broadcast over the rows reads its own
   coordinate; a column of per-row numbers broadcast across the features reads its row's number; the sum along the
   feature axis at row r is the sum of row r; dividing, the reciprocal square root, comparing with zero and selecting
   are pointwise. So each stage of the reference's result, read at row r, is the corresponding layer of the
   row-by-row specification applied to row r of its input, and the network's 144 outputs at row r are the
   specification's of row r of the concatenated input. Over the extended reals. -/
import proofs.«138334_j60430189854928_2_alg».proof.Proof.RefRunOps
import proofs.«138334_j60430189854928_2_alg».proof.Proof.Mlp
import Idealize.ShloMosaic.PureOps.Ideal.Laws
import Idealize.ShloMosaic.Lib.ValueIdx
import Idealize.ShloMosaic.Lib.Pipeline.Value

noncomputable section

namespace Cert.ReferenceIdeal.Rows

open Idealize.ShloMosaic Idealize.ShloMosaic.ValueIdx Cert.ReferenceIdeal Cert.ReferenceIdeal.Gen
open scoped BigOperators

/-! ## Broadcasts read at an index -/

section Broadcasts
variable {α : Type}

/-- A vector [b] laid as the one row of a [1, b] array reads its coordinate. -/
theorem bc_vec_row {b : ℕ} (v : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ (![1] : Fin 1 → Fin 2) h v (ix2 u j) = v (ix1 j) := by
  refine broadcastInDim_apply _ h v (ix2 u j) (ix1 j) fun ax => ?_
  match ax with
  | ⟨0, _⟩ =>
    show j.val = if b = 1 then 0 else j.val
    split
    · have := j.isLt; omega
    · rfl

/-- The one row of a [1, b] array repeated down a rows reads that row. -/
theorem bc_row_rows {a b : ℕ} (w : (⟨2, ![1, b]⟩ : Shape).Idx → α)
    (h : (⟨2, ![1, b]⟩ : Shape).BroadcastsInDim ⟨2, ![a, b]⟩ (![0, 1] : Fin 2 → Fin 2)) (r : Fin a) (j : Fin b) :
    broadcastInDim ⟨2, ![a, b]⟩ (![0, 1] : Fin 2 → Fin 2) h w (ix2 r j) = w (ix2 (0 : Fin 1) j) := by
  refine broadcastInDim_apply _ h w (ix2 r j) (ix2 (0 : Fin 1) j) fun ax => ?_
  match ax with
  | ⟨0, _⟩ => rfl
  | ⟨1, _⟩ =>
    show j.val = if b = 1 then 0 else j.val
    split
    · have := j.isLt; omega
    · rfl

/-- A column [a, 1] repeated across b columns reads its row's entry. -/
theorem bc_col_cols {a b : ℕ} (c : (⟨2, ![a, 1]⟩ : Shape).Idx → α)
    (h : (⟨2, ![a, 1]⟩ : Shape).BroadcastsInDim ⟨2, ![a, b]⟩ (![0, 1] : Fin 2 → Fin 2)) (r : Fin a) (j : Fin b) :
    broadcastInDim ⟨2, ![a, b]⟩ (![0, 1] : Fin 2 → Fin 2) h c (ix2 r j) = c (ix2 r (0 : Fin 1)) := by
  refine broadcastInDim_apply _ h c (ix2 r j) (ix2 r (0 : Fin 1)) fun ax => ?_
  match ax with
  | ⟨0, _⟩ =>
    show r.val = if a = 1 then 0 else r.val
    split
    · have := r.isLt; omega
    · rfl
  | ⟨1, _⟩ => rfl

/-- A vector [a] as a column [a, 1] reads its coordinate. -/
theorem bc_vec_col {a : ℕ} (v : (⟨1, ![a]⟩ : Shape).Idx → α)
    (h : (⟨1, ![a]⟩ : Shape).BroadcastsInDim ⟨2, ![a, 1]⟩ (![0] : Fin 1 → Fin 2)) (r : Fin a) (u : Fin 1) :
    broadcastInDim ⟨2, ![a, 1]⟩ (![0] : Fin 1 → Fin 2) h v (ix2 r u) = v (ix1 r) := by
  refine broadcastInDim_apply _ h v (ix2 r u) (ix1 r) fun ax => ?_
  match ax with
  | ⟨0, _⟩ =>
    show r.val = if a = 1 then 0 else r.val
    split
    · have := r.isLt; omega
    · rfl

/-- A scalar broadcast to a rank-two shape reads the scalar. -/
theorem bc_scalar {a b : ℕ} (x : (⟨0, ![]⟩ : Shape).Idx → α)
    (h : (⟨0, ![]⟩ : Shape).BroadcastsInDim ⟨2, ![a, b]⟩ (![] : Fin 0 → Fin 2)) (j : (⟨2, ![a, b]⟩ : Shape).Idx) :
    broadcastInDim ⟨2, ![a, b]⟩ (![] : Fin 0 → Fin 2) h x j = x ix0 :=
  broadcastInDim_apply _ h x j ix0 fun ax => ax.elim0

end Broadcasts

/-! ## Pointwise host operations and the row sum -/

theorem hdivf_apply {s : Shape} (x y : s.Idx → EReal) (i : s.Idx) :
    Host.divf (F := Ideal) (φ := .f32) x y i = Ideal.div (x i) (y i) := rfl

theorem hrsqrt_apply {s : Shape} (x : s.Idx → EReal) (i : s.Idx) :
    Host.rsqrt (F := Ideal) (φ := .f32) x i = Ideal.rsqrt (x i) := rfl

/-- The host's sum along the feature axis of a [262144, 128] array from the zero word, at row r: the row's sum. -/
theorem rowSum_apply (x : S262144x128.Idx → EReal) (r : Fin 262144) :
    Host.reduceAdd (F := Ideal) (φ := .f32) x (constant S_ .f32 0x00000000#32) reducesTo_S262144x128_S262144_d1 h_S_ (ix1 r)
      = ∑ l : Fin 128, x (ix2 r l) := by
  show Ideal.hostReduceAdd reducesTo_S262144x128_S262144_d1 x (Ideal.ofBits .f32 0x00000000#32) (ix1 r) = _
  rw [Ideal.hostReduceAdd_single reducesTo_S262144x128_S262144_d1 (by decide : S262144x128.Reduces [1] S262144),
    Ideal.ofBits_zero_f32, zero_add]
  refine Finset.sum_congr rfl fun l _ => congrArg x (funext fun ax => Fin.ext ?_)
  match ax with
  | ⟨0, _⟩ => rfl
  | ⟨1, _⟩ => rfl

/-- Comparing with zero and selecting between z and 0.1·z is the leaky rectifier. -/
theorem select_leaky (z : EReal) :
    Scalar.select (FloatOps.cmpf (F := Ideal) (φ := .f32) .oge z (Ideal.ofBits .f32 0x00000000#32)) z
      (Ideal.ofBits .f32 0x3DCCCCCD#32 * z) = Mlp.leaky z := by
  unfold Mlp.leaky
  show Scalar.select (Ideal.cmp .oge z (Ideal.ofBits .f32 0x00000000#32)) z (Mlp.slope * z) = _
  rw [Ideal.ofBits_zero_f32]
  unfold Ideal.cmp
  by_cases h : (0 : EReal) ≤ z
  · simp [h, Scalar.select]
  · simp [h, Scalar.select]

/-! ## The four matrix products at an index -/

theorem lhs0_a (i : S262144x128.Idx) (q : dot_S262144x24_S24x128_S262144x128_1_0_0_1_n_n.contr.Idx) : (dot_S262144x24_S24x128_S262144x128_1_0_0_1_n_n.lhsIdx i q 0).val = (i 0).val := by
  unfold DotDims.lhsIdx
  rw [dif_neg (show ¬(0 : Fin S262144x24.rank) ∈ dot_S262144x24_S24x128_S262144x128_1_0_0_1_n_n.lhsBatch by decide), dif_pos (show (0 : Fin S262144x24.rank) ∈ dot_S262144x24_S24x128_S262144x128_1_0_0_1_n_n.lhsNonContracting by decide)]
  rfl
theorem lhs1_a (i : S262144x128.Idx) (q : dot_S262144x24_S24x128_S262144x128_1_0_0_1_n_n.contr.Idx) : (dot_S262144x24_S24x128_S262144x128_1_0_0_1_n_n.lhsIdx i q 1).val = (q ⟨0, by decide⟩).val :=
  dot_S262144x24_S24x128_S262144x128_1_0_0_1_n_n.lhsIdx_val_of_single rfl i q
theorem rhs0_a (i : S262144x128.Idx) (q : dot_S262144x24_S24x128_S262144x128_1_0_0_1_n_n.contr.Idx) : (dot_S262144x24_S24x128_S262144x128_1_0_0_1_n_n.rhsIdx i q 0).val = (q ⟨0, by decide⟩).val :=
  dot_S262144x24_S24x128_S262144x128_1_0_0_1_n_n.rhsIdx_val_of_single rfl i q
theorem rhs1_a (i : S262144x128.Idx) (q : dot_S262144x24_S24x128_S262144x128_1_0_0_1_n_n.contr.Idx) : (dot_S262144x24_S24x128_S262144x128_1_0_0_1_n_n.rhsIdx i q 1).val = (i 1).val := by
  unfold DotDims.rhsIdx
  rw [dif_neg (show ¬(1 : Fin S24x128.rank) ∈ dot_S262144x24_S24x128_S262144x128_1_0_0_1_n_n.rhsBatch by decide), dif_pos (show (1 : Fin S24x128.rank) ∈ dot_S262144x24_S24x128_S262144x128_1_0_0_1_n_n.rhsNonContracting by decide)]
  rfl
/-- The contraction of a [262144, 24] by a [24, 128] array, read at (r, j): the sum over k of the products. -/
theorem contract_a (x : S262144x24.Idx → EReal) (w : S24x128.Idx → EReal) (r : Fin 262144) (j : Fin 128) :
    ∑ q : dot_S262144x24_S24x128_S262144x128_1_0_0_1_n_n.contr.Idx, x (dot_S262144x24_S24x128_S262144x128_1_0_0_1_n_n.lhsIdx (ix2 r j) q) * w (dot_S262144x24_S24x128_S262144x128_1_0_0_1_n_n.rhsIdx (ix2 r j) q) = ∑ k : Fin 24, x (ix2 r k) * w (ix2 k j) := by
  rw [← Equiv.sum_comp (ValueIdx.contrEquiv1 dot_S262144x24_S24x128_S262144x128_1_0_0_1_n_n 24 rfl rfl).symm]
  refine Finset.sum_congr rfl fun k _ => ?_
  have hk := ValueIdx.contrEquiv1_symm_val dot_S262144x24_S24x128_S262144x128_1_0_0_1_n_n 24 rfl rfl k
  have el : dot_S262144x24_S24x128_S262144x128_1_0_0_1_n_n.lhsIdx (ix2 r j) ((ValueIdx.contrEquiv1 dot_S262144x24_S24x128_S262144x128_1_0_0_1_n_n 24 rfl rfl).symm k) = ix2 r k := funext fun a => Fin.ext (by
    match a with
    | ⟨0, _⟩ => exact lhs0_a _ _
    | ⟨1, _⟩ => exact (lhs1_a _ _).trans hk)
  have er : dot_S262144x24_S24x128_S262144x128_1_0_0_1_n_n.rhsIdx (ix2 r j) ((ValueIdx.contrEquiv1 dot_S262144x24_S24x128_S262144x128_1_0_0_1_n_n 24 rfl rfl).symm k) = ix2 k j := funext fun a => Fin.ext (by
    match a with
    | ⟨0, _⟩ => exact (rhs0_a _ _).trans hk
    | ⟨1, _⟩ => exact rhs1_a _ _)
  rw [el, er]
/-- The host's matrix product of a [262144, 24] by a [24, 128] array at (r, j). -/
theorem dot_a (x : S262144x24.Idx → EReal) (w : S24x128.Idx → EReal) (r : Fin 262144) (j : Fin 128) :
    Host.dotGeneral (F := Ideal) (φ₁ := .f32) (φ₂ := .f32) dot_S262144x24_S24x128_S262144x128_1_0_0_1_n_n none x w (ix2 r j) = ∑ k : Fin 24, x (ix2 r k) * w (ix2 k j) := by
  show FloatOps.dotGeneral (F := Ideal) (φ₁ := .f32) (φ₂ := .f32) dot_S262144x24_S24x128_S262144x128_1_0_0_1_n_n none .single x w (ix2 r j) = _
  rw [Ideal.dotGeneral_apply]
  exact contract_a x w r j

theorem lhs0_b (i : S262144x128.Idx) (q : dot_S262144x128_S128x128_S262144x128_1_0_0_1_n_n.contr.Idx) : (dot_S262144x128_S128x128_S262144x128_1_0_0_1_n_n.lhsIdx i q 0).val = (i 0).val := by
  unfold DotDims.lhsIdx
  rw [dif_neg (show ¬(0 : Fin S262144x128.rank) ∈ dot_S262144x128_S128x128_S262144x128_1_0_0_1_n_n.lhsBatch by decide), dif_pos (show (0 : Fin S262144x128.rank) ∈ dot_S262144x128_S128x128_S262144x128_1_0_0_1_n_n.lhsNonContracting by decide)]
  rfl
theorem lhs1_b (i : S262144x128.Idx) (q : dot_S262144x128_S128x128_S262144x128_1_0_0_1_n_n.contr.Idx) : (dot_S262144x128_S128x128_S262144x128_1_0_0_1_n_n.lhsIdx i q 1).val = (q ⟨0, by decide⟩).val :=
  dot_S262144x128_S128x128_S262144x128_1_0_0_1_n_n.lhsIdx_val_of_single rfl i q
theorem rhs0_b (i : S262144x128.Idx) (q : dot_S262144x128_S128x128_S262144x128_1_0_0_1_n_n.contr.Idx) : (dot_S262144x128_S128x128_S262144x128_1_0_0_1_n_n.rhsIdx i q 0).val = (q ⟨0, by decide⟩).val :=
  dot_S262144x128_S128x128_S262144x128_1_0_0_1_n_n.rhsIdx_val_of_single rfl i q
theorem rhs1_b (i : S262144x128.Idx) (q : dot_S262144x128_S128x128_S262144x128_1_0_0_1_n_n.contr.Idx) : (dot_S262144x128_S128x128_S262144x128_1_0_0_1_n_n.rhsIdx i q 1).val = (i 1).val := by
  unfold DotDims.rhsIdx
  rw [dif_neg (show ¬(1 : Fin S128x128.rank) ∈ dot_S262144x128_S128x128_S262144x128_1_0_0_1_n_n.rhsBatch by decide), dif_pos (show (1 : Fin S128x128.rank) ∈ dot_S262144x128_S128x128_S262144x128_1_0_0_1_n_n.rhsNonContracting by decide)]
  rfl
/-- The contraction of a [262144, 128] by a [128, 128] array, read at (r, j): the sum over k of the products. -/
theorem contract_b (x : S262144x128.Idx → EReal) (w : S128x128.Idx → EReal) (r : Fin 262144) (j : Fin 128) :
    ∑ q : dot_S262144x128_S128x128_S262144x128_1_0_0_1_n_n.contr.Idx, x (dot_S262144x128_S128x128_S262144x128_1_0_0_1_n_n.lhsIdx (ix2 r j) q) * w (dot_S262144x128_S128x128_S262144x128_1_0_0_1_n_n.rhsIdx (ix2 r j) q) = ∑ k : Fin 128, x (ix2 r k) * w (ix2 k j) := by
  rw [← Equiv.sum_comp (ValueIdx.contrEquiv1 dot_S262144x128_S128x128_S262144x128_1_0_0_1_n_n 128 rfl rfl).symm]
  refine Finset.sum_congr rfl fun k _ => ?_
  have hk := ValueIdx.contrEquiv1_symm_val dot_S262144x128_S128x128_S262144x128_1_0_0_1_n_n 128 rfl rfl k
  have el : dot_S262144x128_S128x128_S262144x128_1_0_0_1_n_n.lhsIdx (ix2 r j) ((ValueIdx.contrEquiv1 dot_S262144x128_S128x128_S262144x128_1_0_0_1_n_n 128 rfl rfl).symm k) = ix2 r k := funext fun a => Fin.ext (by
    match a with
    | ⟨0, _⟩ => exact lhs0_b _ _
    | ⟨1, _⟩ => exact (lhs1_b _ _).trans hk)
  have er : dot_S262144x128_S128x128_S262144x128_1_0_0_1_n_n.rhsIdx (ix2 r j) ((ValueIdx.contrEquiv1 dot_S262144x128_S128x128_S262144x128_1_0_0_1_n_n 128 rfl rfl).symm k) = ix2 k j := funext fun a => Fin.ext (by
    match a with
    | ⟨0, _⟩ => exact (rhs0_b _ _).trans hk
    | ⟨1, _⟩ => exact rhs1_b _ _)
  rw [el, er]
/-- The host's matrix product of a [262144, 128] by a [128, 128] array at (r, j). -/
theorem dot_b (x : S262144x128.Idx → EReal) (w : S128x128.Idx → EReal) (r : Fin 262144) (j : Fin 128) :
    Host.dotGeneral (F := Ideal) (φ₁ := .f32) (φ₂ := .f32) dot_S262144x128_S128x128_S262144x128_1_0_0_1_n_n none x w (ix2 r j) = ∑ k : Fin 128, x (ix2 r k) * w (ix2 k j) := by
  show FloatOps.dotGeneral (F := Ideal) (φ₁ := .f32) (φ₂ := .f32) dot_S262144x128_S128x128_S262144x128_1_0_0_1_n_n none .single x w (ix2 r j) = _
  rw [Ideal.dotGeneral_apply]
  exact contract_b x w r j

theorem lhs0_c (i : S262144x64.Idx) (q : dot_S262144x128_S128x64_S262144x64_1_0_0_1_n_n.contr.Idx) : (dot_S262144x128_S128x64_S262144x64_1_0_0_1_n_n.lhsIdx i q 0).val = (i 0).val := by
  unfold DotDims.lhsIdx
  rw [dif_neg (show ¬(0 : Fin S262144x128.rank) ∈ dot_S262144x128_S128x64_S262144x64_1_0_0_1_n_n.lhsBatch by decide), dif_pos (show (0 : Fin S262144x128.rank) ∈ dot_S262144x128_S128x64_S262144x64_1_0_0_1_n_n.lhsNonContracting by decide)]
  rfl
theorem lhs1_c (i : S262144x64.Idx) (q : dot_S262144x128_S128x64_S262144x64_1_0_0_1_n_n.contr.Idx) : (dot_S262144x128_S128x64_S262144x64_1_0_0_1_n_n.lhsIdx i q 1).val = (q ⟨0, by decide⟩).val :=
  dot_S262144x128_S128x64_S262144x64_1_0_0_1_n_n.lhsIdx_val_of_single rfl i q
theorem rhs0_c (i : S262144x64.Idx) (q : dot_S262144x128_S128x64_S262144x64_1_0_0_1_n_n.contr.Idx) : (dot_S262144x128_S128x64_S262144x64_1_0_0_1_n_n.rhsIdx i q 0).val = (q ⟨0, by decide⟩).val :=
  dot_S262144x128_S128x64_S262144x64_1_0_0_1_n_n.rhsIdx_val_of_single rfl i q
theorem rhs1_c (i : S262144x64.Idx) (q : dot_S262144x128_S128x64_S262144x64_1_0_0_1_n_n.contr.Idx) : (dot_S262144x128_S128x64_S262144x64_1_0_0_1_n_n.rhsIdx i q 1).val = (i 1).val := by
  unfold DotDims.rhsIdx
  rw [dif_neg (show ¬(1 : Fin S128x64.rank) ∈ dot_S262144x128_S128x64_S262144x64_1_0_0_1_n_n.rhsBatch by decide), dif_pos (show (1 : Fin S128x64.rank) ∈ dot_S262144x128_S128x64_S262144x64_1_0_0_1_n_n.rhsNonContracting by decide)]
  rfl
/-- The contraction of a [262144, 128] by a [128, 64] array, read at (r, j): the sum over k of the products. -/
theorem contract_c (x : S262144x128.Idx → EReal) (w : S128x64.Idx → EReal) (r : Fin 262144) (j : Fin 64) :
    ∑ q : dot_S262144x128_S128x64_S262144x64_1_0_0_1_n_n.contr.Idx, x (dot_S262144x128_S128x64_S262144x64_1_0_0_1_n_n.lhsIdx (ix2 r j) q) * w (dot_S262144x128_S128x64_S262144x64_1_0_0_1_n_n.rhsIdx (ix2 r j) q) = ∑ k : Fin 128, x (ix2 r k) * w (ix2 k j) := by
  rw [← Equiv.sum_comp (ValueIdx.contrEquiv1 dot_S262144x128_S128x64_S262144x64_1_0_0_1_n_n 128 rfl rfl).symm]
  refine Finset.sum_congr rfl fun k _ => ?_
  have hk := ValueIdx.contrEquiv1_symm_val dot_S262144x128_S128x64_S262144x64_1_0_0_1_n_n 128 rfl rfl k
  have el : dot_S262144x128_S128x64_S262144x64_1_0_0_1_n_n.lhsIdx (ix2 r j) ((ValueIdx.contrEquiv1 dot_S262144x128_S128x64_S262144x64_1_0_0_1_n_n 128 rfl rfl).symm k) = ix2 r k := funext fun a => Fin.ext (by
    match a with
    | ⟨0, _⟩ => exact lhs0_c _ _
    | ⟨1, _⟩ => exact (lhs1_c _ _).trans hk)
  have er : dot_S262144x128_S128x64_S262144x64_1_0_0_1_n_n.rhsIdx (ix2 r j) ((ValueIdx.contrEquiv1 dot_S262144x128_S128x64_S262144x64_1_0_0_1_n_n 128 rfl rfl).symm k) = ix2 k j := funext fun a => Fin.ext (by
    match a with
    | ⟨0, _⟩ => exact (rhs0_c _ _).trans hk
    | ⟨1, _⟩ => exact rhs1_c _ _)
  rw [el, er]
/-- The host's matrix product of a [262144, 128] by a [128, 64] array at (r, j). -/
theorem dot_c (x : S262144x128.Idx → EReal) (w : S128x64.Idx → EReal) (r : Fin 262144) (j : Fin 64) :
    Host.dotGeneral (F := Ideal) (φ₁ := .f32) (φ₂ := .f32) dot_S262144x128_S128x64_S262144x64_1_0_0_1_n_n none x w (ix2 r j) = ∑ k : Fin 128, x (ix2 r k) * w (ix2 k j) := by
  show FloatOps.dotGeneral (F := Ideal) (φ₁ := .f32) (φ₂ := .f32) dot_S262144x128_S128x64_S262144x64_1_0_0_1_n_n none .single x w (ix2 r j) = _
  rw [Ideal.dotGeneral_apply]
  exact contract_c x w r j

theorem lhs0_d (i : S262144x144.Idx) (q : dot_S262144x64_S64x144_S262144x144_1_0_0_1_n_n.contr.Idx) : (dot_S262144x64_S64x144_S262144x144_1_0_0_1_n_n.lhsIdx i q 0).val = (i 0).val := by
  unfold DotDims.lhsIdx
  rw [dif_neg (show ¬(0 : Fin S262144x64.rank) ∈ dot_S262144x64_S64x144_S262144x144_1_0_0_1_n_n.lhsBatch by decide), dif_pos (show (0 : Fin S262144x64.rank) ∈ dot_S262144x64_S64x144_S262144x144_1_0_0_1_n_n.lhsNonContracting by decide)]
  rfl
theorem lhs1_d (i : S262144x144.Idx) (q : dot_S262144x64_S64x144_S262144x144_1_0_0_1_n_n.contr.Idx) : (dot_S262144x64_S64x144_S262144x144_1_0_0_1_n_n.lhsIdx i q 1).val = (q ⟨0, by decide⟩).val :=
  dot_S262144x64_S64x144_S262144x144_1_0_0_1_n_n.lhsIdx_val_of_single rfl i q
theorem rhs0_d (i : S262144x144.Idx) (q : dot_S262144x64_S64x144_S262144x144_1_0_0_1_n_n.contr.Idx) : (dot_S262144x64_S64x144_S262144x144_1_0_0_1_n_n.rhsIdx i q 0).val = (q ⟨0, by decide⟩).val :=
  dot_S262144x64_S64x144_S262144x144_1_0_0_1_n_n.rhsIdx_val_of_single rfl i q
theorem rhs1_d (i : S262144x144.Idx) (q : dot_S262144x64_S64x144_S262144x144_1_0_0_1_n_n.contr.Idx) : (dot_S262144x64_S64x144_S262144x144_1_0_0_1_n_n.rhsIdx i q 1).val = (i 1).val := by
  unfold DotDims.rhsIdx
  rw [dif_neg (show ¬(1 : Fin S64x144.rank) ∈ dot_S262144x64_S64x144_S262144x144_1_0_0_1_n_n.rhsBatch by decide), dif_pos (show (1 : Fin S64x144.rank) ∈ dot_S262144x64_S64x144_S262144x144_1_0_0_1_n_n.rhsNonContracting by decide)]
  rfl
/-- The contraction of a [262144, 64] by a [64, 144] array, read at (r, j): the sum over k of the products. -/
theorem contract_d (x : S262144x64.Idx → EReal) (w : S64x144.Idx → EReal) (r : Fin 262144) (j : Fin 144) :
    ∑ q : dot_S262144x64_S64x144_S262144x144_1_0_0_1_n_n.contr.Idx, x (dot_S262144x64_S64x144_S262144x144_1_0_0_1_n_n.lhsIdx (ix2 r j) q) * w (dot_S262144x64_S64x144_S262144x144_1_0_0_1_n_n.rhsIdx (ix2 r j) q) = ∑ k : Fin 64, x (ix2 r k) * w (ix2 k j) := by
  rw [← Equiv.sum_comp (ValueIdx.contrEquiv1 dot_S262144x64_S64x144_S262144x144_1_0_0_1_n_n 64 rfl rfl).symm]
  refine Finset.sum_congr rfl fun k _ => ?_
  have hk := ValueIdx.contrEquiv1_symm_val dot_S262144x64_S64x144_S262144x144_1_0_0_1_n_n 64 rfl rfl k
  have el : dot_S262144x64_S64x144_S262144x144_1_0_0_1_n_n.lhsIdx (ix2 r j) ((ValueIdx.contrEquiv1 dot_S262144x64_S64x144_S262144x144_1_0_0_1_n_n 64 rfl rfl).symm k) = ix2 r k := funext fun a => Fin.ext (by
    match a with
    | ⟨0, _⟩ => exact lhs0_d _ _
    | ⟨1, _⟩ => exact (lhs1_d _ _).trans hk)
  have er : dot_S262144x64_S64x144_S262144x144_1_0_0_1_n_n.rhsIdx (ix2 r j) ((ValueIdx.contrEquiv1 dot_S262144x64_S64x144_S262144x144_1_0_0_1_n_n 64 rfl rfl).symm k) = ix2 k j := funext fun a => Fin.ext (by
    match a with
    | ⟨0, _⟩ => exact (rhs0_d _ _).trans hk
    | ⟨1, _⟩ => exact rhs1_d _ _)
  rw [el, er]
/-- The host's matrix product of a [262144, 64] by a [64, 144] array at (r, j). -/
theorem dot_d (x : S262144x64.Idx → EReal) (w : S64x144.Idx → EReal) (r : Fin 262144) (j : Fin 144) :
    Host.dotGeneral (F := Ideal) (φ₁ := .f32) (φ₂ := .f32) dot_S262144x64_S64x144_S262144x144_1_0_0_1_n_n none x w (ix2 r j) = ∑ k : Fin 64, x (ix2 r k) * w (ix2 k j) := by
  show FloatOps.dotGeneral (F := Ideal) (φ₁ := .f32) (φ₂ := .f32) dot_S262144x64_S64x144_S262144x144_1_0_0_1_n_n none .single x w (ix2 r j) = _
  rw [Ideal.dotGeneral_apply]
  exact contract_d x w r j

/-! ## The stages, row by row -/

/-- Two 12-column pieces side by side: a column below 12 reads the first, a column from 12 on the second. -/
theorem xcat_apply (a0 a1 : (⟨S262144x12, .f32⟩ : BufTy).Contents (Elt Ideal)) (r : Fin 262144) (k : Fin 24) :
    HandRun.xcat (F := Ideal) a0 a1 (ix2 r k) = Mlp.xrow a0 a1 r k := by
  unfold HandRun.xcat Mlp.xrow
  by_cases h : k.val < 12
  · rw [dif_pos h]
    exact concatenate_pair_apply_left (1 : Fin S262144x24.rank) a0 a1 concatenates_S262144x12_S262144x12_S262144x24_d1 (ix2 r k) rfl
      (ix2 r ⟨k.val, h⟩) (fun c => match c with | ⟨0, _⟩ => rfl | ⟨1, _⟩ => rfl)
  · rw [dif_neg h]
    refine concatenate_pair_apply_right (1 : Fin S262144x24.rank) a0 a1 concatenates_S262144x12_S262144x12_S262144x24_d1 (ix2 r k) rfl rfl
      (ix2 r ⟨k.val - 12, by omega⟩) (fun c hc => match c, hc with | ⟨0, _⟩, _ => rfl | ⟨1, _⟩, hc => (hc (Fin.ext rfl)).elim) ?_
    show (k.val - 12) + 12 = k.val
    omega

theorem dense1_apply (W : (⟨S24x128, .f32⟩ : BufTy).Contents (Elt Ideal)) (b : (⟨S128, .f32⟩ : BufTy).Contents (Elt Ideal)) (x : (⟨S262144x24, .f32⟩ : BufTy).Contents (Elt Ideal)) (r : Fin 262144) (j : Fin 128) :
    HandRun.dense1 (F := Ideal) W b x (ix2 r j) = Mlp.affine (Mlp.mat W) (Mlp.vec b) (fun k => x (ix2 r k)) j := by
  unfold HandRun.dense1 Mlp.affine
  simp only [addf_apply, dot_a, bc_row_rows, bc_vec_row]

theorem dense2_apply (W : (⟨S128x128, .f32⟩ : BufTy).Contents (Elt Ideal)) (b : (⟨S128, .f32⟩ : BufTy).Contents (Elt Ideal)) (x : (⟨S262144x128, .f32⟩ : BufTy).Contents (Elt Ideal)) (r : Fin 262144) (j : Fin 128) :
    HandRun.dense2 (F := Ideal) W b x (ix2 r j) = Mlp.affine (Mlp.mat W) (Mlp.vec b) (fun k => x (ix2 r k)) j := by
  unfold HandRun.dense2 Mlp.affine
  simp only [addf_apply, dot_b, bc_row_rows, bc_vec_row]

theorem dense3_apply (W : (⟨S128x64, .f32⟩ : BufTy).Contents (Elt Ideal)) (b : (⟨S64, .f32⟩ : BufTy).Contents (Elt Ideal)) (x : (⟨S262144x128, .f32⟩ : BufTy).Contents (Elt Ideal)) (r : Fin 262144) (j : Fin 64) :
    HandRun.dense3 (F := Ideal) W b x (ix2 r j) = Mlp.affine (Mlp.mat W) (Mlp.vec b) (fun k => x (ix2 r k)) j := by
  unfold HandRun.dense3 Mlp.affine
  simp only [addf_apply, dot_c, bc_row_rows, bc_vec_row]

theorem dense4_apply (W : (⟨S64x144, .f32⟩ : BufTy).Contents (Elt Ideal)) (b : (⟨S144, .f32⟩ : BufTy).Contents (Elt Ideal)) (x : (⟨S262144x64, .f32⟩ : BufTy).Contents (Elt Ideal)) (r : Fin 262144) (j : Fin 144) :
    HandRun.dense4 (F := Ideal) W b x (ix2 r j) = Mlp.affine (Mlp.mat W) (Mlp.vec b) (fun k => x (ix2 r k)) j := by
  unfold HandRun.dense4 Mlp.affine
  simp only [addf_apply, dot_d, bc_row_rows, bc_vec_row]

/-- The row mean, kept as a column, at row r. -/
theorem mean128_apply (h : (⟨S262144x128, .f32⟩ : BufTy).Contents (Elt Ideal)) (r : Fin 262144) (u : Fin 1) :
    HandRun.mean128 (F := Ideal) h (ix2 r u) = Mlp.mean (fun l => h (ix2 r l)) := by
  unfold HandRun.mean128 Mlp.mean
  simp only [hdivf_apply, bc_vec_col, rowSum_apply, bc_scalar, constant_apply]

theorem centered_apply (h : (⟨S262144x128, .f32⟩ : BufTy).Contents (Elt Ideal)) (r : Fin 262144) (j : Fin 128) :
    HandRun.centered (F := Ideal) h (ix2 r j) = h (ix2 r j) - Mlp.mean (fun l => h (ix2 r l)) := by
  unfold HandRun.centered
  simp only [subf_apply, bc_col_cols, mean128_apply]

theorem layerNorm_apply (g be : (⟨S128, .f32⟩ : BufTy).Contents (Elt Ideal)) (h : (⟨S262144x128, .f32⟩ : BufTy).Contents (Elt Ideal)) (r : Fin 262144) (j : Fin 128) :
    HandRun.layerNorm (F := Ideal) g be h (ix2 r j) = Mlp.layerNorm (Mlp.vec g) (Mlp.vec be) (fun l => h (ix2 r l)) j := by
  unfold HandRun.layerNorm Mlp.layerNorm
  simp only [addf_apply, mulf_apply, bc_col_cols, hrsqrt_apply, mean128_apply, centered_apply, bc_scalar, constant_apply,
    bc_row_rows, bc_vec_row]
  rfl

/-- The leaky rectifier is pointwise. -/
theorem lrelu128_apply (z : (⟨S262144x128, .f32⟩ : BufTy).Contents (Elt Ideal)) (i : S262144x128.Idx) :
    HandRun.lrelu128 (F := Ideal) z i = Mlp.leaky (z i) := by
  unfold HandRun.lrelu128
  simp only [select_apply, cmpf_apply, mulf_apply, bc_scalar, constant_apply, select_leaky]

theorem lrelu64_apply (z : (⟨S262144x64, .f32⟩ : BufTy).Contents (Elt Ideal)) (i : S262144x64.Idx) :
    HandRun.lrelu64 (F := Ideal) z i = Mlp.leaky (z i) := by
  unfold HandRun.lrelu64
  simp only [select_apply, cmpf_apply, mulf_apply, bc_scalar, constant_apply, select_leaky]

theorem layer1_apply (W : (⟨S24x128, .f32⟩ : BufTy).Contents (Elt Ideal)) (b g be : (⟨S128, .f32⟩ : BufTy).Contents (Elt Ideal)) (x : (⟨S262144x24, .f32⟩ : BufTy).Contents (Elt Ideal)) (r : Fin 262144) (j : Fin 128) :
    HandRun.layer1 (F := Ideal) W b g be x (ix2 r j)
      = Mlp.hidden (Mlp.mat W) (Mlp.vec b) (Mlp.vec g) (Mlp.vec be) (fun k => x (ix2 r k)) j := by
  unfold HandRun.layer1 Mlp.hidden
  simp only [lrelu128_apply, layerNorm_apply, dense1_apply]

theorem layer2_apply (W : (⟨S128x128, .f32⟩ : BufTy).Contents (Elt Ideal)) (b g be : (⟨S128, .f32⟩ : BufTy).Contents (Elt Ideal)) (x : (⟨S262144x128, .f32⟩ : BufTy).Contents (Elt Ideal)) (r : Fin 262144) (j : Fin 128) :
    HandRun.layer2 (F := Ideal) W b g be x (ix2 r j)
      = Mlp.hidden (Mlp.mat W) (Mlp.vec b) (Mlp.vec g) (Mlp.vec be) (fun k => x (ix2 r k)) j := by
  unfold HandRun.layer2 Mlp.hidden
  simp only [lrelu128_apply, layerNorm_apply, dense2_apply]

theorem layer3_apply (W : (⟨S128x64, .f32⟩ : BufTy).Contents (Elt Ideal)) (b : (⟨S64, .f32⟩ : BufTy).Contents (Elt Ideal)) (x : (⟨S262144x128, .f32⟩ : BufTy).Contents (Elt Ideal)) (r : Fin 262144) (j : Fin 64) :
    HandRun.layer3 (F := Ideal) W b x (ix2 r j) = Mlp.leaky (Mlp.affine (Mlp.mat W) (Mlp.vec b) (fun k => x (ix2 r k)) j) := by
  unfold HandRun.layer3
  simp only [lrelu64_apply, dense3_apply]

/-- The network's 144 outputs at row r are the specification's of row r of its input. -/
theorem factors_apply (W1 : (⟨S24x128, .f32⟩ : BufTy).Contents (Elt Ideal)) (b1 g1 be1 : (⟨S128, .f32⟩ : BufTy).Contents (Elt Ideal)) (W2 : (⟨S128x128, .f32⟩ : BufTy).Contents (Elt Ideal)) (b2 g2 be2 : (⟨S128, .f32⟩ : BufTy).Contents (Elt Ideal))
    (W3 : (⟨S128x64, .f32⟩ : BufTy).Contents (Elt Ideal)) (b3 : (⟨S64, .f32⟩ : BufTy).Contents (Elt Ideal)) (W4 : (⟨S64x144, .f32⟩ : BufTy).Contents (Elt Ideal)) (b4 : (⟨S144, .f32⟩ : BufTy).Contents (Elt Ideal)) (x : (⟨S262144x24, .f32⟩ : BufTy).Contents (Elt Ideal))
    (r : Fin 262144) (s : Fin 144) :
    HandRun.factors (F := Ideal) W1 b1 g1 be1 W2 b2 g2 be2 W3 b3 W4 b4 x (ix2 r s)
      = Mlp.factors W1 b1 g1 be1 W2 b2 g2 be2 W3 b3 W4 b4 (fun k => x (ix2 r k)) s := by
  unfold HandRun.factors Mlp.factors Mlp.trunk
  simp only [dense4_apply, layer3_apply, layer2_apply, layer1_apply]

end Cert.ReferenceIdeal.Rows

end
-- ==== Proof.ScatterRead.lean ====
/-
  Reading a `stablehlo.scatter` whose body returns the update (`fun _ b => b`) at one index of its result.

  The host's scatter is a left fold over the update indices in row-major order, each step overwriting the result's
  element at that update's result index. Read at ONE result index `i`, a fold of such steps is decided by the update
  indices that land on `i`: if none does, the element is the operand's (`foldl_miss`); if exactly one does — the list of
  update indices has no repeats — it is that update's element (`foldl_hit`). Both are proved by induction on the list
  with the accumulator generalised, so nothing is ever evaluated at the size of the update.
  `scatter_set_hit'` / `scatter_set_miss'` say this of `Host.scatter` for any dimension numbers; `scatter_set_hit` /
  `scatter_set_miss` are the case where every update index lands inside the operand, at `ri j`, and `ri` is injective.

  Then the dimension numbers of a `x.at[:, idx[:, 0], idx[:, 1]].set(upd)`: operand `[R, A, B]`, scatter indices
  `[Q, 2]`, updates `[R, Q]`, update_window_dims `[0]`, inserted_window_dims `[1, 2]`,
  scatter_dims_to_operand_dims `[1, 2]`, index_vector_dim `1` (`sdims`). Update index `(row, q)` lands at
  `(row, idx[q, 0], idx[q, 1])` when the two index components are inside `[0, A)` and `[0, B)` (`resultIdx_eq`), so
  with all scatter indices in range and pairwise distinct the scatter reads `upd (row, q)` at
  `(row, idx[q, 0], idx[q, 1])` (`sdims_hit`) and the operand everywhere else (`sdims_miss`). Last, the two records of
  the printed reference program are these dimension numbers at `Q = 12` and `Q = 66` (`scatter12_eq`, `scatter66_eq`),
  and the hit / miss statements are restated for them.
-/
import Idealize.ShloMosaic.PureOps
import Idealize.ShloMosaic.Lib.ValueIdx
import proofs.«138334_j60430189854928_2_alg».proof.ReferenceIdeal

noncomputable section

namespace Cert.ReferenceIdeal.ScatterRead

open Idealize.ShloMosaic Idealize.ShloMosaic.ValueIdx

/-! ## A left fold of overwriting steps, read at one index -/

section Fold
variable {α ι κ : Type}

theorem foldl_miss (tgt : κ → Option ι) (step : (ι → α) → κ → (ι → α))
    (hmiss : ∀ r n i, tgt n ≠ some i → step r n i = r i) (i : ι) :
    ∀ (l : List κ) (r : ι → α), (∀ n ∈ l, tgt n ≠ some i) → l.foldl step r i = r i
  | [], _, _ => rfl
  | n :: l, r, h => by
      rw [List.foldl_cons, foldl_miss tgt step hmiss i l (step r n) (fun m hm => h m (List.mem_cons_of_mem _ hm)),
        hmiss r n i (h n List.mem_cons_self)]

theorem foldl_hit (tgt : κ → Option ι) (val : κ → α) (step : (ι → α) → κ → (ι → α))
    (hhit : ∀ r n i, tgt n = some i → step r n i = val n)
    (hmiss : ∀ r n i, tgt n ≠ some i → step r n i = r i) (i : ι) (n₀ : κ) (h₀ : tgt n₀ = some i) :
    ∀ (l : List κ) (r : ι → α), l.Nodup → n₀ ∈ l → (∀ n ∈ l, tgt n = some i → n = n₀) → l.foldl step r i = val n₀
  | [], _, _, hm, _ => absurd hm List.not_mem_nil
  | n :: l, r, hnd, hm, hu => by
      rw [List.foldl_cons]
      have hnd' := List.nodup_cons.1 hnd
      by_cases hn : n = n₀
      · subst hn
        rw [foldl_miss tgt step hmiss i l (step r n) (fun m hml hmi => hnd'.1 (hu m (List.mem_cons_of_mem _ hml) hmi ▸ hml)),
          hhit r n i h₀]
      · have hm' : n₀ ∈ l := by
          rcases List.mem_cons.1 hm with h | h
          · exact absurd h.symm hn
          · exact h
        exact foldl_hit tgt val step hhit hmiss i n₀ h₀ l (step r n) hnd'.2 hm' (fun m hml => hu m (List.mem_cons_of_mem _ hml))

end Fold

/-! ## `Host.scatter` with the body `fun _ b => b`, read at one index -/

section Scatter
variable {s si u : Shape} {α : Type} {w : Nat}

/-- HIT: if update index `j` lands at `i` and no other update index does, the scatter at `i` is `upd j`. -/
theorem scatter_set_hit' (d : ScatterDims s si u) (x : s.Idx → α) (idx : IVec si w) (upd : u.Idx → α) (j : u.Idx) (i : s.Idx)
    (hj : d.resultIdx? j idx = some i) (hu : ∀ j', d.resultIdx? j' idx = some i → j' = j) :
    Host.scatter d (fun _ b => b) x idx upd i = upd j := by
  unfold Host.scatter
  refine (foldl_hit (fun n : Fin u.numel => d.resultIdx? (u.rowMajor.symm n) idx) (fun n => upd (u.rowMajor.symm n)) _
    ?_ ?_ i (u.rowMajor j) ?_ (List.finRange u.numel) x (List.nodup_finRange _) (List.mem_finRange _) ?_).trans
    (by rw [Equiv.symm_apply_apply])
  · intro r n i h; simp only [h]; simp
  · intro r n i h
    cases h' : d.resultIdx? (u.rowMajor.symm n) idx with
    | none => simp only [h']
    | some i₁ =>
      simp only [h']; rw [if_neg]; intro e; exact h (by rw [h', e])
  · simpa using hj
  · intro n _ hn
    have := hu _ hn; rw [← this]; simp

/-- MISS: if no update index lands at `i`, the scatter at `i` is the operand's element. -/
theorem scatter_set_miss' (d : ScatterDims s si u) (x : s.Idx → α) (idx : IVec si w) (upd : u.Idx → α) (i : s.Idx)
    (hn : ∀ j', d.resultIdx? j' idx ≠ some i) :
    Host.scatter d (fun _ b => b) x idx upd i = x i := by
  unfold Host.scatter
  refine foldl_miss (fun n : Fin u.numel => d.resultIdx? (u.rowMajor.symm n) idx) _ ?_ i (List.finRange u.numel) x
    (fun n _ => hn _)
  intro r n i h
  cases h' : d.resultIdx? (u.rowMajor.symm n) idx with
  | none => simp only [h']
  | some i₁ =>
    simp only [h']; rw [if_neg]; intro e; exact h (by rw [h', e])

/-- HIT, every update inside: if update index `j` lands at `ri j` for every `j` and `ri` is injective, the scatter at
    `ri j` is `upd j`. -/
theorem scatter_set_hit (d : ScatterDims s si u) (x : s.Idx → α) (idx : IVec si w) (upd : u.Idx → α) (ri : u.Idx → s.Idx)
    (hri : ∀ j, d.resultIdx? j idx = some (ri j)) (hinj : Function.Injective ri) (j : u.Idx) :
    Host.scatter d (fun _ b => b) x idx upd (ri j) = upd j :=
  scatter_set_hit' d x idx upd j (ri j) (hri j) (fun j' h => hinj (Option.some.inj ((hri j').symm.trans h)))

/-- MISS, every update inside: at an index that is no `ri j` the scatter is the operand's element. -/
theorem scatter_set_miss (d : ScatterDims s si u) (x : s.Idx → α) (idx : IVec si w) (upd : u.Idx → α) (ri : u.Idx → s.Idx)
    (hri : ∀ j, d.resultIdx? j idx = some (ri j)) (i : s.Idx) (hi : ∀ j, ri j ≠ i) :
    Host.scatter d (fun _ b => b) x idx upd i = x i :=
  scatter_set_miss' d x idx upd i (fun j' h => hi j' (Option.some.inj ((hri j').symm.trans h)))

end Scatter

/-! ## The dimension numbers of `x.at[:, idx[:, 0], idx[:, 1]].set(upd)` -/

section Dims

/-- Operand `[R, A, B]`, scatter indices `[Q, 2]`, updates `[R, Q]`: the update's axis 0 is a window over operand
    axis 0, operand axes 1 and 2 are inserted and indexed by the two components of a scatter index. -/
abbrev sdims (R A B Q : Nat) (wf : ScatterDims.WF ⟨3, ![R, A, B]⟩ ⟨2, ![Q, 2]⟩ ⟨2, ![R, Q]⟩ [0] [1, 2] [1, 2] 1) :
    ScatterDims ⟨3, ![R, A, B]⟩ ⟨2, ![Q, 2]⟩ ⟨2, ![R, Q]⟩ where
  updateWindowDims := [0]
  insertedWindowDims := [1, 2]
  scatterDimsToOperandDims := [1, 2]
  indexVectorDim := 1
  wf := wf

variable {R A B Q w : Nat} (wf : ScatterDims.WF ⟨3, ![R, A, B]⟩ ⟨2, ![Q, 2]⟩ ⟨2, ![R, Q]⟩ [0] [1, 2] [1, 2] 1)

theorem sd_not0 : (0 : Fin 3) ∉ (sdims R A B Q wf).scatterDimsToOperandDims := by
  show (0 : Fin 3) ∉ ([1, 2] : List (Fin 3)); decide
theorem sd_mem1 : (1 : Fin 3) ∈ (sdims R A B Q wf).scatterDimsToOperandDims := by
  show (1 : Fin 3) ∈ ([1, 2] : List (Fin 3)); decide
theorem sd_mem2 : (2 : Fin 3) ∈ (sdims R A B Q wf).scatterDimsToOperandDims := by
  show (2 : Fin 3) ∈ ([1, 2] : List (Fin 3)); decide
theorem sk_mem0 : (0 : Fin 3) ∈ (sdims R A B Q wf).sKept := by
  show (0 : Fin 3) ∈ (List.finRange 3).filter (· ∉ ([1, 2] : List (Fin 3))); decide
theorem sk_not1 : (1 : Fin 3) ∉ (sdims R A B Q wf).sKept := by
  show (1 : Fin 3) ∉ (List.finRange 3).filter (· ∉ ([1, 2] : List (Fin 3))); decide
theorem sk_not2 : (2 : Fin 3) ∉ (sdims R A B Q wf).sKept := by
  show (2 : Fin 3) ∉ (List.finRange 3).filter (· ∉ ([1, 2] : List (Fin 3))); decide

theorem start0 (row : Fin R) (q : Fin Q) (idx : IVec ⟨2, ![Q, 2]⟩ w) : (sdims R A B Q wf).start (ix2 row q) idx 0 = 0 := by
  unfold ScatterDims.start
  rw [dif_neg (sd_not0 wf)]

theorem start1 (row : Fin R) (q : Fin Q) (idx : IVec ⟨2, ![Q, 2]⟩ w) :
    (sdims R A B Q wf).start (ix2 row q) idx 1 = (idx (ix2 q 0)).toInt := by
  unfold ScatterDims.start
  rw [dif_pos (sd_mem1 wf)]
  congr 2
  funext b; refine Fin.ext ?_
  match b with
  | ⟨0, _⟩ => rfl
  | ⟨1, _⟩ => rfl

theorem start2 (row : Fin R) (q : Fin Q) (idx : IVec ⟨2, ![Q, 2]⟩ w) :
    (sdims R A B Q wf).start (ix2 row q) idx 2 = (idx (ix2 q 1)).toInt := by
  unfold ScatterDims.start
  rw [dif_pos (sd_mem2 wf)]
  congr 2
  funext b; refine Fin.ext ?_
  match b with
  | ⟨0, _⟩ => rfl
  | ⟨1, _⟩ => rfl

theorem window0 (row : Fin R) (q : Fin Q) : (sdims R A B Q wf).window (ix2 row q) 0 = row.val := by
  unfold ScatterDims.window
  rw [dif_pos (sk_mem0 wf)]
  rfl

theorem window1 (row : Fin R) (q : Fin Q) : (sdims R A B Q wf).window (ix2 row q) 1 = 0 := by
  unfold ScatterDims.window
  rw [dif_neg (sk_not1 wf)]

theorem window2 (row : Fin R) (q : Fin Q) : (sdims R A B Q wf).window (ix2 row q) 2 = 0 := by
  unfold ScatterDims.window
  rw [dif_neg (sk_not2 wf)]

theorem toNat_lt_of {z : Int} {n : Nat} (h : 0 ≤ z ∧ z < (n : Int)) : z.toNat < n := by omega

theorem resultIdx_eq (row : Fin R) (q : Fin Q) (idx : IVec ⟨2, ![Q, 2]⟩ w)
    (h0 : 0 ≤ (idx (ix2 q 0)).toInt ∧ (idx (ix2 q 0)).toInt < (A : Int))
    (h1 : 0 ≤ (idx (ix2 q 1)).toInt ∧ (idx (ix2 q 1)).toInt < (B : Int)) :
    (sdims R A B Q wf).resultIdx? (ix2 row q) idx
      = some (ix3 row ⟨(idx (ix2 q 0)).toInt.toNat, toNat_lt_of h0⟩ ⟨(idx (ix2 q 1)).toInt.toNat, toNat_lt_of h1⟩) := by
  unfold ScatterDims.resultIdx?
  have hb : ∀ a, 0 ≤ (sdims R A B Q wf).start (ix2 row q) idx a + ((sdims R A B Q wf).window (ix2 row q) a : Int) ∧
      (sdims R A B Q wf).start (ix2 row q) idx a + ((sdims R A B Q wf).window (ix2 row q) a : Int)
        < ((⟨3, ![R, A, B]⟩ : Shape).size a : Int) := by
    intro a
    match a with
    | ⟨0, _⟩ =>
      have := row.isLt
      show 0 ≤ (sdims R A B Q wf).start (ix2 row q) idx 0 + ((sdims R A B Q wf).window (ix2 row q) 0 : Int) ∧
        (sdims R A B Q wf).start (ix2 row q) idx 0 + ((sdims R A B Q wf).window (ix2 row q) 0 : Int) < (R : Int)
      rw [start0, window0]; omega
    | ⟨1, _⟩ =>
      show 0 ≤ (sdims R A B Q wf).start (ix2 row q) idx 1 + ((sdims R A B Q wf).window (ix2 row q) 1 : Int) ∧
        (sdims R A B Q wf).start (ix2 row q) idx 1 + ((sdims R A B Q wf).window (ix2 row q) 1 : Int) < (A : Int)
      rw [start1, window1]; omega
    | ⟨2, _⟩ =>
      show 0 ≤ (sdims R A B Q wf).start (ix2 row q) idx 2 + ((sdims R A B Q wf).window (ix2 row q) 2 : Int) ∧
        (sdims R A B Q wf).start (ix2 row q) idx 2 + ((sdims R A B Q wf).window (ix2 row q) 2 : Int) < (B : Int)
      rw [start2, window2]; omega
  rw [dif_pos hb]
  congr 1
  funext a; refine Fin.ext ?_
  match a with
  | ⟨0, _⟩ =>
    show ((sdims R A B Q wf).start (ix2 row q) idx 0 + ((sdims R A B Q wf).window (ix2 row q) 0 : Int)).toNat = row.val
    rw [start0, window0]; omega
  | ⟨1, _⟩ =>
    show ((sdims R A B Q wf).start (ix2 row q) idx 1 + ((sdims R A B Q wf).window (ix2 row q) 1 : Int)).toNat = _
    rw [start1, window1]; simp
  | ⟨2, _⟩ =>
    show ((sdims R A B Q wf).start (ix2 row q) idx 2 + ((sdims R A B Q wf).window (ix2 row q) 2 : Int)).toNat = _
    rw [start2, window2]; simp

/-! ### The scatter read at `(row, a, b)` -/

variable {α : Type}

/-- HIT: with every scatter index in range and the scatter indices pairwise distinct, the scatter at
    `(row, idx[q, 0], idx[q, 1])` is `upd (row, q)`. -/
theorem sdims_hit (x : (⟨3, ![R, A, B]⟩ : Shape).Idx → α) (idx : IVec ⟨2, ![Q, 2]⟩ w) (upd : (⟨2, ![R, Q]⟩ : Shape).Idx → α)
    (h0 : ∀ q : Fin Q, 0 ≤ (idx (ix2 q 0)).toInt ∧ (idx (ix2 q 0)).toInt < (A : Int))
    (h1 : ∀ q : Fin Q, 0 ≤ (idx (ix2 q 1)).toInt ∧ (idx (ix2 q 1)).toInt < (B : Int))
    (hinj : ∀ q q' : Fin Q, (idx (ix2 q 0)).toInt = (idx (ix2 q' 0)).toInt → (idx (ix2 q 1)).toInt = (idx (ix2 q' 1)).toInt → q = q')
    (row : Fin R) (q : Fin Q) (a : Fin A) (b : Fin B)
    (ha : (idx (ix2 q 0)).toInt = (a.val : Int)) (hb : (idx (ix2 q 1)).toInt = (b.val : Int)) :
    Host.scatter (sdims R A B Q wf) (fun _ b => b) x idx upd (ix3 row a b) = upd (ix2 row q) := by
  refine scatter_set_hit' _ x idx upd (ix2 row q) (ix3 row a b) ?_ ?_
  · rw [resultIdx_eq wf row q idx (h0 q) (h1 q)]
    congr 2
    · exact Fin.ext (by show (idx (ix2 q 0)).toInt.toNat = a.val; omega)
    · exact Fin.ext (by show (idx (ix2 q 1)).toInt.toNat = b.val; omega)
  · intro j' hj'
    obtain ⟨row', q', rfl⟩ : ∃ r q, j' = ix2 r q := ⟨j' 0, j' 1, eq_ix2 j'⟩
    rw [resultIdx_eq wf row' q' idx (h0 q') (h1 q')] at hj'
    have he := Option.some.inj hj'
    have e0 : row' = row := congrFun he 0
    have e1 : (⟨(idx (ix2 q' 0)).toInt.toNat, toNat_lt_of (h0 q')⟩ : Fin A) = a := congrFun he 1
    have e2 : (⟨(idx (ix2 q' 1)).toInt.toNat, toNat_lt_of (h1 q')⟩ : Fin B) = b := congrFun he 2
    have e1' : (idx (ix2 q' 0)).toInt.toNat = a.val := congrArg Fin.val e1
    have e2' : (idx (ix2 q' 1)).toInt.toNat = b.val := congrArg Fin.val e2
    have hq : q' = q := hinj q' q (by have := h0 q'; omega) (by have := h1 q'; omega)
    rw [e0, hq]

/-- MISS: at `(row, a, b)` with `(a, b)` no scatter index, the scatter is the operand's element. -/
theorem sdims_miss (x : (⟨3, ![R, A, B]⟩ : Shape).Idx → α) (idx : IVec ⟨2, ![Q, 2]⟩ w) (upd : (⟨2, ![R, Q]⟩ : Shape).Idx → α)
    (h0 : ∀ q : Fin Q, 0 ≤ (idx (ix2 q 0)).toInt ∧ (idx (ix2 q 0)).toInt < (A : Int))
    (h1 : ∀ q : Fin Q, 0 ≤ (idx (ix2 q 1)).toInt ∧ (idx (ix2 q 1)).toInt < (B : Int))
    (row : Fin R) (a : Fin A) (b : Fin B)
    (hne : ∀ q : Fin Q, ¬((idx (ix2 q 0)).toInt = (a.val : Int) ∧ (idx (ix2 q 1)).toInt = (b.val : Int))) :
    Host.scatter (sdims R A B Q wf) (fun _ b => b) x idx upd (ix3 row a b) = x (ix3 row a b) := by
  refine scatter_set_miss' _ x idx upd (ix3 row a b) ?_
  intro j' hj'
  obtain ⟨row', q', rfl⟩ : ∃ r q, j' = ix2 r q := ⟨j' 0, j' 1, eq_ix2 j'⟩
  rw [resultIdx_eq wf row' q' idx (h0 q') (h1 q')] at hj'
  have he := Option.some.inj hj'
  have e1 : (⟨(idx (ix2 q' 0)).toInt.toNat, toNat_lt_of (h0 q')⟩ : Fin A) = a := congrFun he 1
  have e2 : (⟨(idx (ix2 q' 1)).toInt.toNat, toNat_lt_of (h1 q')⟩ : Fin B) = b := congrFun he 2
  have e1' : (idx (ix2 q' 0)).toInt.toNat = a.val := congrArg Fin.val e1
  have e2' : (idx (ix2 q' 1)).toInt.toNat = b.val := congrArg Fin.val e2
  exact hne q' ⟨by have := h0 q'; omega, by have := h1 q'; omega⟩

end Dims

/-! ## The two records of the printed reference program -/

section Records
variable [Facts₀] {α : Type} {w : Nat}

/-- The 12-index record is `sdims` at `R = 262144`, `A = B = 12`, `Q = 12`. -/
theorem scatter12_eq : scatter_S262144x12x12_S12x2_S262144x12_0_12_12_1
    = sdims 262144 12 12 12 Facts₀.scatter_S262144x12x12_S12x2_S262144x12_0_12_12_1_wf := rfl

/-- The 66-index record is `sdims` at `R = 262144`, `A = B = 12`, `Q = 66`. -/
theorem scatter66_eq : scatter_S262144x12x12_S66x2_S262144x66_0_12_12_1
    = sdims 262144 12 12 66 Facts₀.scatter_S262144x12x12_S66x2_S262144x66_0_12_12_1_wf := rfl

/-- Where update index `(row, q)` of the 12-index scatter lands. -/
theorem scatter12_resultIdx (row : Fin 262144) (q : Fin 12) (idx : IVec S12x2 w)
    (hin : ∀ (q : Fin 12) (c : Fin 2), 0 ≤ (idx (ix2 q c)).toInt ∧ (idx (ix2 q c)).toInt < 12) :
    scatter_S262144x12x12_S12x2_S262144x12_0_12_12_1.resultIdx? (ix2 row q) idx
      = some (ix3 row ⟨(idx (ix2 q 0)).toInt.toNat, by have := hin q 0; omega⟩ ⟨(idx (ix2 q 1)).toInt.toNat, by have := hin q 1; omega⟩) := by
  rw [scatter12_eq]
  exact resultIdx_eq _ row q idx (by have := hin q 0; omega) (by have := hin q 1; omega)

/-- Where update index `(row, q)` of the 66-index scatter lands. -/
theorem scatter66_resultIdx (row : Fin 262144) (q : Fin 66) (idx : IVec S66x2 w)
    (hin : ∀ (q : Fin 66) (c : Fin 2), 0 ≤ (idx (ix2 q c)).toInt ∧ (idx (ix2 q c)).toInt < 12) :
    scatter_S262144x12x12_S66x2_S262144x66_0_12_12_1.resultIdx? (ix2 row q) idx
      = some (ix3 row ⟨(idx (ix2 q 0)).toInt.toNat, by have := hin q 0; omega⟩ ⟨(idx (ix2 q 1)).toInt.toNat, by have := hin q 1; omega⟩) := by
  rw [scatter66_eq]
  exact resultIdx_eq _ row q idx (by have := hin q 0; omega) (by have := hin q 1; omega)

/-- The 12-index scatter at `(row, idx[q, 0], idx[q, 1])` is `upd (row, q)`. -/
theorem scatter12_hit (x : S262144x12x12.Idx → α) (idx : IVec S12x2 w) (upd : S262144x12.Idx → α)
    (hin : ∀ (q : Fin 12) (c : Fin 2), 0 ≤ (idx (ix2 q c)).toInt ∧ (idx (ix2 q c)).toInt < 12)
    (hinj : ∀ q q' : Fin 12, (idx (ix2 q 0)).toInt = (idx (ix2 q' 0)).toInt → (idx (ix2 q 1)).toInt = (idx (ix2 q' 1)).toInt → q = q')
    (row : Fin 262144) (q : Fin 12) (a b : Fin 12)
    (ha : (idx (ix2 q 0)).toInt = (a.val : Int)) (hb : (idx (ix2 q 1)).toInt = (b.val : Int)) :
    Host.scatter scatter_S262144x12x12_S12x2_S262144x12_0_12_12_1 (fun _ b => b) x idx upd (ix3 row a b) = upd (ix2 row q) := by
  rw [scatter12_eq]
  exact sdims_hit _ x idx upd (fun q => by have := hin q 0; omega) (fun q => by have := hin q 1; omega) hinj row q a b ha hb

/-- The 12-index scatter at `(row, a, b)` with `(a, b)` no scatter index is the operand's element. -/
theorem scatter12_miss (x : S262144x12x12.Idx → α) (idx : IVec S12x2 w) (upd : S262144x12.Idx → α)
    (hin : ∀ (q : Fin 12) (c : Fin 2), 0 ≤ (idx (ix2 q c)).toInt ∧ (idx (ix2 q c)).toInt < 12)
    (row : Fin 262144) (a b : Fin 12)
    (hne : ∀ q : Fin 12, ¬((idx (ix2 q 0)).toInt = (a.val : Int) ∧ (idx (ix2 q 1)).toInt = (b.val : Int))) :
    Host.scatter scatter_S262144x12x12_S12x2_S262144x12_0_12_12_1 (fun _ b => b) x idx upd (ix3 row a b) = x (ix3 row a b) := by
  rw [scatter12_eq]
  exact sdims_miss _ x idx upd (fun q => by have := hin q 0; omega) (fun q => by have := hin q 1; omega) row a b hne

/-- The 66-index scatter at `(row, idx[q, 0], idx[q, 1])` is `upd (row, q)`. -/
theorem scatter66_hit (x : S262144x12x12.Idx → α) (idx : IVec S66x2 w) (upd : S262144x66.Idx → α)
    (hin : ∀ (q : Fin 66) (c : Fin 2), 0 ≤ (idx (ix2 q c)).toInt ∧ (idx (ix2 q c)).toInt < 12)
    (hinj : ∀ q q' : Fin 66, (idx (ix2 q 0)).toInt = (idx (ix2 q' 0)).toInt → (idx (ix2 q 1)).toInt = (idx (ix2 q' 1)).toInt → q = q')
    (row : Fin 262144) (q : Fin 66) (a b : Fin 12)
    (ha : (idx (ix2 q 0)).toInt = (a.val : Int)) (hb : (idx (ix2 q 1)).toInt = (b.val : Int)) :
    Host.scatter scatter_S262144x12x12_S66x2_S262144x66_0_12_12_1 (fun _ b => b) x idx upd (ix3 row a b) = upd (ix2 row q) := by
  rw [scatter66_eq]
  exact sdims_hit _ x idx upd (fun q => by have := hin q 0; omega) (fun q => by have := hin q 1; omega) hinj row q a b ha hb

/-- The 66-index scatter at `(row, a, b)` with `(a, b)` no scatter index is the operand's element. -/
theorem scatter66_miss (x : S262144x12x12.Idx → α) (idx : IVec S66x2 w) (upd : S262144x66.Idx → α)
    (hin : ∀ (q : Fin 66) (c : Fin 2), 0 ≤ (idx (ix2 q c)).toInt ∧ (idx (ix2 q c)).toInt < 12)
    (row : Fin 262144) (a b : Fin 12)
    (hne : ∀ q : Fin 66, ¬((idx (ix2 q 0)).toInt = (a.val : Int) ∧ (idx (ix2 q 1)).toInt = (b.val : Int))) :
    Host.scatter scatter_S262144x12x12_S66x2_S262144x66_0_12_12_1 (fun _ b => b) x idx upd (ix3 row a b) = x (ix3 row a b) := by
  rw [scatter66_eq]
  exact sdims_miss _ x idx upd (fun q => by have := hin q 0; omega) (fun q => by have := hin q 1; omega) row a b hne

end Records

end Cert.ReferenceIdeal.ScatterRead
-- ==== Proof.RefPlace.lean ====
/-
  The reference's placement of each row's 144 numbers into the two 12 × 12 lower-triangular matrices, read at an index.

  The reference writes the numbers with `x.at[:, rows, cols].set(…)`: a scatter whose index array lists, for every
  update column `q`, the matrix position `(rows q, cols q)` it goes to. Two index arrays occur. The diagonal's is built
  from an iota, entry `q` being `(q, q)` (`idx12_col0`, `idx12_col1`; the program's "negative index + 12" select never
  fires, the iota being nonnegative). The strict lower triangle's comes from two literal tables, entry `q` being the
  `q`-th position of the triangle in row-major order, `(lit0 q, lit1 q)` (`idx66_col0`, `idx66_col1`; here the select's
  mask is the constant false). About the tables three facts are decided over their 66 entries: every entry is inside
  `[0, 12)` (`lit_range`), strictly below the diagonal and at position `q = i (i − 1) / 2 + j` of the triangle
  (`lit_pos`), and every `(i, j)` with `j < i` is the entry at that position (`lit_at`). Hence the positions are pairwise
  distinct, and the scatter reads (module ScatterRead) apply: at `(r, i, j)` with `j < i` the triangle's scatter hits
  with update column `i (i − 1) / 2 + j`; on and above the diagonal it misses. The real part is two scatters into
  zeros, the diagonal's first and the triangle's on top: on the diagonal the second misses and the first hits with
  column `i`; below, the second hits; above, both miss and the zero stays (`buildReal_apply`). The imaginary part is one
  scatter of the triangle into zeros (`buildImag_apply`). The update columns are the slices `[0, 12)`, `[12, 78)`,
  `[78, 144)` of the 144 numbers, which is the slot assignment `slotRe` / `slotIm` of the specification.
  Last, the stack of the four matrices along a new leading axis reads, at leading coordinate `k`, the `k`-th matrix
  (`stack4_apply0` … `stack4_apply3`).
-/
import proofs.«138334_j60430189854928_2_alg».proof.Proof.RefRunOps
import proofs.«138334_j60430189854928_2_alg».proof.Proof.ScatterRead
import proofs.«138334_j60430189854928_2_alg».proof.Proof.Mlp
import Idealize.ShloMosaic.Lib.ValueLayout
import Idealize.ShloMosaic.Lib.IdealHost
import Idealize.ShloMosaic.Lib.Pipeline.Value

noncomputable section

namespace Cert.ReferenceIdeal.RefPlace

open Cert.ReferenceIdeal Cert.ReferenceIdeal.Gen Idealize.ShloMosaic Idealize.ShloMosaic.ValueIdx
open Cert.ReferenceIdeal.ScatterRead

/-! ## The index tables read at an entry -/

section Tables
variable {F : FTy → Type} [FloatOps F]

theorem rowsT_apply (q : Fin 66) : HandRun.rowsT (F := F) (ix1 q) = lit0 q := by
  unfold HandRun.rowsT
  exact congrArg lit0 (Fin.ext (Shape.rowMajor_val_one _))

theorem colsT_apply (q : Fin 66) : HandRun.colsT (F := F) (ix1 q) = lit1 q := by
  unfold HandRun.colsT
  exact congrArg lit1 (Fin.ext (Shape.rowMajor_val_one _))

theorem normIdx66_apply (t : (⟨S66, .i32⟩ : BufTy).Contents (Elt F)) (q : Fin 66) :
    HandRun.normIdx66 (F := F) t (ix1 q) = t (ix1 q) := by
  unfold HandRun.normIdx66 HandRun.falseT
  rw [select_apply]
  exact select_zero _ _

theorem idx66_col0 (q : Fin 66) : HandRun.idx66 (F := F) (ix2 q 0) = lit0 q := by
  unfold HandRun.idx66
  refine (concatenate_pair_apply_left (t := S66x2) (s₁ := S66x1) (s₂ := S66x1) (1 : Fin 2) _ _ concatenates_S66x1_S66x1_S66x2_d1 (ix2 q 0) rfl (ix2 q (0 : Fin 1)) ?_).trans ?_
  · intro b; match b with | ⟨0, _⟩ => rfl | ⟨1, _⟩ => rfl
  refine (broadcastInDim_apply _ _ _ _ (ix1 q) (fun a => by match a with | ⟨0, _⟩ => rfl)).trans ?_
  rw [normIdx66_apply, rowsT_apply]

theorem idx66_col1 (q : Fin 66) : HandRun.idx66 (F := F) (ix2 q 1) = lit1 q := by
  unfold HandRun.idx66
  refine (concatenate_pair_apply_right (t := S66x2) (s₁ := S66x1) (s₂ := S66x1) (1 : Fin 2) _ _ concatenates_S66x1_S66x1_S66x2_d1 (ix2 q 1) rfl rfl (ix2 q (0 : Fin 1)) ?_ rfl).trans ?_
  · intro b hb; match b with | ⟨0, _⟩ => rfl | ⟨1, _⟩ => exact absurd rfl hb
  refine (broadcastInDim_apply _ _ _ _ (ix1 q) (fun a => by match a with | ⟨0, _⟩ => rfl)).trans ?_
  rw [normIdx66_apply, colsT_apply]

theorem normIdx12_iota (q : Fin 12) : HandRun.normIdx12 (F := F) (iotaInDim S12 32 0) (ix1 q) = BitVec.ofNat 32 q.val := by
  unfold HandRun.normIdx12
  rw [select_apply]
  show Scalar.select (IntOp.cmpi .slt (BitVec.ofNat 32 q.val) 0#32) (IntOp.addi (BitVec.ofNat 32 q.val) 12#32)
    (BitVec.ofNat 32 q.val) = BitVec.ofNat 32 q.val
  revert q; decide

theorem idx12_col0 (q : Fin 12) : HandRun.idx12 (F := F) (ix2 q 0) = BitVec.ofNat 32 q.val := by
  unfold HandRun.idx12
  refine (concatenate_pair_apply_left (t := S12x2) (s₁ := S12x1) (s₂ := S12x1) (1 : Fin 2) _ _ concatenates_S12x1_S12x1_S12x2_d1 (ix2 q 0) rfl (ix2 q (0 : Fin 1)) ?_).trans ?_
  · intro b; match b with | ⟨0, _⟩ => rfl | ⟨1, _⟩ => rfl
  refine (broadcastInDim_apply _ _ _ _ (ix1 q) (fun a => by match a with | ⟨0, _⟩ => rfl)).trans ?_
  exact normIdx12_iota q

theorem idx12_col1 (q : Fin 12) : HandRun.idx12 (F := F) (ix2 q 1) = BitVec.ofNat 32 q.val := by
  unfold HandRun.idx12
  refine (concatenate_pair_apply_right (t := S12x2) (s₁ := S12x1) (s₂ := S12x1) (1 : Fin 2) _ _ concatenates_S12x1_S12x1_S12x2_d1 (ix2 q 1) rfl rfl (ix2 q (0 : Fin 1)) ?_ rfl).trans ?_
  · intro b hb; match b with | ⟨0, _⟩ => rfl | ⟨1, _⟩ => exact absurd rfl hb
  refine (broadcastInDim_apply _ _ _ _ (ix1 q) (fun a => by match a with | ⟨0, _⟩ => rfl)).trans ?_
  exact normIdx12_iota q

end Tables

/-! ## Facts about the two literal tables, decided once -/

section Lits

theorem lit_range (q : Fin 66) : (0 ≤ (lit0 q).toInt ∧ (lit0 q).toInt < 12) ∧ (0 ≤ (lit1 q).toInt ∧ (lit1 q).toInt < 12) := by
  revert q; decide

/-- Every table entry is strictly below the diagonal, and entry `q` is the `q`-th of the strict lower triangle in
    row-major order. -/
theorem lit_pos (q : Fin 66) : (lit1 q).toInt < (lit0 q).toInt ∧
    q.val = (lit0 q).toInt.toNat * ((lit0 q).toInt.toNat - 1) / 2 + (lit1 q).toInt.toNat := by
  revert q; decide

/-- The entry of the strict lower triangle at `(i, j)`, `j < i`, is entry `i (i − 1) / 2 + j` of the tables. -/
theorem lit_at (i j : Fin 12) (h : j < i) : ∃ q : Fin 66, q.val = i.val * (i.val - 1) / 2 + j.val ∧
    (lit0 q).toInt = (i.val : Int) ∧ (lit1 q).toInt = (j.val : Int) := by
  revert i j; decide

theorem ofNat_toInt (q : Fin 12) : (BitVec.ofNat 32 q.val).toInt = (q.val : Int) := by
  revert q; decide

end Lits

/-! ## The hypotheses of the scatter reads, for the two index arrays -/

section Hyps
variable {F : FTy → Type} [FloatOps F]

theorem fin2_cases (c : Fin 2) : c = 0 ∨ c = 1 := by revert c; decide

theorem idx12_toInt (q : Fin 12) (c : Fin 2) : (HandRun.idx12 (F := F) (ix2 q c)).toInt = (q.val : Int) := by
  rcases fin2_cases c with rfl | rfl
  · rw [idx12_col0, ofNat_toInt]
  · rw [idx12_col1, ofNat_toInt]

theorem hin12 (q : Fin 12) (c : Fin 2) :
    0 ≤ (HandRun.idx12 (F := F) (ix2 q c)).toInt ∧ (HandRun.idx12 (F := F) (ix2 q c)).toInt < 12 := by
  rw [idx12_toInt]; have := q.isLt; omega

theorem hinj12 (q q' : Fin 12) (h0 : (HandRun.idx12 (F := F) (ix2 q 0)).toInt = (HandRun.idx12 (F := F) (ix2 q' 0)).toInt)
    (_h1 : (HandRun.idx12 (F := F) (ix2 q 1)).toInt = (HandRun.idx12 (F := F) (ix2 q' 1)).toInt) : q = q' := by
  rw [idx12_toInt, idx12_toInt] at h0
  exact Fin.ext (by omega)

theorem hin66 (q : Fin 66) (c : Fin 2) :
    0 ≤ (HandRun.idx66 (F := F) (ix2 q c)).toInt ∧ (HandRun.idx66 (F := F) (ix2 q c)).toInt < 12 := by
  rcases fin2_cases c with rfl | rfl
  · rw [idx66_col0]; exact (lit_range q).1
  · rw [idx66_col1]; exact (lit_range q).2

theorem hinj66 (q q' : Fin 66) (h0 : (HandRun.idx66 (F := F) (ix2 q 0)).toInt = (HandRun.idx66 (F := F) (ix2 q' 0)).toInt)
    (h1 : (HandRun.idx66 (F := F) (ix2 q 1)).toInt = (HandRun.idx66 (F := F) (ix2 q' 1)).toInt) : q = q' := by
  rw [idx66_col0, idx66_col0] at h0
  rw [idx66_col1, idx66_col1] at h1
  have e := (lit_pos q).2
  have e' := (lit_pos q').2
  rw [h0, h1] at e
  exact Fin.ext (e.trans e'.symm)

/-- No table entry is on or above the diagonal. -/
theorem hne66 (i j : Fin 12) (h : ¬ j < i) (q : Fin 66) :
    ¬((HandRun.idx66 (F := F) (ix2 q 0)).toInt = (i.val : Int) ∧ (HandRun.idx66 (F := F) (ix2 q 1)).toInt = (j.val : Int)) := by
  rw [idx66_col0, idx66_col1]
  rintro ⟨e0, e1⟩
  have hlt := (lit_pos q).1
  have h' : ¬ (j.val < i.val) := h
  omega

end Hyps

/-! ## The slices and the zero array at an index -/

section Pieces

theorem zeros_apply (k : S262144x12x12.Idx) : HandRun.zeros (F := Ideal) k = (0 : EReal) := by
  unfold HandRun.zeros
  refine (broadcastInDim_scalar_apply _ _ _).trans ?_
  exact Ideal.ofBits_zero_f32

theorem slice0_apply (f : S262144x144.Idx → EReal) (r : Fin 262144) (q : Fin 12) :
    HandRun.slice0 (F := Ideal) f (ix2 r q) = f (ix2 r ⟨q.val, by omega⟩) := by
  unfold HandRun.slice0
  refine (slice2_axis1_apply 0 f slices_S262144x144_S262144x12_0_0 r q ⟨q.val, by omega⟩ (by simp)).trans rfl

theorem slice12_apply (f : S262144x144.Idx → EReal) (r : Fin 262144) (q : Fin 66) :
    HandRun.slice12 (F := Ideal) f (ix2 r q) = f (ix2 r ⟨12 + q.val, by omega⟩) := by
  unfold HandRun.slice12
  exact slice2_axis1_apply 12 f slices_S262144x144_S262144x66_0_12 r q ⟨12 + q.val, by omega⟩ rfl

theorem slice78_apply (f : S262144x144.Idx → EReal) (r : Fin 262144) (q : Fin 66) :
    HandRun.slice78 (F := Ideal) f (ix2 r q) = f (ix2 r ⟨78 + q.val, by omega⟩) := by
  unfold HandRun.slice78
  exact slice2_axis1_apply 78 f slices_S262144x144_S262144x66_0_78 r q ⟨78 + q.val, by omega⟩ rfl

end Pieces

/-! ## The placement -/

section Place

/-- The real part at `(r, i, j)`: the number its slot names, or zero. On the diagonal the second scatter misses and the
    first hits; strictly below it the second hits; above it both miss and the zero stays. -/
theorem buildReal_apply (f : S262144x144.Idx → EReal) (r : Fin 262144) (i j : Fin 12) :
    HandRun.buildReal (F := Ideal) f (ix3 r i j) = Cert.Mlp.place (Cert.Mlp.slotRe i j) (fun s => f (ix2 r s)) := by
  unfold HandRun.buildReal
  by_cases hji : j < i
  · obtain ⟨q, hq, h0, h1⟩ := lit_at i j hji
    refine (scatter66_hit (α := EReal) (w := 32) _ _ _ hin66 hinj66 r q i j (by rw [idx66_col0]; exact h0)
      (by rw [idx66_col1]; exact h1)).trans ?_
    rw [slice12_apply]
    have hs : Cert.Mlp.slotRe i j = some ⟨12 + q.val, by omega⟩ := by
      unfold Cert.Mlp.slotRe
      rw [if_neg (Fin.ne_of_gt hji), if_pos hji]
      congr 1
      exact Fin.ext (by show (12 + (i.val * (i.val - 1) / 2 + j.val)) % 144 = 12 + q.val; rw [← hq]; omega)
    rw [hs]; rfl
  · refine (scatter66_miss (α := EReal) (w := 32) _ _ _ hin66 r i j (hne66 i j hji)).trans ?_
    by_cases hij : i = j
    · subst hij
      refine (scatter12_hit (α := EReal) (w := 32) _ _ _ hin12 hinj12 r i i i (idx12_toInt i 0) (idx12_toInt i 1)).trans ?_
      rw [slice0_apply]
      have hs : Cert.Mlp.slotRe i i = some ⟨i.val, by omega⟩ := by
        unfold Cert.Mlp.slotRe
        rw [if_pos rfl]
        congr 1
        exact Fin.ext (by show i.val % 144 = i.val; omega)
      rw [hs]; rfl
    · refine (scatter12_miss (α := EReal) (w := 32) _ _ _ hin12 r i j (fun q => by
        rw [idx12_toInt, idx12_toInt]
        rintro ⟨e0, e1⟩
        exact hij (Fin.ext (by omega)))).trans ?_
      rw [zeros_apply]
      have hs : Cert.Mlp.slotRe i j = none := by
        unfold Cert.Mlp.slotRe
        rw [if_neg hij, if_neg hji]
      rw [hs]; rfl

/-- The imaginary part at `(r, i, j)`: the number its slot names strictly below the diagonal, zero elsewhere. -/
theorem buildImag_apply (f : S262144x144.Idx → EReal) (r : Fin 262144) (i j : Fin 12) :
    HandRun.buildImag (F := Ideal) f (ix3 r i j) = Cert.Mlp.place (Cert.Mlp.slotIm i j) (fun s => f (ix2 r s)) := by
  unfold HandRun.buildImag
  by_cases hji : j < i
  · obtain ⟨q, hq, h0, h1⟩ := lit_at i j hji
    refine (scatter66_hit (α := EReal) (w := 32) _ _ _ hin66 hinj66 r q i j (by rw [idx66_col0]; exact h0)
      (by rw [idx66_col1]; exact h1)).trans ?_
    rw [slice78_apply]
    have hs : Cert.Mlp.slotIm i j = some ⟨78 + q.val, by omega⟩ := by
      unfold Cert.Mlp.slotIm
      rw [if_pos hji]
      congr 1
      exact Fin.ext (by show (78 + (i.val * (i.val - 1) / 2 + j.val)) % 144 = 78 + q.val; rw [← hq]; omega)
    rw [hs]; rfl
  · refine (scatter66_miss (α := EReal) (w := 32) _ _ _ hin66 r i j (hne66 i j hji)).trans ?_
    rw [zeros_apply]
    have hs : Cert.Mlp.slotIm i j = none := by
      unfold Cert.Mlp.slotIm
      rw [if_neg hji]
    rw [hs]; rfl

end Place

/-! ## The stack of the four arrays -/

section Stack
variable {F : FTy → Type} [FloatOps F]

theorem lead_apply (a : (⟨S262144x12x12, .f32⟩ : BufTy).Contents (Elt F)) (r : Fin 262144) (i j : Fin 12) :
    HandRun.lead a (ix4 (0 : Fin 1) r i j) = a (ix3 r i j) := by
  unfold HandRun.lead
  exact broadcastInDim_apply _ _ _ _ (ix3 r i j) (fun a => by
    match a with
    | ⟨0, _⟩ => rfl
    | ⟨1, _⟩ => rfl
    | ⟨2, _⟩ => rfl)

theorem stack4_apply0 (a b c d : (⟨S262144x12x12, .f32⟩ : BufTy).Contents (Elt F)) (r : Fin 262144) (i j : Fin 12) :
    HandRun.stack4 a b c d (ix4 (0 : Fin 4) r i j) = a (ix3 r i j) := by
  unfold HandRun.stack4 HandRun.stackRows
  refine (concatenate_apply_piece (t := S4x262144x12x12) (0 : Fin 4) _ _ (ix4 (0 : Fin 4) r i j) 0 ?_ S1x262144x12x12 _ ?_ ?_
    0 ?_ (ix4 (0 : Fin 1) r i j) ?_ ?_).trans (lead_apply a r i j)
  · show 0 < 4; omega
  · rfl
  · rfl
  · rfl
  · intro b hb
    match b with
    | ⟨0, _⟩ => exact absurd rfl hb
    | ⟨1, _⟩ => rfl
    | ⟨2, _⟩ => rfl
    | ⟨3, _⟩ => rfl
  · rfl

theorem stack4_apply1 (a b c d : (⟨S262144x12x12, .f32⟩ : BufTy).Contents (Elt F)) (r : Fin 262144) (i j : Fin 12) :
    HandRun.stack4 a b c d (ix4 (1 : Fin 4) r i j) = b (ix3 r i j) := by
  unfold HandRun.stack4 HandRun.stackRows
  refine (concatenate_apply_piece (t := S4x262144x12x12) (0 : Fin 4) _ _ (ix4 (1 : Fin 4) r i j) 1 ?_ S1x262144x12x12 _ ?_ ?_
    1 ?_ (ix4 (0 : Fin 1) r i j) ?_ ?_).trans (lead_apply b r i j)
  · show 1 < 4; omega
  · rfl
  · rfl
  · rfl
  · intro b hb
    match b with
    | ⟨0, _⟩ => exact absurd rfl hb
    | ⟨1, _⟩ => rfl
    | ⟨2, _⟩ => rfl
    | ⟨3, _⟩ => rfl
  · rfl

theorem stack4_apply2 (a b c d : (⟨S262144x12x12, .f32⟩ : BufTy).Contents (Elt F)) (r : Fin 262144) (i j : Fin 12) :
    HandRun.stack4 a b c d (ix4 (2 : Fin 4) r i j) = c (ix3 r i j) := by
  unfold HandRun.stack4 HandRun.stackRows
  refine (concatenate_apply_piece (t := S4x262144x12x12) (0 : Fin 4) _ _ (ix4 (2 : Fin 4) r i j) 2 ?_ S1x262144x12x12 _ ?_ ?_
    2 ?_ (ix4 (0 : Fin 1) r i j) ?_ ?_).trans (lead_apply c r i j)
  · show 2 < 4; omega
  · rfl
  · rfl
  · rfl
  · intro b hb
    match b with
    | ⟨0, _⟩ => exact absurd rfl hb
    | ⟨1, _⟩ => rfl
    | ⟨2, _⟩ => rfl
    | ⟨3, _⟩ => rfl
  · rfl

theorem stack4_apply3 (a b c d : (⟨S262144x12x12, .f32⟩ : BufTy).Contents (Elt F)) (r : Fin 262144) (i j : Fin 12) :
    HandRun.stack4 a b c d (ix4 (3 : Fin 4) r i j) = d (ix3 r i j) := by
  unfold HandRun.stack4 HandRun.stackRows
  refine (concatenate_apply_piece (t := S4x262144x12x12) (0 : Fin 4) _ _ (ix4 (3 : Fin 4) r i j) 3 ?_ S1x262144x12x12 _ ?_ ?_
    3 ?_ (ix4 (0 : Fin 1) r i j) ?_ ?_).trans (lead_apply d r i j)
  · show 3 < 4; omega
  · rfl
  · rfl
  · rfl
  · intro b hb
    match b with
    | ⟨0, _⟩ => exact absurd rfl hb
    | ⟨1, _⟩ => rfl
    | ⟨2, _⟩ => rfl
    | ⟨3, _⟩ => rfl
  · rfl

end Stack

end Cert.ReferenceIdeal.RefPlace
-- ==== Proof.RValue.lean ====
/- The reference's result, entry by entry.

   The result of the reference stacks four arrays: for each of the two parameter sets the real and the imaginary
   lower-triangular matrices built from the network's 144 outputs on each row of the concatenated input. Reading the
   stack at its leading coordinate, the placement at (i, j) and the network row by row, entry (k, r, i, j) of the result
   is the specification's entry: the number its slot names among the 144 the specification computes from row r, or
   zero. Over the extended reals. -/
import proofs.«138334_j60430189854928_2_alg».proof.Proof.RefRows
import proofs.«138334_j60430189854928_2_alg».proof.Proof.RefPlace
import proofs.«138334_j60430189854928_2_alg».proof.Proof.Entry

noncomputable section

namespace Cert.ReferenceIdeal.RValue

open Idealize.ShloMosaic Idealize.ShloMosaic.ValueIdx Cert.ReferenceIdeal Cert.ReferenceIdeal.Gen
open Cert.ReferenceIdeal.Rows Cert.ReferenceIdeal.RefPlace

/-- Entry (k, r, i, j) of the reference's result is the specification's entry. -/
theorem ref_value (a0 : (⟨S262144x12, .f32⟩ : BufTy).Contents (Elt Ideal)) (a1 : (⟨S262144x12, .f32⟩ : BufTy).Contents (Elt Ideal)) (a2 : (⟨S24x128, .f32⟩ : BufTy).Contents (Elt Ideal)) (a3 : (⟨S128, .f32⟩ : BufTy).Contents (Elt Ideal)) (a4 : (⟨S128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128, .f32⟩ : BufTy).Contents (Elt Ideal)) (a9 : (⟨S128, .f32⟩ : BufTy).Contents (Elt Ideal)) (a10 : (⟨S128x64, .f32⟩ : BufTy).Contents (Elt Ideal)) (a11 : (⟨S64, .f32⟩ : BufTy).Contents (Elt Ideal)) (a12 : (⟨S64x144, .f32⟩ : BufTy).Contents (Elt Ideal)) (a13 : (⟨S144, .f32⟩ : BufTy).Contents (Elt Ideal)) (a14 : (⟨S24x128, .f32⟩ : BufTy).Contents (Elt Ideal)) (a15 : (⟨S128, .f32⟩ : BufTy).Contents (Elt Ideal)) (a16 : (⟨S128, .f32⟩ : BufTy).Contents (Elt Ideal)) (a17 : (⟨S128, .f32⟩ : BufTy).Contents (Elt Ideal)) (a18 : (⟨S128x128, .f32⟩ : BufTy).Contents (Elt Ideal)) (a19 : (⟨S128, .f32⟩ : BufTy).Contents (Elt Ideal)) (a20 : (⟨S128, .f32⟩ : BufTy).Contents (Elt Ideal)) (a21 : (⟨S128, .f32⟩ : BufTy).Contents (Elt Ideal)) (a22 : (⟨S128x64, .f32⟩ : BufTy).Contents (Elt Ideal)) (a23 : (⟨S64, .f32⟩ : BufTy).Contents (Elt Ideal)) (a24 : (⟨S64x144, .f32⟩ : BufTy).Contents (Elt Ideal)) (a25 : (⟨S144, .f32⟩ : BufTy).Contents (Elt Ideal))
    (k : Fin 4) (r : Fin 262144) (i j : Fin 12) :
    HandRun.result (F := Ideal) a0 a1 a2 a3 a4 a5 a6 a7 a8 a9 a10 a11 a12 a13 a14 a15 a16 a17 a18 a19 a20 a21 a22 a23 a24 a25 (ix4 k r i j)
      = Mlp.entry a0 a1 a2 a3 a4 a5 a6 a7 a8 a9 a10 a11 a12 a13 a14 a15 a16 a17 a18 a19 a20 a21 a22 a23 a24 a25 k r i j := by
  have hx : (fun c => HandRun.xcat (F := Ideal) a0 a1 (ix2 r c)) = Mlp.xrow a0 a1 r :=
    funext fun c => xcat_apply a0 a1 r c
  have hC : (fun s => HandRun.factors (F := Ideal) a2 a3 a4 a5 a6 a7 a8 a9 a10 a11 a12 a13 (HandRun.xcat a0 a1) (ix2 r s))
      = Mlp.factors a2 a3 a4 a5 a6 a7 a8 a9 a10 a11 a12 a13 (Mlp.xrow a0 a1 r) :=
    funext fun s => by rw [factors_apply, hx]
  have hR : (fun s => HandRun.factors (F := Ideal) a14 a15 a16 a17 a18 a19 a20 a21 a22 a23 a24 a25 (HandRun.xcat a0 a1) (ix2 r s))
      = Mlp.factors a14 a15 a16 a17 a18 a19 a20 a21 a22 a23 a24 a25 (Mlp.xrow a0 a1 r) :=
    funext fun s => by rw [factors_apply, hx]
  unfold HandRun.result
  match k with
  | 0 => rw [stack4_apply0, buildReal_apply, hC]; rfl
  | 1 => rw [stack4_apply1, buildImag_apply, hC]; rfl
  | 2 => rw [stack4_apply2, buildReal_apply, hR]; rfl
  | 3 => rw [stack4_apply3, buildImag_apply, hR]; rfl

end Cert.ReferenceIdeal.RValue

end
-- ==== Proof.lean ====
/-
  The proof of `Cert.Claim`: the three frames, the (empty) idealization ledger, and the algebraic equivalence.

  Frames. The two kernel programs' frames are their frame certificates; the reference's frame is its run with the
  result dropped.

  Equivalence. Run from memories that agree on the 26 argument arrays, both idealized programs end with the SAME
  result array, entry by entry (`Cert.Mlp.entry`): for each of the 262144 rows, the real and the imaginary 12 × 12
  lower-triangular matrices placed from the 144 numbers a small network gives on the row's 24 inputs, for each of two
  parameter sets. The kernel computes the network block by block with the last layer's columns gathered and masked
  beforehand, so that its 144 outputs are already the flattened matrix; the reference computes all 144 numbers and
  scatters them into zero matrices. The two agree on every extended real because x · 1 = x and x · 0 = 0 there; no
  finiteness of the inputs is used.
-/
import proofs.«138334_j60430189854928_2_alg».proof.Defs
import proofs.«138334_j60430189854928_2_alg».proof.Proof.Gen.Kernel
import proofs.«138334_j60430189854928_2_alg».proof.Proof.Gen.KernelIdeal
import proofs.«138334_j60430189854928_2_alg».proof.Proof.Gen.ReferenceIdeal
import proofs.«138334_j60430189854928_2_alg».proof.Proof.Gen.Pre_finite_inputs
import proofs.«138334_j60430189854928_2_alg».proof.Proof.KernelFrame
import proofs.«138334_j60430189854928_2_alg».proof.Proof.KernelIdealFrame
import proofs.«138334_j60430189854928_2_alg».proof.Proof.KFinal
import proofs.«138334_j60430189854928_2_alg».proof.Proof.KValue
import proofs.«138334_j60430189854928_2_alg».proof.Proof.RefRun
import proofs.«138334_j60430189854928_2_alg».proof.Proof.RValue

noncomputable section

namespace Cert.Proof

open Idealize.ShloMosaic Idealize.ShloMosaic.ValueIdx Idealize.SL.Sem

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.HandRun.run (F := Ideal) m ρ)

theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.HandRun.run (F := Ideal) m' ρ')
  obtain ⟨h0, h1, h2, h3, h4, h5, h6, h7, h8, h9, h10, h11, h12, h13, h14, h15, h16, h17, h18, h19, h20, h21, h22, h23, h24, h25⟩ := hagree c
  rw [h0, h1, h2, h3, h4, h5, h6, h7, h8, h9, h10, h11, h12, h13, h14, h15, h16, h17, h18, h19, h20, h21, h22, h23, h24, h25]
  funext idx
  obtain ⟨k, r, i, j, rfl⟩ : ∃ (k : Fin 4) (r : Fin 262144) (i j : Fin 12), idx = ix4 k r i j :=
    ⟨idx 0, idx 1, idx 2, idx 3, eq_ix4 idx⟩
  exact (Cert.ReferenceIdeal.RValue.ref_value _ _ _ _ _ _ _ _ _ _ _ _ _ _ _ _ _ _ _ _ _ _ _ _ _ _ k r i j).trans
    (Cert.KernelIdeal.Value.kernel_value m c k r i j).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
